-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S16x32 : Shape := ⟨2, ![16, 32]⟩
abbrev S32x128 : Shape := ⟨2, ![32, 128]⟩
abbrev S16 : Shape := ⟨1, ![16]⟩
abbrev S32 : Shape := ⟨1, ![32]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_
  bcast_S_S16x32 : S_.BroadcastsInDim S16x32 (![] : Fin 0 → Fin S16x32.rank)
  reducesTo_S16x32_S_d0_1 : S16x32.ReducesTo [0, 1] S_
  bcast_S_S32x128 : S_.BroadcastsInDim S32x128 (![] : Fin 0 → Fin S32x128.rank)
  reducesTo_S32x128_S_d0_1 : S32x128.ReducesTo [0, 1] S_
  bcast_S_S16 : S_.BroadcastsInDim S16 (![] : Fin 0 → Fin S16.rank)
  reducesTo_S16_S_d0 : S16.ReducesTo [0] S_
  bcast_S_S32 : S_.BroadcastsInDim S32 (![] : Fin 0 → Fin S32.rank)
  reducesTo_S32_S_d0 : S32.ReducesTo [0] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S32 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  main_v73

def fn_part3 {F : FTy → Type} [FloatOps F] (main_arg11 : FVec F S128 .f32) (main_arg12 : FVec F S128 .f32) (main_arg13 : FVec F S32 .f32) (main_arg14 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_v63 main_v67

def fn_part2 {F : FTy → Type} [FloatOps F] (main_arg7 : FVec F S16 .f32) (main_arg8 : FVec F S16 .f32) (main_arg9 : FVec F S32 .f32) (main_arg10 : FVec F S32 .f32) (main_arg11 : FVec F S128 .f32) (main_arg12 : FVec F S128 .f32) (main_arg13 : FVec F S32 .f32) (main_arg14 : FVec F S32 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_v48 main_v49 main_v50

def fn_part1 {F : FTy → Type} [FloatOps F] (main_arg4 : FVec F S16x32 .f32) (main_arg5 : FVec F S32x128 .f32) (main_arg6 : FVec F S16x32 .f32) (main_arg7 : FVec F S16 .f32) (main_arg8 : FVec F S16 .f32) (main_arg9 : FVec F S32 .f32) (main_arg10 : FVec F S32 .f32) (main_arg11 : FVec F S128 .f32) (main_arg12 : FVec F S128 .f32) (main_arg13 : FVec F S32 .f32) (main_arg14 : FVec F S32 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32x128 .f32 := Host.absf main_arg5
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S16x32 .f32 := Host.absf main_arg6
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S10000x128 .f32) (main_arg1 : FVec F S10000x10000 .f32) (main_arg2 : FVec F S128x32 .f32) (main_arg3 : FVec F S32x16 .f32) (main_arg4 : FVec F S16x32 .f32) (main_arg5 : FVec F S32x128 .f32) (main_arg6 : FVec F S16x32 .f32) (main_arg7 : FVec F S16 .f32) (main_arg8 : FVec F S16 .f32) (main_arg9 : FVec F S32 .f32) (main_arg10 : FVec F S32 .f32) (main_arg11 : FVec F S128 .f32) (main_arg12 : FVec F S128 .f32) (main_arg13 : FVec F S32 .f32) (main_arg14 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S16x32 : Shape := ⟨2, ![16, 32]⟩
abbrev S32x128 : Shape := ⟨2, ![32, 128]⟩
abbrev S16 : Shape := ⟨1, ![16]⟩
abbrev S32 : Shape := ⟨1, ![32]⟩
abbrev S128 : Shape := ⟨1, ![128]⟩
abbrev S_ : Shape := ⟨0, ![]⟩
abbrev S1x16 : Shape := ⟨2, ![1, 16]⟩
abbrev S64 : Shape := ⟨1, ![64]⟩
abbrev S1x64 : Shape := ⟨2, ![1, 64]⟩
abbrev S1x128 : Shape := ⟨2, ![1, 128]⟩
abbrev S16x64 : Shape := ⟨2, ![16, 64]⟩
abbrev S64x128 : Shape := ⟨2, ![64, 128]⟩
abbrev S10000x32 : Shape := ⟨2, ![10000, 32]⟩
abbrev S10000x16 : Shape := ⟨2, ![10000, 16]⟩
abbrev S400x10000 : Shape := ⟨2, ![400, 10000]⟩
abbrev S400x16 : Shape := ⟨2, ![400, 16]⟩
abbrev S400x32 : Shape := ⟨2, ![400, 32]⟩
abbrev S10000x64 : Shape := ⟨2, ![10000, 64]⟩
abbrev S400x64 : Shape := ⟨2, ![400, 64]⟩
abbrev S400x128 : Shape := ⟨2, ![400, 128]⟩
abbrev S1024x32 : Shape := ⟨2, ![1024, 32]⟩
abbrev S1024x1024 : Shape := ⟨2, ![1024, 1024]⟩

abbrev nBuf : Space → Nat
  | .hbm => 51
  | .vmem => 42
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S16x32, .f32⟩
  | .hbm, ⟨5, _⟩ => ⟨S32x128, .f32⟩
  | .hbm, ⟨6, _⟩ => ⟨S16x32, .f32⟩
  | .hbm, ⟨7, _⟩ => ⟨S16, .f32⟩
  | .hbm, ⟨8, _⟩ => ⟨S16, .f32⟩
  | .hbm, ⟨9, _⟩ => ⟨S32, .f32⟩
  | .hbm, ⟨10, _⟩ => ⟨S32, .f32⟩
  | .hbm, ⟨11, _⟩ => ⟨S128, .f32⟩
  | .hbm, ⟨12, _⟩ => ⟨S128, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S1x16, .f32⟩
  | .hbm, ⟨22, _⟩ => ⟨S1x16, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S128, .f32⟩
  | .hbm, ⟨30, _⟩ => ⟨S128, .f32⟩
  | .hbm, ⟨31, _⟩ => ⟨S1x128, .f32⟩
  | .hbm, ⟨32, _⟩ => ⟨S1x128, .f32⟩
  | .hbm, ⟨33, _⟩ => ⟨S16x64, .f32⟩
  | .hbm, ⟨34, _⟩ => ⟨S16x64, .bf16⟩
  | .hbm, ⟨35, _⟩ => ⟨S_, .f32⟩
  | .hbm, ⟨36, _⟩ => ⟨S32x128, .f32⟩
  | .hbm, ⟨37, _⟩ => ⟨S64x128, .f32⟩
  | .hbm, ⟨38, _⟩ => ⟨S64x128, .bf16⟩
  | .hbm, ⟨39, _⟩ => ⟨S10000x128, .bf16⟩
  | .hbm, ⟨40, _⟩ => ⟨S128x32, .bf16⟩
  | .hbm, ⟨41, _⟩ => ⟨S10000x32, .bf16⟩
  | .hbm, ⟨42, _⟩ => ⟨S32x16, .bf16⟩
  | .hbm, ⟨43, _⟩ => ⟨S10000x10000, .bf16⟩
  | .hbm, ⟨44, _⟩ => ⟨S10000x16, .bf16⟩
  | .hbm, ⟨45, _⟩ => ⟨S10000x64, .bf16⟩
  | .hbm, ⟨46, _⟩ => ⟨S10000x64, .f32⟩
  | .hbm, ⟨47, _⟩ => ⟨S10000x128, .bf16⟩
  | .hbm, ⟨48, _⟩ => ⟨S10000x128, .f32⟩
  | .hbm, ⟨49, _⟩ => ⟨S10000x32, .f32⟩
  | .hbm, ⟨50, _⟩ => ⟨S10000x10000, .f32⟩
  | .local _ .vmem, ⟨0, _⟩ => ⟨S10000x128, .bf16⟩
  | .local _ .vmem, ⟨1, _⟩ => ⟨S128x32, .bf16⟩
  | .local _ .vmem, ⟨2, _⟩ => ⟨S10000x32, .bf16⟩
  | .local _ .vmem, ⟨3, _⟩ => ⟨S400x10000, .f32⟩
  | .local _ .vmem, ⟨4, _⟩ => ⟨S400x10000, .f32⟩
  | .local _ .vmem, ⟨5, _⟩ => ⟨S10000x32, .bf16⟩
  | .local _ .vmem, ⟨6, _⟩ => ⟨S32x16, .bf16⟩
  | .local _ .vmem, ⟨7, _⟩ => ⟨S400x10000, .bf16⟩
  | .local _ .vmem, ⟨8, _⟩ => ⟨S400x10000, .bf16⟩
  | .local _ .vmem, ⟨9, _⟩ => ⟨S400x16, .bf16⟩
  | .local _ .vmem, ⟨10, _⟩ => ⟨S400x16, .bf16⟩
  | .local _ .vmem, ⟨11, _⟩ => ⟨S400x10000, .bf16⟩
  | .local _ .vmem, ⟨12, _⟩ => ⟨S400x10000, .bf16⟩
  | .local _ .vmem, ⟨13, _⟩ => ⟨S10000x16, .bf16⟩
  | .local _ .vmem, ⟨14, _⟩ => ⟨S1x16, .f32⟩
  | .local _ .vmem, ⟨15, _⟩ => ⟨S1x16, .f32⟩
  | .local _ .vmem, ⟨16, _⟩ => ⟨S16x64, .bf16⟩
  | .local _ .vmem, ⟨17, _⟩ => ⟨S400x64, .bf16⟩
  | .local _ .vmem, ⟨18, _⟩ => ⟨S400x64, .bf16⟩
  | .local _ .vmem, ⟨19, _⟩ => ⟨S400x10000, .bf16⟩
  | .local _ .vmem, ⟨20, _⟩ => ⟨S400x10000, .bf16⟩
  | .local _ .vmem, ⟨21, _⟩ => ⟨S10000x64, .bf16⟩
  | .local _ .vmem, ⟨22, _⟩ => ⟨S1x64, .f32⟩
  | .local _ .vmem, ⟨23, _⟩ => ⟨S1x64, .f32⟩
  | .local _ .vmem, ⟨24, _⟩ => ⟨S64x128, .bf16⟩
  | .local _ .vmem, ⟨25, _⟩ => ⟨S400x64, .f32⟩
  | .local _ .vmem, ⟨26, _⟩ => ⟨S400x64, .f32⟩
  | .local _ .vmem, ⟨27, _⟩ => ⟨S400x128, .bf16⟩
  | .local _ .vmem, ⟨28, _⟩ => ⟨S400x128, .bf16⟩
  | .local _ .vmem, ⟨29, _⟩ => ⟨S400x10000, .bf16⟩
  | .local _ .vmem, ⟨30, _⟩ => ⟨S400x10000, .bf16⟩
  | .local _ .vmem, ⟨31, _⟩ => ⟨S10000x128, .bf16⟩
  | .local _ .vmem, ⟨32, _⟩ => ⟨S1x128, .f32⟩
  | .local _ .vmem, ⟨33, _⟩ => ⟨S1x128, .f32⟩
  | .local _ .vmem, ⟨34, _⟩ => ⟨S400x128, .f32⟩
  | .local _ .vmem, ⟨35, _⟩ => ⟨S400x128, .f32⟩
  | .local _ .vmem, ⟨36, _⟩ => ⟨S1024x32, .f32⟩
  | .local _ .vmem, ⟨37, _⟩ => ⟨S1024x32, .f32⟩
  | .local _ .vmem, ⟨38, _⟩ => ⟨S1024x32, .f32⟩
  | .local _ .vmem, ⟨39, _⟩ => ⟨S1024x32, .f32⟩
  | .local _ .vmem, ⟨40, _⟩ => ⟨S1024x1024, .f32⟩
  | .local _ .vmem, ⟨41, _⟩ => ⟨S1024x1024, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg5_1 : Ref sig .tc := ⟨.vmem, 26, rfl⟩
abbrev cc3_stg6_0 : Ref sig .tc := ⟨.vmem, 27, rfl⟩
abbrev cc3_stg6_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem5_1 : DmaSem sig := 26
abbrev cc3_sem6_0 : DmaSem sig := 27
abbrev cc3_sem6_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := .none

abbrev stage0_0 : Fin 1 → Memref sig .tc .vmem S10000x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x16 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x10000 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x16 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S400x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S400x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S400x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨2, ![10, 10], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

class Facts₀ : Prop where
  bcast_S_S16 : S_.BroadcastsInDim S16 (![] : Fin 0 → Fin S16.rank)
  shapeCasts_S16_S1x16 : S16.ShapeCasts S1x16
  concatenates_S32_S32_S64_d0 : Shape.Concatenates [S32, S32] S64 0
  bcast_S_S64 : S_.BroadcastsInDim S64 (![] : Fin 0 → Fin S64.rank)
  shapeCasts_S64_S1x64 : S64.ShapeCasts S1x64
  bcast_S_S128 : S_.BroadcastsInDim S128 (![] : Fin 0 → Fin S128.rank)
  shapeCasts_S128_S1x128 : S128.ShapeCasts S1x128
  concatenates_S16x32_S16x32_S16x64_d1 : Shape.Concatenates [S16x32, S16x32] S16x64 1
  bitsLt_bf16_f32 : FTy.bits .bf16 < FTy.bits .f32
  bcast_S_S32x128 : S_.BroadcastsInDim S32x128 (![] : Fin 0 → Fin S32x128.rank)
  concatenates_S32x128_S32x128_S64x128_d0 : Shape.Concatenates [S32x128, S32x128] S64x128 0
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S10000x32_S10000x32_0_0 : ∀ a, (![0, 0] : Fin 2 → Nat) a + S10000x32.size a ≤ S10000x32.size a
  h_S10000x32 : 0 < S10000x32.numel
  packedbf16_S10000x32_S10000x32_0_0 : (Rect.unit (s := S10000x32) ![0, 0] S10000x32.size inb_S10000x32_S10000x32_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S400x16_S400x16_0_0 : ∀ a, (![0, 0] : Fin 2 → Nat) a + S400x16.size a ≤ S400x16.size a
  h_S400x16 : 0 < S400x16.numel
  packedbf16_S400x16_S400x16_0_0 : (Rect.unit (s := S400x16) ![0, 0] S400x16.size inb_S400x16_S400x16_0_0).PackedRows (EltTy.packing .bf16)
  shapeCasts_S400x10000_S400x10000 : S400x10000.ShapeCasts S400x10000
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  slices_S10000x64_S10000x32_0_32 : S10000x64.Slices ![0, 32] S10000x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x1024_S1024x1024_0_0 : ∀ a, (![0, 0] : Fin 2 → Nat) a + S1024x1024.size a ≤ S1024x1024.size a
  h_S1024x1024 : 0 < S1024x1024.numel
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x16_S400x16_1_0_0_1_n_n_wf : DotDims.WF S400x32 S32x16 S400x16 [1] [0] [0] [1] [] []
  dot_S400x10000_S10000x16_S400x16_1_0_0_1_n_n_wf : DotDims.WF S400x10000 S10000x16 S400x16 [1] [0] [0] [1] [] []
  dot_S400x16_S16x64_S400x64_1_0_0_1_n_n_wf : DotDims.WF S400x16 S16x64 S400x64 [1] [0] [0] [1] [] []
  dot_S400x10000_S10000x64_S400x64_1_0_0_1_n_n_wf : DotDims.WF S400x10000 S10000x64 S400x64 [1] [0] [0] [1] [] []
  dot_S400x64_S64x128_S400x128_1_0_0_1_n_n_wf : DotDims.WF S400x64 S64x128 S400x128 [1] [0] [0] [1] [] []
  dot_S400x10000_S10000x128_S400x128_1_0_0_1_n_n_wf : DotDims.WF S400x10000 S10000x128 S400x128 [1] [0] [0] [1] [] []
  dot_S1024x32_S1024x32_S1024x1024_1_1_0_0_n_n_wf : DotDims.WF S1024x32 S1024x32 S1024x1024 [1] [1] [0] [0] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .bf16 = 32 ∨ (Rect.block (s := S10000x32) S10000x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .bf16 = 32 ∨ (Rect.block (s := S32x16) S32x16.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x10000.size a ≤ S10000x10000.size a
  hwx1_3 : ∀ i : grid1.Coords, EltTy.bits .bf16 = 32 ∨ (Rect.block (s := S10000x10000) S400x10000.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16.size a ≤ S10000x16.size a
  hwx1_4 : ∀ i : grid1.Coords, EltTy.bits .bf16 = 32 ∨ (Rect.block (s := S10000x16) S400x16.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .bf16 = 32 ∨ (Rect.block (s := S10000x16) S10000x16.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x64.size a ≤ S16x64.size a
  hwx2_4 : ∀ i : grid2.Coords, EltTy.bits .bf16 = 32 ∨ (Rect.block (s := S16x64) S16x64.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x64.size a ≤ S10000x64.size a
  hwx2_5 : ∀ i : grid2.Coords, EltTy.bits .bf16 = 32 ∨ (Rect.block (s := S10000x64) S400x64.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .bf16 = 32 ∨ (Rect.block (s := S10000x64) S10000x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x128.size a ≤ S64x128.size a
  hwx3_4 : ∀ i : grid3.Coords, EltTy.bits .bf16 = 32 ∨ (Rect.block (s := S64x128) S64x128.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S400x64.size a ≤ S10000x64.size a
  hwx3_5 : ∀ i : grid3.Coords, EltTy.bits .f32 = 32 ∨ (Rect.block (s := S10000x64) S400x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S400x128.size a ≤ S10000x128.size a
  hwx3_6 : ∀ i : grid3.Coords, EltTy.bits .bf16 = 32 ∨ (Rect.block (s := S10000x128) S400x128.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .bf16 = 32 ∨ (Rect.block (s := S10000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .bf16 = 32 ∨ (Rect.block (s := S10000x128) S10000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S400x128.size a ≤ S10000x128.size a
  hwx4_4 : ∀ i : grid4.Coords, EltTy.bits .f32 = 32 ∨ (Rect.block (s := S10000x128) S400x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hstart5_0 : ∀ (i : grid5.Coords) a, cc5_transform_0 i a * S1024x32.size a < S10000x32.size a
  hwx5_0 : ∀ i : grid5.Coords, EltTy.bits .f32 = 32 ∨ (Rect.unit (s := S10000x32) (fun a => cc5_transform_0 i a * S1024x32.size a) (fun a => (Pipeline.Clip.of (cc5_transform_0 i a) (S1024x32.size a) (S10000x32.size a)).extent (S1024x32.size a)) fun a => Pipeline.Clip.inb (Pipeline.Clip.ok_of (hstart5_0 i a))).WholeWords (EltTy.packing .f32)
  hwxs5_0 : ∀ i : grid5.Coords, EltTy.bits .f32 = 32 ∨ (Rect.unit (s := S1024x32) (fun _ => 0) (fun a => (Pipeline.Clip.of (cc5_transform_0 i a) (S1024x32.size a) (S10000x32.size a)).extent (S1024x32.size a)) fun a => (Nat.zero_add _).trans_le (Pipeline.Clip.extent_le (Pipeline.Clip.ok_of (hstart5_0 i a)))).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hstart5_1 : ∀ (i : grid5.Coords) a, cc5_transform_1 i a * S1024x32.size a < S10000x32.size a
  hwx5_1 : ∀ i : grid5.Coords, EltTy.bits .f32 = 32 ∨ (Rect.unit (s := S10000x32) (fun a => cc5_transform_1 i a * S1024x32.size a) (fun a => (Pipeline.Clip.of (cc5_transform_1 i a) (S1024x32.size a) (S10000x32.size a)).extent (S1024x32.size a)) fun a => Pipeline.Clip.inb (Pipeline.Clip.ok_of (hstart5_1 i a))).WholeWords (EltTy.packing .f32)
  hwxs5_1 : ∀ i : grid5.Coords, EltTy.bits .f32 = 32 ∨ (Rect.unit (s := S1024x32) (fun _ => 0) (fun a => (Pipeline.Clip.of (cc5_transform_1 i a) (S1024x32.size a) (S10000x32.size a)).extent (S1024x32.size a)) fun a => (Nat.zero_add _).trans_le (Pipeline.Clip.extent_le (Pipeline.Clip.ok_of (hstart5_1 i a)))).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hstart5_2 : ∀ (i : grid5.Coords) a, cc5_transform_2 i a * S1024x1024.size a < S10000x10000.size a
  hwx5_2 : ∀ i : grid5.Coords, EltTy.bits .f32 = 32 ∨ (Rect.unit (s := S10000x10000) (fun a => cc5_transform_2 i a * S1024x1024.size a) (fun a => (Pipeline.Clip.of (cc5_transform_2 i a) (S1024x1024.size a) (S10000x10000.size a)).extent (S1024x1024.size a)) fun a => Pipeline.Clip.inb (Pipeline.Clip.ok_of (hstart5_2 i a))).WholeWords (EltTy.packing .f32)
  hwxs5_2 : ∀ i : grid5.Coords, EltTy.bits .f32 = 32 ∨ (Rect.unit (s := S1024x1024) (fun _ => 0) (fun a => (Pipeline.Clip.of (cc5_transform_2 i a) (S1024x1024.size a) (S10000x10000.size a)).extent (S1024x1024.size a)) fun a => (Nat.zero_add _).trans_le (Pipeline.Clip.extent_le (Pipeline.Clip.ok_of (hstart5_2 i a)))).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x16_S400x16_1_0_0_1_n_n : DotDims S400x32 S32x16 S400x16 where
  lhsContracting := [1]
  rhsContracting := [0]
  lhsNonContracting := [0]
  rhsNonContracting := [1]
  lhsBatch := []
  rhsBatch := []
  wf := dot_S400x32_S32x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x64_S400x64_1_0_0_1_n_n : DotDims S400x16 S16x64 S400x64 where
  lhsContracting := [1]
  rhsContracting := [0]
  lhsNonContracting := [0]
  rhsNonContracting := [1]
  lhsBatch := []
  rhsBatch := []
  wf := dot_S400x16_S16x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x128_S400x128_1_0_0_1_n_n : DotDims S400x64 S64x128 S400x128 where
  lhsContracting := [1]
  rhsContracting := [0]
  lhsNonContracting := [0]
  rhsNonContracting := [1]
  lhsBatch := []
  rhsBatch := []
  wf := dot_S400x64_S64x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf

abbrev win0_0 : Pipeline.Window sig grid0 :=
  Pipeline.Window.whole (Memref.whole main_v21) false false (stage0_0 0) (sem0_0 0) (Memref.isWhole_whole _) (hstage0_0 0)

abbrev win0_1 : Pipeline.Window sig grid0 :=
  Pipeline.Window.whole (Memref.whole main_v22) false false (stage0_1 0) (sem0_1 0) (Memref.isWhole_whole _) (hstage0_1 0)

abbrev win0_2 : Pipeline.Window sig grid0 :=
  Pipeline.Window.whole (Memref.whole main_v23) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25_0) S400x10000.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25_1) S400x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25_1) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S16x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S400x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v25_0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v9) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v20) S64x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v27_0) S400x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v27_1) S400x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v25_0) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27_1) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v14) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v15) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v28) S400x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpecClip (Memref.whole main_v29) S1024x32.size cc5_transform_0 reads5_0 false false 2 stage5_0 sem5_0
    hrank5 hreads5_0 hstart5_0 nbuf5_0 (Memref.isWhole_whole _) hwx5_0 hwxs5_0 hstage5_0

abbrev win5_1 : Pipeline.Window sig grid5 :=
  Pipeline.Window.ofSpecClip (Memref.whole main_v29) S1024x32.size cc5_transform_1 reads5_1 false false 2 stage5_1 sem5_1
    hrank5 hreads5_1 hstart5_1 nbuf5_1 (Memref.isWhole_whole _) hwx5_1 hwxs5_1 hstage5_1

abbrev win5_2 : Pipeline.Window sig grid5 :=
  Pipeline.Window.ofSpecClip (Memref.whole main_v30) S1024x1024.size cc5_transform_2 reads5_2 true false 2 stage5_2 sem5_2
    hrank5 hreads5_2 hstart5_2 nbuf5_2 (Memref.isWhole_whole _) hwx5_2 hwxs5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S16x32 : Shape := ⟨2, ![16, 32]⟩
abbrev S32x128 : Shape := ⟨2, ![32, 128]⟩
abbrev S16 : Shape := ⟨1, ![16]⟩
abbrev S32 : Shape := ⟨1, ![32]⟩
abbrev S128 : Shape := ⟨1, ![128]⟩
abbrev S10000x32 : Shape := ⟨2, ![10000, 32]⟩
abbrev S_ : Shape := ⟨0, ![]⟩
abbrev S10000x16 : Shape := ⟨2, ![10000, 16]⟩
abbrev S1x16 : Shape := ⟨2, ![1, 16]⟩
abbrev S1x32 : Shape := ⟨2, ![1, 32]⟩
abbrev S1x128 : Shape := ⟨2, ![1, 128]⟩
abbrev S32x10000 : Shape := ⟨2, ![32, 10000]⟩

abbrev nBuf : Space → Nat
  | .hbm => 98
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S16x32, .f32⟩
  | .hbm, ⟨5, _⟩ => ⟨S32x128, .f32⟩
  | .hbm, ⟨6, _⟩ => ⟨S16x32, .f32⟩
  | .hbm, ⟨7, _⟩ => ⟨S16, .f32⟩
  | .hbm, ⟨8, _⟩ => ⟨S16, .f32⟩
  | .hbm, ⟨9, _⟩ => ⟨S32, .f32⟩
  | .hbm, ⟨10, _⟩ => ⟨S32, .f32⟩
  | .hbm, ⟨11, _⟩ => ⟨S128, .f32⟩
  | .hbm, ⟨12, _⟩ => ⟨S128, .f32⟩
  | .hbm, ⟨13, _⟩ => ⟨S32, .f32⟩
  | .hbm, ⟨14, _⟩ => ⟨S32, .f32⟩
  | .hbm, ⟨15, _⟩ => ⟨S10000x32, .f32⟩
  | .hbm, ⟨16, _⟩ => ⟨S10000x32, .f32⟩
  | .hbm, ⟨17, _⟩ => ⟨S_, .f32⟩
  | .hbm, ⟨18, _⟩ => ⟨S10000x32, .f32⟩
  | .hbm, ⟨19, _⟩ => ⟨S10000x32, .f32⟩
  | .hbm, ⟨20, _⟩ => ⟨S10000x16, .f32⟩
  | .hbm, ⟨21, _⟩ => ⟨S10000x16, .f32⟩
  | .hbm, ⟨22, _⟩ => ⟨S_, .f32⟩
  | .hbm, ⟨23, _⟩ => ⟨S10000x16, .f32⟩
  | .hbm, ⟨24, _⟩ => ⟨S10000x16, .f32⟩
  | .hbm, ⟨25, _⟩ => ⟨S_, .f32⟩
  | .hbm, ⟨26, _⟩ => ⟨S10000x16, .f32⟩
  | .hbm, ⟨27, _⟩ => ⟨S10000x16, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S10000x16, .f32⟩
  | .hbm, ⟨32, _⟩ => ⟨S10000x16, .f32⟩
  | .hbm, ⟨33, _⟩ => ⟨S1x16, .f32⟩
  | .hbm, ⟨34, _⟩ => ⟨S10000x16, .f32⟩
  | .hbm, ⟨35, _⟩ => ⟨S10000x16, .f32⟩
  | .hbm, ⟨36, _⟩ => ⟨S1x16, .f32⟩
  | .hbm, ⟨37, _⟩ => ⟨S10000x16, .f32⟩
  | .hbm, ⟨38, _⟩ => ⟨S10000x16, .f32⟩
  | .hbm, ⟨39, _⟩ => ⟨S10000x32, .f32⟩
  | .hbm, ⟨40, _⟩ => ⟨S10000x32, .f32⟩
  | .hbm, ⟨41, _⟩ => ⟨S_, .f32⟩
  | .hbm, ⟨42, _⟩ => ⟨S10000x32, .f32⟩
  | .hbm, ⟨43, _⟩ => ⟨S10000x32, .f32⟩
  | .hbm, ⟨44, _⟩ => ⟨S_, .f32⟩
  | .hbm, ⟨45, _⟩ => ⟨S10000x32, .f32⟩
  | .hbm, ⟨46, _⟩ => ⟨S10000x32, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S10000x32, .f32⟩
  | .hbm, ⟨51, _⟩ => ⟨S10000x32, .f32⟩
  | .hbm, ⟨52, _⟩ => ⟨S1x32, .f32⟩
  | .hbm, ⟨53, _⟩ => ⟨S10000x32, .f32⟩
  | .hbm, ⟨54, _⟩ => ⟨S10000x32, .f32⟩
  | .hbm, ⟨55, _⟩ => ⟨S1x32, .f32⟩
  | .hbm, ⟨56, _⟩ => ⟨S10000x32, .f32⟩
  | .hbm, ⟨57, _⟩ => ⟨S10000x32, .f32⟩
  | .hbm, ⟨58, _⟩ => ⟨S10000x128, .f32⟩
  | .hbm, ⟨59, _⟩ => ⟨S10000x128, .f32⟩
  | .hbm, ⟨60, _⟩ => ⟨S_, .f32⟩
  | .hbm, ⟨61, _⟩ => ⟨S10000x128, .f32⟩
  | .hbm, ⟨62, _⟩ => ⟨S10000x128, .f32⟩
  | .hbm, ⟨63, _⟩ => ⟨S_, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S10000x128, .f32⟩
  | .hbm, ⟨70, _⟩ => ⟨S10000x128, .f32⟩
  | .hbm, ⟨71, _⟩ => ⟨S1x128, .f32⟩
  | .hbm, ⟨72, _⟩ => ⟨S10000x128, .f32⟩
  | .hbm, ⟨73, _⟩ => ⟨S10000x128, .f32⟩
  | .hbm, ⟨74, _⟩ => ⟨S1x128, .f32⟩
  | .hbm, ⟨75, _⟩ => ⟨S10000x128, .f32⟩
  | .hbm, ⟨76, _⟩ => ⟨S10000x128, .f32⟩
  | .hbm, ⟨77, _⟩ => ⟨S10000x32, .f32⟩
  | .hbm, ⟨78, _⟩ => ⟨S10000x32, .f32⟩
  | .hbm, ⟨79, _⟩ => ⟨S_, .f32⟩
  | .hbm, ⟨80, _⟩ => ⟨S10000x32, .f32⟩
  | .hbm, ⟨81, _⟩ => ⟨S10000x32, .f32⟩
  | .hbm, ⟨82, _⟩ => ⟨S_, .f32⟩
  | .hbm, ⟨83, _⟩ => ⟨S10000x32, .f32⟩
  | .hbm, ⟨84, _⟩ => ⟨S10000x32, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S10000x32, .f32⟩
  | .hbm, ⟨89, _⟩ => ⟨S10000x32, .f32⟩
  | .hbm, ⟨90, _⟩ => ⟨S1x32, .f32⟩
  | .hbm, ⟨91, _⟩ => ⟨S10000x32, .f32⟩
  | .hbm, ⟨92, _⟩ => ⟨S10000x32, .f32⟩
  | .hbm, ⟨93, _⟩ => ⟨S1x32, .f32⟩
  | .hbm, ⟨94, _⟩ => ⟨S10000x32, .f32⟩
  | .hbm, ⟨95, _⟩ => ⟨S10000x32, .f32⟩
  | .hbm, ⟨96, _⟩ => ⟨S32x10000, .f32⟩
  | .hbm, ⟨97, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_cst : Ref sig .tc := ⟨.hbm, 17, rfl⟩
abbrev main_call0_v0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_cst : Ref sig .tc := ⟨.hbm, 22, rfl⟩
abbrev main_call1_v0 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call3_cst : Ref sig .tc := ⟨.hbm, 60, rfl⟩
abbrev main_call3_v0 : Ref sig .tc := ⟨.hbm, 61, rfl⟩
abbrev main_v35 : Ref sig .tc := ⟨.hbm, 62, rfl⟩
abbrev main_cst_3 : Ref sig .tc := ⟨.hbm, 63, rfl⟩
abbrev main_v36 : Ref sig .tc := ⟨.hbm, 64, rfl⟩
abbrev main_v37 : Ref sig .tc := ⟨.hbm, 65, rfl⟩
abbrev main_cst_4 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call4_cst : Ref sig .tc := ⟨.hbm, 79, rfl⟩
abbrev main_call4_v0 : Ref sig .tc := ⟨.hbm, 80, rfl⟩
abbrev main_v50 : Ref sig .tc := ⟨.hbm, 81, rfl⟩
abbrev main_cst_5 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  bcast_S_S10000x16 : S_.BroadcastsInDim S10000x16 (![] : Fin 0 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S10000x32_S32x10000_1_0 : S10000x32.Transposes [1, 0] S32x10000
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []
  dot_S10000x16_S16x32_S10000x32_1_0_0_1_n_n_wf : DotDims.WF S10000x16 S16x32 S10000x32 [1] [0] [0] [1] [] []
  dot_S10000x32_S32x128_S10000x128_1_0_0_1_n_n_wf : DotDims.WF S10000x32 S32x128 S10000x128 [1] [0] [0] [1] [] []
  dot_S10000x10000_S10000x128_S10000x128_1_0_0_1_n_n_wf : DotDims.WF S10000x10000 S10000x128 S10000x128 [1] [0] [0] [1] [] []
  dot_S10000x32_S32x10000_S10000x10000_1_0_0_1_n_n_wf : DotDims.WF S10000x32 S32x10000 S10000x10000 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.Region0.lean ====
import proofs.«118927_g481036337836_cont_8to1_c_48_4_alg».proof.Proof.Gen.KernelIdeal.Launch
import proofs.«118927_g481036337836_cont_8to1_c_48_4_alg».proof.Proof.Gen.KernelIdeal.Skeleton
import proofs.«118927_g481036337836_cont_8to1_c_48_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of region 0: at a parameter `V` (the buffer contents when the region is entered), each window's
    block at a point, what the body leaves in each output window's buffer, the body's triple, the pipeline's proof
    data and its body obligation. Stated for any float instance.

    Region 0 has one point and its three windows are whole arrays: the body loads the [10000,128] features and the
    [128,32] weights and stores their product, [10000,32], once. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place (unfetched, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place (unfetched, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x128 := Rect.unit (s := S10000x128) ![0, 0] S10000x128.size inb_S10000x128_S10000x128_0_0
abbrev r0_1 : Rect S128x32 := Rect.unit (s := S128x32) ![0, 0] S128x32.size inb_S128x32_S128x32_0_0
abbrev r0_2 : Rect S10000x32 := Rect.unit (s := S10000x32) ![0, 0] S10000x32.size inb_S10000x32_S10000x32_0_0

/-! ## What the body leaves in the output window's buffer -/

/-- Window 2's staging buffer after the body, from the input windows' blocks: its one store as pieces. -/
def out0_2 (x0 : Vec F S10000x128 .bf16) (x1 : Vec F S128x32 .bf16) : Vec F S10000x32 .bf16 :=
  View.canon [⟨r0_2, k0_pay1 (View.ld x0 r0_0) (View.ld x1 r0_1)⟩]

/-- The store tiles the buffer, so it covers it. -/
theorem cover0_2 (p0 : Vec F S10000x32 .bf16) (y : S10000x32.Idx) :
    ∃ pc ∈ ([⟨r0_2, p0⟩] : List (View.Piece (Elt F) S10000x32 .bf16)), y ∈ pc.1.set :=
  View.cover_of_tiled [⟨r0_2, p0⟩] S10000x32.size (by rfl) y

/-! ## The body's triple -/

set_option maxHeartbeats 1000000 in
/-- The kernel body on whole staging memrefs, the inputs' at read contents and the output's at anything, runs to
    the continuation holding the inputs' as they were and the output's at `out0_2` of the inputs'. -/
theorem sound_kernel0 (c : Dev nD) (E : Set ℕ) (arg0 : Memref sig .tc .vmem S10000x128 .bf16) (harg0 : arg0.IsWhole) (arg1 : Memref sig .tc .vmem S128x32 .bf16) (harg1 : arg1.IsWhole) (arg2 : Memref sig .tc .vmem S10000x32 .bf16) (harg2 : arg2.IsWhole)
    (x0 : Vec F S10000x128 .bf16) (x1 : Vec F S128x32 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__proj_kernel arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the scoped rest
    and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
import proofs.«118927_g481036337836_cont_8to1_c_48_4_alg».proof.Proof.Gen.KernelIdeal.Launch
import proofs.«118927_g481036337836_cont_8to1_c_48_4_alg».proof.Proof.Gen.KernelIdeal.Skeleton
import proofs.«118927_g481036337836_cont_8to1_c_48_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of region 1: at a parameter `V` (the buffer contents when the region is entered), each window's
    block at a point, what the body leaves in each output window's buffer, the body's triple, the pipeline's proof
    data and its body obligation. Stated for any float instance.

    Region 1 runs over 25 blocks of 400 rows of the adjacency matrix. At each point the body loads the block, the
    whole [10000,32] operand and the [32,16] weights, and stores two whole blocks: the adjacency block in the narrower
    float format, and max(block · operand, 0) · weights. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place (unfetched, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place (unfetched, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S400x10000 := Rect.unit (s := S400x10000) ![0, 0] S400x10000.size inb_S400x10000_S400x10000_0_0
abbrev r1_1 : Rect S10000x32 := Rect.unit (s := S10000x32) ![0, 0] S10000x32.size inb_S10000x32_S10000x32_0_0
abbrev r1_2 : Rect S32x16 := Rect.unit (s := S32x16) ![0, 0] S32x16.size inb_S32x16_S32x16_0_0
abbrev r1_3 : Rect S400x10000 := Rect.unit (s := S400x10000) ![0, 0] S400x10000.size inb_S400x10000_S400x10000_0_0
abbrev r1_4 : Rect S400x16 := Rect.unit (s := S400x16) ![0, 0] S400x16.size inb_S400x16_S400x16_0_0

/-! ## What the body leaves in each output window's buffer -/

/-- Window 3's staging buffer after the body, from the input windows' blocks: its one store as pieces. -/
def out1_3 (x0 : Vec F S400x10000 .f32) : Vec F S400x10000 .bf16 :=
  View.canon [⟨r1_3, k1_pay1 (View.ld x0 r1_0)⟩]

/-- Window 4's staging buffer after the body, from the input windows' blocks: its one store as pieces. -/
def out1_4 (x0 : Vec F S400x10000 .f32) (x1 : Vec F S10000x32 .bf16) (x2 : Vec F S32x16 .bf16) : Vec F S400x16 .bf16 :=
  View.canon [⟨r1_4, k1_pay2 (View.ld x0 r1_0) (View.ld x1 r1_1) (View.ld x2 r1_2)⟩]

/-- The store tiles the buffer, so it covers it. -/
theorem cover1_3 (p0 : Vec F S400x10000 .bf16) (y : S400x10000.Idx) :
    ∃ pc ∈ ([⟨r1_3, p0⟩] : List (View.Piece (Elt F) S400x10000 .bf16)), y ∈ pc.1.set :=
  View.cover_of_tiled [⟨r1_3, p0⟩] S400x10000.size (by rfl) y

theorem cover1_4 (p0 : Vec F S400x16 .bf16) (y : S400x16.Idx) :
    ∃ pc ∈ ([⟨r1_4, p0⟩] : List (View.Piece (Elt F) S400x16 .bf16)), y ∈ pc.1.set :=
  View.cover_of_tiled [⟨r1_4, p0⟩] S400x16.size (by rfl) y

/-! ## The body's triple -/

set_option maxHeartbeats 1000000 in
/-- The kernel body on whole staging memrefs, the inputs' at read contents and the outputs' at anything, runs to
    the continuation holding the inputs' as they were and each output's at `out1_W` of the inputs'. -/
theorem sound_kernel1 (c : Dev nD) (E : Set ℕ) (i : grid1.Coords) (arg1 : Memref sig .tc .vmem S400x10000 .f32) (harg1 : arg1.IsWhole) (arg2 : Memref sig .tc .vmem S10000x32 .bf16) (harg2 : arg2.IsWhole) (arg3 : Memref sig .tc .vmem S32x16 .bf16) (harg3 : arg3.IsWhole) (arg4 : Memref sig .tc .vmem S400x10000 .bf16) (harg4 : arg4.IsWhole) (arg5 : Memref sig .tc .vmem S400x16 .bf16) (harg5 : arg5.IsWhole)
    (x0 : Vec F S400x10000 .f32) (x1 : Vec F S10000x32 .bf16) (x2 : Vec F S32x16 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0) ∗ owns (c : Thread nD τ) arg5 fullShare (out1_4 x0 x1 x2)) -∗ K ⟨⟩))
      ⊢ wp frame (wpE (defs₀ (F := F)) Variants.none c none) E (cc1__pass1_kernel i arg1 harg1 arg2 harg2 arg3 harg3 arg4 harg4 arg5 harg5) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the scoped rest
    and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
/- Region 2 of the program's run, as a pipeline of the TensorCore: what each window's staging buffer holds
   when the body is called at a grid point, what the body leaves in each output window's buffer (its stores over
   the values it loaded), the body's triple, the proof data of the pipeline at ANY contents `V` of the core's
   buffers on entry, and the body obligation. Everything here holds at every float instance.

   Region 2 runs over 25 blocks of 400 rows of the adjacency matrix. At each point the body loads the block, the whole
   [10000,16] operand, the scale and shift rows [1,16] and the [16,64] weights, and stores the whole [400,64] block
   (max(block · operand, 0) * scale + shift) · weights once. -/
import proofs.«118927_g481036337836_cont_8to1_c_48_4_alg».proof.Proof.Gen.KernelIdeal.Launch
import proofs.«118927_g481036337836_cont_8to1_c_48_4_alg».proof.Proof.Gen.KernelIdeal.Skeleton
import proofs.«118927_g481036337836_cont_8to1_c_48_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (unfetched, its block
    index has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not (unfetched, its block
    index has not moved), for any proof data over `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not (unfetched, its block
    index has not moved), for any proof data over `V` whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not (unfetched, its block
    index has not moved), for any proof data over `V` whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not (unfetched, its block
    index has not moved), for any proof data over `V` whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole buffer -/

abbrev r2_S400x10000 : Rect S400x10000 := Rect.unit (s := S400x10000) ![0, 0] S400x10000.size inb_S400x10000_S400x10000_0_0
abbrev r2_S10000x16 : Rect S10000x16 := Rect.unit (s := S10000x16) ![0, 0] S10000x16.size inb_S10000x16_S10000x16_0_0
abbrev r2_S1x16 : Rect S1x16 := Rect.unit (s := S1x16) ![0, 0] S1x16.size inb_S1x16_S1x16_0_0
abbrev r2_S16x64 : Rect S16x64 := Rect.unit (s := S16x64) ![0, 0] S16x64.size inb_S16x64_S16x64_0_0
abbrev r2_S400x64 : Rect S400x64 := Rect.unit (s := S400x64) ![0, 0] S400x64.size inb_S400x64_S400x64_0_0

/-! ## What the body leaves in each output window's buffer -/

/-- Window 5's staging buffer after the body: its one store, of the whole buffer, of the body's value of the
    loaded input buffers. -/
def out2_5 (x0 : Vec F S400x10000 .bf16) (x1 : Vec F S10000x16 .bf16) (x2 : Vec F S1x16 .f32) (x3 : Vec F S1x16 .f32) (x4 : Vec F S16x64 .bf16) : Vec F S400x64 .bf16 :=
  View.canon [⟨r2_S400x64, k2_pay1 (View.ld x0 r2_S400x10000) (View.ld x1 r2_S10000x16) (View.ld x2 r2_S1x16) (View.ld x3 r2_S1x16) (View.ld x4 r2_S16x64)⟩]

/-- The one store covers the buffer. -/
theorem cover2_5 (p0 : Vec F S400x64 .bf16) (y : S400x64.Idx) :
    ∃ pc ∈ ([⟨r2_S400x64, p0⟩] : List (View.Piece (Elt F) S400x64 .bf16)), y ∈ pc.1.set :=
  View.cover_of_tiled [⟨r2_S400x64, p0⟩] S400x64.size (by rfl) y

/-! ## The body's triple -/

set_option maxHeartbeats 4000000 in
/-- The body on whole staging buffers, the inputs' at contents `x` and the outputs' at anything, runs to a state
    holding the inputs' as they were and each output's at its `out` of the inputs'. -/
theorem sound_kernel2 (c : Dev nD) (E : Set ℕ) (i : grid2.Coords) (arg1 : Memref sig .tc .vmem S400x10000 .bf16) (harg1 : arg1.IsWhole) (arg2 : Memref sig .tc .vmem S10000x16 .bf16) (harg2 : arg2.IsWhole) (arg3 : Memref sig .tc .vmem S1x16 .f32) (harg3 : arg3.IsWhole) (arg4 : Memref sig .tc .vmem S1x16 .f32) (harg4 : arg4.IsWhole) (arg5 : Memref sig .tc .vmem S16x64 .bf16) (harg5 : arg5.IsWhole) (arg6 : Memref sig .tc .vmem S400x64 .bf16) (harg6 : arg6.IsWhole)
    (x0 : Vec F S400x10000 .bf16) (x1 : Vec F S10000x16 .bf16) (x2 : Vec F S1x16 .f32) (x3 : Vec F S1x16 .f32) (x4 : Vec F S16x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__pass2_kernel i arg1 harg1 arg2 harg2 arg3 harg3 arg4 harg4 arg5 harg5 arg6 harg6) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t` each
    input's buffer at its block and each output's at its `out` of the input blocks; the invariant keeps the rest of the
    core's state untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Region3.lean ====
/- Region 3 of the program's run, as a pipeline of the TensorCore: what each window's staging buffer holds
   when the body is called at a grid point, what the body leaves in each output window's buffer (its stores over
   the values it loaded), the body's triple, the proof data of the pipeline at ANY contents `V` of the core's
   buffers on entry, and the body obligation. Everything here holds at every float instance.

   Region 3 runs over 25 blocks of 400 rows of the adjacency matrix. At each point the body loads the block, the whole
   [10000,64] operand, the scale and shift rows [1,64] and the [64,128] weights, and stores two whole blocks: the layer
   h = max(block · operand, 0) * scale + shift, [400,64], and the product h · weights, [400,128]. -/
import proofs.«118927_g481036337836_cont_8to1_c_48_4_alg».proof.Proof.Gen.KernelIdeal.Launch
import proofs.«118927_g481036337836_cont_8to1_c_48_4_alg».proof.Proof.Gen.KernelIdeal.Skeleton
import proofs.«118927_g481036337836_cont_8to1_c_48_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not (unfetched, its block
    index has not moved), for any proof data over `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point, fetched there or not (unfetched, its block
    index has not moved), for any proof data over `V` whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point, fetched there or not (unfetched, its block
    index has not moved), for any proof data over `V` whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every point, fetched there or not (unfetched, its block
    index has not moved), for any proof data over `V` whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds its block at every point, fetched there or not (unfetched, its block
    index has not moved), for any proof data over `V` whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is a whole buffer -/

abbrev r3_S400x10000 : Rect S400x10000 := Rect.unit (s := S400x10000) ![0, 0] S400x10000.size inb_S400x10000_S400x10000_0_0
abbrev r3_S10000x64 : Rect S10000x64 := Rect.unit (s := S10000x64) ![0, 0] S10000x64.size inb_S10000x64_S10000x64_0_0
abbrev r3_S1x64 : Rect S1x64 := Rect.unit (s := S1x64) ![0, 0] S1x64.size inb_S1x64_S1x64_0_0
abbrev r3_S64x128 : Rect S64x128 := Rect.unit (s := S64x128) ![0, 0] S64x128.size inb_S64x128_S64x128_0_0
abbrev r3_S400x64 : Rect S400x64 := Rect.unit (s := S400x64) ![0, 0] S400x64.size inb_S400x64_S400x64_0_0
abbrev r3_S400x128 : Rect S400x128 := Rect.unit (s := S400x128) ![0, 0] S400x128.size inb_S400x128_S400x128_0_0

/-! ## What the body leaves in each output window's buffer -/

/-- Window 5's staging buffer after the body: its one store, of the whole buffer, of the body's value of the
    loaded input buffers. -/
def out3_5 (x0 : Vec F S400x10000 .bf16) (x1 : Vec F S10000x64 .bf16) (x2 : Vec F S1x64 .f32) (x3 : Vec F S1x64 .f32) : Vec F S400x64 .f32 :=
  View.canon [⟨r3_S400x64, k3_pay1 (View.ld x0 r3_S400x10000) (View.ld x1 r3_S10000x64) (View.ld x2 r3_S1x64) (View.ld x3 r3_S1x64)⟩]

/-- The one store covers the buffer. -/
theorem cover3_5 (p0 : Vec F S400x64 .f32) (y : S400x64.Idx) :
    ∃ pc ∈ ([⟨r3_S400x64, p0⟩] : List (View.Piece (Elt F) S400x64 .f32)), y ∈ pc.1.set :=
  View.cover_of_tiled [⟨r3_S400x64, p0⟩] S400x64.size (by rfl) y

/-- Window 6's staging buffer after the body: its one store, of the whole buffer, of the body's value of the
    loaded input buffers. -/
def out3_6 (x0 : Vec F S400x10000 .bf16) (x1 : Vec F S10000x64 .bf16) (x2 : Vec F S1x64 .f32) (x3 : Vec F S1x64 .f32) (x4 : Vec F S64x128 .bf16) : Vec F S400x128 .bf16 :=
  View.canon [⟨r3_S400x128, k3_pay2 (View.ld x0 r3_S400x10000) (View.ld x1 r3_S10000x64) (View.ld x2 r3_S1x64) (View.ld x3 r3_S1x64) (View.ld x4 r3_S64x128)⟩]

/-- The one store covers the buffer. -/
theorem cover3_6 (p0 : Vec F S400x128 .bf16) (y : S400x128.Idx) :
    ∃ pc ∈ ([⟨r3_S400x128, p0⟩] : List (View.Piece (Elt F) S400x128 .bf16)), y ∈ pc.1.set :=
  View.cover_of_tiled [⟨r3_S400x128, p0⟩] S400x128.size (by rfl) y

/-! ## The body's triple -/

set_option maxHeartbeats 4000000 in
/-- The body on whole staging buffers, the inputs' at contents `x` and the outputs' at anything, runs to a state
    holding the inputs' as they were and each output's at its `out` of the inputs'. -/
theorem sound_kernel3 (c : Dev nD) (E : Set ℕ) (i : grid3.Coords) (arg1 : Memref sig .tc .vmem S400x10000 .bf16) (harg1 : arg1.IsWhole) (arg2 : Memref sig .tc .vmem S10000x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .bf16) (harg5 : arg5.IsWhole) (arg6 : Memref sig .tc .vmem S400x64 .f32) (harg6 : arg6.IsWhole) (arg7 : Memref sig .tc .vmem S400x128 .bf16) (harg7 : arg7.IsWhole)
    (x0 : Vec F S400x10000 .bf16) (x1 : Vec F S10000x64 .bf16) (x2 : Vec F S1x64 .f32) (x3 : Vec F S1x64 .f32) (x4 : Vec F S64x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3) ∗ owns (c : Thread nD τ) arg7 fullShare (out3_6 x0 x1 x2 x3 x4)) -∗ K ⟨⟩))
      ⊢ wp frame (wpE (defs₀ (F := F)) Variants.none c none) E (cc3__pass3_kernel i arg1 harg1 arg2 harg2 arg3 harg3 arg4 harg4 arg5 harg5 arg6 harg6 arg7 harg7) K := by
  simp only [cc3__pass3_kernel_eq_skeleton]; unfold cc3__pass3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_6 _)

/-! ## The pipeline's proof data -/

/-- The proof data of pipeline 3 on core `c`: the arrays as the region finds them; after the body at point `t` each
    input's buffer at its block and each output's at its `out` of the input blocks; the invariant keeps the rest of the
    core's state untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

/-- Each input's staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' buffers hold their blocks, so the body's triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Region4.lean ====
/- Region 4 of @main (the fourth graph-convolution pass): the kernel body's effect on its staging buffers and the
   pipeline's proof data, at any float instance and at any contents of the TensorCore's buffers on entry.

   The body reads four whole windows — a block of 400 rows of the adjacency matrix, the whole [10000,128] operand, and the
   scale and shift rows [1,128] — and stores the whole [400,128] output block once:
   max(block · operand, 0) * scale + shift. -/
import proofs.«118927_g481036337836_cont_8to1_c_48_4_alg».proof.Proof.Gen.KernelIdeal.Launch
import proofs.«118927_g481036337836_cont_8to1_c_48_4_alg».proof.Proof.Gen.KernelIdeal.Skeleton
import proofs.«118927_g481036337836_cont_8to1_c_48_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (unfetched, the
    block index has not moved), for any proof data whose array is the entry contents and whose body leaves the block
    in place. Window 0: the 400 adjacency rows of the point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Window 1: the whole [10000,128] operand. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Window 2: the scale row. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Window 3: the shift row. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is a whole buffer -/

abbrev r4_0 : Rect S400x10000 := Rect.unit (s := S400x10000) ![0, 0] S400x10000.size inb_S400x10000_S400x10000_0_0
abbrev r4_1 : Rect S10000x128 := Rect.unit (s := S10000x128) ![0, 0] S10000x128.size inb_S10000x128_S10000x128_0_0
abbrev r4_2 : Rect S1x128 := Rect.unit (s := S1x128) ![0, 0] S1x128.size inb_S1x128_S1x128_0_0
abbrev r4_3 : Rect S400x128 := Rect.unit (s := S400x128) ![0, 0] S400x128.size inb_S400x128_S400x128_0_0

/-! ## What the body leaves in the output window's buffer -/

/-- Window 4's staging buffer after the body, from the input windows' blocks: its one store, of the whole block. -/
def out4_4 (x0 : Vec F S400x10000 .bf16) (x1 : Vec F S10000x128 .bf16) (x2 : Vec F S1x128 .f32) (x3 : Vec F S1x128 .f32) : Vec F S400x128 .f32 :=
  View.canon [⟨r4_3, k4_pay1 (View.ld x0 r4_0) (View.ld x1 r4_1) (View.ld x2 r4_2) (View.ld x3 r4_2)⟩]

/-- The one store covers the buffer. -/
theorem cover4_4 (p0 : Vec F S400x128 .f32) (y : S400x128.Idx) :
    ∃ pc ∈ ([⟨r4_3, p0⟩] : List (View.Piece (Elt F) S400x128 .f32)), y ∈ pc.1.set :=
  View.cover_of_tiled [⟨r4_3, p0⟩] S400x128.size (by rfl) y

/-! ## The body's triple -/

set_option maxHeartbeats 1000000 in
/-- The kernel body on whole staging memrefs, the inputs' at contents x0..x3 and the output's at anything, runs to the
    continuation holding the inputs' as they were and the output's at out4_4 of the inputs'. -/
theorem sound_kernel4 (c : Dev nD) (E : Set ℕ) (i : grid4.Coords)
    (arg1 : Memref sig .tc .vmem S400x10000 .bf16) (harg1 : arg1.IsWhole) (arg2 : Memref sig .tc .vmem S10000x128 .bf16) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S400x128 .f32) (harg5 : arg5.IsWhole)
    (x0 : Vec F S400x10000 .bf16) (x1 : Vec F S10000x128 .bf16) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__pass4_kernel i arg1 harg1 arg2 harg2 arg3 harg3 arg4 harg4 arg5 harg5) K := by
  simp only [cc4__pass4_kernel_eq_skeleton]; unfold cc4__pass4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core c: the arrays as the region finds them; after the body at point t each
    input's buffer at its block and the output's at out4_4 of the input blocks; the invariant is the untouched rest;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and the
    core's owed tallies pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.Region5.lean ====
/- Region 5 of @main (the inner-product decoder): the kernel body's effect on its staging buffers and the pipeline's
   proof data, at any float instance and at any contents of the TensorCore's buffers on entry.

   The grid is 10 × 10. At point (i, j) the body reads two blocks of 1024 rows of ONE [10000,32] array — rows block i and
   rows block j — and stores the whole [1024,1024] block (i, j) of the result: a · bᵀ, both operands contracted along
   their second axis. Ten blocks of 1024 rows overhang the 10000 rows of the array: block 9 has 784 rows inside it.
   A transfer of an edge block moves those rows only; past them an input staging buffer holds words nothing names, the
   body multiplies them all the same, and the write-back drops the rows and columns of the product that lie past the
   array's end. So what a point leaves in the result array is determined by the blocks only if an entry of the product
   reads nothing but its own row of each operand: a property of the float instance's product, stated here as a
   hypothesis (Local5) and proved where the product is a sum. -/
import proofs.«118927_g481036337836_cont_8to1_c_48_4_alg».proof.Proof.Gen.KernelIdeal.Launch
import proofs.«118927_g481036337836_cont_8to1_c_48_4_alg».proof.Proof.Gen.KernelIdeal.Skeleton
import proofs.«118927_g481036337836_cont_8to1_c_48_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it: the part of the block inside the array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The zero word: what the proof data puts past the array's end, where nothing reads. -/
abbrev z5 : S1024x32.Idx → Elt F .f32 := fun _ => Scalar.ofBits .f32 0#32

/-- Rows block i of the array, filled out to 1024 rows with the zero word. -/
def in5_0 (c : Dev nD) (t : Fin cfg5.N) : Vec F S1024x32 .f32 := win5_0.fill (grid5.coords t) z5 (iblk5 V c 0 t)
/-- Rows block j of the array, filled out to 1024 rows with the zero word. -/
def in5_1 (c : Dev nD) (t : Fin cfg5.N) : Vec F S1024x32 .f32 := win5_1.fill (grid5.coords t) z5 (iblk5 V c 1 t)
/-- The product of the two filled blocks: what the proof data names in the result's staging buffer. -/
def out5_2 (c : Dev nD) (t : Fin cfg5.N) : Vec F S1024x1024 .f32 := k5_pay1 (in5_0 V c t) (in5_1 V c t)

/-- An entry of the product inside the result array does not depend on what fills the operands' staging buffers
    past the array's end. -/
def Local5 (c : Dev nD) : Prop :=
  ∀ (t : Fin cfg5.N) (d0 d1 : S1024x32.Idx → Elt F .f32),
    win5_2.cut (grid5.coords t) (k5_pay1 (win5_0.fill (grid5.coords t) d0 (iblk5 V c 0 t)) (win5_1.fill (grid5.coords t) d1 (iblk5 V c 1 t)))
      = win5_2.cut (grid5.coords t) (out5_2 V c t)

/-! ## The pipeline's proof data -/

/-- The proof data of pipeline 5 on core c: the arrays as the region finds them; after the body at point t each
    input's buffer at its block filled out with zeros and the result's at their product; the invariant is the
    untouched rest; nothing owed; the two input windows hold the two halves of the one array's share. -/
def dat5 (c : Dev nD) : Dat τ (Elt F) Unit ℕ (UR sig nD τ) ℕ cfg5 c where
  A w := V c (Pipeline.arrRef spec5 w)
  after w t := match w with
    | ⟨0, _⟩ => in5_0 V c t
    | ⟨1, _⟩ => in5_1 V c t
    | ⟨2, _⟩ => out5_2 V c t
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = in5_0 V c t := by dsimp only [dat5]
theorem after5_1 (c : Dev nD) (t : Fin cfg5.N) : (dat5 V c).after 1 t = in5_1 V c t := by dsimp only [dat5]
theorem after5_2 (c : Dev nD) (t : Fin cfg5.N) : (dat5 V c).after 2 t = out5_2 V c t := by dsimp only [dat5]

/-! ## What the body finds in its buffers -/

/-- An input window's cut is a function of its block index. -/
theorem hclip5_0 (t t' : Fin cfg5.N) (h : (cfg5.win 0).index t = (cfg5.win 0).index t') :
    (cfg5.win 0).clip (cfg5.grid.coords t) = (cfg5.win 0).clip (cfg5.grid.coords t') := by
  funext a
  show Pipeline.Clip.of ((cfg5.win 0).index t a) _ _ = Pipeline.Clip.of ((cfg5.win 0).index t' a) _ _
  rw [h]
theorem hclip5_1 (t t' : Fin cfg5.N) (h : (cfg5.win 1).index t = (cfg5.win 1).index t') :
    (cfg5.win 1).clip (cfg5.grid.coords t) = (cfg5.win 1).clip (cfg5.grid.coords t') := by
  funext a
  show Pipeline.Clip.of ((cfg5.win 1).index t a) _ _ = Pipeline.Clip.of ((cfg5.win 1).index t' a) _ _
  rw [h]

/-- Rows block i's buffer holds, at every point, the block on the rows inside the array and d past them — fetched there
    or not: unfetched, the block index has not moved. -/
theorem before5_0 (c : Dev nD) (t : Fin cfg5.N) (d) :
    (dat5 V c).before 0 t d = win5_0.fill (grid5.coords t) d (iblk5 V c 0 t) :=
  ((dat5 V c).before_in_eq_fetched 0 rfl (fun _ => rfl) hclip5_0
    (fun t => by rw [after5_0]; exact win5_0.cut_fill _ _ _) t d).trans (by unfold Dat.fetched Dat.blockOf iblk5; rfl)
/-- Rows block j's buffer likewise. -/
theorem before5_1 (c : Dev nD) (t : Fin cfg5.N) (d) :
    (dat5 V c).before 1 t d = win5_1.fill (grid5.coords t) d (iblk5 V c 1 t) :=
  ((dat5 V c).before_in_eq_fetched 1 rfl (fun _ => rfl) hclip5_1
    (fun t => by rw [after5_1]; exact win5_1.cut_fill _ _ _) t d).trans (by unfold Dat.fetched Dat.blockOf iblk5; rfl)
/-- The result's buffer holds anything: every point writes it back. -/
theorem before5_2 (c : Dev nD) (t : Fin cfg5.N) (d) : (dat5 V c).before 2 t d = d :=
  (dat5 V c).before_out_reset 2 rfl t
    (by
      by_cases h0 : t.val = 0
      · exact .inl h0
      · exact .inr ⟨h0, flush5_2 _⟩) d

/-! ## The body's accesses: each is a whole buffer -/

abbrev r5_0 : Rect S1024x32 := Rect.unit (s := S1024x32) ![0, 0] S1024x32.size inb_S1024x32_S1024x32_0_0
abbrev r5_2 : Rect S1024x1024 := Rect.unit (s := S1024x1024) ![0, 0] S1024x1024.size inb_S1024x1024_S1024x1024_0_0

theorem hz5 : (![0, 0] : Fin 2 → Nat) = fun _ => 0 := funext fun a => by fin_cases a <;> rfl

/-- The result's staging buffer after the body, from the contents of the two operands' buffers: its one store, of the
    whole block, as a list of pieces. -/
def out5c (x0 x1 : Vec F S1024x32 .f32) : Vec F S1024x1024 .f32 :=
  View.canon [⟨r5_2, k5_pay1 (View.ld x0 r5_0) (View.ld x1 r5_0)⟩]

/-- The one store covers the buffer. -/
theorem cover5_2 (p0 : Vec F S1024x1024 .f32) (y : S1024x1024.Idx) :
    ∃ pc ∈ ([⟨r5_2, p0⟩] : List (View.Piece (Elt F) S1024x1024 .f32)), y ∈ pc.1.set :=
  View.cover_of_tiled [⟨r5_2, p0⟩] S1024x1024.size (by rfl) y

/-- The loads read the whole buffers and the store writes the whole block: the buffer ends holding the product. -/
theorem out5c_eq (x0 x1 : Vec F S1024x32 .f32) : out5c x0 x1 = k5_pay1 x0 x1 := by
  unfold out5c
  rw [View.canon_unit_zero hz5]
  simp only [View.ld_unit_zero (S := S1024x32) hz5]

/-! ## The body's triple -/

set_option maxHeartbeats 1000000 in
/-- The kernel body on whole staging memrefs, the operands' at contents x0, x1 and the result's at anything, runs to the
    continuation holding the operands' as they were and the result's at their product. -/
theorem sound_kernel5 (c : Dev nD) (E : Set ℕ) (i : grid5.Coords)
    (arg2 : Memref sig .tc .vmem S1024x32 .f32) (harg2 : arg2.IsWhole) (arg3 : Memref sig .tc .vmem S1024x32 .f32) (harg3 : arg3.IsWhole)
    (arg4 : Memref sig .tc .vmem S1024x1024 .f32) (harg4 : arg4.IsWhole)
    (x0 x1 : Vec F S1024x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k5_pay1 x0 x1)) -∗ K ⟨⟩))
      ⊢ wp frame (wpE (defs₀ (F := F)) Variants.none c none) E (cc5__dec_kernel i arg2 harg2 arg3 harg3 arg4 harg4) K := by
  rw [← out5c_eq]
  simp only [cc5__dec_kernel_eq_skeleton]; unfold cc5__dec_kernel_skel
  unfold owns
  iintro ⟨⟨%f0, %hf0, H0⟩, ⟨%f1, %hf1, H1⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  exact View.read_writes_eq_canon _ _ _ (cover5_2 _)

/-! ## The body obligation -/

/-- At every point: the operands' buffers arrive holding their blocks filled out with anything past the array's end, the
    result's holding anything; the body leaves the operands' as they were and the result's at their product, whose part
    inside the result array is the named product's (Local5) — all a window cut at the array's end is asked. -/
theorem body_obligation5 (c : Dev nD) (hloc : Local5 V c) :
    BodyObligationLoose (dat5 (F := F) V c) (defs₀ (F := F)) Variants.none () Set.univ := fun t => by
  rw [bigSep_W5, bigSep_W5]
  simp only
  rw [show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩⟩
  rw [before5_0 V c t d0, before5_1 V c t d1]
  iapply (sound_kernel5 (F := F) c Set.univ (grid5.coords t)
    (win5_0.stage (cfg5.slots t 0)) (hstage5_0 ((cfg5.slots t 0).cast nbuf5_0)) (win5_1.stage (cfg5.slots t 1)) (hstage5_1 ((cfg5.slots t 1).cast nbuf5_1))
    (win5_2.stage (cfg5.slots t 2)) (hstage5_2 ((cfg5.slots t 2).cast nbuf5_2))
    (win5_0.fill (grid5.coords t) d0 (iblk5 V c 0 t)) (win5_1.fill (grid5.coords t) d1 (iblk5 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win5_0.cut (grid5.coords t) ((dat5 V c).after 0 t) = iblk5 V c 0 t := by
    rw [after5_0]; exact win5_0.cut_fill _ _ _
  have h1 : win5_1.cut (grid5.coords t) ((dat5 V c).after 1 t) = iblk5 V c 1 t := by
    rw [after5_1]; exact win5_1.cut_fill _ _ _
  have h2 : win5_2.fill (grid5.coords t)
      (k5_pay1 (win5_0.fill (grid5.coords t) d0 (iblk5 V c 0 t)) (win5_1.fill (grid5.coords t) d1 (iblk5 V c 1 t)))
      (win5_2.cut (grid5.coords t) ((dat5 V c).after 2 t))
      = k5_pay1 (win5_0.fill (grid5.coords t) d0 (iblk5 V c 0 t)) (win5_1.fill (grid5.coords t) d1 (iblk5 V c 1 t)) := by
    rw [after5_2, ← hloc t d0 d1]; exact win5_2.fill_cut _ _
  isplitl [H0]
  · iexists d0
    change _ ⊢ owns (c : Thread nD τ) (st5_0 t) fullShare (win5_0.fill (grid5.coords t) d0 (win5_0.cut (grid5.coords t) ((dat5 V c).after 0 t)))
    rw [h0]; try iexact H0
  isplitl [H1]
  · iexists d1
    change _ ⊢ owns (c : Thread nD τ) (st5_1 t) fullShare (win5_1.fill (grid5.coords t) d1 (win5_1.cut (grid5.coords t) ((dat5 V c).after 1 t)))
    rw [h1]; try iexact H1
  · iexists k5_pay1 (win5_0.fill (grid5.coords t) d0 (iblk5 V c 0 t)) (win5_1.fill (grid5.coords t) d1 (iblk5 V c 1 t))
    change _ ⊢ owns (c : Thread nD τ) (st5_2 t) fullShare (win5_2.fill (grid5.coords t) _ (win5_2.cut (grid5.coords t) ((dat5 V c).after 2 t)))
    rw [h2]; try iexact H2

/-- The same with the result's window forgotten: its buffer is handed over and taken back at contents nothing names, so
    nothing is asked of the product — at any float instance. -/
theorem body_obligation5_fgt (c : Dev nD) :
    BodyObligationLoose (dat5 (F := F) V c) (defs₀ (F := F)) Variants.none () Set.univ (fgt := fun w => decide (w = 2)) := fun t => by
  rw [bigSep_W5, bigSep_W5]
  simp only [show decide ((0 : Fin 3) = 2) = false from by decide, show decide ((1 : Fin 3) = 2) = false from by decide,
    show decide ((2 : Fin 3) = 2) = true from by decide, decide_true]
  rw [show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩⟩
  rw [before5_0 V c t d0, before5_1 V c t d1]
  iapply (sound_kernel5 (F := F) c Set.univ (grid5.coords t)
    (win5_0.stage (cfg5.slots t 0)) (hstage5_0 ((cfg5.slots t 0).cast nbuf5_0)) (win5_1.stage (cfg5.slots t 1)) (hstage5_1 ((cfg5.slots t 1).cast nbuf5_1))
    (win5_2.stage (cfg5.slots t 2)) (hstage5_2 ((cfg5.slots t 2).cast nbuf5_2))
    (win5_0.fill (grid5.coords t) d0 (iblk5 V c 0 t)) (win5_1.fill (grid5.coords t) d1 (iblk5 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win5_0.cut (grid5.coords t) ((dat5 V c).after 0 t) = iblk5 V c 0 t := by
    rw [after5_0]; exact win5_0.cut_fill _ _ _
  have h1 : win5_1.cut (grid5.coords t) ((dat5 V c).after 1 t) = iblk5 V c 1 t := by
    rw [after5_1]; exact win5_1.cut_fill _ _ _
  isplitl [H0]
  · iexists d0
    change _ ⊢ owns (c : Thread nD τ) (st5_0 t) fullShare (win5_0.fill (grid5.coords t) d0 (win5_0.cut (grid5.coords t) ((dat5 V c).after 0 t)))
    rw [h0]; try iexact H0
  isplitl [H1]
  · iexists d1
    change _ ⊢ owns (c : Thread nD τ) (st5_1 t) fullShare (win5_1.fill (grid5.coords t) d1 (win5_1.cut (grid5.coords t) ((dat5 V c).after 1 t)))
    rw [h1]; try iexact H1
  · iexists _; iexact H2

/-! ## The region's arrays out of, and back into, the core's unscoped buffers

Two windows read one array: its buffer, held whole, is dealt to them by halves of the share, and put together again
at the exit; the result array goes to its window outright. -/

/-- The buffers behind the windows' arrays: the one operand array and the result array. -/
theorem image5 : Finset.univ.image (Pipeline.arrRef spec5) = {main_v29, main_v30} := by decide

theorem unscopedBufs_split5 (c : Dev nD) (W : (b : Ref sig .tc) → Buf (Elt F) ((c : Thread nD τ).loc b)) :
    (unscopedBufs c W : sProp 𝕄) = iprop(Pipeline.arrBufs spec5 c W ∗ Pipeline.unscopedRest spec5 c W) :=
  Pipeline.PerCore.unscopedBufs_split₀ (fun _ : Dev nD => cfgs) (5 : Fin 6) c winFacts₀5.arr_unscoped W

theorem arrBufs5_eq (c : Dev nD) (W : (b : Ref sig .tc) → Buf (Elt F) ((c : Thread nD τ).loc b)) :
    (Pipeline.arrBufs spec5 c W : sProp 𝕄)
      = iprop((((c : Thread nD τ).loc main_v29) ↦{fullShare} W main_v29) ∗ (((c : Thread nD τ).loc main_v30) ↦{fullShare} W main_v30)) := by
  unfold Pipeline.arrBufs
  rw [image5, bigSep_insert (by decide), bigSep_singleton]
  rfl

theorem arrays5_eq (c : Dev nD) (Fs : (w : Fin cfg5.W) → Buf (Elt F) ((cfg5.win w).arr.view.loc (c : Thread nD τ))) :
    ((dat5 V c).arrays Fs : sProp 𝕄)
      = iprop((((c : Thread nD τ).loc main_v29) ↦{fullShare.left} Fs 0) ∗ (((c : Thread nD τ).loc main_v29) ↦{fullShare.right} Fs 1)
          ∗ (((c : Thread nD τ).loc main_v30) ↦{fullShare} Fs 2)) := by
  unfold Dat.arrays
  rw [bigSep_W5, (arr_whole5 0).set_eq_univ, (arr_whole5 2).set_eq_univ]
  rfl

theorem arrays_of_unscopedBufs5 (c : Dev nD) :
    (unscopedBufs c (V c) : sProp 𝕄) ⊢ iprop((dat5 V c).arrays ((dat5 V c).arrAt · 0)
      ∗ Pipeline.unscopedRest (Ix := Unit) (Name := ℕ) (U := UR sig nD τ) (Lvl := ℕ) spec5 c (V c)) := by
  rw [unscopedBufs_split5, arrBufs5_eq, arrays5_eq]
  iintro ⟨⟨H29, H30⟩, HR⟩
  ihave H := (pointsTo_share (PosShare.mem_left_op_right fullShare)).1 $$ H29
  icases H with ⟨HL, HRt⟩
  isplitr [HR]
  swap; · iexact HR
  isplitl [HL]; · iexact HL
  isplitl [HRt]; · iexact HRt
  iexact H30

/-- The exit at any contents Fs of the windows' arrays that a valuation V' names, V' agreeing with the entry contents
    off those arrays: the two halves of the operand array's share make the whole again. -/
theorem unscopedBufs_of_arrays5_gen (V' : (c : Dev nD) → (b : Ref sig .tc) → Buf (Elt F) ((c : Thread nD τ).loc b)) (c : Dev nD)
    (Fs : (w : Fin cfg5.W) → Buf (Elt F) ((cfg5.win w).arr.view.loc (c : Thread nD τ)))
    (hF : ∀ w, Fs w = V' c (Pipeline.arrRef spec5 w))
    (hrest : ∀ b, b ∉ Finset.univ.image (Pipeline.arrRef spec5) → V' c b = V c b) :
    iprop((dat5 V c).arrays Fs
      ∗ Pipeline.unscopedRest (Ix := Unit) (Name := ℕ) (U := UR sig nD τ) (Lvl := ℕ) spec5 c (V c)) ⊢ (unscopedBufs c (V' c) : sProp 𝕄) := by
  have hR : (Pipeline.unscopedRest (Ix := Unit) (Name := ℕ) (U := UR sig nD τ) (Lvl := ℕ) spec5 c (V c) : sProp 𝕄)
      = Pipeline.unscopedRest spec5 c (V' c) := by
    unfold Pipeline.unscopedRest
    exact bigSep_congr fun b hb => by rw [hrest b (Finset.mem_sdiff.mp hb).2]
  rw [unscopedBufs_split5, arrBufs5_eq, arrays5_eq, hR, hF 0, hF 1, hF 2]
  iintro ⟨⟨HL, HRt, H30⟩, HR⟩
  isplitr [HR]
  swap; · iexact HR
  isplitr [H30]
  swap; · iexact H30
  iapply (pointsTo_share (PosShare.mem_left_op_right fullShare)).2
  isplitl [HL]; · iexact HL
  iexact HRt

/-- The exit at any contents that a valuation names, as above. -/
theorem unscopedBufs_of_arrays5_at (V' : (c : Dev nD) → (b : Ref sig .tc) → Buf (Elt F) ((c : Thread nD τ).loc b)) (c : Dev nD)
    (Fs : (w : Fin cfg5.W) → Buf (Elt F) ((cfg5.win w).arr.view.loc (c : Thread nD τ)))
    (hF : ∀ w, Fs w = V' c (Pipeline.arrRef spec5 w))
    (hrest : ∀ b, b ∉ Finset.univ.image (Pipeline.arrRef spec5) → V' c b = V c b) :
    iprop((dat5 V c).arrays Fs
      ∗ Pipeline.unscopedRest (Ix := Unit) (Name := ℕ) (U := UR sig nD τ) (Lvl := ℕ) spec5 c (V c)) ⊢ (unscopedBufs c (V' c) : sProp 𝕄) :=
  unscopedBufs_of_arrays5_gen V V' c Fs hF hrest

/-- The exit at what the write-backs leave. -/
theorem unscopedBufs_of_arrays5 (V' : (c : Dev nD) → (b : Ref sig .tc) → Buf (Elt F) ((c : Thread nD τ).loc b)) (c : Dev nD)
    (hF : ∀ w, (dat5 V c).arrAt w cfg5.N = V' c (Pipeline.arrRef spec5 w))
    (hrest : ∀ b, b ∉ Finset.univ.image (Pipeline.arrRef spec5) → V' c b = V c b) :
    iprop((dat5 V c).arrays ((dat5 V c).arrAt · cfg5.N)
      ∗ Pipeline.unscopedRest (Ix := Unit) (Name := ℕ) (U := UR sig nD τ) (Lvl := ℕ) spec5 c (V c)) ⊢ (unscopedBufs c (V' c) : sProp 𝕄) :=
  unscopedBufs_of_arrays5_gen V V' c _ hF hrest

end Cert.KernelIdeal.Hand

end
-- ==== Proof.Run.lean ====
/-
  The run of the whole program: @main is nine segments — a stretch of host operations, the projection `x · W1`,
  one host operation, the four passes over the adjacency, one host operation (the columns of `s1`), the
  inner-product decoder.  Between two segments every unscoped buffer of the core is held whole at a NAMED
  contents: the launch memory, then after a host stretch the fold of its operations, then after a region its
  output arrays at what the region's write-backs leave and everything else untouched.  A region reads its
  windows' arrays out of that state and puts them back; the last region's output blocks overhang the array, so
  its body is correct only up to the part of each block that is written back, which is a property of the
  matrix product (an entry depends on one row of each operand) and is carried here as a hypothesis.
-/
import proofs.«118927_g481036337836_cont_8to1_c_48_4_alg».proof.Proof.Region0
import proofs.«118927_g481036337836_cont_8to1_c_48_4_alg».proof.Proof.Region1
import proofs.«118927_g481036337836_cont_8to1_c_48_4_alg».proof.Proof.Region2
import proofs.«118927_g481036337836_cont_8to1_c_48_4_alg».proof.Proof.Region3
import proofs.«118927_g481036337836_cont_8to1_c_48_4_alg».proof.Proof.Region4
import proofs.«118927_g481036337836_cont_8to1_c_48_4_alg».proof.Proof.Region5
import proofs.«118927_g481036337836_cont_8to1_c_48_4_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev Wv0 : Dev nD → Valuation τ sig (Elt F) := fun c b => (s₀ m ρ).mem ((c : Dev nD), b)
/-- After the first host stretch (region 0's entry). -/
abbrev Wv1 : Dev nD → Valuation τ sig (Elt F) := fun c => StableHlo.after hostOps0 (Wv0 m ρ c)
abbrev Uv1 : (c : Dev nD) → (b : Ref sig .tc) → Buf (Elt F) ((c : Thread nD τ).loc b) := fun c b => Wv1 m ρ c b

/-- An input window's array is left as the region found it. -/
theorem arrAt_keep0 (V : (c : Dev nD) → (b : Ref sig .tc) → Buf (Elt F) ((c : Thread nD τ).loc b)) (c : Dev nD) :
    ∀ (w : Fin cfg0.W), Pipeline.arrRef spec0 w ∉ ([main_v23] : List (Ref sig .tc)) →
      (dat0 V c).arrAt w cfg0.N = V c (Pipeline.arrRef spec0 w)
  | ⟨0, _⟩, _ => ((dat0 V c).arrAt_in 0 rfl _).trans (A_eq0 V c 0)
  | ⟨1, _⟩, _ => ((dat0 V c).arrAt_in 1 rfl _).trans (A_eq0 V c 1)
  | ⟨2, _⟩, hw => absurd (by decide +revert) hw

/-- After region 0: its arrays at what the pipeline's write-backs leave, every other buffer as entered. -/
def Wv2 (c : Dev nD) : Valuation τ sig (Elt F) :=
  Pipeline.withArrays spec0 c (Wv1 m ρ c) fun w => (dat0 (Uv1 m ρ) c).arrAt w cfg0.N
theorem Wv2_arr (c : Dev nD) (w : Fin cfg0.W) :
    Wv2 m ρ c (Proc.devRef .tc (Pipeline.arrRef spec0 w)) = (dat0 (Uv1 m ρ) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m ρ c (Proc.devRef .tc b) = Wv1 m ρ c (Proc.devRef .tc b) := by
  unfold Wv2; exact Pipeline.withArrays_of_ne spec0 c _ _ b hb
abbrev Uv2 : (c : Dev nD) → (b : Ref sig .tc) → Buf (Elt F) ((c : Thread nD τ).loc b) := fun c b => Wv2 m ρ c b
theorem hF0 (c : Dev nD) (w : Fin cfg0.W) : (dat0 (Uv1 m ρ) c).arrAt w cfg0.N = Uv2 m ρ c (Pipeline.arrRef spec0 w) :=
  (Wv2_arr m ρ c w).symm
theorem hrest0 (c : Dev nD) : ∀ b, b ∉ Finset.univ.image (Pipeline.arrRef spec0) → Uv2 m ρ c b = Uv1 m ρ c b :=
  fun b hb => Wv2_of_ne m ρ c b fun w e => hb (Finset.mem_image.mpr ⟨w, Finset.mem_univ _, e⟩)
/-- Region 0 changes only its output arrays. -/
theorem Wv2_keep (c : Dev nD) (b : Ref sig .tc) (hb : b ∉ ([main_v23] : List (Ref sig .tc))) :
    Wv2 m ρ c (Proc.devRef .tc b) = Wv1 m ρ c (Proc.devRef .tc b) := by
  by_cases h : ∃ w, Pipeline.arrRef spec0 w = b
  · obtain ⟨w, rfl⟩ := h
    exact (Wv2_arr m ρ c w).trans (arrAt_keep0 (Uv1 m ρ) c w hb)
  · exact Wv2_of_ne m ρ c b fun w e => h ⟨w, e⟩

/-- After the second host stretch (region 1's entry). -/
abbrev Wv3 : Dev nD → Valuation τ sig (Elt F) := fun c => StableHlo.after hostOps1 (Wv2 m ρ c)
abbrev Uv3 : (c : Dev nD) → (b : Ref sig .tc) → Buf (Elt F) ((c : Thread nD τ).loc b) := fun c b => Wv3 m ρ c b

/-- An input window's array is left as the region found it. -/
theorem arrAt_keep1 (V : (c : Dev nD) → (b : Ref sig .tc) → Buf (Elt F) ((c : Thread nD τ).loc b)) (c : Dev nD) :
    ∀ (w : Fin cfg1.W), Pipeline.arrRef spec1 w ∉ ([main_v25_0, main_v25_1] : List (Ref sig .tc)) →
      (dat1 V c).arrAt w cfg1.N = V c (Pipeline.arrRef spec1 w)
  | ⟨0, _⟩, _ => ((dat1 V c).arrAt_in 0 rfl _).trans (A_eq1 V c 0)
  | ⟨1, _⟩, _ => ((dat1 V c).arrAt_in 1 rfl _).trans (A_eq1 V c 1)
  | ⟨2, _⟩, _ => ((dat1 V c).arrAt_in 2 rfl _).trans (A_eq1 V c 2)
  | ⟨3, _⟩, hw => absurd (by decide +revert) hw
  | ⟨4, _⟩, hw => absurd (by decide +revert) hw

/-- After region 1: its arrays at what the pipeline's write-backs leave, every other buffer as entered. -/
def Wv4 (c : Dev nD) : Valuation τ sig (Elt F) :=
  Pipeline.withArrays spec1 c (Wv3 m ρ c) fun w => (dat1 (Uv3 m ρ) c).arrAt w cfg1.N
theorem Wv4_arr (c : Dev nD) (w : Fin cfg1.W) :
    Wv4 m ρ c (Proc.devRef .tc (Pipeline.arrRef spec1 w)) = (dat1 (Uv3 m ρ) c).arrAt w cfg1.N := by
  unfold Wv4; exact Pipeline.withArrays_arr spec1 launch1.win.arr_inj c _ _ w
theorem Wv4_of_ne (c : Dev nD) (b : Ref sig .tc) (hb : ∀ w, Pipeline.arrRef spec1 w ≠ b) :
    Wv4 m ρ c (Proc.devRef .tc b) = Wv3 m ρ c (Proc.devRef .tc b) := by
  unfold Wv4; exact Pipeline.withArrays_of_ne spec1 c _ _ b hb
abbrev Uv4 : (c : Dev nD) → (b : Ref sig .tc) → Buf (Elt F) ((c : Thread nD τ).loc b) := fun c b => Wv4 m ρ c b
theorem hF1 (c : Dev nD) (w : Fin cfg1.W) : (dat1 (Uv3 m ρ) c).arrAt w cfg1.N = Uv4 m ρ c (Pipeline.arrRef spec1 w) :=
  (Wv4_arr m ρ c w).symm
theorem hrest1 (c : Dev nD) : ∀ b, b ∉ Finset.univ.image (Pipeline.arrRef spec1) → Uv4 m ρ c b = Uv3 m ρ c b :=
  fun b hb => Wv4_of_ne m ρ c b fun w e => hb (Finset.mem_image.mpr ⟨w, Finset.mem_univ _, e⟩)
/-- Region 1 changes only its output arrays. -/
theorem Wv4_keep (c : Dev nD) (b : Ref sig .tc) (hb : b ∉ ([main_v25_0, main_v25_1] : List (Ref sig .tc))) :
    Wv4 m ρ c (Proc.devRef .tc b) = Wv3 m ρ c (Proc.devRef .tc b) := by
  by_cases h : ∃ w, Pipeline.arrRef spec1 w = b
  · obtain ⟨w, rfl⟩ := h
    exact (Wv4_arr m ρ c w).trans (arrAt_keep1 (Uv3 m ρ) c w hb)
  · exact Wv4_of_ne m ρ c b fun w e => h ⟨w, e⟩

/-- An input window's array is left as the region found it. -/
theorem arrAt_keep2 (V : (c : Dev nD) → (b : Ref sig .tc) → Buf (Elt F) ((c : Thread nD τ).loc b)) (c : Dev nD) :
    ∀ (w : Fin cfg2.W), Pipeline.arrRef spec2 w ∉ ([main_v26] : List (Ref sig .tc)) →
      (dat2 V c).arrAt w cfg2.N = V c (Pipeline.arrRef spec2 w)
  | ⟨0, _⟩, _ => ((dat2 V c).arrAt_in 0 rfl _).trans (A_eq2 V c 0)
  | ⟨1, _⟩, _ => ((dat2 V c).arrAt_in 1 rfl _).trans (A_eq2 V c 1)
  | ⟨2, _⟩, _ => ((dat2 V c).arrAt_in 2 rfl _).trans (A_eq2 V c 2)
  | ⟨3, _⟩, _ => ((dat2 V c).arrAt_in 3 rfl _).trans (A_eq2 V c 3)
  | ⟨4, _⟩, _ => ((dat2 V c).arrAt_in 4 rfl _).trans (A_eq2 V c 4)
  | ⟨5, _⟩, hw => absurd (by decide +revert) hw

/-- After region 2: its arrays at what the pipeline's write-backs leave, every other buffer as entered. -/
def Wv5 (c : Dev nD) : Valuation τ sig (Elt F) :=
  Pipeline.withArrays spec2 c (Wv4 m ρ c) fun w => (dat2 (Uv4 m ρ) c).arrAt w cfg2.N
theorem Wv5_arr (c : Dev nD) (w : Fin cfg2.W) :
    Wv5 m ρ c (Proc.devRef .tc (Pipeline.arrRef spec2 w)) = (dat2 (Uv4 m ρ) c).arrAt w cfg2.N := by
  unfold Wv5; exact Pipeline.withArrays_arr spec2 launch2.win.arr_inj c _ _ w
theorem Wv5_of_ne (c : Dev nD) (b : Ref sig .tc) (hb : ∀ w, Pipeline.arrRef spec2 w ≠ b) :
    Wv5 m ρ c (Proc.devRef .tc b) = Wv4 m ρ c (Proc.devRef .tc b) := by
  unfold Wv5; exact Pipeline.withArrays_of_ne spec2 c _ _ b hb
abbrev Uv5 : (c : Dev nD) → (b : Ref sig .tc) → Buf (Elt F) ((c : Thread nD τ).loc b) := fun c b => Wv5 m ρ c b
theorem hF2 (c : Dev nD) (w : Fin cfg2.W) : (dat2 (Uv4 m ρ) c).arrAt w cfg2.N = Uv5 m ρ c (Pipeline.arrRef spec2 w) :=
  (Wv5_arr m ρ c w).symm
theorem hrest2 (c : Dev nD) : ∀ b, b ∉ Finset.univ.image (Pipeline.arrRef spec2) → Uv5 m ρ c b = Uv4 m ρ c b :=
  fun b hb => Wv5_of_ne m ρ c b fun w e => hb (Finset.mem_image.mpr ⟨w, Finset.mem_univ _, e⟩)
/-- Region 2 changes only its output arrays. -/
theorem Wv5_keep (c : Dev nD) (b : Ref sig .tc) (hb : b ∉ ([main_v26] : List (Ref sig .tc))) :
    Wv5 m ρ c (Proc.devRef .tc b) = Wv4 m ρ c (Proc.devRef .tc b) := by
  by_cases h : ∃ w, Pipeline.arrRef spec2 w = b
  · obtain ⟨w, rfl⟩ := h
    exact (Wv5_arr m ρ c w).trans (arrAt_keep2 (Uv4 m ρ) c w hb)
  · exact Wv5_of_ne m ρ c b fun w e => h ⟨w, e⟩

/-- An input window's array is left as the region found it. -/
theorem arrAt_keep3 (V : (c : Dev nD) → (b : Ref sig .tc) → Buf (Elt F) ((c : Thread nD τ).loc b)) (c : Dev nD) :
    ∀ (w : Fin cfg3.W), Pipeline.arrRef spec3 w ∉ ([main_v27_0, main_v27_1] : List (Ref sig .tc)) →
      (dat3 V c).arrAt w cfg3.N = V c (Pipeline.arrRef spec3 w)
  | ⟨0, _⟩, _ => ((dat3 V c).arrAt_in 0 rfl _).trans (A_eq3 V c 0)
  | ⟨1, _⟩, _ => ((dat3 V c).arrAt_in 1 rfl _).trans (A_eq3 V c 1)
  | ⟨2, _⟩, _ => ((dat3 V c).arrAt_in 2 rfl _).trans (A_eq3 V c 2)
  | ⟨3, _⟩, _ => ((dat3 V c).arrAt_in 3 rfl _).trans (A_eq3 V c 3)
  | ⟨4, _⟩, _ => ((dat3 V c).arrAt_in 4 rfl _).trans (A_eq3 V c 4)
  | ⟨5, _⟩, hw => absurd (by decide +revert) hw
  | ⟨6, _⟩, hw => absurd (by decide +revert) hw

/-- After region 3: its arrays at what the pipeline's write-backs leave, every other buffer as entered. -/
def Wv6 (c : Dev nD) : Valuation τ sig (Elt F) :=
  Pipeline.withArrays spec3 c (Wv5 m ρ c) fun w => (dat3 (Uv5 m ρ) c).arrAt w cfg3.N
theorem Wv6_arr (c : Dev nD) (w : Fin cfg3.W) :
    Wv6 m ρ c (Proc.devRef .tc (Pipeline.arrRef spec3 w)) = (dat3 (Uv5 m ρ) c).arrAt w cfg3.N := by
  unfold Wv6; exact Pipeline.withArrays_arr spec3 launch3.win.arr_inj c _ _ w
theorem Wv6_of_ne (c : Dev nD) (b : Ref sig .tc) (hb : ∀ w, Pipeline.arrRef spec3 w ≠ b) :
    Wv6 m ρ c (Proc.devRef .tc b) = Wv5 m ρ c (Proc.devRef .tc b) := by
  unfold Wv6; exact Pipeline.withArrays_of_ne spec3 c _ _ b hb
abbrev Uv6 : (c : Dev nD) → (b : Ref sig .tc) → Buf (Elt F) ((c : Thread nD τ).loc b) := fun c b => Wv6 m ρ c b
theorem hF3 (c : Dev nD) (w : Fin cfg3.W) : (dat3 (Uv5 m ρ) c).arrAt w cfg3.N = Uv6 m ρ c (Pipeline.arrRef spec3 w) :=
  (Wv6_arr m ρ c w).symm
theorem hrest3 (c : Dev nD) : ∀ b, b ∉ Finset.univ.image (Pipeline.arrRef spec3) → Uv6 m ρ c b = Uv5 m ρ c b :=
  fun b hb => Wv6_of_ne m ρ c b fun w e => hb (Finset.mem_image.mpr ⟨w, Finset.mem_univ _, e⟩)
/-- Region 3 changes only its output arrays. -/
theorem Wv6_keep (c : Dev nD) (b : Ref sig .tc) (hb : b ∉ ([main_v27_0, main_v27_1] : List (Ref sig .tc))) :
    Wv6 m ρ c (Proc.devRef .tc b) = Wv5 m ρ c (Proc.devRef .tc b) := by
  by_cases h : ∃ w, Pipeline.arrRef spec3 w = b
  · obtain ⟨w, rfl⟩ := h
    exact (Wv6_arr m ρ c w).trans (arrAt_keep3 (Uv5 m ρ) c w hb)
  · exact Wv6_of_ne m ρ c b fun w e => h ⟨w, e⟩

/-- An input window's array is left as the region found it. -/
theorem arrAt_keep4 (V : (c : Dev nD) → (b : Ref sig .tc) → Buf (Elt F) ((c : Thread nD τ).loc b)) (c : Dev nD) :
    ∀ (w : Fin cfg4.W), Pipeline.arrRef spec4 w ∉ ([main_v28] : List (Ref sig .tc)) →
      (dat4 V c).arrAt w cfg4.N = V c (Pipeline.arrRef spec4 w)
  | ⟨0, _⟩, _ => ((dat4 V c).arrAt_in 0 rfl _).trans (A_eq4 V c 0)
  | ⟨1, _⟩, _ => ((dat4 V c).arrAt_in 1 rfl _).trans (A_eq4 V c 1)
  | ⟨2, _⟩, _ => ((dat4 V c).arrAt_in 2 rfl _).trans (A_eq4 V c 2)
  | ⟨3, _⟩, _ => ((dat4 V c).arrAt_in 3 rfl _).trans (A_eq4 V c 3)
  | ⟨4, _⟩, hw => absurd (by decide +revert) hw

/-- After region 4: its arrays at what the pipeline's write-backs leave, every other buffer as entered. -/
def Wv7 (c : Dev nD) : Valuation τ sig (Elt F) :=
  Pipeline.withArrays spec4 c (Wv6 m ρ c) fun w => (dat4 (Uv6 m ρ) c).arrAt w cfg4.N
theorem Wv7_arr (c : Dev nD) (w : Fin cfg4.W) :
    Wv7 m ρ c (Proc.devRef .tc (Pipeline.arrRef spec4 w)) = (dat4 (Uv6 m ρ) c).arrAt w cfg4.N := by
  unfold Wv7; exact Pipeline.withArrays_arr spec4 launch4.win.arr_inj c _ _ w
theorem Wv7_of_ne (c : Dev nD) (b : Ref sig .tc) (hb : ∀ w, Pipeline.arrRef spec4 w ≠ b) :
    Wv7 m ρ c (Proc.devRef .tc b) = Wv6 m ρ c (Proc.devRef .tc b) := by
  unfold Wv7; exact Pipeline.withArrays_of_ne spec4 c _ _ b hb
abbrev Uv7 : (c : Dev nD) → (b : Ref sig .tc) → Buf (Elt F) ((c : Thread nD τ).loc b) := fun c b => Wv7 m ρ c b
theorem hF4 (c : Dev nD) (w : Fin cfg4.W) : (dat4 (Uv6 m ρ) c).arrAt w cfg4.N = Uv7 m ρ c (Pipeline.arrRef spec4 w) :=
  (Wv7_arr m ρ c w).symm
theorem hrest4 (c : Dev nD) : ∀ b, b ∉ Finset.univ.image (Pipeline.arrRef spec4) → Uv7 m ρ c b = Uv6 m ρ c b :=
  fun b hb => Wv7_of_ne m ρ c b fun w e => hb (Finset.mem_image.mpr ⟨w, Finset.mem_univ _, e⟩)
/-- Region 4 changes only its output arrays. -/
theorem Wv7_keep (c : Dev nD) (b : Ref sig .tc) (hb : b ∉ ([main_v28] : List (Ref sig .tc))) :
    Wv7 m ρ c (Proc.devRef .tc b) = Wv6 m ρ c (Proc.devRef .tc b) := by
  by_cases h : ∃ w, Pipeline.arrRef spec4 w = b
  · obtain ⟨w, rfl⟩ := h
    exact (Wv7_arr m ρ c w).trans (arrAt_keep4 (Uv6 m ρ) c w hb)
  · exact Wv7_of_ne m ρ c b fun w e => h ⟨w, e⟩

/-- After the third host stretch (region 5's entry). -/
abbrev Wv8 : Dev nD → Valuation τ sig (Elt F) := fun c => StableHlo.after hostOps5 (Wv7 m ρ c)
abbrev Uv8 : (c : Dev nD) → (b : Ref sig .tc) → Buf (Elt F) ((c : Thread nD τ).loc b) := fun c b => Wv8 m ρ c b

/-- After region 5: its one output array at what the write-backs leave, every other buffer as entered (its two
    input windows view one array, which it only reads). -/
def Wv9 (c : Dev nD) : Valuation τ sig (Elt F) :=
  Function.update (Wv8 m ρ c) (Proc.devRef .tc main_v30) ((dat5 (Uv8 m ρ) c).arrAt 2 cfg5.N)
abbrev Uv9 : (c : Dev nD) → (b : Ref sig .tc) → Buf (Elt F) ((c : Thread nD τ).loc b) := fun c b => Wv9 m ρ c b
theorem Wv9_keep (c : Dev nD) (b : Ref sig .tc) (hb : b ∉ ([main_v30] : List (Ref sig .tc))) :
    Wv9 m ρ c (Proc.devRef .tc b) = Wv8 m ρ c (Proc.devRef .tc b) := by
  unfold Wv9
  exact Function.update_of_ne (StableHlo.devRef_ne_of_ne (List.ne_of_not_mem_cons hb) : (Proc.devRef .tc b : DevRef τ sig) ≠ Proc.devRef .tc main_v30) _ _
theorem Wv9_out (c : Dev nD) : Wv9 m ρ c (Proc.devRef .tc main_v30) = (dat5 (Uv8 m ρ) c).arrAt 2 cfg5.N := by
  unfold Wv9; exact Function.update_self _ _ _
theorem hF5 (c : Dev nD) : ∀ w : Fin cfg5.W, (dat5 (Uv8 m ρ) c).arrAt w cfg5.N = Uv9 m ρ c (Pipeline.arrRef spec5 w)
  | ⟨0, _⟩ => (((dat5 (Uv8 m ρ) c).arrAt_in 0 rfl _).trans (A_eq5 (Uv8 m ρ) c 0)).trans (Wv9_keep m ρ c main_v29 (by decide)).symm
  | ⟨1, _⟩ => (((dat5 (Uv8 m ρ) c).arrAt_in 1 rfl _).trans (A_eq5 (Uv8 m ρ) c 1)).trans (Wv9_keep m ρ c main_v29 (by decide)).symm
  | ⟨2, _⟩ => (Wv9_out m ρ c).symm
theorem hrest5 (c : Dev nD) : ∀ b, b ∉ Finset.univ.image (Pipeline.arrRef spec5) → Uv9 m ρ c b = Uv8 m ρ c b :=
  fun b hb => Wv9_keep m ρ c b fun h => hb (Finset.mem_image.mpr ⟨2, Finset.mem_univ _, (List.mem_singleton.mp h).symm⟩)

/-! ## What no segment writes ends as launched -/

theorem Wv1_keep (c : Dev nD) (b : Ref sig .tc) (h : b ∉ hostOps0_W) : Wv1 m ρ c (Proc.devRef .tc b) = Wv0 m ρ c (Proc.devRef .tc b) :=
  StableHlo.after_of_writes_sub hostOps0 _ hostOps0_writes h
theorem Wv3_keep (c : Dev nD) (b : Ref sig .tc) (h : b ∉ hostOps1_W) : Wv3 m ρ c (Proc.devRef .tc b) = Wv2 m ρ c (Proc.devRef .tc b) :=
  StableHlo.after_of_writes_sub hostOps1 _ hostOps1_writes h
theorem Wv8_keep (c : Dev nD) (b : Ref sig .tc) (h : b ∉ hostOps5_W) : Wv8 m ρ c (Proc.devRef .tc b) = Wv7 m ρ c (Proc.devRef .tc b) :=
  StableHlo.after_of_writes_sub hostOps5 _ hostOps5_writes h

/-- A buffer that no host operation writes and no region has as an output ends at its launch contents. -/
theorem Wv9_launch (c : Dev nD) (b : Ref sig .tc) (h0 : b ∉ hostOps0_W) (h1 : b ∉ ([main_v23] : List (Ref sig .tc)))
    (h2 : b ∉ hostOps1_W) (h3 : b ∉ ([main_v25_0, main_v25_1] : List (Ref sig .tc))) (h4 : b ∉ ([main_v26] : List (Ref sig .tc)))
    (h5 : b ∉ ([main_v27_0, main_v27_1] : List (Ref sig .tc))) (h6 : b ∉ ([main_v28] : List (Ref sig .tc))) (h7 : b ∉ hostOps5_W)
    (h8 : b ∉ ([main_v30] : List (Ref sig .tc))) :
    Wv9 m ρ c (Proc.devRef .tc b) = m ((c : Thread nD τ).loc b) :=
  (Wv9_keep m ρ c b h8).trans <| (Wv8_keep m ρ c b h7).trans <| (Wv7_keep m ρ c b h6).trans <| (Wv6_keep m ρ c b h5).trans <|
    (Wv5_keep m ρ c b h4).trans <| (Wv4_keep m ρ c b h3).trans <| (Wv3_keep m ρ c b h2).trans <| (Wv2_keep m ρ c b h1).trans <|
    (Wv1_keep m ρ c b h0).trans rfl

/-! ## The proof data family and the thread state -/

/-- No pipeline has a prefetched table. -/
abbrev admH : (p : Fin 6) → (pcfgs (F := F) p).Adm := fun p => (cfgs p).toPCfg_adm
/-- Every pipeline's proof data, each at its region's entry contents. -/
def pdatsH : (p : Fin 6) → (c : Dev nD) → Dat τ (Elt F) Unit ℕ (UR sig nD τ) ℕ (Pipeline.pin (pcfgs (F := F)) admH p) c
  | ⟨0, _⟩ => fun c => dat0 (Uv1 m ρ) c
  | ⟨1, _⟩ => fun c => dat1 (Uv3 m ρ) c
  | ⟨2, _⟩ => fun c => dat2 (Uv4 m ρ) c
  | ⟨3, _⟩ => fun c => dat3 (Uv5 m ρ) c
  | ⟨4, _⟩ => fun c => dat4 (Uv6 m ρ) c
  | ⟨5, _⟩ => fun c => dat5 (Uv8 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the core's generator register at some state and its
    debts, none. -/
abbrev RR (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev TnH (c : Dev nD) : sProp 𝕄 := iprop(StableHlo.held (c : Thread nD τ) (Pipeline.ucRefs τ sig) (Wv9 m ρ c) ∗ ∃ r, prngReg c r)

/-! ## The regions as segments -/

set_option backward.isDefEq.respectTransparency.types false in
/-- Region 0 over the thread state: entered from every unscoped buffer at `Wv1`, left at `Wv2`. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Uv1 m ρ) c).loose
  hwaits := Pipeline.hwaits_of_owed_zero _ _ _ _ LH lvH 0 fun _ _ => rfl
  pre c := iprop(StableHlo.held (c : Thread nD τ) (Pipeline.ucRefs τ sig) (Wv1 m ρ c) ∗ RR c)
  post c := iprop(StableHlo.held (c : Thread nD τ) (Pipeline.ucRefs τ sig) (Wv2 m ρ c) ∗ RR c)
  X c := iprop(∃ r, prngReg c r)
  Y c := iprop(∃ r, prngReg c r)
  Z c := Pipeline.unscopedRest (Ix := Unit) (Name := ℕ) (U := UR sig nD τ) (Lvl := ℕ) spec0 c (Uv1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Uv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Uv1 m ρ c) (Uv2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Wv3`, left at `Wv4`. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Uv3 m ρ) c).loose
  hwaits := Pipeline.hwaits_of_owed_zero _ _ _ _ LH lvH 1 fun _ _ => rfl
  pre c := iprop(StableHlo.held (c : Thread nD τ) (Pipeline.ucRefs τ sig) (Wv3 m ρ c) ∗ RR c)
  post c := iprop(StableHlo.held (c : Thread nD τ) (Pipeline.ucRefs τ sig) (Wv4 m ρ c) ∗ RR c)
  X c := iprop(∃ r, prngReg c r)
  Y c := iprop(∃ r, prngReg c r)
  Z c := Pipeline.unscopedRest (Ix := Unit) (Name := ℕ) (U := UR sig nD τ) (Lvl := ℕ) spec1 c (Uv3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Uv3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Uv3 m ρ c) (Uv4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Wv4`, left at `Wv5`. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Uv4 m ρ) c).loose
  hwaits := Pipeline.hwaits_of_owed_zero _ _ _ _ LH lvH 2 fun _ _ => rfl
  pre c := iprop(StableHlo.held (c : Thread nD τ) (Pipeline.ucRefs τ sig) (Wv4 m ρ c) ∗ RR c)
  post c := iprop(StableHlo.held (c : Thread nD τ) (Pipeline.ucRefs τ sig) (Wv5 m ρ c) ∗ RR c)
  X c := iprop(∃ r, prngReg c r)
  Y c := iprop(∃ r, prngReg c r)
  Z c := Pipeline.unscopedRest (Ix := Unit) (Name := ℕ) (U := UR sig nD τ) (Lvl := ℕ) spec2 c (Uv4 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Uv4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Uv4 m ρ c) (Uv5 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `Wv5`, left at `Wv6`. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Uv5 m ρ) c).loose
  hwaits := Pipeline.hwaits_of_owed_zero _ _ _ _ LH lvH 3 fun _ _ => rfl
  pre c := iprop(StableHlo.held (c : Thread nD τ) (Pipeline.ucRefs τ sig) (Wv5 m ρ c) ∗ RR c)
  post c := iprop(StableHlo.held (c : Thread nD τ) (Pipeline.ucRefs τ sig) (Wv6 m ρ c) ∗ RR c)
  X c := iprop(∃ r, prngReg c r)
  Y c := iprop(∃ r, prngReg c r)
  Z c := Pipeline.unscopedRest (Ix := Unit) (Name := ℕ) (U := UR sig nD τ) (Lvl := ℕ) spec3 c (Uv5 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (Uv5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (Uv5 m ρ c) (Uv6 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `Wv6`, left at `Wv7`. -/
def reg4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (Uv6 m ρ) c).loose
  hwaits := Pipeline.hwaits_of_owed_zero _ _ _ _ LH lvH 4 fun _ _ => rfl
  pre c := iprop(StableHlo.held (c : Thread nD τ) (Pipeline.ucRefs τ sig) (Wv6 m ρ c) ∗ RR c)
  post c := iprop(StableHlo.held (c : Thread nD τ) (Pipeline.ucRefs τ sig) (Wv7 m ρ c) ∗ RR c)
  X c := iprop(∃ r, prngReg c r)
  Y c := iprop(∃ r, prngReg c r)
  Z c := Pipeline.unscopedRest (Ix := Unit) (Name := ℕ) (U := UR sig nD τ) (Lvl := ℕ) spec4 c (Uv6 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (Uv6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (Uv6 m ρ c) (Uv7 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `Wv8`, left at `Wv9`; its two input
    windows share the array of `s1`, split between them and joined again. -/
def reg5 (hloc : ∀ c, Local5 (Uv8 m ρ) c) : Pipeline.RegionSeg (pcfgs (F := F)) admH (pdatsH m ρ) () defs₀ 𝒱H LH lvH 5 where
  win := winFacts₀5
  block_pos := block_pos5
  stage_whole := stage_whole5
  K := PEmpty
  osem k := k.elim
  ho := Pipeline.OwnSemFacts.none _
  hbody c := body_obligation5 (Uv8 m ρ) c (hloc c)
  hwaits := Pipeline.hwaits_of_owed_zero _ _ _ _ LH lvH 5 fun _ _ => rfl
  pre c := iprop(StableHlo.held (c : Thread nD τ) (Pipeline.ucRefs τ sig) (Wv8 m ρ c) ∗ RR c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (Uv8 m ρ c)
  hentry c := by
    rw [Pipeline.ownSems0_none]
    have hsplit := arrays_of_unscopedBufs5 (Uv8 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := unscopedBufs_of_arrays5 (Uv8 m ρ) (Uv9 m ρ) c (hF5 m ρ c) (hrest5 m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's nine segments in order. -/
abbrev segsH (hloc : ∀ c, Local5 (Uv8 m ρ) c) : List (Pipeline.Seg (pcfgs (F := F)) admH (pdatsH m ρ) () defs₀ 𝒱H LH lvH) :=
  [ .host (hseg hostOps0 hostOps0_sub hostOps0_fresh (Wv0 m ρ)),
    .region (reg0 m ρ),
    .host (hseg hostOps1 hostOps1_sub hostOps1_fresh (Wv2 m ρ)),
    .region (reg1 m ρ),
    .region (reg2 m ρ),
    .region (reg3 m ρ),
    .region (reg4 m ρ),
    .host (hseg hostOps5 hostOps5_sub hostOps5_fresh (Wv7 m ρ)),
    .region (reg5 m ρ hloc) ]
/-- @main is the run of the segments. -/
theorem main_runH (hloc : ∀ c, Local5 (Uv8 m ρ) c) (c : Dev nD) : main (F := F) c = Pipeline.Seg.run (segsH m ρ hloc) :=
  (main_chain c).trans (by chain_rfl)

set_option backward.isDefEq.respectTransparency.types false in
/-- THE RUN: from any memory with zero counters every weakly fair execution of @main on the TensorCores terminates,
    nothing faulting, and every final memory holds every unscoped buffer at the last boundary's contents `Wv9`. -/
theorem run_vals (hloc : ∀ c, Local5 (Uv8 m ρ) c) :
    θ_run defs (onTc (τ := τ) (main (F := F))) ⟨m, fun _ => 0, ρ⟩ (fun r => ∀ c : Dev nD,
      ∀ b ∈ Pipeline.ucRefs τ sig, r.2.mem (((c : Thread nD τ)).1, b) = Wv9 m ρ c b) :=
  Pipeline.θ_run_regions_kit (pcfgs (F := F)) admH (pdatsH m ρ) () cellOf_inj emb₁ defs₀ 𝒱H LH lvH m ρ main (segsH m ρ hloc)
    (fun c Q => by rw [main_runH m ρ hloc c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ RR c)) (Tₙ := TnH m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv9 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wv9 m ρ c) s')
      isplitl [Hh] <;> iassumption)
    (hQ := fun s h => h)

/-- The run with the two results named and the arguments unchanged: what the value claim starts from. -/
theorem run_results (hloc : ∀ c, Local5 (Uv8 m ρ) c) :
    θ_run defs (onTc (τ := τ) (main (F := F))) ⟨m, fun _ => 0, ρ⟩ (fun r => ∀ c : Dev nD,
      r.2.mem ((c.tc : Thread nD τ).loc main_v28) = Wv9 m ρ c (Proc.devRef .tc main_v28)
      ∧ r.2.mem ((c.tc : Thread nD τ).loc main_v30) = Wv9 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v28 (by decide)), h c _ (mem_uc main_v30 (by decide)),
      (h c _ (mem_uc main_arg0 (by decide))).trans (Wv9_launch m ρ c main_arg0 (by decide) (by decide) (by decide) (by decide) (by decide) (by decide) (by decide) (by decide) (by decide)),
      (h c _ (mem_uc main_arg1 (by decide))).trans (Wv9_launch m ρ c main_arg1 (by decide) (by decide) (by decide) (by decide) (by decide) (by decide) (by decide) (by decide) (by decide)),
      (h c _ (mem_uc main_arg2 (by decide))).trans (Wv9_launch m ρ c main_arg2 (by decide) (by decide) (by decide) (by decide) (by decide) (by decide) (by decide) (by decide) (by decide)),
      (h c _ (mem_uc main_arg3 (by decide))).trans (Wv9_launch m ρ c main_arg3 (by decide) (by decide) (by decide) (by decide) (by decide) (by decide) (by decide) (by decide) (by decide)),
      (h c _ (mem_uc main_arg4 (by decide))).trans (Wv9_launch m ρ c main_arg4 (by decide) (by decide) (by decide) (by decide) (by decide) (by decide) (by decide) (by decide) (by decide)),
      (h c _ (mem_uc main_arg5 (by decide))).trans (Wv9_launch m ρ c main_arg5 (by decide) (by decide) (by decide) (by decide) (by decide) (by decide) (by decide) (by decide) (by decide)),
      (h c _ (mem_uc main_arg6 (by decide))).trans (Wv9_launch m ρ c main_arg6 (by decide) (by decide) (by decide) (by decide) (by decide) (by decide) (by decide) (by decide) (by decide)),
      (h c _ (mem_uc main_arg7 (by decide))).trans (Wv9_launch m ρ c main_arg7 (by decide) (by decide) (by decide) (by decide) (by decide) (by decide) (by decide) (by decide) (by decide)),
      (h c _ (mem_uc main_arg8 (by decide))).trans (Wv9_launch m ρ c main_arg8 (by decide) (by decide) (by decide) (by decide) (by decide) (by decide) (by decide) (by decide) (by decide)),
      (h c _ (mem_uc main_arg9 (by decide))).trans (Wv9_launch m ρ c main_arg9 (by decide) (by decide) (by decide) (by decide) (by decide) (by decide) (by decide) (by decide) (by decide)),
      (h c _ (mem_uc main_arg10 (by decide))).trans (Wv9_launch m ρ c main_arg10 (by decide) (by decide) (by decide) (by decide) (by decide) (by decide) (by decide) (by decide) (by decide)),
      (h c _ (mem_uc main_arg11 (by decide))).trans (Wv9_launch m ρ c main_arg11 (by decide) (by decide) (by decide) (by decide) (by decide) (by decide) (by decide) (by decide) (by decide)),
      (h c _ (mem_uc main_arg12 (by decide))).trans (Wv9_launch m ρ c main_arg12 (by decide) (by decide) (by decide) (by decide) (by decide) (by decide) (by decide) (by decide) (by decide)),
      (h c _ (mem_uc main_arg13 (by decide))).trans (Wv9_launch m ρ c main_arg13 (by decide) (by decide) (by decide) (by decide) (by decide) (by decide) (by decide) (by decide) (by decide)),
      (h c _ (mem_uc main_arg14 (by decide))).trans (Wv9_launch m ρ c main_arg14 (by decide) (by decide) (by decide) (by decide) (by decide) (by decide) (by decide) (by decide) (by decide))⟩) (run_vals m ρ hloc)

/-- The frame: every argument array ends as launched. -/
theorem frame_of_local (hloc : ∀ c, Local5 (Uv8 m ρ) c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (h c).2.2) (run_results m ρ hloc)

end Cert.KernelIdeal.Hand

end
-- ==== Proof.RunR.lean ====
/-
  The run of the whole program with the last region's result left unnamed: the frame at any float instance.

  The inner-product decoder's output blocks overhang the result array.  At a clipped point the body multiplies
  staging buffers whose rows past the clip hold words nothing names, so what the body leaves in the result's
  staging buffer is a function of the blocks only where an entry of the product reads one row of each operand.
  Here nothing is said of that window: the region's proof data is read as a constraint on the contents with the
  result's window forgotten, the body is handed that buffer at any contents and gives it back at any contents, and
  the region leaves the result array at SOME contents.  Every other buffer is as the exact run names it, and the
  arguments, which no segment writes, end as launched.
-/
import proofs.«118927_g481036337836_cont_8to1_c_48_4_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data read as constraints, the decoder's result forgotten -/

/-- The windows of which each region's data says nothing: the decoder's result, and no other. -/
def fgtH : (p : Fin 6) → Fin (Pipeline.pin (pcfgs (F := F)) admH p).W → Bool
  | ⟨0, _⟩ => fun _ => false
  | ⟨1, _⟩ => fun _ => false
  | ⟨2, _⟩ => fun _ => false
  | ⟨3, _⟩ => fun _ => false
  | ⟨4, _⟩ => fun _ => false
  | ⟨5, _⟩ => fun (w : Fin cfg5.W) => decide (w = 2)

/-- Every pipeline's exact data read as a constraint on the contents, the decoder's result window forgotten. -/
def rdatsH (p : Fin 6) (c : Dev nD) : RDat τ (Elt F) Unit ℕ (UR sig nD τ) ℕ (Pipeline.pin (pcfgs (F := F)) admH p) c :=
  (pdatsH m ρ p c).toRForget (fgtH (F := F) p)

/-! ## The last boundary, the result at some contents -/

/-- After region 5 with its result array at `X`: every other buffer as entered. -/
def WvX (c : Dev nD) (X : (Proc.devRef .tc main_v30 : DevRef τ sig).ty.Contents (Elt F)) : Valuation τ sig (Elt F) :=
  Function.update (Wv8 m ρ c) (Proc.devRef .tc main_v30) X
theorem WvX_keep (c : Dev nD) (X : (Proc.devRef .tc main_v30 : DevRef τ sig).ty.Contents (Elt F)) (b : Ref sig .tc)
    (hb : b ∉ ([main_v30] : List (Ref sig .tc))) :
    WvX m ρ c X (Proc.devRef .tc b) = Wv8 m ρ c (Proc.devRef .tc b) := by
  unfold WvX
  exact Function.update_of_ne (StableHlo.devRef_ne_of_ne (List.ne_of_not_mem_cons hb) : (Proc.devRef .tc b : DevRef τ sig) ≠ Proc.devRef .tc main_v30) _ _
theorem WvX_out (c : Dev nD) (X : (Proc.devRef .tc main_v30 : DevRef τ sig).ty.Contents (Elt F)) :
    WvX m ρ c X (Proc.devRef .tc main_v30) = X := by
  unfold WvX; exact Function.update_self _ _ _

/-- A buffer that no host operation writes and no region has as an output ends at its launch contents, whatever the
    decoder's result. -/
theorem WvX_launch (c : Dev nD) (X : (Proc.devRef .tc main_v30 : DevRef τ sig).ty.Contents (Elt F)) (b : Ref sig .tc)
    (h0 : b ∉ hostOps0_W) (h1 : b ∉ ([main_v23] : List (Ref sig .tc)))
    (h2 : b ∉ hostOps1_W) (h3 : b ∉ ([main_v25_0, main_v25_1] : List (Ref sig .tc))) (h4 : b ∉ ([main_v26] : List (Ref sig .tc)))
    (h5 : b ∉ ([main_v27_0, main_v27_1] : List (Ref sig .tc))) (h6 : b ∉ ([main_v28] : List (Ref sig .tc))) (h7 : b ∉ hostOps5_W)
    (h8 : b ∉ ([main_v30] : List (Ref sig .tc))) :
    WvX m ρ c X (Proc.devRef .tc b) = m ((c : Thread nD τ).loc b) :=
  (WvX_keep m ρ c X b h8).trans <| (Wv8_keep m ρ c b h7).trans <| (Wv7_keep m ρ c b h6).trans <| (Wv6_keep m ρ c b h5).trans <|
    (Wv5_keep m ρ c b h4).trans <| (Wv4_keep m ρ c b h3).trans <| (Wv3_keep m ρ c b h2).trans <| (Wv2_keep m ρ c b h1).trans <|
    (Wv1_keep m ρ c b h0).trans rfl

/-- The last thread state without the debts: every unscoped buffer held, the result at some contents. -/
abbrev TnR (c : Dev nD) : sProp 𝕄 :=
  iprop(∃ X, StableHlo.held (c : Thread nD τ) (Pipeline.ucRefs τ sig) (WvX m ρ c X) ∗ ∃ r, prngReg c r)

/-! ## The regions as segments of the constraining data -/

set_option backward.isDefEq.respectTransparency.types false in
/-- Region 0 over the thread state, its proof data read as constraints on the contents: the exact record's fields,
    the exit fed the arrays at the contents the exact data names. -/
def regR0 : Pipeline.RDat.RegionSeg (pcfgs (F := F)) admH (rdatsH m ρ) () defs₀ 𝒱H LH lvH 0 where
  win := (reg0 m ρ).win
  block_pos := (reg0 m ρ).block_pos
  stage_whole := (reg0 m ρ).stage_whole
  K := PEmpty
  osem k := k.elim
  ho := Pipeline.OwnSemFacts.none _
  hbody c := ((reg0 m ρ).hbody c).toR
  hwaits := Pipeline.RDat.hwaits_of_owed_zero _ _ _ _ LH lvH 0 fun _ _ => rfl
  pre c := iprop(StableHlo.held (c : Thread nD τ) (Pipeline.ucRefs τ sig) (Wv1 m ρ c) ∗ RR c)
  post c := iprop(StableHlo.held (c : Thread nD τ) (Pipeline.ucRefs τ sig) (Wv2 m ρ c) ∗ RR c)
  X c := iprop(∃ r, prngReg c r)
  Y c := iprop(∃ r, prngReg c r)
  Z c := Pipeline.unscopedRest (Ix := Unit) (Name := ℕ) (U := UR sig nD τ) (Lvl := ℕ) spec0 c (Uv1 m ρ c)
  hentry := (reg0 m ρ).hentry
  hin := (reg0 m ρ).hin
  hout := (reg0 m ρ).hout
  hexit c := (sep_mono (Entails.of_eq ((pdatsH m ρ 0 c).toR_arraysAt_eq cfg0.N)) .rfl).trans ((reg0 m ρ).hexit c)

set_option backward.isDefEq.respectTransparency.types false in
/-- Region 1 over the thread state, its proof data read as constraints on the contents: the exact record's fields,
    the exit fed the arrays at the contents the exact data names. -/
def regR1 : Pipeline.RDat.RegionSeg (pcfgs (F := F)) admH (rdatsH m ρ) () defs₀ 𝒱H LH lvH 1 where
  win := (reg1 m ρ).win
  block_pos := (reg1 m ρ).block_pos
  stage_whole := (reg1 m ρ).stage_whole
  K := PEmpty
  osem k := k.elim
  ho := Pipeline.OwnSemFacts.none _
  hbody c := ((reg1 m ρ).hbody c).toR
  hwaits := Pipeline.RDat.hwaits_of_owed_zero _ _ _ _ LH lvH 1 fun _ _ => rfl
  pre c := iprop(StableHlo.held (c : Thread nD τ) (Pipeline.ucRefs τ sig) (Wv3 m ρ c) ∗ RR c)
  post c := iprop(StableHlo.held (c : Thread nD τ) (Pipeline.ucRefs τ sig) (Wv4 m ρ c) ∗ RR c)
  X c := iprop(∃ r, prngReg c r)
  Y c := iprop(∃ r, prngReg c r)
  Z c := Pipeline.unscopedRest (Ix := Unit) (Name := ℕ) (U := UR sig nD τ) (Lvl := ℕ) spec1 c (Uv3 m ρ c)
  hentry := (reg1 m ρ).hentry
  hin := (reg1 m ρ).hin
  hout := (reg1 m ρ).hout
  hexit c := (sep_mono (Entails.of_eq ((pdatsH m ρ 1 c).toR_arraysAt_eq cfg1.N)) .rfl).trans ((reg1 m ρ).hexit c)

set_option backward.isDefEq.respectTransparency.types false in
/-- Region 2 over the thread state, its proof data read as constraints on the contents: the exact record's fields,
    the exit fed the arrays at the contents the exact data names. -/
def regR2 : Pipeline.RDat.RegionSeg (pcfgs (F := F)) admH (rdatsH m ρ) () defs₀ 𝒱H LH lvH 2 where
  win := (reg2 m ρ).win
  block_pos := (reg2 m ρ).block_pos
  stage_whole := (reg2 m ρ).stage_whole
  K := PEmpty
  osem k := k.elim
  ho := Pipeline.OwnSemFacts.none _
  hbody c := ((reg2 m ρ).hbody c).toR
  hwaits := Pipeline.RDat.hwaits_of_owed_zero _ _ _ _ LH lvH 2 fun _ _ => rfl
  pre c := iprop(StableHlo.held (c : Thread nD τ) (Pipeline.ucRefs τ sig) (Wv4 m ρ c) ∗ RR c)
  post c := iprop(StableHlo.held (c : Thread nD τ) (Pipeline.ucRefs τ sig) (Wv5 m ρ c) ∗ RR c)
  X c := iprop(∃ r, prngReg c r)
  Y c := iprop(∃ r, prngReg c r)
  Z c := Pipeline.unscopedRest (Ix := Unit) (Name := ℕ) (U := UR sig nD τ) (Lvl := ℕ) spec2 c (Uv4 m ρ c)
  hentry := (reg2 m ρ).hentry
  hin := (reg2 m ρ).hin
  hout := (reg2 m ρ).hout
  hexit c := (sep_mono (Entails.of_eq ((pdatsH m ρ 2 c).toR_arraysAt_eq cfg2.N)) .rfl).trans ((reg2 m ρ).hexit c)

set_option backward.isDefEq.respectTransparency.types false in
/-- Region 3 over the thread state, its proof data read as constraints on the contents: the exact record's fields,
    the exit fed the arrays at the contents the exact data names. -/
def regR3 : Pipeline.RDat.RegionSeg (pcfgs (F := F)) admH (rdatsH m ρ) () defs₀ 𝒱H LH lvH 3 where
  win := (reg3 m ρ).win
  block_pos := (reg3 m ρ).block_pos
  stage_whole := (reg3 m ρ).stage_whole
  K := PEmpty
  osem k := k.elim
  ho := Pipeline.OwnSemFacts.none _
  hbody c := ((reg3 m ρ).hbody c).toR
  hwaits := Pipeline.RDat.hwaits_of_owed_zero _ _ _ _ LH lvH 3 fun _ _ => rfl
  pre c := iprop(StableHlo.held (c : Thread nD τ) (Pipeline.ucRefs τ sig) (Wv5 m ρ c) ∗ RR c)
  post c := iprop(StableHlo.held (c : Thread nD τ) (Pipeline.ucRefs τ sig) (Wv6 m ρ c) ∗ RR c)
  X c := iprop(∃ r, prngReg c r)
  Y c := iprop(∃ r, prngReg c r)
  Z c := Pipeline.unscopedRest (Ix := Unit) (Name := ℕ) (U := UR sig nD τ) (Lvl := ℕ) spec3 c (Uv5 m ρ c)
  hentry := (reg3 m ρ).hentry
  hin := (reg3 m ρ).hin
  hout := (reg3 m ρ).hout
  hexit c := (sep_mono (Entails.of_eq ((pdatsH m ρ 3 c).toR_arraysAt_eq cfg3.N)) .rfl).trans ((reg3 m ρ).hexit c)

set_option backward.isDefEq.respectTransparency.types false in
/-- Region 4 over the thread state, its proof data read as constraints on the contents: the exact record's fields,
    the exit fed the arrays at the contents the exact data names. -/
def regR4 : Pipeline.RDat.RegionSeg (pcfgs (F := F)) admH (rdatsH m ρ) () defs₀ 𝒱H LH lvH 4 where
  win := (reg4 m ρ).win
  block_pos := (reg4 m ρ).block_pos
  stage_whole := (reg4 m ρ).stage_whole
  K := PEmpty
  osem k := k.elim
  ho := Pipeline.OwnSemFacts.none _
  hbody c := ((reg4 m ρ).hbody c).toR
  hwaits := Pipeline.RDat.hwaits_of_owed_zero _ _ _ _ LH lvH 4 fun _ _ => rfl
  pre c := iprop(StableHlo.held (c : Thread nD τ) (Pipeline.ucRefs τ sig) (Wv6 m ρ c) ∗ RR c)
  post c := iprop(StableHlo.held (c : Thread nD τ) (Pipeline.ucRefs τ sig) (Wv7 m ρ c) ∗ RR c)
  X c := iprop(∃ r, prngReg c r)
  Y c := iprop(∃ r, prngReg c r)
  Z c := Pipeline.unscopedRest (Ix := Unit) (Name := ℕ) (U := UR sig nD τ) (Lvl := ℕ) spec4 c (Uv6 m ρ c)
  hentry := (reg4 m ρ).hentry
  hin := (reg4 m ρ).hin
  hout := (reg4 m ρ).hout
  hexit c := (sep_mono (Entails.of_eq ((pdatsH m ρ 4 c).toR_arraysAt_eq cfg4.N)) .rfl).trans ((reg4 m ρ).hexit c)

/-- The decoder's arrays after its last write-back, opened: each at some contents it may then hold. -/
theorem arraysAt5 (c : Dev nD) :
    ((rdatsH m ρ 5 c).arraysAt cfg5.N : sProp 𝕄)
      ⊢ iprop(∃ A, ⌜∀ w, (rdatsH m ρ 5 c).ArrAt w cfg5.N (A w)⌝ ∗ (rdatsH m ρ 5 c).arrays A) := by
  unfold RDat.arraysAt RDat.arrays
  iintro Ha
  ihave Ha' := (BI.bigSep_exists_pi Finset.univ (fun w F => iprop(⌜(rdatsH m ρ 5 c).ArrAt w cfg5.N F⌝
      ∗ (cfg5.win w).arr.view.loc (c : Thread nD τ) ↦[(cfg5.win w).arr.view.set]{(rdatsH m ρ 5 c).share w} F))) $$ Ha
  icases Ha' with ⟨%A, Ha⟩
  ihave Ha2 := (BI.bigSep_pure_sep Finset.univ (fun w => (rdatsH m ρ 5 c).ArrAt w cfg5.N (A w))
      (fun w => (cfg5.win w).arr.view.loc (c : Thread nD τ) ↦[(cfg5.win w).arr.view.set]{(rdatsH m ρ 5 c).share w} A w)) $$ Ha
  icases Ha2 with ⟨%hA', Ha⟩
  iexists A; isplitr; · ipureintro; exact fun w => hA' w (Finset.mem_univ w)
  iexact Ha

/-- What the decoder's arrays may hold after its last write-back: the operand array, which both input windows view,
    its entry contents; the result anything. -/
theorem arrAt5_eq (c : Dev nD) (A : (w : Fin cfg5.W) → Buf (Elt F) ((cfg5.win w).arr.view.loc (c : Thread nD τ)))
    (hA : ∀ w, (rdatsH m ρ 5 c).ArrAt w cfg5.N (A w)) :
    ∀ w, A w = WvX m ρ c (A 2) (Proc.devRef .tc (Pipeline.arrRef spec5 w))
  | ⟨0, _⟩ => ((((dat5 (Uv8 m ρ) c).toRForget_arrAt_iff (fgt := fgtH (F := F) 5) (w := 0) rfl cfg5.N (A 0)).mp (hA 0)).trans
      (((dat5 (Uv8 m ρ) c).arrAt_in 0 rfl _).trans (A_eq5 (Uv8 m ρ) c 0))).trans (WvX_keep m ρ c (A 2) main_v29 (by decide)).symm
  | ⟨1, _⟩ => ((((dat5 (Uv8 m ρ) c).toRForget_arrAt_iff (fgt := fgtH (F := F) 5) (w := 1) rfl cfg5.N (A 1)).mp (hA 1)).trans
      (((dat5 (Uv8 m ρ) c).arrAt_in 1 rfl _).trans (A_eq5 (Uv8 m ρ) c 1))).trans (WvX_keep m ρ c (A 2) main_v29 (by decide)).symm
  | ⟨2, _⟩ => (WvX_out m ρ c (A 2)).symm

set_option backward.isDefEq.respectTransparency.types false in
/-- Region 5 over the thread state: entered from every unscoped buffer at `Wv8`, left with the result at some
    contents and every other buffer as entered; its two input windows share the operand array, split between them
    and joined again. -/
def regR5 : Pipeline.RDat.RegionSeg (pcfgs (F := F)) admH (rdatsH m ρ) () defs₀ 𝒱H LH lvH 5 where
  win := winFacts₀5
  block_pos := block_pos5
  stage_whole := stage_whole5
  K := PEmpty
  osem k := k.elim
  ho := Pipeline.OwnSemFacts.none _
  hbody c := (body_obligation5_fgt (Uv8 m ρ) c).toRForget
  hwaits := Pipeline.RDat.hwaits_of_owed_zero _ _ _ _ LH lvH 5 fun _ _ => rfl
  pre c := iprop(StableHlo.held (c : Thread nD τ) (Pipeline.ucRefs τ sig) (Wv8 m ρ c) ∗ RR c)
  post c := iprop(TnR m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (Uv8 m ρ c)
  hentry c := by
    rw [Pipeline.ownSems0_none]
    have hsplit : (unscopedBufs c (Uv8 m ρ c) : sProp 𝕄) ⊢ iprop((rdatsH m ρ 5 c).arrays (rdatsH m ρ 5 c).A
        ∗ Pipeline.unscopedRest (Ix := Unit) (Name := ℕ) (U := UR sig nD τ) (Lvl := ℕ) spec5 c (Uv8 m ρ c)) :=
      arrays_of_unscopedBufs5 (Uv8 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsH m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (rdatsH m ρ 5 c).Φ (Fin.last _) = Pipeline.ΦA spec5 c from rfl]; unfold Pipeline.ΦA
    iintro ⟨Hr, Hp⟩
    isplitl [Hp]; · iexact Hp
    isplitr; · iempintro
    iexact Hr
  hexit c := by
    iintro ⟨Ha, HO, HY, Hrest⟩
    ihave Ha' := arraysAt5 m ρ c $$ Ha
    icases Ha' with ⟨%A, %hA, Ha⟩
    have hjoin : iprop((rdatsH m ρ 5 c).arrays A
        ∗ Pipeline.unscopedRest (Ix := Unit) (Name := ℕ) (U := UR sig nD τ) (Lvl := ℕ) spec5 c (Uv8 m ρ c))
          ⊢ (unscopedBufs c (fun b => WvX m ρ c (A 2) b) : sProp 𝕄) :=
      unscopedBufs_of_arrays5_gen (Uv8 m ρ) (fun c' b => WvX m ρ c' (A 2) b) c A (arrAt5_eq m ρ c A hA)
        (fun b hb => WvX_keep m ρ c (A 2) b fun h => hb (Finset.mem_image.mpr ⟨2, Finset.mem_univ _, (List.mem_singleton.mp h).symm⟩))
    rw [Pipeline.unscopedBufs_held] at hjoin
    imodintro
    isplitl [Ha Hrest HY]
    · iexists (A 2)
      isplitl [Ha Hrest]
      · iapply hjoin; isplitl [Ha] <;> iassumption
      iexact HY
    unfold Pipeline.RDat.owesAt Pipeline.owesWithin
    icases HO with ⟨%W, -, HO⟩; iexists W; iexact HO

/-! ## @main as segments, and the launch -/

/-- @main's nine segments in order. -/
abbrev segsR : List (Pipeline.RDat.Seg (pcfgs (F := F)) admH (rdatsH m ρ) () defs₀ 𝒱H LH lvH) :=
  [ .host (hseg hostOps0 hostOps0_sub hostOps0_fresh (Wv0 m ρ)),
    .region (regR0 m ρ),
    .host (hseg hostOps1 hostOps1_sub hostOps1_fresh (Wv2 m ρ)),
    .region (regR1 m ρ),
    .region (regR2 m ρ),
    .region (regR3 m ρ),
    .region (regR4 m ρ),
    .host (hseg hostOps5 hostOps5_sub hostOps5_fresh (Wv7 m ρ)),
    .region (regR5 m ρ) ]
/-- @main is the run of the segments. -/
theorem main_runR (c : Dev nD) : main (F := F) c = Pipeline.RDat.Seg.run (segsR m ρ) :=
  (main_chain c).trans (by chain_rfl)

set_option backward.isDefEq.respectTransparency.types false in
/-- THE RUN, the decoder's result unnamed: from any memory with zero counters every weakly fair execution of @main
    on the TensorCores terminates, nothing faulting, and every final memory holds every unscoped buffer but the
    decoder's result at the last boundary's contents. -/
theorem run_valsR :
    θ_run defs (onTc (τ := τ) (main (F := F))) ⟨m, fun _ => 0, ρ⟩ (fun r => ∀ c : Dev nD,
      ∃ X, ∀ b ∈ Pipeline.ucRefs τ sig, r.2.mem (((c : Thread nD τ)).1, b) = WvX m ρ c X b) :=
  Pipeline.RDat.θ_run_regions_kit (pcfgs (F := F)) admH (rdatsH m ρ) () cellOf_inj emb₁ defs₀ 𝒱H LH lvH m ρ main (segsR m ρ)
    (fun c Q => by rw [main_runR m ρ c])
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ RR c)) (Tₙ := TnR m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∃ X, ∀ b ∈ Pipeline.ucRefs τ sig, s.mem (((c : Thread nD τ)).1, b) = WvX m ρ c X b)
    (hfin := fun c s' => by
      iintro ⟨⟨%X, Hh, -⟩, HSI⟩
      unfold StableHlo.held
      ihave H := (pointsTo_read_all (Pipeline.ucRefs τ sig) (fun b => (((c : Thread nD τ)).1, b)) (WvX m ρ c X) s') $$ [Hh HSI]
      · isplitl [Hh] <;> iassumption
      icases H with ⟨%hq, HSI⟩
      imodintro
      isplitr; · ipureintro; exact ⟨X, hq⟩
      iexact HSI)
    (hQ := fun s h => h)

/-- The frame at any float instance: every argument array ends as launched. -/
theorem frame_any :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    obtain ⟨X, hX⟩ := h c
    exact ⟨
      (hX _ (mem_uc main_arg0 (by decide))).trans (WvX_launch m ρ c X main_arg0 (by decide) (by decide) (by decide) (by decide) (by decide) (by decide) (by decide) (by decide) (by decide)),
      (hX _ (mem_uc main_arg1 (by decide))).trans (WvX_launch m ρ c X main_arg1 (by decide) (by decide) (by decide) (by decide) (by decide) (by decide) (by decide) (by decide) (by decide)),
      (hX _ (mem_uc main_arg2 (by decide))).trans (WvX_launch m ρ c X main_arg2 (by decide) (by decide) (by decide) (by decide) (by decide) (by decide) (by decide) (by decide) (by decide)),
      (hX _ (mem_uc main_arg3 (by decide))).trans (WvX_launch m ρ c X main_arg3 (by decide) (by decide) (by decide) (by decide) (by decide) (by decide) (by decide) (by decide) (by decide)),
      (hX _ (mem_uc main_arg4 (by decide))).trans (WvX_launch m ρ c X main_arg4 (by decide) (by decide) (by decide) (by decide) (by decide) (by decide) (by decide) (by decide) (by decide)),
      (hX _ (mem_uc main_arg5 (by decide))).trans (WvX_launch m ρ c X main_arg5 (by decide) (by decide) (by decide) (by decide) (by decide) (by decide) (by decide) (by decide) (by decide)),
      (hX _ (mem_uc main_arg6 (by decide))).trans (WvX_launch m ρ c X main_arg6 (by decide) (by decide) (by decide) (by decide) (by decide) (by decide) (by decide) (by decide) (by decide)),
      (hX _ (mem_uc main_arg7 (by decide))).trans (WvX_launch m ρ c X main_arg7 (by decide) (by decide) (by decide) (by decide) (by decide) (by decide) (by decide) (by decide) (by decide)),
      (hX _ (mem_uc main_arg8 (by decide))).trans (WvX_launch m ρ c X main_arg8 (by decide) (by decide) (by decide) (by decide) (by decide) (by decide) (by decide) (by decide) (by decide)),
      (hX _ (mem_uc main_arg9 (by decide))).trans (WvX_launch m ρ c X main_arg9 (by decide) (by decide) (by decide) (by decide) (by decide) (by decide) (by decide) (by decide) (by decide)),
      (hX _ (mem_uc main_arg10 (by decide))).trans (WvX_launch m ρ c X main_arg10 (by decide) (by decide) (by decide) (by decide) (by decide) (by decide) (by decide) (by decide) (by decide)),
      (hX _ (mem_uc main_arg11 (by decide))).trans (WvX_launch m ρ c X main_arg11 (by decide) (by decide) (by decide) (by decide) (by decide) (by decide) (by decide) (by decide) (by decide)),
      (hX _ (mem_uc main_arg12 (by decide))).trans (WvX_launch m ρ c X main_arg12 (by decide) (by decide) (by decide) (by decide) (by decide) (by decide) (by decide) (by decide) (by decide)),
      (hX _ (mem_uc main_arg13 (by decide))).trans (WvX_launch m ρ c X main_arg13 (by decide) (by decide) (by decide) (by decide) (by decide) (by decide) (by decide) (by decide) (by decide)),
      (hX _ (mem_uc main_arg14 (by decide))).trans (WvX_launch m ρ c X main_arg14 (by decide) (by decide) (by decide) (by decide) (by decide) (by decide) (by decide) (by decide) (by decide))⟩) (run_valsR m ρ)

end Cert.KernelIdeal.Hand

end
-- ==== Proof.KRegion0.lean ====
import proofs.«118927_g481036337836_cont_8to1_c_48_4_alg».proof.Proof.Gen.Kernel.Launch
import proofs.«118927_g481036337836_cont_8to1_c_48_4_alg».proof.Proof.Gen.Kernel.Skeleton
import proofs.«118927_g481036337836_cont_8to1_c_48_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of region 0: at a parameter `V` (the buffer contents when the region is entered), each window's
    block at a point, what the body leaves in each output window's buffer, the body's triple, the pipeline's proof
    data and its body obligation. Stated for any float instance.

    Region 0 has one point and its three windows are whole arrays: the body loads the [10000,128] features and the
    [128,32] weights and stores their product, [10000,32], once. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place (unfetched, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place (unfetched, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x128 := Rect.unit (s := S10000x128) ![0, 0] S10000x128.size inb_S10000x128_S10000x128_0_0
abbrev r0_1 : Rect S128x32 := Rect.unit (s := S128x32) ![0, 0] S128x32.size inb_S128x32_S128x32_0_0
abbrev r0_2 : Rect S10000x32 := Rect.unit (s := S10000x32) ![0, 0] S10000x32.size inb_S10000x32_S10000x32_0_0

/-! ## What the body leaves in the output window's buffer -/

/-- Window 2's staging buffer after the body, from the input windows' blocks: its one store as pieces. -/
def out0_2 (x0 : Vec F S10000x128 .bf16) (x1 : Vec F S128x32 .bf16) : Vec F S10000x32 .bf16 :=
  View.canon [⟨r0_2, k0_pay1 (View.ld x0 r0_0) (View.ld x1 r0_1)⟩]

/-- The store tiles the buffer, so it covers it. -/
theorem cover0_2 (p0 : Vec F S10000x32 .bf16) (y : S10000x32.Idx) :
    ∃ pc ∈ ([⟨r0_2, p0⟩] : List (View.Piece (Elt F) S10000x32 .bf16)), y ∈ pc.1.set :=
  View.cover_of_tiled [⟨r0_2, p0⟩] S10000x32.size (by rfl) y

/-! ## The body's triple -/

set_option maxHeartbeats 1000000 in
/-- The kernel body on whole staging memrefs, the inputs' at read contents and the output's at anything, runs to
    the continuation holding the inputs' as they were and the output's at `out0_2` of the inputs'. -/
theorem sound_kernel0 (c : Dev nD) (E : Set ℕ) (arg0 : Memref sig .tc .vmem S10000x128 .bf16) (harg0 : arg0.IsWhole) (arg1 : Memref sig .tc .vmem S128x32 .bf16) (harg1 : arg1.IsWhole) (arg2 : Memref sig .tc .vmem S10000x32 .bf16) (harg2 : arg2.IsWhole)
    (x0 : Vec F S10000x128 .bf16) (x1 : Vec F S128x32 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__proj_kernel arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the scoped rest
    and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
import proofs.«118927_g481036337836_cont_8to1_c_48_4_alg».proof.Proof.Gen.Kernel.Launch
import proofs.«118927_g481036337836_cont_8to1_c_48_4_alg».proof.Proof.Gen.Kernel.Skeleton
import proofs.«118927_g481036337836_cont_8to1_c_48_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of region 1: at a parameter `V` (the buffer contents when the region is entered), each window's
    block at a point, what the body leaves in each output window's buffer, the body's triple, the pipeline's proof
    data and its body obligation. Stated for any float instance.

    Region 1 runs over 25 blocks of 400 rows of the adjacency matrix. At each point the body loads the block, the
    whole [10000,32] operand and the [32,16] weights, and stores two whole blocks: the adjacency block in the narrower
    float format, and max(block · operand, 0) · weights. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place (unfetched, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place (unfetched, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S400x10000 := Rect.unit (s := S400x10000) ![0, 0] S400x10000.size inb_S400x10000_S400x10000_0_0
abbrev r1_1 : Rect S10000x32 := Rect.unit (s := S10000x32) ![0, 0] S10000x32.size inb_S10000x32_S10000x32_0_0
abbrev r1_2 : Rect S32x16 := Rect.unit (s := S32x16) ![0, 0] S32x16.size inb_S32x16_S32x16_0_0
abbrev r1_3 : Rect S400x10000 := Rect.unit (s := S400x10000) ![0, 0] S400x10000.size inb_S400x10000_S400x10000_0_0
abbrev r1_4 : Rect S400x16 := Rect.unit (s := S400x16) ![0, 0] S400x16.size inb_S400x16_S400x16_0_0

/-! ## What the body leaves in each output window's buffer -/

/-- Window 3's staging buffer after the body, from the input windows' blocks: its one store as pieces. -/
def out1_3 (x0 : Vec F S400x10000 .f32) : Vec F S400x10000 .bf16 :=
  View.canon [⟨r1_3, k1_pay1 (View.ld x0 r1_0)⟩]

/-- Window 4's staging buffer after the body, from the input windows' blocks: its one store as pieces. -/
def out1_4 (x0 : Vec F S400x10000 .f32) (x1 : Vec F S10000x32 .bf16) (x2 : Vec F S32x16 .bf16) : Vec F S400x16 .bf16 :=
  View.canon [⟨r1_4, k1_pay2 (View.ld x0 r1_0) (View.ld x1 r1_1) (View.ld x2 r1_2)⟩]

/-- The store tiles the buffer, so it covers it. -/
theorem cover1_3 (p0 : Vec F S400x10000 .bf16) (y : S400x10000.Idx) :
    ∃ pc ∈ ([⟨r1_3, p0⟩] : List (View.Piece (Elt F) S400x10000 .bf16)), y ∈ pc.1.set :=
  View.cover_of_tiled [⟨r1_3, p0⟩] S400x10000.size (by rfl) y

theorem cover1_4 (p0 : Vec F S400x16 .bf16) (y : S400x16.Idx) :
    ∃ pc ∈ ([⟨r1_4, p0⟩] : List (View.Piece (Elt F) S400x16 .bf16)), y ∈ pc.1.set :=
  View.cover_of_tiled [⟨r1_4, p0⟩] S400x16.size (by rfl) y

/-! ## The body's triple -/

set_option maxHeartbeats 1000000 in
/-- The kernel body on whole staging memrefs, the inputs' at read contents and the outputs' at anything, runs to
    the continuation holding the inputs' as they were and each output's at `out1_W` of the inputs'. -/
theorem sound_kernel1 (c : Dev nD) (E : Set ℕ) (i : grid1.Coords) (arg1 : Memref sig .tc .vmem S400x10000 .f32) (harg1 : arg1.IsWhole) (arg2 : Memref sig .tc .vmem S10000x32 .bf16) (harg2 : arg2.IsWhole) (arg3 : Memref sig .tc .vmem S32x16 .bf16) (harg3 : arg3.IsWhole) (arg4 : Memref sig .tc .vmem S400x10000 .bf16) (harg4 : arg4.IsWhole) (arg5 : Memref sig .tc .vmem S400x16 .bf16) (harg5 : arg5.IsWhole)
    (x0 : Vec F S400x10000 .f32) (x1 : Vec F S10000x32 .bf16) (x2 : Vec F S32x16 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0) ∗ owns (c : Thread nD τ) arg5 fullShare (out1_4 x0 x1 x2)) -∗ K ⟨⟩))
      ⊢ wp frame (wpE (defs₀ (F := F)) Variants.none c none) E (cc1__pass1_kernel i arg1 harg1 arg2 harg2 arg3 harg3 arg4 harg4 arg5 harg5) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the scoped rest
    and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/- Region 2 of the program's run, as a pipeline of the TensorCore: what each window's staging buffer holds
   when the body is called at a grid point, what the body leaves in each output window's buffer (its stores over
   the values it loaded), the body's triple, the proof data of the pipeline at ANY contents `V` of the core's
   buffers on entry, and the body obligation. Everything here holds at every float instance.

   Region 2 runs over 25 blocks of 400 rows of the adjacency matrix. At each point the body loads the block, the whole
   [10000,16] operand, the scale and shift rows [1,16] and the [16,64] weights, and stores the whole [400,64] block
   (max(block · operand, 0) * scale + shift) · weights once. -/
import proofs.«118927_g481036337836_cont_8to1_c_48_4_alg».proof.Proof.Gen.Kernel.Launch
import proofs.«118927_g481036337836_cont_8to1_c_48_4_alg».proof.Proof.Gen.Kernel.Skeleton
import proofs.«118927_g481036337836_cont_8to1_c_48_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (unfetched, its block
    index has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not (unfetched, its block
    index has not moved), for any proof data over `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not (unfetched, its block
    index has not moved), for any proof data over `V` whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not (unfetched, its block
    index has not moved), for any proof data over `V` whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not (unfetched, its block
    index has not moved), for any proof data over `V` whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole buffer -/

abbrev r2_S400x10000 : Rect S400x10000 := Rect.unit (s := S400x10000) ![0, 0] S400x10000.size inb_S400x10000_S400x10000_0_0
abbrev r2_S10000x16 : Rect S10000x16 := Rect.unit (s := S10000x16) ![0, 0] S10000x16.size inb_S10000x16_S10000x16_0_0
abbrev r2_S1x16 : Rect S1x16 := Rect.unit (s := S1x16) ![0, 0] S1x16.size inb_S1x16_S1x16_0_0
abbrev r2_S16x64 : Rect S16x64 := Rect.unit (s := S16x64) ![0, 0] S16x64.size inb_S16x64_S16x64_0_0
abbrev r2_S400x64 : Rect S400x64 := Rect.unit (s := S400x64) ![0, 0] S400x64.size inb_S400x64_S400x64_0_0

/-! ## What the body leaves in each output window's buffer -/

/-- Window 5's staging buffer after the body: its one store, of the whole buffer, of the body's value of the
    loaded input buffers. -/
def out2_5 (x0 : Vec F S400x10000 .bf16) (x1 : Vec F S10000x16 .bf16) (x2 : Vec F S1x16 .f32) (x3 : Vec F S1x16 .f32) (x4 : Vec F S16x64 .bf16) : Vec F S400x64 .bf16 :=
  View.canon [⟨r2_S400x64, k2_pay1 (View.ld x0 r2_S400x10000) (View.ld x1 r2_S10000x16) (View.ld x2 r2_S1x16) (View.ld x3 r2_S1x16) (View.ld x4 r2_S16x64)⟩]

/-- The one store covers the buffer. -/
theorem cover2_5 (p0 : Vec F S400x64 .bf16) (y : S400x64.Idx) :
    ∃ pc ∈ ([⟨r2_S400x64, p0⟩] : List (View.Piece (Elt F) S400x64 .bf16)), y ∈ pc.1.set :=
  View.cover_of_tiled [⟨r2_S400x64, p0⟩] S400x64.size (by rfl) y

/-! ## The body's triple -/

set_option maxHeartbeats 4000000 in
/-- The body on whole staging buffers, the inputs' at contents `x` and the outputs' at anything, runs to a state
    holding the inputs' as they were and each output's at its `out` of the inputs'. -/
theorem sound_kernel2 (c : Dev nD) (E : Set ℕ) (i : grid2.Coords) (arg1 : Memref sig .tc .vmem S400x10000 .bf16) (harg1 : arg1.IsWhole) (arg2 : Memref sig .tc .vmem S10000x16 .bf16) (harg2 : arg2.IsWhole) (arg3 : Memref sig .tc .vmem S1x16 .f32) (harg3 : arg3.IsWhole) (arg4 : Memref sig .tc .vmem S1x16 .f32) (harg4 : arg4.IsWhole) (arg5 : Memref sig .tc .vmem S16x64 .bf16) (harg5 : arg5.IsWhole) (arg6 : Memref sig .tc .vmem S400x64 .bf16) (harg6 : arg6.IsWhole)
    (x0 : Vec F S400x10000 .bf16) (x1 : Vec F S10000x16 .bf16) (x2 : Vec F S1x16 .f32) (x3 : Vec F S1x16 .f32) (x4 : Vec F S16x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__pass2_kernel i arg1 harg1 arg2 harg2 arg3 harg3 arg4 harg4 arg5 harg5 arg6 harg6) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t` each
    input's buffer at its block and each output's at its `out` of the input blocks; the invariant keeps the rest of the
    core's state untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3.lean ====
/- Region 3 of the program's run, as a pipeline of the TensorCore: what each window's staging buffer holds
   when the body is called at a grid point, what the body leaves in each output window's buffer (its stores over
   the values it loaded), the body's triple, the proof data of the pipeline at ANY contents `V` of the core's
   buffers on entry, and the body obligation. Everything here holds at every float instance.

   Region 3 runs over 25 blocks of 400 rows of the adjacency matrix. At each point the body loads the block, the whole
   [10000,64] operand, the scale and shift rows [1,64] and the [64,128] weights, and stores two whole blocks: the layer
   h = max(block · operand, 0) * scale + shift, [400,64], and the product h · weights, [400,128]. -/
import proofs.«118927_g481036337836_cont_8to1_c_48_4_alg».proof.Proof.Gen.Kernel.Launch
import proofs.«118927_g481036337836_cont_8to1_c_48_4_alg».proof.Proof.Gen.Kernel.Skeleton
import proofs.«118927_g481036337836_cont_8to1_c_48_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not (unfetched, its block
    index has not moved), for any proof data over `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point, fetched there or not (unfetched, its block
    index has not moved), for any proof data over `V` whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point, fetched there or not (unfetched, its block
    index has not moved), for any proof data over `V` whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every point, fetched there or not (unfetched, its block
    index has not moved), for any proof data over `V` whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds its block at every point, fetched there or not (unfetched, its block
    index has not moved), for any proof data over `V` whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is a whole buffer -/

abbrev r3_S400x10000 : Rect S400x10000 := Rect.unit (s := S400x10000) ![0, 0] S400x10000.size inb_S400x10000_S400x10000_0_0
abbrev r3_S10000x64 : Rect S10000x64 := Rect.unit (s := S10000x64) ![0, 0] S10000x64.size inb_S10000x64_S10000x64_0_0
abbrev r3_S1x64 : Rect S1x64 := Rect.unit (s := S1x64) ![0, 0] S1x64.size inb_S1x64_S1x64_0_0
abbrev r3_S64x128 : Rect S64x128 := Rect.unit (s := S64x128) ![0, 0] S64x128.size inb_S64x128_S64x128_0_0
abbrev r3_S400x64 : Rect S400x64 := Rect.unit (s := S400x64) ![0, 0] S400x64.size inb_S400x64_S400x64_0_0
abbrev r3_S400x128 : Rect S400x128 := Rect.unit (s := S400x128) ![0, 0] S400x128.size inb_S400x128_S400x128_0_0

/-! ## What the body leaves in each output window's buffer -/

/-- Window 5's staging buffer after the body: its one store, of the whole buffer, of the body's value of the
    loaded input buffers. -/
def out3_5 (x0 : Vec F S400x10000 .bf16) (x1 : Vec F S10000x64 .bf16) (x2 : Vec F S1x64 .f32) (x3 : Vec F S1x64 .f32) : Vec F S400x64 .f32 :=
  View.canon [⟨r3_S400x64, k3_pay1 (View.ld x0 r3_S400x10000) (View.ld x1 r3_S10000x64) (View.ld x2 r3_S1x64) (View.ld x3 r3_S1x64)⟩]

/-- The one store covers the buffer. -/
theorem cover3_5 (p0 : Vec F S400x64 .f32) (y : S400x64.Idx) :
    ∃ pc ∈ ([⟨r3_S400x64, p0⟩] : List (View.Piece (Elt F) S400x64 .f32)), y ∈ pc.1.set :=
  View.cover_of_tiled [⟨r3_S400x64, p0⟩] S400x64.size (by rfl) y

/-- Window 6's staging buffer after the body: its one store, of the whole buffer, of the body's value of the
    loaded input buffers. -/
def out3_6 (x0 : Vec F S400x10000 .bf16) (x1 : Vec F S10000x64 .bf16) (x2 : Vec F S1x64 .f32) (x3 : Vec F S1x64 .f32) (x4 : Vec F S64x128 .bf16) : Vec F S400x128 .bf16 :=
  View.canon [⟨r3_S400x128, k3_pay2 (View.ld x0 r3_S400x10000) (View.ld x1 r3_S10000x64) (View.ld x2 r3_S1x64) (View.ld x3 r3_S1x64) (View.ld x4 r3_S64x128)⟩]

/-- The one store covers the buffer. -/
theorem cover3_6 (p0 : Vec F S400x128 .bf16) (y : S400x128.Idx) :
    ∃ pc ∈ ([⟨r3_S400x128, p0⟩] : List (View.Piece (Elt F) S400x128 .bf16)), y ∈ pc.1.set :=
  View.cover_of_tiled [⟨r3_S400x128, p0⟩] S400x128.size (by rfl) y

/-! ## The body's triple -/

set_option maxHeartbeats 4000000 in
/-- The body on whole staging buffers, the inputs' at contents `x` and the outputs' at anything, runs to a state
    holding the inputs' as they were and each output's at its `out` of the inputs'. -/
theorem sound_kernel3 (c : Dev nD) (E : Set ℕ) (i : grid3.Coords) (arg1 : Memref sig .tc .vmem S400x10000 .bf16) (harg1 : arg1.IsWhole) (arg2 : Memref sig .tc .vmem S10000x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .bf16) (harg5 : arg5.IsWhole) (arg6 : Memref sig .tc .vmem S400x64 .f32) (harg6 : arg6.IsWhole) (arg7 : Memref sig .tc .vmem S400x128 .bf16) (harg7 : arg7.IsWhole)
    (x0 : Vec F S400x10000 .bf16) (x1 : Vec F S10000x64 .bf16) (x2 : Vec F S1x64 .f32) (x3 : Vec F S1x64 .f32) (x4 : Vec F S64x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3) ∗ owns (c : Thread nD τ) arg7 fullShare (out3_6 x0 x1 x2 x3 x4)) -∗ K ⟨⟩))
      ⊢ wp frame (wpE (defs₀ (F := F)) Variants.none c none) E (cc3__pass3_kernel i arg1 harg1 arg2 harg2 arg3 harg3 arg4 harg4 arg5 harg5 arg6 harg6 arg7 harg7) K := by
  simp only [cc3__pass3_kernel_eq_skeleton]; unfold cc3__pass3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_6 _)

/-! ## The pipeline's proof data -/

/-- The proof data of pipeline 3 on core `c`: the arrays as the region finds them; after the body at point `t` each
    input's buffer at its block and each output's at its `out` of the input blocks; the invariant keeps the rest of the
    core's state untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

/-- Each input's staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' buffers hold their blocks, so the body's triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRegion4.lean ====
/- Region 4 of @main (the fourth graph-convolution pass): the kernel body's effect on its staging buffers and the
   pipeline's proof data, at any float instance and at any contents of the TensorCore's buffers on entry.

   The body reads four whole windows — a block of 400 rows of the adjacency matrix, the whole [10000,128] operand, and the
   scale and shift rows [1,128] — and stores the whole [400,128] output block once:
   max(block · operand, 0) * scale + shift. -/
import proofs.«118927_g481036337836_cont_8to1_c_48_4_alg».proof.Proof.Gen.Kernel.Launch
import proofs.«118927_g481036337836_cont_8to1_c_48_4_alg».proof.Proof.Gen.Kernel.Skeleton
import proofs.«118927_g481036337836_cont_8to1_c_48_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (unfetched, the
    block index has not moved), for any proof data whose array is the entry contents and whose body leaves the block
    in place. Window 0: the 400 adjacency rows of the point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Window 1: the whole [10000,128] operand. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Window 2: the scale row. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Window 3: the shift row. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is a whole buffer -/

abbrev r4_0 : Rect S400x10000 := Rect.unit (s := S400x10000) ![0, 0] S400x10000.size inb_S400x10000_S400x10000_0_0
abbrev r4_1 : Rect S10000x128 := Rect.unit (s := S10000x128) ![0, 0] S10000x128.size inb_S10000x128_S10000x128_0_0
abbrev r4_2 : Rect S1x128 := Rect.unit (s := S1x128) ![0, 0] S1x128.size inb_S1x128_S1x128_0_0
abbrev r4_3 : Rect S400x128 := Rect.unit (s := S400x128) ![0, 0] S400x128.size inb_S400x128_S400x128_0_0

/-! ## What the body leaves in the output window's buffer -/

/-- Window 4's staging buffer after the body, from the input windows' blocks: its one store, of the whole block. -/
def out4_4 (x0 : Vec F S400x10000 .bf16) (x1 : Vec F S10000x128 .bf16) (x2 : Vec F S1x128 .f32) (x3 : Vec F S1x128 .f32) : Vec F S400x128 .f32 :=
  View.canon [⟨r4_3, k4_pay1 (View.ld x0 r4_0) (View.ld x1 r4_1) (View.ld x2 r4_2) (View.ld x3 r4_2)⟩]

/-- The one store covers the buffer. -/
theorem cover4_4 (p0 : Vec F S400x128 .f32) (y : S400x128.Idx) :
    ∃ pc ∈ ([⟨r4_3, p0⟩] : List (View.Piece (Elt F) S400x128 .f32)), y ∈ pc.1.set :=
  View.cover_of_tiled [⟨r4_3, p0⟩] S400x128.size (by rfl) y

/-! ## The body's triple -/

set_option maxHeartbeats 1000000 in
/-- The kernel body on whole staging memrefs, the inputs' at contents x0..x3 and the output's at anything, runs to the
    continuation holding the inputs' as they were and the output's at out4_4 of the inputs'. -/
theorem sound_kernel4 (c : Dev nD) (E : Set ℕ) (i : grid4.Coords)
    (arg1 : Memref sig .tc .vmem S400x10000 .bf16) (harg1 : arg1.IsWhole) (arg2 : Memref sig .tc .vmem S10000x128 .bf16) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S400x128 .f32) (harg5 : arg5.IsWhole)
    (x0 : Vec F S400x10000 .bf16) (x1 : Vec F S10000x128 .bf16) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__pass4_kernel i arg1 harg1 arg2 harg2 arg3 harg3 arg4 harg4 arg5 harg5) K := by
  simp only [cc4__pass4_kernel_eq_skeleton]; unfold cc4__pass4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core c: the arrays as the region finds them; after the body at point t each
    input's buffer at its block and the output's at out4_4 of the input blocks; the invariant is the untouched rest;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and the
    core's owed tallies pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.KRegion5.lean ====
/- Region 5 of @main (the inner-product decoder): the kernel body's effect on its staging buffers and the pipeline's
   proof data, at any float instance and at any contents of the TensorCore's buffers on entry.

   The grid is 10 × 10. At point (i, j) the body reads two blocks of 1024 rows of ONE [10000,32] array — rows block i and
   rows block j — and stores the whole [1024,1024] block (i, j) of the result: a · bᵀ, both operands contracted along
   their second axis. Ten blocks of 1024 rows overhang the 10000 rows of the array: block 9 has 784 rows inside it.
   A transfer of an edge block moves those rows only; past them an input staging buffer holds words nothing names, the
   body multiplies them all the same, and the write-back drops the rows and columns of the product that lie past the
   array's end. So what a point leaves in the result array is determined by the blocks only if an entry of the product
   reads nothing but its own row of each operand: a property of the float instance's product, stated here as a
   hypothesis (Local5) and proved where the product is a sum. -/
import proofs.«118927_g481036337836_cont_8to1_c_48_4_alg».proof.Proof.Gen.Kernel.Launch
import proofs.«118927_g481036337836_cont_8to1_c_48_4_alg».proof.Proof.Gen.Kernel.Skeleton
import proofs.«118927_g481036337836_cont_8to1_c_48_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it: the part of the block inside the array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The zero word: what the proof data puts past the array's end, where nothing reads. -/
abbrev z5 : S1024x32.Idx → Elt F .f32 := fun _ => Scalar.ofBits .f32 0#32

/-- Rows block i of the array, filled out to 1024 rows with the zero word. -/
def in5_0 (c : Dev nD) (t : Fin cfg5.N) : Vec F S1024x32 .f32 := win5_0.fill (grid5.coords t) z5 (iblk5 V c 0 t)
/-- Rows block j of the array, filled out to 1024 rows with the zero word. -/
def in5_1 (c : Dev nD) (t : Fin cfg5.N) : Vec F S1024x32 .f32 := win5_1.fill (grid5.coords t) z5 (iblk5 V c 1 t)
/-- The product of the two filled blocks: what the proof data names in the result's staging buffer. -/
def out5_2 (c : Dev nD) (t : Fin cfg5.N) : Vec F S1024x1024 .f32 := k5_pay1 (in5_0 V c t) (in5_1 V c t)

/-- An entry of the product inside the result array does not depend on what fills the operands' staging buffers
    past the array's end. -/
def Local5 (c : Dev nD) : Prop :=
  ∀ (t : Fin cfg5.N) (d0 d1 : S1024x32.Idx → Elt F .f32),
    win5_2.cut (grid5.coords t) (k5_pay1 (win5_0.fill (grid5.coords t) d0 (iblk5 V c 0 t)) (win5_1.fill (grid5.coords t) d1 (iblk5 V c 1 t)))
      = win5_2.cut (grid5.coords t) (out5_2 V c t)

/-! ## The pipeline's proof data -/

/-- The proof data of pipeline 5 on core c: the arrays as the region finds them; after the body at point t each
    input's buffer at its block filled out with zeros and the result's at their product; the invariant is the
    untouched rest; nothing owed; the two input windows hold the two halves of the one array's share. -/
def dat5 (c : Dev nD) : Dat τ (Elt F) Unit ℕ (UR sig nD τ) ℕ cfg5 c where
  A w := V c (Pipeline.arrRef spec5 w)
  after w t := match w with
    | ⟨0, _⟩ => in5_0 V c t
    | ⟨1, _⟩ => in5_1 V c t
    | ⟨2, _⟩ => out5_2 V c t
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = in5_0 V c t := by dsimp only [dat5]
theorem after5_1 (c : Dev nD) (t : Fin cfg5.N) : (dat5 V c).after 1 t = in5_1 V c t := by dsimp only [dat5]
theorem after5_2 (c : Dev nD) (t : Fin cfg5.N) : (dat5 V c).after 2 t = out5_2 V c t := by dsimp only [dat5]

/-! ## What the body finds in its buffers -/

/-- An input window's cut is a function of its block index. -/
theorem hclip5_0 (t t' : Fin cfg5.N) (h : (cfg5.win 0).index t = (cfg5.win 0).index t') :
    (cfg5.win 0).clip (cfg5.grid.coords t) = (cfg5.win 0).clip (cfg5.grid.coords t') := by
  funext a
  show Pipeline.Clip.of ((cfg5.win 0).index t a) _ _ = Pipeline.Clip.of ((cfg5.win 0).index t' a) _ _
  rw [h]
theorem hclip5_1 (t t' : Fin cfg5.N) (h : (cfg5.win 1).index t = (cfg5.win 1).index t') :
    (cfg5.win 1).clip (cfg5.grid.coords t) = (cfg5.win 1).clip (cfg5.grid.coords t') := by
  funext a
  show Pipeline.Clip.of ((cfg5.win 1).index t a) _ _ = Pipeline.Clip.of ((cfg5.win 1).index t' a) _ _
  rw [h]

/-- Rows block i's buffer holds, at every point, the block on the rows inside the array and d past them — fetched there
    or not: unfetched, the block index has not moved. -/
theorem before5_0 (c : Dev nD) (t : Fin cfg5.N) (d) :
    (dat5 V c).before 0 t d = win5_0.fill (grid5.coords t) d (iblk5 V c 0 t) :=
  ((dat5 V c).before_in_eq_fetched 0 rfl (fun _ => rfl) hclip5_0
    (fun t => by rw [after5_0]; exact win5_0.cut_fill _ _ _) t d).trans (by unfold Dat.fetched Dat.blockOf iblk5; rfl)
/-- Rows block j's buffer likewise. -/
theorem before5_1 (c : Dev nD) (t : Fin cfg5.N) (d) :
    (dat5 V c).before 1 t d = win5_1.fill (grid5.coords t) d (iblk5 V c 1 t) :=
  ((dat5 V c).before_in_eq_fetched 1 rfl (fun _ => rfl) hclip5_1
    (fun t => by rw [after5_1]; exact win5_1.cut_fill _ _ _) t d).trans (by unfold Dat.fetched Dat.blockOf iblk5; rfl)
/-- The result's buffer holds anything: every point writes it back. -/
theorem before5_2 (c : Dev nD) (t : Fin cfg5.N) (d) : (dat5 V c).before 2 t d = d :=
  (dat5 V c).before_out_reset 2 rfl t
    (by
      by_cases h0 : t.val = 0
      · exact .inl h0
      · exact .inr ⟨h0, flush5_2 _⟩) d

/-! ## The body's accesses: each is a whole buffer -/

abbrev r5_0 : Rect S1024x32 := Rect.unit (s := S1024x32) ![0, 0] S1024x32.size inb_S1024x32_S1024x32_0_0
abbrev r5_2 : Rect S1024x1024 := Rect.unit (s := S1024x1024) ![0, 0] S1024x1024.size inb_S1024x1024_S1024x1024_0_0

theorem hz5 : (![0, 0] : Fin 2 → Nat) = fun _ => 0 := funext fun a => by fin_cases a <;> rfl

/-- The result's staging buffer after the body, from the contents of the two operands' buffers: its one store, of the
    whole block, as a list of pieces. -/
def out5c (x0 x1 : Vec F S1024x32 .f32) : Vec F S1024x1024 .f32 :=
  View.canon [⟨r5_2, k5_pay1 (View.ld x0 r5_0) (View.ld x1 r5_0)⟩]

/-- The one store covers the buffer. -/
theorem cover5_2 (p0 : Vec F S1024x1024 .f32) (y : S1024x1024.Idx) :
    ∃ pc ∈ ([⟨r5_2, p0⟩] : List (View.Piece (Elt F) S1024x1024 .f32)), y ∈ pc.1.set :=
  View.cover_of_tiled [⟨r5_2, p0⟩] S1024x1024.size (by rfl) y

/-- The loads read the whole buffers and the store writes the whole block: the buffer ends holding the product. -/
theorem out5c_eq (x0 x1 : Vec F S1024x32 .f32) : out5c x0 x1 = k5_pay1 x0 x1 := by
  unfold out5c
  rw [View.canon_unit_zero hz5]
  simp only [View.ld_unit_zero (S := S1024x32) hz5]

/-! ## The body's triple -/

set_option maxHeartbeats 1000000 in
/-- The kernel body on whole staging memrefs, the operands' at contents x0, x1 and the result's at anything, runs to the
    continuation holding the operands' as they were and the result's at their product. -/
theorem sound_kernel5 (c : Dev nD) (E : Set ℕ) (i : grid5.Coords)
    (arg2 : Memref sig .tc .vmem S1024x32 .f32) (harg2 : arg2.IsWhole) (arg3 : Memref sig .tc .vmem S1024x32 .f32) (harg3 : arg3.IsWhole)
    (arg4 : Memref sig .tc .vmem S1024x1024 .f32) (harg4 : arg4.IsWhole)
    (x0 x1 : Vec F S1024x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k5_pay1 x0 x1)) -∗ K ⟨⟩))
      ⊢ wp frame (wpE (defs₀ (F := F)) Variants.none c none) E (cc5__dec_kernel i arg2 harg2 arg3 harg3 arg4 harg4) K := by
  rw [← out5c_eq]
  simp only [cc5__dec_kernel_eq_skeleton]; unfold cc5__dec_kernel_skel
  unfold owns
  iintro ⟨⟨%f0, %hf0, H0⟩, ⟨%f1, %hf1, H1⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  exact View.read_writes_eq_canon _ _ _ (cover5_2 _)

/-! ## The body obligation -/

/-- At every point: the operands' buffers arrive holding their blocks filled out with anything past the array's end, the
    result's holding anything; the body leaves the operands' as they were and the result's at their product, whose part
    inside the result array is the named product's (Local5) — all a window cut at the array's end is asked. -/
theorem body_obligation5 (c : Dev nD) (hloc : Local5 V c) :
    BodyObligationLoose (dat5 (F := F) V c) (defs₀ (F := F)) Variants.none () Set.univ := fun t => by
  rw [bigSep_W5, bigSep_W5]
  simp only
  rw [show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩⟩
  rw [before5_0 V c t d0, before5_1 V c t d1]
  iapply (sound_kernel5 (F := F) c Set.univ (grid5.coords t)
    (win5_0.stage (cfg5.slots t 0)) (hstage5_0 ((cfg5.slots t 0).cast nbuf5_0)) (win5_1.stage (cfg5.slots t 1)) (hstage5_1 ((cfg5.slots t 1).cast nbuf5_1))
    (win5_2.stage (cfg5.slots t 2)) (hstage5_2 ((cfg5.slots t 2).cast nbuf5_2))
    (win5_0.fill (grid5.coords t) d0 (iblk5 V c 0 t)) (win5_1.fill (grid5.coords t) d1 (iblk5 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win5_0.cut (grid5.coords t) ((dat5 V c).after 0 t) = iblk5 V c 0 t := by
    rw [after5_0]; exact win5_0.cut_fill _ _ _
  have h1 : win5_1.cut (grid5.coords t) ((dat5 V c).after 1 t) = iblk5 V c 1 t := by
    rw [after5_1]; exact win5_1.cut_fill _ _ _
  have h2 : win5_2.fill (grid5.coords t)
      (k5_pay1 (win5_0.fill (grid5.coords t) d0 (iblk5 V c 0 t)) (win5_1.fill (grid5.coords t) d1 (iblk5 V c 1 t)))
      (win5_2.cut (grid5.coords t) ((dat5 V c).after 2 t))
      = k5_pay1 (win5_0.fill (grid5.coords t) d0 (iblk5 V c 0 t)) (win5_1.fill (grid5.coords t) d1 (iblk5 V c 1 t)) := by
    rw [after5_2, ← hloc t d0 d1]; exact win5_2.fill_cut _ _
  isplitl [H0]
  · iexists d0
    change _ ⊢ owns (c : Thread nD τ) (st5_0 t) fullShare (win5_0.fill (grid5.coords t) d0 (win5_0.cut (grid5.coords t) ((dat5 V c).after 0 t)))
    rw [h0]; try iexact H0
  isplitl [H1]
  · iexists d1
    change _ ⊢ owns (c : Thread nD τ) (st5_1 t) fullShare (win5_1.fill (grid5.coords t) d1 (win5_1.cut (grid5.coords t) ((dat5 V c).after 1 t)))
    rw [h1]; try iexact H1
  · iexists k5_pay1 (win5_0.fill (grid5.coords t) d0 (iblk5 V c 0 t)) (win5_1.fill (grid5.coords t) d1 (iblk5 V c 1 t))
    change _ ⊢ owns (c : Thread nD τ) (st5_2 t) fullShare (win5_2.fill (grid5.coords t) _ (win5_2.cut (grid5.coords t) ((dat5 V c).after 2 t)))
    rw [h2]; try iexact H2

/-- The same with the result's window forgotten: its buffer is handed over and taken back at contents nothing names, so
    nothing is asked of the product — at any float instance. -/
theorem body_obligation5_fgt (c : Dev nD) :
    BodyObligationLoose (dat5 (F := F) V c) (defs₀ (F := F)) Variants.none () Set.univ (fgt := fun w => decide (w = 2)) := fun t => by
  rw [bigSep_W5, bigSep_W5]
  simp only [show decide ((0 : Fin 3) = 2) = false from by decide, show decide ((1 : Fin 3) = 2) = false from by decide,
    show decide ((2 : Fin 3) = 2) = true from by decide, decide_true]
  rw [show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩⟩
  rw [before5_0 V c t d0, before5_1 V c t d1]
  iapply (sound_kernel5 (F := F) c Set.univ (grid5.coords t)
    (win5_0.stage (cfg5.slots t 0)) (hstage5_0 ((cfg5.slots t 0).cast nbuf5_0)) (win5_1.stage (cfg5.slots t 1)) (hstage5_1 ((cfg5.slots t 1).cast nbuf5_1))
    (win5_2.stage (cfg5.slots t 2)) (hstage5_2 ((cfg5.slots t 2).cast nbuf5_2))
    (win5_0.fill (grid5.coords t) d0 (iblk5 V c 0 t)) (win5_1.fill (grid5.coords t) d1 (iblk5 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win5_0.cut (grid5.coords t) ((dat5 V c).after 0 t) = iblk5 V c 0 t := by
    rw [after5_0]; exact win5_0.cut_fill _ _ _
  have h1 : win5_1.cut (grid5.coords t) ((dat5 V c).after 1 t) = iblk5 V c 1 t := by
    rw [after5_1]; exact win5_1.cut_fill _ _ _
  isplitl [H0]
  · iexists d0
    change _ ⊢ owns (c : Thread nD τ) (st5_0 t) fullShare (win5_0.fill (grid5.coords t) d0 (win5_0.cut (grid5.coords t) ((dat5 V c).after 0 t)))
    rw [h0]; try iexact H0
  isplitl [H1]
  · iexists d1
    change _ ⊢ owns (c : Thread nD τ) (st5_1 t) fullShare (win5_1.fill (grid5.coords t) d1 (win5_1.cut (grid5.coords t) ((dat5 V c).after 1 t)))
    rw [h1]; try iexact H1
  · iexists _; iexact H2

/-! ## The region's arrays out of, and back into, the core's unscoped buffers

Two windows read one array: its buffer, held whole, is dealt to them by halves of the share, and put together again
at the exit; the result array goes to its window outright. -/

/-- The buffers behind the windows' arrays: the one operand array and the result array. -/
theorem image5 : Finset.univ.image (Pipeline.arrRef spec5) = {main_v29, main_v30} := by decide

theorem unscopedBufs_split5 (c : Dev nD) (W : (b : Ref sig .tc) → Buf (Elt F) ((c : Thread nD τ).loc b)) :
    (unscopedBufs c W : sProp 𝕄) = iprop(Pipeline.arrBufs spec5 c W ∗ Pipeline.unscopedRest spec5 c W) :=
  Pipeline.PerCore.unscopedBufs_split₀ (fun _ : Dev nD => cfgs) (5 : Fin 6) c winFacts₀5.arr_unscoped W

theorem arrBufs5_eq (c : Dev nD) (W : (b : Ref sig .tc) → Buf (Elt F) ((c : Thread nD τ).loc b)) :
    (Pipeline.arrBufs spec5 c W : sProp 𝕄)
      = iprop((((c : Thread nD τ).loc main_v29) ↦{fullShare} W main_v29) ∗ (((c : Thread nD τ).loc main_v30) ↦{fullShare} W main_v30)) := by
  unfold Pipeline.arrBufs
  rw [image5, bigSep_insert (by decide), bigSep_singleton]
  rfl

theorem arrays5_eq (c : Dev nD) (Fs : (w : Fin cfg5.W) → Buf (Elt F) ((cfg5.win w).arr.view.loc (c : Thread nD τ))) :
    ((dat5 V c).arrays Fs : sProp 𝕄)
      = iprop((((c : Thread nD τ).loc main_v29) ↦{fullShare.left} Fs 0) ∗ (((c : Thread nD τ).loc main_v29) ↦{fullShare.right} Fs 1)
          ∗ (((c : Thread nD τ).loc main_v30) ↦{fullShare} Fs 2)) := by
  unfold Dat.arrays
  rw [bigSep_W5, (arr_whole5 0).set_eq_univ, (arr_whole5 2).set_eq_univ]
  rfl

theorem arrays_of_unscopedBufs5 (c : Dev nD) :
    (unscopedBufs c (V c) : sProp 𝕄) ⊢ iprop((dat5 V c).arrays ((dat5 V c).arrAt · 0)
      ∗ Pipeline.unscopedRest (Ix := Unit) (Name := ℕ) (U := UR sig nD τ) (Lvl := ℕ) spec5 c (V c)) := by
  rw [unscopedBufs_split5, arrBufs5_eq, arrays5_eq]
  iintro ⟨⟨H29, H30⟩, HR⟩
  ihave H := (pointsTo_share (PosShare.mem_left_op_right fullShare)).1 $$ H29
  icases H with ⟨HL, HRt⟩
  isplitr [HR]
  swap; · iexact HR
  isplitl [HL]; · iexact HL
  isplitl [HRt]; · iexact HRt
  iexact H30

/-- The exit at any contents Fs of the windows' arrays that a valuation V' names, V' agreeing with the entry contents
    off those arrays: the two halves of the operand array's share make the whole again. -/
theorem unscopedBufs_of_arrays5_gen (V' : (c : Dev nD) → (b : Ref sig .tc) → Buf (Elt F) ((c : Thread nD τ).loc b)) (c : Dev nD)
    (Fs : (w : Fin cfg5.W) → Buf (Elt F) ((cfg5.win w).arr.view.loc (c : Thread nD τ)))
    (hF : ∀ w, Fs w = V' c (Pipeline.arrRef spec5 w))
    (hrest : ∀ b, b ∉ Finset.univ.image (Pipeline.arrRef spec5) → V' c b = V c b) :
    iprop((dat5 V c).arrays Fs
      ∗ Pipeline.unscopedRest (Ix := Unit) (Name := ℕ) (U := UR sig nD τ) (Lvl := ℕ) spec5 c (V c)) ⊢ (unscopedBufs c (V' c) : sProp 𝕄) := by
  have hR : (Pipeline.unscopedRest (Ix := Unit) (Name := ℕ) (U := UR sig nD τ) (Lvl := ℕ) spec5 c (V c) : sProp 𝕄)
      = Pipeline.unscopedRest spec5 c (V' c) := by
    unfold Pipeline.unscopedRest
    exact bigSep_congr fun b hb => by rw [hrest b (Finset.mem_sdiff.mp hb).2]
  rw [unscopedBufs_split5, arrBufs5_eq, arrays5_eq, hR, hF 0, hF 1, hF 2]
  iintro ⟨⟨HL, HRt, H30⟩, HR⟩
  isplitr [HR]
  swap; · iexact HR
  isplitr [H30]
  swap; · iexact H30
  iapply (pointsTo_share (PosShare.mem_left_op_right fullShare)).2
  isplitl [HL]; · iexact HL
  iexact HRt

/-- The exit at any contents that a valuation names, as above. -/
theorem unscopedBufs_of_arrays5_at (V' : (c : Dev nD) → (b : Ref sig .tc) → Buf (Elt F) ((c : Thread nD τ).loc b)) (c : Dev nD)
    (Fs : (w : Fin cfg5.W) → Buf (Elt F) ((cfg5.win w).arr.view.loc (c : Thread nD τ)))
    (hF : ∀ w, Fs w = V' c (Pipeline.arrRef spec5 w))
    (hrest : ∀ b, b ∉ Finset.univ.image (Pipeline.arrRef spec5) → V' c b = V c b) :
    iprop((dat5 V c).arrays Fs
      ∗ Pipeline.unscopedRest (Ix := Unit) (Name := ℕ) (U := UR sig nD τ) (Lvl := ℕ) spec5 c (V c)) ⊢ (unscopedBufs c (V' c) : sProp 𝕄) :=
  unscopedBufs_of_arrays5_gen V V' c Fs hF hrest

/-- The exit at what the write-backs leave. -/
theorem unscopedBufs_of_arrays5 (V' : (c : Dev nD) → (b : Ref sig .tc) → Buf (Elt F) ((c : Thread nD τ).loc b)) (c : Dev nD)
    (hF : ∀ w, (dat5 V c).arrAt w cfg5.N = V' c (Pipeline.arrRef spec5 w))
    (hrest : ∀ b, b ∉ Finset.univ.image (Pipeline.arrRef spec5) → V' c b = V c b) :
    iprop((dat5 V c).arrays ((dat5 V c).arrAt · cfg5.N)
      ∗ Pipeline.unscopedRest (Ix := Unit) (Name := ℕ) (U := UR sig nD τ) (Lvl := ℕ) spec5 c (V c)) ⊢ (unscopedBufs c (V' c) : sProp 𝕄) :=
  unscopedBufs_of_arrays5_gen V V' c _ hF hrest

end Cert.Kernel.Hand

end
-- ==== Proof.KRun.lean ====
/-
  The run of the whole program: @main is nine segments — a stretch of host operations, the projection `x · W1`,
  one host operation, the four passes over the adjacency, one host operation (the columns of `s1`), the
  inner-product decoder.  Between two segments every unscoped buffer of the core is held whole at a NAMED
  contents: the launch memory, then after a host stretch the fold of its operations, then after a region its
  output arrays at what the region's write-backs leave and everything else untouched.  A region reads its
  windows' arrays out of that state and puts them back; the last region's output blocks overhang the array, so
  its body is correct only up to the part of each block that is written back, which is a property of the
  matrix product (an entry depends on one row of each operand) and is carried here as a hypothesis.
-/
import proofs.«118927_g481036337836_cont_8to1_c_48_4_alg».proof.Proof.KRegion0
import proofs.«118927_g481036337836_cont_8to1_c_48_4_alg».proof.Proof.KRegion1
import proofs.«118927_g481036337836_cont_8to1_c_48_4_alg».proof.Proof.KRegion2
import proofs.«118927_g481036337836_cont_8to1_c_48_4_alg».proof.Proof.KRegion3
import proofs.«118927_g481036337836_cont_8to1_c_48_4_alg».proof.Proof.KRegion4
import proofs.«118927_g481036337836_cont_8to1_c_48_4_alg».proof.Proof.KRegion5
import proofs.«118927_g481036337836_cont_8to1_c_48_4_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev Wv0 : Dev nD → Valuation τ sig (Elt F) := fun c b => (s₀ m ρ).mem ((c : Dev nD), b)
/-- After the first host stretch (region 0's entry). -/
abbrev Wv1 : Dev nD → Valuation τ sig (Elt F) := fun c => StableHlo.after hostOps0 (Wv0 m ρ c)
abbrev Uv1 : (c : Dev nD) → (b : Ref sig .tc) → Buf (Elt F) ((c : Thread nD τ).loc b) := fun c b => Wv1 m ρ c b

/-- An input window's array is left as the region found it. -/
theorem arrAt_keep0 (V : (c : Dev nD) → (b : Ref sig .tc) → Buf (Elt F) ((c : Thread nD τ).loc b)) (c : Dev nD) :
    ∀ (w : Fin cfg0.W), Pipeline.arrRef spec0 w ∉ ([main_v23] : List (Ref sig .tc)) →
      (dat0 V c).arrAt w cfg0.N = V c (Pipeline.arrRef spec0 w)
  | ⟨0, _⟩, _ => ((dat0 V c).arrAt_in 0 rfl _).trans (A_eq0 V c 0)
  | ⟨1, _⟩, _ => ((dat0 V c).arrAt_in 1 rfl _).trans (A_eq0 V c 1)
  | ⟨2, _⟩, hw => absurd (by decide +revert) hw

/-- After region 0: its arrays at what the pipeline's write-backs leave, every other buffer as entered. -/
def Wv2 (c : Dev nD) : Valuation τ sig (Elt F) :=
  Pipeline.withArrays spec0 c (Wv1 m ρ c) fun w => (dat0 (Uv1 m ρ) c).arrAt w cfg0.N
theorem Wv2_arr (c : Dev nD) (w : Fin cfg0.W) :
    Wv2 m ρ c (Proc.devRef .tc (Pipeline.arrRef spec0 w)) = (dat0 (Uv1 m ρ) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m ρ c (Proc.devRef .tc b) = Wv1 m ρ c (Proc.devRef .tc b) := by
  unfold Wv2; exact Pipeline.withArrays_of_ne spec0 c _ _ b hb
abbrev Uv2 : (c : Dev nD) → (b : Ref sig .tc) → Buf (Elt F) ((c : Thread nD τ).loc b) := fun c b => Wv2 m ρ c b
theorem hF0 (c : Dev nD) (w : Fin cfg0.W) : (dat0 (Uv1 m ρ) c).arrAt w cfg0.N = Uv2 m ρ c (Pipeline.arrRef spec0 w) :=
  (Wv2_arr m ρ c w).symm
theorem hrest0 (c : Dev nD) : ∀ b, b ∉ Finset.univ.image (Pipeline.arrRef spec0) → Uv2 m ρ c b = Uv1 m ρ c b :=
  fun b hb => Wv2_of_ne m ρ c b fun w e => hb (Finset.mem_image.mpr ⟨w, Finset.mem_univ _, e⟩)
/-- Region 0 changes only its output arrays. -/
theorem Wv2_keep (c : Dev nD) (b : Ref sig .tc) (hb : b ∉ ([main_v23] : List (Ref sig .tc))) :
    Wv2 m ρ c (Proc.devRef .tc b) = Wv1 m ρ c (Proc.devRef .tc b) := by
  by_cases h : ∃ w, Pipeline.arrRef spec0 w = b
  · obtain ⟨w, rfl⟩ := h
    exact (Wv2_arr m ρ c w).trans (arrAt_keep0 (Uv1 m ρ) c w hb)
  · exact Wv2_of_ne m ρ c b fun w e => h ⟨w, e⟩

/-- After the second host stretch (region 1's entry). -/
abbrev Wv3 : Dev nD → Valuation τ sig (Elt F) := fun c => StableHlo.after hostOps1 (Wv2 m ρ c)
abbrev Uv3 : (c : Dev nD) → (b : Ref sig .tc) → Buf (Elt F) ((c : Thread nD τ).loc b) := fun c b => Wv3 m ρ c b

/-- An input window's array is left as the region found it. -/
theorem arrAt_keep1 (V : (c : Dev nD) → (b : Ref sig .tc) → Buf (Elt F) ((c : Thread nD τ).loc b)) (c : Dev nD) :
    ∀ (w : Fin cfg1.W), Pipeline.arrRef spec1 w ∉ ([main_v25_0, main_v25_1] : List (Ref sig .tc)) →
      (dat1 V c).arrAt w cfg1.N = V c (Pipeline.arrRef spec1 w)
  | ⟨0, _⟩, _ => ((dat1 V c).arrAt_in 0 rfl _).trans (A_eq1 V c 0)
  | ⟨1, _⟩, _ => ((dat1 V c).arrAt_in 1 rfl _).trans (A_eq1 V c 1)
  | ⟨2, _⟩, _ => ((dat1 V c).arrAt_in 2 rfl _).trans (A_eq1 V c 2)
  | ⟨3, _⟩, hw => absurd (by decide +revert) hw
  | ⟨4, _⟩, hw => absurd (by decide +revert) hw

/-- After region 1: its arrays at what the pipeline's write-backs leave, every other buffer as entered. -/
def Wv4 (c : Dev nD) : Valuation τ sig (Elt F) :=
  Pipeline.withArrays spec1 c (Wv3 m ρ c) fun w => (dat1 (Uv3 m ρ) c).arrAt w cfg1.N
theorem Wv4_arr (c : Dev nD) (w : Fin cfg1.W) :
    Wv4 m ρ c (Proc.devRef .tc (Pipeline.arrRef spec1 w)) = (dat1 (Uv3 m ρ) c).arrAt w cfg1.N := by
  unfold Wv4; exact Pipeline.withArrays_arr spec1 launch1.win.arr_inj c _ _ w
theorem Wv4_of_ne (c : Dev nD) (b : Ref sig .tc) (hb : ∀ w, Pipeline.arrRef spec1 w ≠ b) :
    Wv4 m ρ c (Proc.devRef .tc b) = Wv3 m ρ c (Proc.devRef .tc b) := by
  unfold Wv4; exact Pipeline.withArrays_of_ne spec1 c _ _ b hb
abbrev Uv4 : (c : Dev nD) → (b : Ref sig .tc) → Buf (Elt F) ((c : Thread nD τ).loc b) := fun c b => Wv4 m ρ c b
theorem hF1 (c : Dev nD) (w : Fin cfg1.W) : (dat1 (Uv3 m ρ) c).arrAt w cfg1.N = Uv4 m ρ c (Pipeline.arrRef spec1 w) :=
  (Wv4_arr m ρ c w).symm
theorem hrest1 (c : Dev nD) : ∀ b, b ∉ Finset.univ.image (Pipeline.arrRef spec1) → Uv4 m ρ c b = Uv3 m ρ c b :=
  fun b hb => Wv4_of_ne m ρ c b fun w e => hb (Finset.mem_image.mpr ⟨w, Finset.mem_univ _, e⟩)
/-- Region 1 changes only its output arrays. -/
theorem Wv4_keep (c : Dev nD) (b : Ref sig .tc) (hb : b ∉ ([main_v25_0, main_v25_1] : List (Ref sig .tc))) :
    Wv4 m ρ c (Proc.devRef .tc b) = Wv3 m ρ c (Proc.devRef .tc b) := by
  by_cases h : ∃ w, Pipeline.arrRef spec1 w = b
  · obtain ⟨w, rfl⟩ := h
    exact (Wv4_arr m ρ c w).trans (arrAt_keep1 (Uv3 m ρ) c w hb)
  · exact Wv4_of_ne m ρ c b fun w e => h ⟨w, e⟩

/-- An input window's array is left as the region found it. -/
theorem arrAt_keep2 (V : (c : Dev nD) → (b : Ref sig .tc) → Buf (Elt F) ((c : Thread nD τ).loc b)) (c : Dev nD) :
    ∀ (w : Fin cfg2.W), Pipeline.arrRef spec2 w ∉ ([main_v26] : List (Ref sig .tc)) →
      (dat2 V c).arrAt w cfg2.N = V c (Pipeline.arrRef spec2 w)
  | ⟨0, _⟩, _ => ((dat2 V c).arrAt_in 0 rfl _).trans (A_eq2 V c 0)
  | ⟨1, _⟩, _ => ((dat2 V c).arrAt_in 1 rfl _).trans (A_eq2 V c 1)
  | ⟨2, _⟩, _ => ((dat2 V c).arrAt_in 2 rfl _).trans (A_eq2 V c 2)
  | ⟨3, _⟩, _ => ((dat2 V c).arrAt_in 3 rfl _).trans (A_eq2 V c 3)
  | ⟨4, _⟩, _ => ((dat2 V c).arrAt_in 4 rfl _).trans (A_eq2 V c 4)
  | ⟨5, _⟩, hw => absurd (by decide +revert) hw

/-- After region 2: its arrays at what the pipeline's write-backs leave, every other buffer as entered. -/
def Wv5 (c : Dev nD) : Valuation τ sig (Elt F) :=
  Pipeline.withArrays spec2 c (Wv4 m ρ c) fun w => (dat2 (Uv4 m ρ) c).arrAt w cfg2.N
theorem Wv5_arr (c : Dev nD) (w : Fin cfg2.W) :
    Wv5 m ρ c (Proc.devRef .tc (Pipeline.arrRef spec2 w)) = (dat2 (Uv4 m ρ) c).arrAt w cfg2.N := by
  unfold Wv5; exact Pipeline.withArrays_arr spec2 launch2.win.arr_inj c _ _ w
theorem Wv5_of_ne (c : Dev nD) (b : Ref sig .tc) (hb : ∀ w, Pipeline.arrRef spec2 w ≠ b) :
    Wv5 m ρ c (Proc.devRef .tc b) = Wv4 m ρ c (Proc.devRef .tc b) := by
  unfold Wv5; exact Pipeline.withArrays_of_ne spec2 c _ _ b hb
abbrev Uv5 : (c : Dev nD) → (b : Ref sig .tc) → Buf (Elt F) ((c : Thread nD τ).loc b) := fun c b => Wv5 m ρ c b
theorem hF2 (c : Dev nD) (w : Fin cfg2.W) : (dat2 (Uv4 m ρ) c).arrAt w cfg2.N = Uv5 m ρ c (Pipeline.arrRef spec2 w) :=
  (Wv5_arr m ρ c w).symm
theorem hrest2 (c : Dev nD) : ∀ b, b ∉ Finset.univ.image (Pipeline.arrRef spec2) → Uv5 m ρ c b = Uv4 m ρ c b :=
  fun b hb => Wv5_of_ne m ρ c b fun w e => hb (Finset.mem_image.mpr ⟨w, Finset.mem_univ _, e⟩)
/-- Region 2 changes only its output arrays. -/
theorem Wv5_keep (c : Dev nD) (b : Ref sig .tc) (hb : b ∉ ([main_v26] : List (Ref sig .tc))) :
    Wv5 m ρ c (Proc.devRef .tc b) = Wv4 m ρ c (Proc.devRef .tc b) := by
  by_cases h : ∃ w, Pipeline.arrRef spec2 w = b
  · obtain ⟨w, rfl⟩ := h
    exact (Wv5_arr m ρ c w).trans (arrAt_keep2 (Uv4 m ρ) c w hb)
  · exact Wv5_of_ne m ρ c b fun w e => h ⟨w, e⟩

/-- An input window's array is left as the region found it. -/
theorem arrAt_keep3 (V : (c : Dev nD) → (b : Ref sig .tc) → Buf (Elt F) ((c : Thread nD τ).loc b)) (c : Dev nD) :
    ∀ (w : Fin cfg3.W), Pipeline.arrRef spec3 w ∉ ([main_v27_0, main_v27_1] : List (Ref sig .tc)) →
      (dat3 V c).arrAt w cfg3.N = V c (Pipeline.arrRef spec3 w)
  | ⟨0, _⟩, _ => ((dat3 V c).arrAt_in 0 rfl _).trans (A_eq3 V c 0)
  | ⟨1, _⟩, _ => ((dat3 V c).arrAt_in 1 rfl _).trans (A_eq3 V c 1)
  | ⟨2, _⟩, _ => ((dat3 V c).arrAt_in 2 rfl _).trans (A_eq3 V c 2)
  | ⟨3, _⟩, _ => ((dat3 V c).arrAt_in 3 rfl _).trans (A_eq3 V c 3)
  | ⟨4, _⟩, _ => ((dat3 V c).arrAt_in 4 rfl _).trans (A_eq3 V c 4)
  | ⟨5, _⟩, hw => absurd (by decide +revert) hw
  | ⟨6, _⟩, hw => absurd (by decide +revert) hw

/-- After region 3: its arrays at what the pipeline's write-backs leave, every other buffer as entered. -/
def Wv6 (c : Dev nD) : Valuation τ sig (Elt F) :=
  Pipeline.withArrays spec3 c (Wv5 m ρ c) fun w => (dat3 (Uv5 m ρ) c).arrAt w cfg3.N
theorem Wv6_arr (c : Dev nD) (w : Fin cfg3.W) :
    Wv6 m ρ c (Proc.devRef .tc (Pipeline.arrRef spec3 w)) = (dat3 (Uv5 m ρ) c).arrAt w cfg3.N := by
  unfold Wv6; exact Pipeline.withArrays_arr spec3 launch3.win.arr_inj c _ _ w
theorem Wv6_of_ne (c : Dev nD) (b : Ref sig .tc) (hb : ∀ w, Pipeline.arrRef spec3 w ≠ b) :
    Wv6 m ρ c (Proc.devRef .tc b) = Wv5 m ρ c (Proc.devRef .tc b) := by
  unfold Wv6; exact Pipeline.withArrays_of_ne spec3 c _ _ b hb
abbrev Uv6 : (c : Dev nD) → (b : Ref sig .tc) → Buf (Elt F) ((c : Thread nD τ).loc b) := fun c b => Wv6 m ρ c b
theorem hF3 (c : Dev nD) (w : Fin cfg3.W) : (dat3 (Uv5 m ρ) c).arrAt w cfg3.N = Uv6 m ρ c (Pipeline.arrRef spec3 w) :=
  (Wv6_arr m ρ c w).symm
theorem hrest3 (c : Dev nD) : ∀ b, b ∉ Finset.univ.image (Pipeline.arrRef spec3) → Uv6 m ρ c b = Uv5 m ρ c b :=
  fun b hb => Wv6_of_ne m ρ c b fun w e => hb (Finset.mem_image.mpr ⟨w, Finset.mem_univ _, e⟩)
/-- Region 3 changes only its output arrays. -/
theorem Wv6_keep (c : Dev nD) (b : Ref sig .tc) (hb : b ∉ ([main_v27_0, main_v27_1] : List (Ref sig .tc))) :
    Wv6 m ρ c (Proc.devRef .tc b) = Wv5 m ρ c (Proc.devRef .tc b) := by
  by_cases h : ∃ w, Pipeline.arrRef spec3 w = b
  · obtain ⟨w, rfl⟩ := h
    exact (Wv6_arr m ρ c w).trans (arrAt_keep3 (Uv5 m ρ) c w hb)
  · exact Wv6_of_ne m ρ c b fun w e => h ⟨w, e⟩

/-- An input window's array is left as the region found it. -/
theorem arrAt_keep4 (V : (c : Dev nD) → (b : Ref sig .tc) → Buf (Elt F) ((c : Thread nD τ).loc b)) (c : Dev nD) :
    ∀ (w : Fin cfg4.W), Pipeline.arrRef spec4 w ∉ ([main_v28] : List (Ref sig .tc)) →
      (dat4 V c).arrAt w cfg4.N = V c (Pipeline.arrRef spec4 w)
  | ⟨0, _⟩, _ => ((dat4 V c).arrAt_in 0 rfl _).trans (A_eq4 V c 0)
  | ⟨1, _⟩, _ => ((dat4 V c).arrAt_in 1 rfl _).trans (A_eq4 V c 1)
  | ⟨2, _⟩, _ => ((dat4 V c).arrAt_in 2 rfl _).trans (A_eq4 V c 2)
  | ⟨3, _⟩, _ => ((dat4 V c).arrAt_in 3 rfl _).trans (A_eq4 V c 3)
  | ⟨4, _⟩, hw => absurd (by decide +revert) hw

/-- After region 4: its arrays at what the pipeline's write-backs leave, every other buffer as entered. -/
def Wv7 (c : Dev nD) : Valuation τ sig (Elt F) :=
  Pipeline.withArrays spec4 c (Wv6 m ρ c) fun w => (dat4 (Uv6 m ρ) c).arrAt w cfg4.N
theorem Wv7_arr (c : Dev nD) (w : Fin cfg4.W) :
    Wv7 m ρ c (Proc.devRef .tc (Pipeline.arrRef spec4 w)) = (dat4 (Uv6 m ρ) c).arrAt w cfg4.N := by
  unfold Wv7; exact Pipeline.withArrays_arr spec4 launch4.win.arr_inj c _ _ w
theorem Wv7_of_ne (c : Dev nD) (b : Ref sig .tc) (hb : ∀ w, Pipeline.arrRef spec4 w ≠ b) :
    Wv7 m ρ c (Proc.devRef .tc b) = Wv6 m ρ c (Proc.devRef .tc b) := by
  unfold Wv7; exact Pipeline.withArrays_of_ne spec4 c _ _ b hb
abbrev Uv7 : (c : Dev nD) → (b : Ref sig .tc) → Buf (Elt F) ((c : Thread nD τ).loc b) := fun c b => Wv7 m ρ c b
theorem hF4 (c : Dev nD) (w : Fin cfg4.W) : (dat4 (Uv6 m ρ) c).arrAt w cfg4.N = Uv7 m ρ c (Pipeline.arrRef spec4 w) :=
  (Wv7_arr m ρ c w).symm
theorem hrest4 (c : Dev nD) : ∀ b, b ∉ Finset.univ.image (Pipeline.arrRef spec4) → Uv7 m ρ c b = Uv6 m ρ c b :=
  fun b hb => Wv7_of_ne m ρ c b fun w e => hb (Finset.mem_image.mpr ⟨w, Finset.mem_univ _, e⟩)
/-- Region 4 changes only its output arrays. -/
theorem Wv7_keep (c : Dev nD) (b : Ref sig .tc) (hb : b ∉ ([main_v28] : List (Ref sig .tc))) :
    Wv7 m ρ c (Proc.devRef .tc b) = Wv6 m ρ c (Proc.devRef .tc b) := by
  by_cases h : ∃ w, Pipeline.arrRef spec4 w = b
  · obtain ⟨w, rfl⟩ := h
    exact (Wv7_arr m ρ c w).trans (arrAt_keep4 (Uv6 m ρ) c w hb)
  · exact Wv7_of_ne m ρ c b fun w e => h ⟨w, e⟩

/-- After the third host stretch (region 5's entry). -/
abbrev Wv8 : Dev nD → Valuation τ sig (Elt F) := fun c => StableHlo.after hostOps5 (Wv7 m ρ c)
abbrev Uv8 : (c : Dev nD) → (b : Ref sig .tc) → Buf (Elt F) ((c : Thread nD τ).loc b) := fun c b => Wv8 m ρ c b

/-- After region 5: its one output array at what the write-backs leave, every other buffer as entered (its two
    input windows view one array, which it only reads). -/
def Wv9 (c : Dev nD) : Valuation τ sig (Elt F) :=
  Function.update (Wv8 m ρ c) (Proc.devRef .tc main_v30) ((dat5 (Uv8 m ρ) c).arrAt 2 cfg5.N)
abbrev Uv9 : (c : Dev nD) → (b : Ref sig .tc) → Buf (Elt F) ((c : Thread nD τ).loc b) := fun c b => Wv9 m ρ c b
theorem Wv9_keep (c : Dev nD) (b : Ref sig .tc) (hb : b ∉ ([main_v30] : List (Ref sig .tc))) :
    Wv9 m ρ c (Proc.devRef .tc b) = Wv8 m ρ c (Proc.devRef .tc b) := by
  unfold Wv9
  exact Function.update_of_ne (StableHlo.devRef_ne_of_ne (List.ne_of_not_mem_cons hb) : (Proc.devRef .tc b : DevRef τ sig) ≠ Proc.devRef .tc main_v30) _ _
theorem Wv9_out (c : Dev nD) : Wv9 m ρ c (Proc.devRef .tc main_v30) = (dat5 (Uv8 m ρ) c).arrAt 2 cfg5.N := by
  unfold Wv9; exact Function.update_self _ _ _
theorem hF5 (c : Dev nD) : ∀ w : Fin cfg5.W, (dat5 (Uv8 m ρ) c).arrAt w cfg5.N = Uv9 m ρ c (Pipeline.arrRef spec5 w)
  | ⟨0, _⟩ => (((dat5 (Uv8 m ρ) c).arrAt_in 0 rfl _).trans (A_eq5 (Uv8 m ρ) c 0)).trans (Wv9_keep m ρ c main_v29 (by decide)).symm
  | ⟨1, _⟩ => (((dat5 (Uv8 m ρ) c).arrAt_in 1 rfl _).trans (A_eq5 (Uv8 m ρ) c 1)).trans (Wv9_keep m ρ c main_v29 (by decide)).symm
  | ⟨2, _⟩ => (Wv9_out m ρ c).symm
theorem hrest5 (c : Dev nD) : ∀ b, b ∉ Finset.univ.image (Pipeline.arrRef spec5) → Uv9 m ρ c b = Uv8 m ρ c b :=
  fun b hb => Wv9_keep m ρ c b fun h => hb (Finset.mem_image.mpr ⟨2, Finset.mem_univ _, (List.mem_singleton.mp h).symm⟩)

/-! ## What no segment writes ends as launched -/

theorem Wv1_keep (c : Dev nD) (b : Ref sig .tc) (h : b ∉ hostOps0_W) : Wv1 m ρ c (Proc.devRef .tc b) = Wv0 m ρ c (Proc.devRef .tc b) :=
  StableHlo.after_of_writes_sub hostOps0 _ hostOps0_writes h
theorem Wv3_keep (c : Dev nD) (b : Ref sig .tc) (h : b ∉ hostOps1_W) : Wv3 m ρ c (Proc.devRef .tc b) = Wv2 m ρ c (Proc.devRef .tc b) :=
  StableHlo.after_of_writes_sub hostOps1 _ hostOps1_writes h
theorem Wv8_keep (c : Dev nD) (b : Ref sig .tc) (h : b ∉ hostOps5_W) : Wv8 m ρ c (Proc.devRef .tc b) = Wv7 m ρ c (Proc.devRef .tc b) :=
  StableHlo.after_of_writes_sub hostOps5 _ hostOps5_writes h

/-- A buffer that no host operation writes and no region has as an output ends at its launch contents. -/
theorem Wv9_launch (c : Dev nD) (b : Ref sig .tc) (h0 : b ∉ hostOps0_W) (h1 : b ∉ ([main_v23] : List (Ref sig .tc)))
    (h2 : b ∉ hostOps1_W) (h3 : b ∉ ([main_v25_0, main_v25_1] : List (Ref sig .tc))) (h4 : b ∉ ([main_v26] : List (Ref sig .tc)))
    (h5 : b ∉ ([main_v27_0, main_v27_1] : List (Ref sig .tc))) (h6 : b ∉ ([main_v28] : List (Ref sig .tc))) (h7 : b ∉ hostOps5_W)
    (h8 : b ∉ ([main_v30] : List (Ref sig .tc))) :
    Wv9 m ρ c (Proc.devRef .tc b) = m ((c : Thread nD τ).loc b) :=
  (Wv9_keep m ρ c b h8).trans <| (Wv8_keep m ρ c b h7).trans <| (Wv7_keep m ρ c b h6).trans <| (Wv6_keep m ρ c b h5).trans <|
    (Wv5_keep m ρ c b h4).trans <| (Wv4_keep m ρ c b h3).trans <| (Wv3_keep m ρ c b h2).trans <| (Wv2_keep m ρ c b h1).trans <|
    (Wv1_keep m ρ c b h0).trans rfl

/-! ## The proof data family and the thread state -/

/-- No pipeline has a prefetched table. -/
abbrev admH : (p : Fin 6) → (pcfgs (F := F) p).Adm := fun p => (cfgs p).toPCfg_adm
/-- Every pipeline's proof data, each at its region's entry contents. -/
def pdatsH : (p : Fin 6) → (c : Dev nD) → Dat τ (Elt F) Unit ℕ (UR sig nD τ) ℕ (Pipeline.pin (pcfgs (F := F)) admH p) c
  | ⟨0, _⟩ => fun c => dat0 (Uv1 m ρ) c
  | ⟨1, _⟩ => fun c => dat1 (Uv3 m ρ) c
  | ⟨2, _⟩ => fun c => dat2 (Uv4 m ρ) c
  | ⟨3, _⟩ => fun c => dat3 (Uv5 m ρ) c
  | ⟨4, _⟩ => fun c => dat4 (Uv6 m ρ) c
  | ⟨5, _⟩ => fun c => dat5 (Uv8 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the core's generator register at some state and its
    debts, none. -/
abbrev RR (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev TnH (c : Dev nD) : sProp 𝕄 := iprop(StableHlo.held (c : Thread nD τ) (Pipeline.ucRefs τ sig) (Wv9 m ρ c) ∗ ∃ r, prngReg c r)

/-! ## The regions as segments -/

set_option backward.isDefEq.respectTransparency.types false in
/-- Region 0 over the thread state: entered from every unscoped buffer at `Wv1`, left at `Wv2`. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Uv1 m ρ) c).loose
  hwaits := Pipeline.hwaits_of_owed_zero _ _ _ _ LH lvH 0 fun _ _ => rfl
  pre c := iprop(StableHlo.held (c : Thread nD τ) (Pipeline.ucRefs τ sig) (Wv1 m ρ c) ∗ RR c)
  post c := iprop(StableHlo.held (c : Thread nD τ) (Pipeline.ucRefs τ sig) (Wv2 m ρ c) ∗ RR c)
  X c := iprop(∃ r, prngReg c r)
  Y c := iprop(∃ r, prngReg c r)
  Z c := Pipeline.unscopedRest (Ix := Unit) (Name := ℕ) (U := UR sig nD τ) (Lvl := ℕ) spec0 c (Uv1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Uv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Uv1 m ρ c) (Uv2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Wv3`, left at `Wv4`. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Uv3 m ρ) c).loose
  hwaits := Pipeline.hwaits_of_owed_zero _ _ _ _ LH lvH 1 fun _ _ => rfl
  pre c := iprop(StableHlo.held (c : Thread nD τ) (Pipeline.ucRefs τ sig) (Wv3 m ρ c) ∗ RR c)
  post c := iprop(StableHlo.held (c : Thread nD τ) (Pipeline.ucRefs τ sig) (Wv4 m ρ c) ∗ RR c)
  X c := iprop(∃ r, prngReg c r)
  Y c := iprop(∃ r, prngReg c r)
  Z c := Pipeline.unscopedRest (Ix := Unit) (Name := ℕ) (U := UR sig nD τ) (Lvl := ℕ) spec1 c (Uv3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Uv3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Uv3 m ρ c) (Uv4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Wv4`, left at `Wv5`. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Uv4 m ρ) c).loose
  hwaits := Pipeline.hwaits_of_owed_zero _ _ _ _ LH lvH 2 fun _ _ => rfl
  pre c := iprop(StableHlo.held (c : Thread nD τ) (Pipeline.ucRefs τ sig) (Wv4 m ρ c) ∗ RR c)
  post c := iprop(StableHlo.held (c : Thread nD τ) (Pipeline.ucRefs τ sig) (Wv5 m ρ c) ∗ RR c)
  X c := iprop(∃ r, prngReg c r)
  Y c := iprop(∃ r, prngReg c r)
  Z c := Pipeline.unscopedRest (Ix := Unit) (Name := ℕ) (U := UR sig nD τ) (Lvl := ℕ) spec2 c (Uv4 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Uv4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Uv4 m ρ c) (Uv5 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `Wv5`, left at `Wv6`. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Uv5 m ρ) c).loose
  hwaits := Pipeline.hwaits_of_owed_zero _ _ _ _ LH lvH 3 fun _ _ => rfl
  pre c := iprop(StableHlo.held (c : Thread nD τ) (Pipeline.ucRefs τ sig) (Wv5 m ρ c) ∗ RR c)
  post c := iprop(StableHlo.held (c : Thread nD τ) (Pipeline.ucRefs τ sig) (Wv6 m ρ c) ∗ RR c)
  X c := iprop(∃ r, prngReg c r)
  Y c := iprop(∃ r, prngReg c r)
  Z c := Pipeline.unscopedRest (Ix := Unit) (Name := ℕ) (U := UR sig nD τ) (Lvl := ℕ) spec3 c (Uv5 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (Uv5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (Uv5 m ρ c) (Uv6 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `Wv6`, left at `Wv7`. -/
def reg4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (Uv6 m ρ) c).loose
  hwaits := Pipeline.hwaits_of_owed_zero _ _ _ _ LH lvH 4 fun _ _ => rfl
  pre c := iprop(StableHlo.held (c : Thread nD τ) (Pipeline.ucRefs τ sig) (Wv6 m ρ c) ∗ RR c)
  post c := iprop(StableHlo.held (c : Thread nD τ) (Pipeline.ucRefs τ sig) (Wv7 m ρ c) ∗ RR c)
  X c := iprop(∃ r, prngReg c r)
  Y c := iprop(∃ r, prngReg c r)
  Z c := Pipeline.unscopedRest (Ix := Unit) (Name := ℕ) (U := UR sig nD τ) (Lvl := ℕ) spec4 c (Uv6 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (Uv6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (Uv6 m ρ c) (Uv7 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `Wv8`, left at `Wv9`; its two input
    windows share the array of `s1`, split between them and joined again. -/
def reg5 (hloc : ∀ c, Local5 (Uv8 m ρ) c) : Pipeline.RegionSeg (pcfgs (F := F)) admH (pdatsH m ρ) () defs₀ 𝒱H LH lvH 5 where
  win := winFacts₀5
  block_pos := block_pos5
  stage_whole := stage_whole5
  K := PEmpty
  osem k := k.elim
  ho := Pipeline.OwnSemFacts.none _
  hbody c := body_obligation5 (Uv8 m ρ) c (hloc c)
  hwaits := Pipeline.hwaits_of_owed_zero _ _ _ _ LH lvH 5 fun _ _ => rfl
  pre c := iprop(StableHlo.held (c : Thread nD τ) (Pipeline.ucRefs τ sig) (Wv8 m ρ c) ∗ RR c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (Uv8 m ρ c)
  hentry c := by
    rw [Pipeline.ownSems0_none]
    have hsplit := arrays_of_unscopedBufs5 (Uv8 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := unscopedBufs_of_arrays5 (Uv8 m ρ) (Uv9 m ρ) c (hF5 m ρ c) (hrest5 m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's nine segments in order. -/
abbrev segsH (hloc : ∀ c, Local5 (Uv8 m ρ) c) : List (Pipeline.Seg (pcfgs (F := F)) admH (pdatsH m ρ) () defs₀ 𝒱H LH lvH) :=
  [ .host (hseg hostOps0 hostOps0_sub hostOps0_fresh (Wv0 m ρ)),
    .region (reg0 m ρ),
    .host (hseg hostOps1 hostOps1_sub hostOps1_fresh (Wv2 m ρ)),
    .region (reg1 m ρ),
    .region (reg2 m ρ),
    .region (reg3 m ρ),
    .region (reg4 m ρ),
    .host (hseg hostOps5 hostOps5_sub hostOps5_fresh (Wv7 m ρ)),
    .region (reg5 m ρ hloc) ]
/-- @main is the run of the segments. -/
theorem main_runH (hloc : ∀ c, Local5 (Uv8 m ρ) c) (c : Dev nD) : main (F := F) c = Pipeline.Seg.run (segsH m ρ hloc) :=
  (main_chain c).trans (by chain_rfl)

set_option backward.isDefEq.respectTransparency.types false in
/-- THE RUN: from any memory with zero counters every weakly fair execution of @main on the TensorCores terminates,
    nothing faulting, and every final memory holds every unscoped buffer at the last boundary's contents `Wv9`. -/
theorem run_vals (hloc : ∀ c, Local5 (Uv8 m ρ) c) :
    θ_run defs (onTc (τ := τ) (main (F := F))) ⟨m, fun _ => 0, ρ⟩ (fun r => ∀ c : Dev nD,
      ∀ b ∈ Pipeline.ucRefs τ sig, r.2.mem (((c : Thread nD τ)).1, b) = Wv9 m ρ c b) :=
  Pipeline.θ_run_regions_kit (pcfgs (F := F)) admH (pdatsH m ρ) () cellOf_inj emb₁ defs₀ 𝒱H LH lvH m ρ main (segsH m ρ hloc)
    (fun c Q => by rw [main_runH m ρ hloc c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ RR c)) (Tₙ := TnH m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv9 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wv9 m ρ c) s')
      isplitl [Hh] <;> iassumption)
    (hQ := fun s h => h)

/-- The run with the two results named and the arguments unchanged: what the value claim starts from. -/
theorem run_results (hloc : ∀ c, Local5 (Uv8 m ρ) c) :
    θ_run defs (onTc (τ := τ) (main (F := F))) ⟨m, fun _ => 0, ρ⟩ (fun r => ∀ c : Dev nD,
      r.2.mem ((c.tc : Thread nD τ).loc main_v28) = Wv9 m ρ c (Proc.devRef .tc main_v28)
      ∧ r.2.mem ((c.tc : Thread nD τ).loc main_v30) = Wv9 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v28 (by decide)), h c _ (mem_uc main_v30 (by decide)),
      (h c _ (mem_uc main_arg0 (by decide))).trans (Wv9_launch m ρ c main_arg0 (by decide) (by decide) (by decide) (by decide) (by decide) (by decide) (by decide) (by decide) (by decide)),
      (h c _ (mem_uc main_arg1 (by decide))).trans (Wv9_launch m ρ c main_arg1 (by decide) (by decide) (by decide) (by decide) (by decide) (by decide) (by decide) (by decide) (by decide)),
      (h c _ (mem_uc main_arg2 (by decide))).trans (Wv9_launch m ρ c main_arg2 (by decide) (by decide) (by decide) (by decide) (by decide) (by decide) (by decide) (by decide) (by decide)),
      (h c _ (mem_uc main_arg3 (by decide))).trans (Wv9_launch m ρ c main_arg3 (by decide) (by decide) (by decide) (by decide) (by decide) (by decide) (by decide) (by decide) (by decide)),
      (h c _ (mem_uc main_arg4 (by decide))).trans (Wv9_launch m ρ c main_arg4 (by decide) (by decide) (by decide) (by decide) (by decide) (by decide) (by decide) (by decide) (by decide)),
      (h c _ (mem_uc main_arg5 (by decide))).trans (Wv9_launch m ρ c main_arg5 (by decide) (by decide) (by decide) (by decide) (by decide) (by decide) (by decide) (by decide) (by decide)),
      (h c _ (mem_uc main_arg6 (by decide))).trans (Wv9_launch m ρ c main_arg6 (by decide) (by decide) (by decide) (by decide) (by decide) (by decide) (by decide) (by decide) (by decide)),
      (h c _ (mem_uc main_arg7 (by decide))).trans (Wv9_launch m ρ c main_arg7 (by decide) (by decide) (by decide) (by decide) (by decide) (by decide) (by decide) (by decide) (by decide)),
      (h c _ (mem_uc main_arg8 (by decide))).trans (Wv9_launch m ρ c main_arg8 (by decide) (by decide) (by decide) (by decide) (by decide) (by decide) (by decide) (by decide) (by decide)),
      (h c _ (mem_uc main_arg9 (by decide))).trans (Wv9_launch m ρ c main_arg9 (by decide) (by decide) (by decide) (by decide) (by decide) (by decide) (by decide) (by decide) (by decide)),
      (h c _ (mem_uc main_arg10 (by decide))).trans (Wv9_launch m ρ c main_arg10 (by decide) (by decide) (by decide) (by decide) (by decide) (by decide) (by decide) (by decide) (by decide)),
      (h c _ (mem_uc main_arg11 (by decide))).trans (Wv9_launch m ρ c main_arg11 (by decide) (by decide) (by decide) (by decide) (by decide) (by decide) (by decide) (by decide) (by decide)),
      (h c _ (mem_uc main_arg12 (by decide))).trans (Wv9_launch m ρ c main_arg12 (by decide) (by decide) (by decide) (by decide) (by decide) (by decide) (by decide) (by decide) (by decide)),
      (h c _ (mem_uc main_arg13 (by decide))).trans (Wv9_launch m ρ c main_arg13 (by decide) (by decide) (by decide) (by decide) (by decide) (by decide) (by decide) (by decide) (by decide)),
      (h c _ (mem_uc main_arg14 (by decide))).trans (Wv9_launch m ρ c main_arg14 (by decide) (by decide) (by decide) (by decide) (by decide) (by decide) (by decide) (by decide) (by decide))⟩) (run_vals m ρ hloc)

/-- The frame: every argument array ends as launched. -/
theorem frame_of_local (hloc : ∀ c, Local5 (Uv8 m ρ) c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (h c).2.2) (run_results m ρ hloc)

end Cert.Kernel.Hand

end
-- ==== Proof.KRunR.lean ====
/-
  The run of the whole program with the last region's result left unnamed: the frame at any float instance.

  The inner-product decoder's output blocks overhang the result array.  At a clipped point the body multiplies
  staging buffers whose rows past the clip hold words nothing names, so what the body leaves in the result's
  staging buffer is a function of the blocks only where an entry of the product reads one row of each operand.
  Here nothing is said of that window: the region's proof data is read as a constraint on the contents with the
  result's window forgotten, the body is handed that buffer at any contents and gives it back at any contents, and
  the region leaves the result array at SOME contents.  Every other buffer is as the exact run names it, and the
  arguments, which no segment writes, end as launched.
-/
import proofs.«118927_g481036337836_cont_8to1_c_48_4_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data read as constraints, the decoder's result forgotten -/

/-- The windows of which each region's data says nothing: the decoder's result, and no other. -/
def fgtH : (p : Fin 6) → Fin (Pipeline.pin (pcfgs (F := F)) admH p).W → Bool
  | ⟨0, _⟩ => fun _ => false
  | ⟨1, _⟩ => fun _ => false
  | ⟨2, _⟩ => fun _ => false
  | ⟨3, _⟩ => fun _ => false
  | ⟨4, _⟩ => fun _ => false
  | ⟨5, _⟩ => fun (w : Fin cfg5.W) => decide (w = 2)

/-- Every pipeline's exact data read as a constraint on the contents, the decoder's result window forgotten. -/
def rdatsH (p : Fin 6) (c : Dev nD) : RDat τ (Elt F) Unit ℕ (UR sig nD τ) ℕ (Pipeline.pin (pcfgs (F := F)) admH p) c :=
  (pdatsH m ρ p c).toRForget (fgtH (F := F) p)

/-! ## The last boundary, the result at some contents -/

/-- After region 5 with its result array at `X`: every other buffer as entered. -/
def WvX (c : Dev nD) (X : (Proc.devRef .tc main_v30 : DevRef τ sig).ty.Contents (Elt F)) : Valuation τ sig (Elt F) :=
  Function.update (Wv8 m ρ c) (Proc.devRef .tc main_v30) X
theorem WvX_keep (c : Dev nD) (X : (Proc.devRef .tc main_v30 : DevRef τ sig).ty.Contents (Elt F)) (b : Ref sig .tc)
    (hb : b ∉ ([main_v30] : List (Ref sig .tc))) :
    WvX m ρ c X (Proc.devRef .tc b) = Wv8 m ρ c (Proc.devRef .tc b) := by
  unfold WvX
  exact Function.update_of_ne (StableHlo.devRef_ne_of_ne (List.ne_of_not_mem_cons hb) : (Proc.devRef .tc b : DevRef τ sig) ≠ Proc.devRef .tc main_v30) _ _
theorem WvX_out (c : Dev nD) (X : (Proc.devRef .tc main_v30 : DevRef τ sig).ty.Contents (Elt F)) :
    WvX m ρ c X (Proc.devRef .tc main_v30) = X := by
  unfold WvX; exact Function.update_self _ _ _

/-- A buffer that no host operation writes and no region has as an output ends at its launch contents, whatever the
    decoder's result. -/
theorem WvX_launch (c : Dev nD) (X : (Proc.devRef .tc main_v30 : DevRef τ sig).ty.Contents (Elt F)) (b : Ref sig .tc)
    (h0 : b ∉ hostOps0_W) (h1 : b ∉ ([main_v23] : List (Ref sig .tc)))
    (h2 : b ∉ hostOps1_W) (h3 : b ∉ ([main_v25_0, main_v25_1] : List (Ref sig .tc))) (h4 : b ∉ ([main_v26] : List (Ref sig .tc)))
    (h5 : b ∉ ([main_v27_0, main_v27_1] : List (Ref sig .tc))) (h6 : b ∉ ([main_v28] : List (Ref sig .tc))) (h7 : b ∉ hostOps5_W)
    (h8 : b ∉ ([main_v30] : List (Ref sig .tc))) :
    WvX m ρ c X (Proc.devRef .tc b) = m ((c : Thread nD τ).loc b) :=
  (WvX_keep m ρ c X b h8).trans <| (Wv8_keep m ρ c b h7).trans <| (Wv7_keep m ρ c b h6).trans <| (Wv6_keep m ρ c b h5).trans <|
    (Wv5_keep m ρ c b h4).trans <| (Wv4_keep m ρ c b h3).trans <| (Wv3_keep m ρ c b h2).trans <| (Wv2_keep m ρ c b h1).trans <|
    (Wv1_keep m ρ c b h0).trans rfl

/-- The last thread state without the debts: every unscoped buffer held, the result at some contents. -/
abbrev TnR (c : Dev nD) : sProp 𝕄 :=
  iprop(∃ X, StableHlo.held (c : Thread nD τ) (Pipeline.ucRefs τ sig) (WvX m ρ c X) ∗ ∃ r, prngReg c r)

/-! ## The regions as segments of the constraining data -/

set_option backward.isDefEq.respectTransparency.types false in
/-- Region 0 over the thread state, its proof data read as constraints on the contents: the exact record's fields,
    the exit fed the arrays at the contents the exact data names. -/
def regR0 : Pipeline.RDat.RegionSeg (pcfgs (F := F)) admH (rdatsH m ρ) () defs₀ 𝒱H LH lvH 0 where
  win := (reg0 m ρ).win
  block_pos := (reg0 m ρ).block_pos
  stage_whole := (reg0 m ρ).stage_whole
  K := PEmpty
  osem k := k.elim
  ho := Pipeline.OwnSemFacts.none _
  hbody c := ((reg0 m ρ).hbody c).toR
  hwaits := Pipeline.RDat.hwaits_of_owed_zero _ _ _ _ LH lvH 0 fun _ _ => rfl
  pre c := iprop(StableHlo.held (c : Thread nD τ) (Pipeline.ucRefs τ sig) (Wv1 m ρ c) ∗ RR c)
  post c := iprop(StableHlo.held (c : Thread nD τ) (Pipeline.ucRefs τ sig) (Wv2 m ρ c) ∗ RR c)
  X c := iprop(∃ r, prngReg c r)
  Y c := iprop(∃ r, prngReg c r)
  Z c := Pipeline.unscopedRest (Ix := Unit) (Name := ℕ) (U := UR sig nD τ) (Lvl := ℕ) spec0 c (Uv1 m ρ c)
  hentry := (reg0 m ρ).hentry
  hin := (reg0 m ρ).hin
  hout := (reg0 m ρ).hout
  hexit c := (sep_mono (Entails.of_eq ((pdatsH m ρ 0 c).toR_arraysAt_eq cfg0.N)) .rfl).trans ((reg0 m ρ).hexit c)

set_option backward.isDefEq.respectTransparency.types false in
/-- Region 1 over the thread state, its proof data read as constraints on the contents: the exact record's fields,
    the exit fed the arrays at the contents the exact data names. -/
def regR1 : Pipeline.RDat.RegionSeg (pcfgs (F := F)) admH (rdatsH m ρ) () defs₀ 𝒱H LH lvH 1 where
  win := (reg1 m ρ).win
  block_pos := (reg1 m ρ).block_pos
  stage_whole := (reg1 m ρ).stage_whole
  K := PEmpty
  osem k := k.elim
  ho := Pipeline.OwnSemFacts.none _
  hbody c := ((reg1 m ρ).hbody c).toR
  hwaits := Pipeline.RDat.hwaits_of_owed_zero _ _ _ _ LH lvH 1 fun _ _ => rfl
  pre c := iprop(StableHlo.held (c : Thread nD τ) (Pipeline.ucRefs τ sig) (Wv3 m ρ c) ∗ RR c)
  post c := iprop(StableHlo.held (c : Thread nD τ) (Pipeline.ucRefs τ sig) (Wv4 m ρ c) ∗ RR c)
  X c := iprop(∃ r, prngReg c r)
  Y c := iprop(∃ r, prngReg c r)
  Z c := Pipeline.unscopedRest (Ix := Unit) (Name := ℕ) (U := UR sig nD τ) (Lvl := ℕ) spec1 c (Uv3 m ρ c)
  hentry := (reg1 m ρ).hentry
  hin := (reg1 m ρ).hin
  hout := (reg1 m ρ).hout
  hexit c := (sep_mono (Entails.of_eq ((pdatsH m ρ 1 c).toR_arraysAt_eq cfg1.N)) .rfl).trans ((reg1 m ρ).hexit c)

set_option backward.isDefEq.respectTransparency.types false in
/-- Region 2 over the thread state, its proof data read as constraints on the contents: the exact record's fields,
    the exit fed the arrays at the contents the exact data names. -/
def regR2 : Pipeline.RDat.RegionSeg (pcfgs (F := F)) admH (rdatsH m ρ) () defs₀ 𝒱H LH lvH 2 where
  win := (reg2 m ρ).win
  block_pos := (reg2 m ρ).block_pos
  stage_whole := (reg2 m ρ).stage_whole
  K := PEmpty
  osem k := k.elim
  ho := Pipeline.OwnSemFacts.none _
  hbody c := ((reg2 m ρ).hbody c).toR
  hwaits := Pipeline.RDat.hwaits_of_owed_zero _ _ _ _ LH lvH 2 fun _ _ => rfl
  pre c := iprop(StableHlo.held (c : Thread nD τ) (Pipeline.ucRefs τ sig) (Wv4 m ρ c) ∗ RR c)
  post c := iprop(StableHlo.held (c : Thread nD τ) (Pipeline.ucRefs τ sig) (Wv5 m ρ c) ∗ RR c)
  X c := iprop(∃ r, prngReg c r)
  Y c := iprop(∃ r, prngReg c r)
  Z c := Pipeline.unscopedRest (Ix := Unit) (Name := ℕ) (U := UR sig nD τ) (Lvl := ℕ) spec2 c (Uv4 m ρ c)
  hentry := (reg2 m ρ).hentry
  hin := (reg2 m ρ).hin
  hout := (reg2 m ρ).hout
  hexit c := (sep_mono (Entails.of_eq ((pdatsH m ρ 2 c).toR_arraysAt_eq cfg2.N)) .rfl).trans ((reg2 m ρ).hexit c)

set_option backward.isDefEq.respectTransparency.types false in
/-- Region 3 over the thread state, its proof data read as constraints on the contents: the exact record's fields,
    the exit fed the arrays at the contents the exact data names. -/
def regR3 : Pipeline.RDat.RegionSeg (pcfgs (F := F)) admH (rdatsH m ρ) () defs₀ 𝒱H LH lvH 3 where
  win := (reg3 m ρ).win
  block_pos := (reg3 m ρ).block_pos
  stage_whole := (reg3 m ρ).stage_whole
  K := PEmpty
  osem k := k.elim
  ho := Pipeline.OwnSemFacts.none _
  hbody c := ((reg3 m ρ).hbody c).toR
  hwaits := Pipeline.RDat.hwaits_of_owed_zero _ _ _ _ LH lvH 3 fun _ _ => rfl
  pre c := iprop(StableHlo.held (c : Thread nD τ) (Pipeline.ucRefs τ sig) (Wv5 m ρ c) ∗ RR c)
  post c := iprop(StableHlo.held (c : Thread nD τ) (Pipeline.ucRefs τ sig) (Wv6 m ρ c) ∗ RR c)
  X c := iprop(∃ r, prngReg c r)
  Y c := iprop(∃ r, prngReg c r)
  Z c := Pipeline.unscopedRest (Ix := Unit) (Name := ℕ) (U := UR sig nD τ) (Lvl := ℕ) spec3 c (Uv5 m ρ c)
  hentry := (reg3 m ρ).hentry
  hin := (reg3 m ρ).hin
  hout := (reg3 m ρ).hout
  hexit c := (sep_mono (Entails.of_eq ((pdatsH m ρ 3 c).toR_arraysAt_eq cfg3.N)) .rfl).trans ((reg3 m ρ).hexit c)

set_option backward.isDefEq.respectTransparency.types false in
/-- Region 4 over the thread state, its proof data read as constraints on the contents: the exact record's fields,
    the exit fed the arrays at the contents the exact data names. -/
def regR4 : Pipeline.RDat.RegionSeg (pcfgs (F := F)) admH (rdatsH m ρ) () defs₀ 𝒱H LH lvH 4 where
  win := (reg4 m ρ).win
  block_pos := (reg4 m ρ).block_pos
  stage_whole := (reg4 m ρ).stage_whole
  K := PEmpty
  osem k := k.elim
  ho := Pipeline.OwnSemFacts.none _
  hbody c := ((reg4 m ρ).hbody c).toR
  hwaits := Pipeline.RDat.hwaits_of_owed_zero _ _ _ _ LH lvH 4 fun _ _ => rfl
  pre c := iprop(StableHlo.held (c : Thread nD τ) (Pipeline.ucRefs τ sig) (Wv6 m ρ c) ∗ RR c)
  post c := iprop(StableHlo.held (c : Thread nD τ) (Pipeline.ucRefs τ sig) (Wv7 m ρ c) ∗ RR c)
  X c := iprop(∃ r, prngReg c r)
  Y c := iprop(∃ r, prngReg c r)
  Z c := Pipeline.unscopedRest (Ix := Unit) (Name := ℕ) (U := UR sig nD τ) (Lvl := ℕ) spec4 c (Uv6 m ρ c)
  hentry := (reg4 m ρ).hentry
  hin := (reg4 m ρ).hin
  hout := (reg4 m ρ).hout
  hexit c := (sep_mono (Entails.of_eq ((pdatsH m ρ 4 c).toR_arraysAt_eq cfg4.N)) .rfl).trans ((reg4 m ρ).hexit c)

/-- The decoder's arrays after its last write-back, opened: each at some contents it may then hold. -/
theorem arraysAt5 (c : Dev nD) :
    ((rdatsH m ρ 5 c).arraysAt cfg5.N : sProp 𝕄)
      ⊢ iprop(∃ A, ⌜∀ w, (rdatsH m ρ 5 c).ArrAt w cfg5.N (A w)⌝ ∗ (rdatsH m ρ 5 c).arrays A) := by
  unfold RDat.arraysAt RDat.arrays
  iintro Ha
  ihave Ha' := (BI.bigSep_exists_pi Finset.univ (fun w F => iprop(⌜(rdatsH m ρ 5 c).ArrAt w cfg5.N F⌝
      ∗ (cfg5.win w).arr.view.loc (c : Thread nD τ) ↦[(cfg5.win w).arr.view.set]{(rdatsH m ρ 5 c).share w} F))) $$ Ha
  icases Ha' with ⟨%A, Ha⟩
  ihave Ha2 := (BI.bigSep_pure_sep Finset.univ (fun w => (rdatsH m ρ 5 c).ArrAt w cfg5.N (A w))
      (fun w => (cfg5.win w).arr.view.loc (c : Thread nD τ) ↦[(cfg5.win w).arr.view.set]{(rdatsH m ρ 5 c).share w} A w)) $$ Ha
  icases Ha2 with ⟨%hA', Ha⟩
  iexists A; isplitr; · ipureintro; exact fun w => hA' w (Finset.mem_univ w)
  iexact Ha

/-- What the decoder's arrays may hold after its last write-back: the operand array, which both input windows view,
    its entry contents; the result anything. -/
theorem arrAt5_eq (c : Dev nD) (A : (w : Fin cfg5.W) → Buf (Elt F) ((cfg5.win w).arr.view.loc (c : Thread nD τ)))
    (hA : ∀ w, (rdatsH m ρ 5 c).ArrAt w cfg5.N (A w)) :
    ∀ w, A w = WvX m ρ c (A 2) (Proc.devRef .tc (Pipeline.arrRef spec5 w))
  | ⟨0, _⟩ => ((((dat5 (Uv8 m ρ) c).toRForget_arrAt_iff (fgt := fgtH (F := F) 5) (w := 0) rfl cfg5.N (A 0)).mp (hA 0)).trans
      (((dat5 (Uv8 m ρ) c).arrAt_in 0 rfl _).trans (A_eq5 (Uv8 m ρ) c 0))).trans (WvX_keep m ρ c (A 2) main_v29 (by decide)).symm
  | ⟨1, _⟩ => ((((dat5 (Uv8 m ρ) c).toRForget_arrAt_iff (fgt := fgtH (F := F) 5) (w := 1) rfl cfg5.N (A 1)).mp (hA 1)).trans
      (((dat5 (Uv8 m ρ) c).arrAt_in 1 rfl _).trans (A_eq5 (Uv8 m ρ) c 1))).trans (WvX_keep m ρ c (A 2) main_v29 (by decide)).symm
  | ⟨2, _⟩ => (WvX_out m ρ c (A 2)).symm

set_option backward.isDefEq.respectTransparency.types false in
/-- Region 5 over the thread state: entered from every unscoped buffer at `Wv8`, left with the result at some
    contents and every other buffer as entered; its two input windows share the operand array, split between them
    and joined again. -/
def regR5 : Pipeline.RDat.RegionSeg (pcfgs (F := F)) admH (rdatsH m ρ) () defs₀ 𝒱H LH lvH 5 where
  win := winFacts₀5
  block_pos := block_pos5
  stage_whole := stage_whole5
  K := PEmpty
  osem k := k.elim
  ho := Pipeline.OwnSemFacts.none _
  hbody c := (body_obligation5_fgt (Uv8 m ρ) c).toRForget
  hwaits := Pipeline.RDat.hwaits_of_owed_zero _ _ _ _ LH lvH 5 fun _ _ => rfl
  pre c := iprop(StableHlo.held (c : Thread nD τ) (Pipeline.ucRefs τ sig) (Wv8 m ρ c) ∗ RR c)
  post c := iprop(TnR m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (Uv8 m ρ c)
  hentry c := by
    rw [Pipeline.ownSems0_none]
    have hsplit : (unscopedBufs c (Uv8 m ρ c) : sProp 𝕄) ⊢ iprop((rdatsH m ρ 5 c).arrays (rdatsH m ρ 5 c).A
        ∗ Pipeline.unscopedRest (Ix := Unit) (Name := ℕ) (U := UR sig nD τ) (Lvl := ℕ) spec5 c (Uv8 m ρ c)) :=
      arrays_of_unscopedBufs5 (Uv8 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsH m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (rdatsH m ρ 5 c).Φ (Fin.last _) = Pipeline.ΦA spec5 c from rfl]; unfold Pipeline.ΦA
    iintro ⟨Hr, Hp⟩
    isplitl [Hp]; · iexact Hp
    isplitr; · iempintro
    iexact Hr
  hexit c := by
    iintro ⟨Ha, HO, HY, Hrest⟩
    ihave Ha' := arraysAt5 m ρ c $$ Ha
    icases Ha' with ⟨%A, %hA, Ha⟩
    have hjoin : iprop((rdatsH m ρ 5 c).arrays A
        ∗ Pipeline.unscopedRest (Ix := Unit) (Name := ℕ) (U := UR sig nD τ) (Lvl := ℕ) spec5 c (Uv8 m ρ c))
          ⊢ (unscopedBufs c (fun b => WvX m ρ c (A 2) b) : sProp 𝕄) :=
      unscopedBufs_of_arrays5_gen (Uv8 m ρ) (fun c' b => WvX m ρ c' (A 2) b) c A (arrAt5_eq m ρ c A hA)
        (fun b hb => WvX_keep m ρ c (A 2) b fun h => hb (Finset.mem_image.mpr ⟨2, Finset.mem_univ _, (List.mem_singleton.mp h).symm⟩))
    rw [Pipeline.unscopedBufs_held] at hjoin
    imodintro
    isplitl [Ha Hrest HY]
    · iexists (A 2)
      isplitl [Ha Hrest]
      · iapply hjoin; isplitl [Ha] <;> iassumption
      iexact HY
    unfold Pipeline.RDat.owesAt Pipeline.owesWithin
    icases HO with ⟨%W, -, HO⟩; iexists W; iexact HO

/-! ## @main as segments, and the launch -/

/-- @main's nine segments in order. -/
abbrev segsR : List (Pipeline.RDat.Seg (pcfgs (F := F)) admH (rdatsH m ρ) () defs₀ 𝒱H LH lvH) :=
  [ .host (hseg hostOps0 hostOps0_sub hostOps0_fresh (Wv0 m ρ)),
    .region (regR0 m ρ),
    .host (hseg hostOps1 hostOps1_sub hostOps1_fresh (Wv2 m ρ)),
    .region (regR1 m ρ),
    .region (regR2 m ρ),
    .region (regR3 m ρ),
    .region (regR4 m ρ),
    .host (hseg hostOps5 hostOps5_sub hostOps5_fresh (Wv7 m ρ)),
    .region (regR5 m ρ) ]
/-- @main is the run of the segments. -/
theorem main_runR (c : Dev nD) : main (F := F) c = Pipeline.RDat.Seg.run (segsR m ρ) :=
  (main_chain c).trans (by chain_rfl)

set_option backward.isDefEq.respectTransparency.types false in
/-- THE RUN, the decoder's result unnamed: from any memory with zero counters every weakly fair execution of @main
    on the TensorCores terminates, nothing faulting, and every final memory holds every unscoped buffer but the
    decoder's result at the last boundary's contents. -/
theorem run_valsR :
    θ_run defs (onTc (τ := τ) (main (F := F))) ⟨m, fun _ => 0, ρ⟩ (fun r => ∀ c : Dev nD,
      ∃ X, ∀ b ∈ Pipeline.ucRefs τ sig, r.2.mem (((c : Thread nD τ)).1, b) = WvX m ρ c X b) :=
  Pipeline.RDat.θ_run_regions_kit (pcfgs (F := F)) admH (rdatsH m ρ) () cellOf_inj emb₁ defs₀ 𝒱H LH lvH m ρ main (segsR m ρ)
    (fun c Q => by rw [main_runR m ρ c])
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ RR c)) (Tₙ := TnR m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∃ X, ∀ b ∈ Pipeline.ucRefs τ sig, s.mem (((c : Thread nD τ)).1, b) = WvX m ρ c X b)
    (hfin := fun c s' => by
      iintro ⟨⟨%X, Hh, -⟩, HSI⟩
      unfold StableHlo.held
      ihave H := (pointsTo_read_all (Pipeline.ucRefs τ sig) (fun b => (((c : Thread nD τ)).1, b)) (WvX m ρ c X) s') $$ [Hh HSI]
      · isplitl [Hh] <;> iassumption
      icases H with ⟨%hq, HSI⟩
      imodintro
      isplitr; · ipureintro; exact ⟨X, hq⟩
      iexact HSI)
    (hQ := fun s h => h)

/-- The frame at any float instance: every argument array ends as launched. -/
theorem frame_any :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    obtain ⟨X, hX⟩ := h c
    exact ⟨
      (hX _ (mem_uc main_arg0 (by decide))).trans (WvX_launch m ρ c X main_arg0 (by decide) (by decide) (by decide) (by decide) (by decide) (by decide) (by decide) (by decide) (by decide)),
      (hX _ (mem_uc main_arg1 (by decide))).trans (WvX_launch m ρ c X main_arg1 (by decide) (by decide) (by decide) (by decide) (by decide) (by decide) (by decide) (by decide) (by decide)),
      (hX _ (mem_uc main_arg2 (by decide))).trans (WvX_launch m ρ c X main_arg2 (by decide) (by decide) (by decide) (by decide) (by decide) (by decide) (by decide) (by decide) (by decide)),
      (hX _ (mem_uc main_arg3 (by decide))).trans (WvX_launch m ρ c X main_arg3 (by decide) (by decide) (by decide) (by decide) (by decide) (by decide) (by decide) (by decide) (by decide)),
      (hX _ (mem_uc main_arg4 (by decide))).trans (WvX_launch m ρ c X main_arg4 (by decide) (by decide) (by decide) (by decide) (by decide) (by decide) (by decide) (by decide) (by decide)),
      (hX _ (mem_uc main_arg5 (by decide))).trans (WvX_launch m ρ c X main_arg5 (by decide) (by decide) (by decide) (by decide) (by decide) (by decide) (by decide) (by decide) (by decide)),
      (hX _ (mem_uc main_arg6 (by decide))).trans (WvX_launch m ρ c X main_arg6 (by decide) (by decide) (by decide) (by decide) (by decide) (by decide) (by decide) (by decide) (by decide)),
      (hX _ (mem_uc main_arg7 (by decide))).trans (WvX_launch m ρ c X main_arg7 (by decide) (by decide) (by decide) (by decide) (by decide) (by decide) (by decide) (by decide) (by decide)),
      (hX _ (mem_uc main_arg8 (by decide))).trans (WvX_launch m ρ c X main_arg8 (by decide) (by decide) (by decide) (by decide) (by decide) (by decide) (by decide) (by decide) (by decide)),
      (hX _ (mem_uc main_arg9 (by decide))).trans (WvX_launch m ρ c X main_arg9 (by decide) (by decide) (by decide) (by decide) (by decide) (by decide) (by decide) (by decide) (by decide)),
      (hX _ (mem_uc main_arg10 (by decide))).trans (WvX_launch m ρ c X main_arg10 (by decide) (by decide) (by decide) (by decide) (by decide) (by decide) (by decide) (by decide) (by decide)),
      (hX _ (mem_uc main_arg11 (by decide))).trans (WvX_launch m ρ c X main_arg11 (by decide) (by decide) (by decide) (by decide) (by decide) (by decide) (by decide) (by decide) (by decide)),
      (hX _ (mem_uc main_arg12 (by decide))).trans (WvX_launch m ρ c X main_arg12 (by decide) (by decide) (by decide) (by decide) (by decide) (by decide) (by decide) (by decide) (by decide)),
      (hX _ (mem_uc main_arg13 (by decide))).trans (WvX_launch m ρ c X main_arg13 (by decide) (by decide) (by decide) (by decide) (by decide) (by decide) (by decide) (by decide) (by decide)),
      (hX _ (mem_uc main_arg14 (by decide))).trans (WvX_launch m ρ c X main_arg14 (by decide) (by decide) (by decide) (by decide) (by decide) (by decide) (by decide) (by decide) (by decide))⟩) (run_valsR m ρ)

end Cert.Kernel.Hand

end
-- ==== Proof.Spec.lean ====
/-
  The mathematics shared by both sides, on the extended reals, entry by entry.

  A graph-convolution layer of this network sends a feature matrix `r` (one row per node) to
  `max (adj · r) 0`, optionally followed by a per-column affine map (the evaluation-mode batch
  normalisation: a column scale and a column shift).  Everything below is stated at an ENTRY (a row `p`
  and a column `c`), over arrays given as functions of a two-coordinate index.
-/
import Idealize.ShloMosaic.PureOps.Ideal
import Idealize.ShloMosaic.Lib.ValueIdx

noncomputable section

namespace Cert.Spec

open Idealize.ShloMosaic Idealize.ShloMosaic.ValueIdx

/-- An `a × b` array of extended reals, as a function of its two-coordinate index. -/
abbrev Arr (a b : Nat) : Type := (⟨2, ![a, b]⟩ : Shape).Idx → EReal

/-- Entry `(p, c)` of the matrix product `A · B`: the sum over the inner index of the products. -/
def mmAt {n k m : Nat} (A : Arr n k) (B : Arr k m) (p : Fin n) (c : Fin m) : EReal :=
  ∑ j : Fin k, A (ix2 p j) * B (ix2 j c)

/-- Entry `(p, c)` of `A · Bᵀ`: both operands are contracted along their second axis. -/
def mmTAt {n k m : Nat} (A : Arr n k) (B : Arr m k) (p : Fin n) (c : Fin m) : EReal :=
  ∑ j : Fin k, A (ix2 p j) * B (ix2 c j)

/-- Entry `(p, c)` of `max (adj · r) 0`. -/
def reluAt {n k m : Nat} (adj : Arr n k) (r : Arr k m) (p : Fin n) (c : Fin m) : EReal :=
  max (mmAt adj r p c) 0

/-- Entry `(p, c)` of `max (adj · r) 0` scaled and shifted column by column (`sc`, `bi` are one-row arrays). -/
def layerAt {n k m : Nat} (adj : Arr n k) (r : Arr k m) (sc bi : Arr 1 m) (p : Fin n) (c : Fin m) : EReal :=
  reluAt adj r p c * sc (ix2 0 c) + bi (ix2 0 c)

/-- A one-axis array (a vector) of extended reals. -/
abbrev Vec1 (a : Nat) : Type := (⟨1, ![a]⟩ : Shape).Idx → EReal

/-- The product `A · B` as an array. -/
def mm {n k m : Nat} (A : Arr n k) (B : Arr k m) : Arr n m := fun i => mmAt A B (i 0) (i 1)

/-- `max (adj · r) 0` as an array. -/
def gcn {n k m : Nat} (adj : Arr n k) (r : Arr k m) : Arr n m := fun i => reluAt adj r (i 0) (i 1)

/-- The evaluation-mode normalisation as the reference spells it: subtract the running mean `0`, divide by the
    running deviation `σ`, scale by `g`, shift by `b`. -/
def bnRef (σ x g b : EReal) : EReal := Ideal.div (x - 0) σ * g + b

/-- `max (adj · r) 0` normalised column by column, as an array. -/
def gcnBn {n k m : Nat} (σ : EReal) (adj : Arr n k) (r : Arr k m) (g b : Vec1 m) : Arr n m :=
  fun i => bnRef σ (reluAt adj r (i 0) (i 1)) (g (ix1 (i 1))) (b (ix1 (i 1)))

/-- The running deviation: the square root of the float word of `1 + 1e-5`. -/
def sigma : EReal := Ideal.sqrt (Ideal.ofBits .f32 0x3F800054#32)

section Network
variable (x : Arr 10000 128) (adj : Arr 10000 10000) (W1 : Arr 128 32) (W2 : Arr 32 16) (Wf1 : Arr 16 32)
  (Wf2 : Arr 32 128) (Ws1 : Arr 16 32) (g2 b2 : Vec1 16) (gf1 bf1 : Vec1 32) (gf2 bf2 : Vec1 128) (gs1 bs1 : Vec1 32)

/-- The encoder's second layer, normalised: `h2`. -/
def encH2 : Arr 10000 16 := gcnBn sigma adj (mm (gcn adj (mm x W1)) W2) g2 b2
/-- The feature decoder's first layer: `f1`. -/
def decF1 : Arr 10000 32 := gcnBn sigma adj (mm (encH2 x adj W1 W2 g2 b2) Wf1) gf1 bf1
/-- The feature decoder's output `f2`: the network's first result. -/
def decF2 : Arr 10000 128 := gcnBn sigma adj (mm (decF1 x adj W1 W2 Wf1 g2 b2 gf1 bf1) Wf2) gf2 bf2
/-- The structure decoder's layer: `s1`. -/
def decS1 : Arr 10000 32 := gcnBn sigma adj (mm (encH2 x adj W1 W2 g2 b2) Ws1) gs1 bs1
/-- The reconstructed adjacency `s1 · s1ᵀ`: the network's second result. -/
def adjRec : Arr 10000 10000 := fun i =>
  mmTAt (decS1 x adj W1 W2 Ws1 g2 b2 gs1 bs1) (decS1 x adj W1 W2 Ws1 g2 b2 gs1 bs1) (i 0) (i 1)
end Network

end Cert.Spec

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.Value0.lean ====
import proofs.«118927_g481036337836_cont_8to1_c_48_4_alg».proof.Proof.Region0
import proofs.«118927_g481036337836_cont_8to1_c_48_4_alg».proof.Proof.Spec
import proofs.«118927_g481036337836_cont_8to1_c_48_4_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! What region 0 leaves in its output array, entry by entry, on the extended reals. -/

variable (V : (c : Dev nD) → (b : Ref sig .tc) → Buf (Elt Ideal) ((c : Thread nD τ).loc b))

/-! ## The payload at an entry -/

/-- The stored value at an entry: the product of the two loaded arrays. -/
theorem pay0_1_apply (x0 : FVec Ideal S10000x128 .bf16) (x1 : FVec Ideal S128x32 .bf16) (p : Fin 10000) (q : Fin 32) :
    k0_pay1 (F := Ideal) x0 x1 (ix2 p q) = ∑ k : Fin 128, x0 (ix2 p k) * x1 (ix2 k q) := by
  unfold k0_pay1
  refine (Cert.LibPlainMatmul.matmul_zero_apply 10000 128 32 none _ _ p q).trans ?_
  refine Finset.sum_congr rfl fun k _ => ?_
  exact congrArg₂ (· * ·) (congrFun (shapeCast_self x0 _) (ix2 p k)) (congrFun (shapeCast_self x1 _) (ix2 k q))

/-! ## The blocks as parts of the arrays: every window is its whole array -/

theorem zero_off0 : (![0, 0] : Fin 2 → Nat) = fun _ => 0 := funext fun a => by fin_cases a <;> rfl

/-- Every window sits at the origin of its array at the one point. -/
theorem idx0_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem iblk0_0_apply (c : Dev nD) (t : Fin cfg0.N) (p : Fin 10000) (k : Fin 128) :
    (iblk0 V c 0 t : FVec Ideal S10000x128 .bf16) (ix2 p k) = (V c main_v21 : S10000x128.Idx → EReal) (ix2 p k) := by
  obtain ⟨e0, e1, -⟩ := idx0_facts t
  show (V c main_v21 : S10000x128.Idx → EReal) (((cfg0.win 0).blk t).view.emb (ix2 p k)) = _
  refine congrArg (V c main_v21 : S10000x128.Idx → EReal) ?_
  funext a; apply Fin.ext
  match a with
  | ⟨0, _⟩ => show win0_0.index t (0 : Fin 2) * 10000 + 1 * p.val = p.val; rw [e0]; omega
  | ⟨1, _⟩ => show win0_0.index t (1 : Fin 2) * 128 + 1 * k.val = k.val; rw [e1]; omega

theorem iblk0_1_apply (c : Dev nD) (t : Fin cfg0.N) (k : Fin 128) (q : Fin 32) :
    (iblk0 V c 1 t : FVec Ideal S128x32 .bf16) (ix2 k q) = (V c main_v22 : S128x32.Idx → EReal) (ix2 k q) := by
  obtain ⟨-, -, e0, e1, -⟩ := idx0_facts t
  show (V c main_v22 : S128x32.Idx → EReal) (((cfg0.win 1).blk t).view.emb (ix2 k q)) = _
  refine congrArg (V c main_v22 : S128x32.Idx → EReal) ?_
  funext a; apply Fin.ext
  match a with
  | ⟨0, _⟩ => show win0_1.index t (0 : Fin 2) * 128 + 1 * k.val = k.val; rw [e0]; omega
  | ⟨1, _⟩ => show win0_1.index t (1 : Fin 2) * 32 + 1 * q.val = q.val; rw [e1]; omega

theorem emb0_2 (t : Fin cfg0.N) (p : Fin 10000) (q : Fin 32) :
    ((cfg0.win 2).blk t).view.emb (ix2 p q) = (ix2 p q : S10000x32.Idx) := by
  obtain ⟨-, -, -, -, e0, e1⟩ := idx0_facts t
  funext a; apply Fin.ext
  match a with
  | ⟨0, _⟩ => show win0_2.index t (0 : Fin 2) * 10000 + 1 * p.val = p.val; rw [e0]; omega
  | ⟨1, _⟩ => show win0_2.index t (1 : Fin 2) * 32 + 1 * q.val = q.val; rw [e1]; omega

/-! ## What the one point writes back -/

/-- The output array as one function of the arrays the region finds. -/
def G0_2 (c : Dev nD) : S10000x32.Idx → EReal := fun i =>
  Cert.Spec.mmAt (n := 10000) (k := 128) (m := 32) (V c main_v21) (V c main_v22) (i 0) (i 1)

theorem G0_2_apply (c : Dev nD) (p : Fin 10000) (q : Fin 32) :
    G0_2 V c (ix2 p q) = Cert.Spec.mmAt (n := 10000) (k := 128) (m := 32) (V c main_v21) (V c main_v22) p q := rfl

theorem flushed0_2_eq (c : Dev nD) (t : Fin cfg0.N) :
    (dat0 (F := Ideal) V c).flushed 2 t = ((cfg0.win 2).blk t).view.read (Elt Ideal) (G0_2 V c) := by
  show (cfg0.win 2).cut (grid0.coords t) ((dat0 V c).after 2 t) = _
  rw [after0_2]
  unfold out0_2
  rw [View.canon_unit_zero zero_off0]
  simp only [View.ld_unit_zero (S := S10000x128) zero_off0, View.ld_unit_zero (S := S128x32) zero_off0]
  funext j
  obtain ⟨p, q, rfl⟩ : ∃ (p : Fin 10000) (q : Fin 32), j = ix2 p q := ⟨j 0, j 1, eq_ix2 j⟩
  show k0_pay1 (F := Ideal) (iblk0 V c 0 t) (iblk0 V c 1 t) (ix2 p q) = G0_2 V c (((cfg0.win 2).blk t).view.emb (ix2 p q))
  rw [emb0_2 t p q, G0_2_apply]
  refine (pay0_1_apply (iblk0 V c 0 t) (iblk0 V c 1 t) p q).trans ?_
  unfold Cert.Spec.mmAt
  refine Finset.sum_congr rfl fun k _ => ?_
  exact congrArg₂ (· * ·) (iblk0_0_apply V c t p k) (iblk0_1_apply V c t k q)

/-! ## The cover: the one point's block is the whole array -/

theorem mem_blk0_2 (t : Fin cfg0.N) (i : S10000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v23).slice (win0_2.rect t)).set ↔ _
  rw [View.set_slice_whole, Rect.mem_set_unit]
  exact Iff.rfl

theorem covered0_2 (i : S10000x32.Idx) : ∃ t : Fin cfg0.N, (cfg0.win 2).flush t = true ∧ i ∈ ((cfg0.win 2).blk t).view.set := by
  have hi0 : (i 0).val < 10000 := (i 0).isLt
  have hi1 : (i 1).val < 32 := (i 1).isLt
  obtain ⟨t⟩ : Nonempty (Fin cfg0.N) := ⟨⟨0, by decide⟩⟩
  obtain ⟨-, -, -, -, e0, e1⟩ := idx0_facts t
  refine ⟨t, flush0_2 t, ?_⟩
  rw [mem_blk0_2]
  intro a
  match a with
  | ⟨0, _⟩ => show win0_2.index t (0 : Fin 2) * 10000 ≤ (i 0).val ∧ (i 0).val < win0_2.index t (0 : Fin 2) * 10000 + 10000; rw [e0]; omega
  | ⟨1, _⟩ => show win0_2.index t (1 : Fin 2) * 32 ≤ (i 1).val ∧ (i 1).val < win0_2.index t (1 : Fin 2) * 32 + 32; rw [e1]; omega

/-! ## The array after the region -/

/-- The output array is the product of the two input arrays. -/
theorem final0_2 (c : Dev nD) (p : Fin 10000) (q : Fin 32) :
    (dat0 (F := Ideal) V c).arrAt 2 cfg0.N (ix2 p q)
      = Cert.Spec.mmAt (n := 10000) (k := 128) (m := 32) (V c main_v21) (V c main_v22) p q :=
  congrFun ((dat0 (F := Ideal) V c).arrAt_eq_of_cover 2 (G0_2 V c)
    (fun t _ => flushed0_2_eq V c t) covered0_2) (ix2 p q)

end Cert.KernelIdeal.Hand

end
-- ==== Proof.Value1.lean ====
import proofs.«118927_g481036337836_cont_8to1_c_48_4_alg».proof.Proof.Region1
import proofs.«118927_g481036337836_cont_8to1_c_48_4_alg».proof.Proof.Spec
import proofs.«118927_g481036337836_cont_8to1_c_48_4_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! What region 1 leaves in its two output arrays, entry by entry, on the extended reals. -/

variable (V : (c : Dev nD) → (b : Ref sig .tc) → Buf (Elt Ideal) ((c : Thread nD τ).loc b))

/-! ## The payloads at an entry -/

/-- The format change of the adjacency block is the identity on the extended reals. -/
theorem pay1_1_apply (x0 : FVec Ideal S400x10000 .f32) (p : Fin 400) (q : Fin 10000) :
    k1_pay1 (F := Ideal) x0 (ix2 p q) = x0 (ix2 p q) := rfl

/-- The second stored value at an entry: the rectified product of the adjacency block with the features, times the weights. -/
theorem pay1_2_apply (x0 : FVec Ideal S400x10000 .f32) (x1 : FVec Ideal S10000x32 .bf16) (x2 : FVec Ideal S32x16 .bf16) (p : Fin 400) (q : Fin 16) :
    k1_pay2 (F := Ideal) x0 x1 x2 (ix2 p q)
      = ∑ j : Fin 32, max (∑ k : Fin 10000, x0 (ix2 p k) * x1 (ix2 k j)) 0 * x2 (ix2 j q) := by
  unfold k1_pay2
  refine (Cert.LibPlainMatmul.matmul_zero_apply 400 32 16 none _ _ p q).trans ?_
  refine Finset.sum_congr rfl fun j _ => ?_
  refine congrArg₂ (· * ·) ?_ (congrFun (shapeCast_self x2 _) (ix2 j q))
  show max (matmul dot_S400x10000_S10000x32_S400x32_1_0_0_1_n_n none (k1_pay1 x0) (shapeCast S10000x32 x1 shapeCasts_S10000x32_S10000x32) (constant (F := Ideal) S400x32 .f32 0x00000000#32) (ix2 p j)) (Ideal.ofBits .f32 0x00000000#32) = _
  rw [Ideal.ofBits_zero_f32]
  refine congrArg (max · 0) ?_
  refine (Cert.LibPlainMatmul.matmul_zero_apply 400 10000 32 none _ _ p j).trans ?_
  refine Finset.sum_congr rfl fun k _ => ?_
  exact congrArg (x0 (ix2 p k) * ·) (congrFun (shapeCast_self x1 _) (ix2 k j))

/-! ## The blocks as parts of the arrays -/

theorem zero_off1 : (![0, 0] : Fin 2 → Nat) = fun _ => 0 := funext fun a => by fin_cases a <;> rfl

/-- The index maps over the grid: the row-block windows sit at block row `t`, the whole windows at the origin. -/
theorem idx1_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `p` of the adjacency block at point `t` is row `400 t + p` of the adjacency. -/
theorem iblk1_0_apply (c : Dev nD) (t : Fin cfg1.N) (p : Fin 400) (k : Fin 10000) (r : Fin 10000) (hr : r.val = t.val * 400 + p.val) :
    (iblk1 V c 0 t : FVec Ideal S400x10000 .f32) (ix2 p k) = (V c main_arg1 : S10000x10000.Idx → EReal) (ix2 r k) := by
  obtain ⟨e0, e1, -⟩ := idx1_facts t
  show (V c main_arg1 : S10000x10000.Idx → EReal) (((cfg1.win 0).blk t).view.emb (ix2 p k)) = _
  refine congrArg (V c main_arg1 : S10000x10000.Idx → EReal) ?_
  funext a; apply Fin.ext
  match a with
  | ⟨0, _⟩ => show win1_0.index t (0 : Fin 2) * 400 + 1 * p.val = r.val; rw [e0, hr]; omega
  | ⟨1, _⟩ => show win1_0.index t (1 : Fin 2) * 10000 + 1 * k.val = k.val; rw [e1]; omega

/-- The feature window is the whole feature array at every point. -/
theorem iblk1_1_apply (c : Dev nD) (t : Fin cfg1.N) (k : Fin 10000) (j : Fin 32) :
    (iblk1 V c 1 t : FVec Ideal S10000x32 .bf16) (ix2 k j) = (V c main_v23 : S10000x32.Idx → EReal) (ix2 k j) := by
  obtain ⟨-, -, e0, e1, -⟩ := idx1_facts t
  show (V c main_v23 : S10000x32.Idx → EReal) (((cfg1.win 1).blk t).view.emb (ix2 k j)) = _
  refine congrArg (V c main_v23 : S10000x32.Idx → EReal) ?_
  funext a; apply Fin.ext
  match a with
  | ⟨0, _⟩ => show win1_1.index t (0 : Fin 2) * 10000 + 1 * k.val = k.val; rw [e0]; omega
  | ⟨1, _⟩ => show win1_1.index t (1 : Fin 2) * 32 + 1 * j.val = j.val; rw [e1]; omega

/-- The weight window is the whole weight array at every point. -/
theorem iblk1_2_apply (c : Dev nD) (t : Fin cfg1.N) (j : Fin 32) (q : Fin 16) :
    (iblk1 V c 2 t : FVec Ideal S32x16 .bf16) (ix2 j q) = (V c main_v24 : S32x16.Idx → EReal) (ix2 j q) := by
  obtain ⟨-, -, -, -, e0, e1, -⟩ := idx1_facts t
  show (V c main_v24 : S32x16.Idx → EReal) (((cfg1.win 2).blk t).view.emb (ix2 j q)) = _
  refine congrArg (V c main_v24 : S32x16.Idx → EReal) ?_
  funext a; apply Fin.ext
  match a with
  | ⟨0, _⟩ => show win1_2.index t (0 : Fin 2) * 32 + 1 * j.val = j.val; rw [e0]; omega
  | ⟨1, _⟩ => show win1_2.index t (1 : Fin 2) * 16 + 1 * q.val = q.val; rw [e1]; omega

/-- Entry `(p, q)` of the first output's block at point `t` is entry `(400 t + p, q)` of its array. -/
theorem emb1_3 (t : Fin cfg1.N) (p : Fin 400) (q : Fin 10000) (r : Fin 10000) (hr : r.val = t.val * 400 + p.val) :
    ((cfg1.win 3).blk t).view.emb (ix2 p q) = (ix2 r q : S10000x10000.Idx) := by
  obtain ⟨-, -, -, -, -, -, e0, e1, -⟩ := idx1_facts t
  funext a; apply Fin.ext
  match a with
  | ⟨0, _⟩ => show win1_3.index t (0 : Fin 2) * 400 + 1 * p.val = r.val; rw [e0, hr]; omega
  | ⟨1, _⟩ => show win1_3.index t (1 : Fin 2) * 10000 + 1 * q.val = q.val; rw [e1]; omega

/-- Entry `(p, q)` of the second output's block at point `t` is entry `(400 t + p, q)` of its array. -/
theorem emb1_4 (t : Fin cfg1.N) (p : Fin 400) (q : Fin 16) (r : Fin 10000) (hr : r.val = t.val * 400 + p.val) :
    ((cfg1.win 4).blk t).view.emb (ix2 p q) = (ix2 r q : S10000x16.Idx) := by
  obtain ⟨-, -, -, -, -, -, -, -, e0, e1⟩ := idx1_facts t
  funext a; apply Fin.ext
  match a with
  | ⟨0, _⟩ => show win1_4.index t (0 : Fin 2) * 400 + 1 * p.val = r.val; rw [e0, hr]; omega
  | ⟨1, _⟩ => show win1_4.index t (1 : Fin 2) * 16 + 1 * q.val = q.val; rw [e1]; omega

/-! ## What each point writes back -/

/-- The second output array as one function of the arrays the region finds. -/
def G1_4 (c : Dev nD) : S10000x16.Idx → EReal := fun i =>
  Cert.Spec.mmAt (n := 10000) (k := 32) (m := 16)
    (fun i' => Cert.Spec.reluAt (n := 10000) (k := 10000) (m := 32) (V c main_arg1) (V c main_v23) (i' 0) (i' 1))
    (V c main_v24) (i 0) (i 1)

theorem G1_4_apply (c : Dev nD) (r : Fin 10000) (q : Fin 16) :
    G1_4 V c (ix2 r q) = Cert.Spec.mmAt (n := 10000) (k := 32) (m := 16)
      (fun i' => Cert.Spec.reluAt (n := 10000) (k := 10000) (m := 32) (V c main_arg1) (V c main_v23) (i' 0) (i' 1))
      (V c main_v24) r q := rfl

/-- Point `t` writes back block `t` of the adjacency as found. -/
theorem flushed1_3_eq (c : Dev nD) (t : Fin cfg1.N) :
    (dat1 (F := Ideal) V c).flushed 3 t = ((cfg1.win 3).blk t).view.read (Elt Ideal) (V c main_arg1 : S10000x10000.Idx → EReal) := by
  show (cfg1.win 3).cut (grid1.coords t) ((dat1 V c).after 3 t) = _
  rw [after1_3]
  unfold out1_3
  rw [View.canon_unit_zero zero_off1]
  simp only [View.ld_unit_zero (S := S400x10000) zero_off1]
  funext j
  obtain ⟨p, q, rfl⟩ : ∃ (p : Fin 400) (q : Fin 10000), j = ix2 p q := ⟨j 0, j 1, eq_ix2 j⟩
  have hrow : t.val * 400 + p.val < 10000 := by
    have h1 := t.isLt; have hN : cfg1.N = 25 := N_1; have h2 := p.isLt; omega
  show k1_pay1 (F := Ideal) (iblk1 V c 0 t) (ix2 p q) = (V c main_arg1 : S10000x10000.Idx → EReal) (((cfg1.win 3).blk t).view.emb (ix2 p q))
  rw [emb1_3 t p q ⟨t.val * 400 + p.val, hrow⟩ rfl]
  exact iblk1_0_apply V c t p q ⟨t.val * 400 + p.val, hrow⟩ rfl

/-- Point `t` writes back block `t` of `G1_4`. -/
theorem flushed1_4_eq (c : Dev nD) (t : Fin cfg1.N) :
    (dat1 (F := Ideal) V c).flushed 4 t = ((cfg1.win 4).blk t).view.read (Elt Ideal) (G1_4 V c) := by
  show (cfg1.win 4).cut (grid1.coords t) ((dat1 V c).after 4 t) = _
  rw [after1_4]
  unfold out1_4
  rw [View.canon_unit_zero zero_off1]
  simp only [View.ld_unit_zero (S := S400x10000) zero_off1, View.ld_unit_zero (S := S10000x32) zero_off1, View.ld_unit_zero (S := S32x16) zero_off1]
  funext j
  obtain ⟨p, q, rfl⟩ : ∃ (p : Fin 400) (q : Fin 16), j = ix2 p q := ⟨j 0, j 1, eq_ix2 j⟩
  have hrow : t.val * 400 + p.val < 10000 := by
    have h1 := t.isLt; have hN : cfg1.N = 25 := N_1; have h2 := p.isLt; omega
  show k1_pay2 (F := Ideal) (iblk1 V c 0 t) (iblk1 V c 1 t) (iblk1 V c 2 t) (ix2 p q) = G1_4 V c (((cfg1.win 4).blk t).view.emb (ix2 p q))
  rw [emb1_4 t p q ⟨t.val * 400 + p.val, hrow⟩ rfl, G1_4_apply]
  refine (pay1_2_apply (iblk1 V c 0 t) (iblk1 V c 1 t) (iblk1 V c 2 t) p q).trans ?_
  unfold Cert.Spec.mmAt
  refine Finset.sum_congr rfl fun j _ => ?_
  refine congrArg₂ (· * ·) ?_ (iblk1_2_apply V c t j q)
  show max _ 0 = Cert.Spec.reluAt (n := 10000) (k := 10000) (m := 32) (V c main_arg1) (V c main_v23) ⟨t.val * 400 + p.val, hrow⟩ j
  unfold Cert.Spec.reluAt Cert.Spec.mmAt
  refine congrArg (max · 0) ?_
  refine Finset.sum_congr rfl fun k _ => ?_
  exact congrArg₂ (· * ·) (iblk1_0_apply V c t p k ⟨t.val * 400 + p.val, hrow⟩ rfl) (iblk1_1_apply V c t k j)

/-! ## The cover: row `r` is in the block of point `r / 400` -/

theorem mem_blk1_3 (t : Fin cfg1.N) (i : S10000x10000.Idx) :
    i ∈ ((cfg1.win 3).blk t).view.set ↔ ∀ a : Fin 2, win1_3.index t a * S400x10000.size a ≤ (i a).val ∧ (i a).val < win1_3.index t a * S400x10000.size a + S400x10000.size a := by
  show i ∈ ((View.whole main_v25_0).slice (win1_3.rect t)).set ↔ _
  rw [View.set_slice_whole, Rect.mem_set_unit]
  exact Iff.rfl

theorem mem_blk1_4 (t : Fin cfg1.N) (i : S10000x16.Idx) :
    i ∈ ((cfg1.win 4).blk t).view.set ↔ ∀ a : Fin 2, win1_4.index t a * S400x16.size a ≤ (i a).val ∧ (i a).val < win1_4.index t a * S400x16.size a + S400x16.size a := by
  show i ∈ ((View.whole main_v25_1).slice (win1_4.rect t)).set ↔ _
  rw [View.set_slice_whole, Rect.mem_set_unit]
  exact Iff.rfl

theorem covered1_3 (i : S10000x10000.Idx) : ∃ t : Fin cfg1.N, (cfg1.win 3).flush t = true ∧ i ∈ ((cfg1.win 3).blk t).view.set := by
  have hi0 : (i 0).val < 10000 := (i 0).isLt
  have hi1 : (i 1).val < 10000 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨-, -, -, -, -, -, e0, e1, -⟩ := idx1_facts t
  refine ⟨t, flush1_3 t, ?_⟩
  rw [mem_blk1_3]
  intro a
  match a with
  | ⟨0, _⟩ => show win1_3.index t (0 : Fin 2) * 400 ≤ (i 0).val ∧ (i 0).val < win1_3.index t (0 : Fin 2) * 400 + 400; rw [e0, ht]; omega
  | ⟨1, _⟩ => show win1_3.index t (1 : Fin 2) * 10000 ≤ (i 1).val ∧ (i 1).val < win1_3.index t (1 : Fin 2) * 10000 + 10000; rw [e1]; omega

theorem covered1_4 (i : S10000x16.Idx) : ∃ t : Fin cfg1.N, (cfg1.win 4).flush t = true ∧ i ∈ ((cfg1.win 4).blk t).view.set := by
  have hi0 : (i 0).val < 10000 := (i 0).isLt
  have hi1 : (i 1).val < 16 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨-, -, -, -, -, -, -, -, e0, e1⟩ := idx1_facts t
  refine ⟨t, flush1_4 t, ?_⟩
  rw [mem_blk1_4]
  intro a
  match a with
  | ⟨0, _⟩ => show win1_4.index t (0 : Fin 2) * 400 ≤ (i 0).val ∧ (i 0).val < win1_4.index t (0 : Fin 2) * 400 + 400; rw [e0, ht]; omega
  | ⟨1, _⟩ => show win1_4.index t (1 : Fin 2) * 16 ≤ (i 1).val ∧ (i 1).val < win1_4.index t (1 : Fin 2) * 16 + 16; rw [e1]; omega

/-! ## The arrays after the region -/

/-- The first output array is the adjacency as the region found it. -/
theorem final1_3 (c : Dev nD) (p q : Fin 10000) :
    (dat1 (F := Ideal) V c).arrAt 3 cfg1.N (ix2 p q) = (V c main_arg1 : S10000x10000.Idx → EReal) (ix2 p q) :=
  congrFun ((dat1 (F := Ideal) V c).arrAt_eq_of_cover 3 (V c main_arg1 : S10000x10000.Idx → EReal)
    (fun t _ => flushed1_3_eq V c t) covered1_3) (ix2 p q)

/-- The second output array: the rectified product of the adjacency with the features, times the weights. -/
theorem final1_4 (c : Dev nD) (p : Fin 10000) (q : Fin 16) :
    (dat1 (F := Ideal) V c).arrAt 4 cfg1.N (ix2 p q)
      = Cert.Spec.mmAt (n := 10000) (k := 32) (m := 16)
          (fun i => Cert.Spec.reluAt (n := 10000) (k := 10000) (m := 32) (V c main_arg1) (V c main_v23) (i 0) (i 1))
          (V c main_v24) p q :=
  congrFun ((dat1 (F := Ideal) V c).arrAt_eq_of_cover 4 (G1_4 V c)
    (fun t _ => flushed1_4_eq V c t) covered1_4) (ix2 p q)

end Cert.KernelIdeal.Hand

end
-- ==== Proof.Value2.lean ====
/- What region 2's output arrays hold after the region, entry by entry, on the extended reals: each grid point's
   block of 400 rows of the adjacency matrix gives the same 400 rows of the result, every row of the result is in
   exactly one such block, and the body's stored value at an entry is the layer's formula on that row. -/
import proofs.«118927_g481036337836_cont_8to1_c_48_4_alg».proof.Proof.Region2
import proofs.«118927_g481036337836_cont_8to1_c_48_4_alg».proof.Proof.Spec
import proofs.«118927_g481036337836_cont_8to1_c_48_4_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The body's stored values at an entry -/

/-- A block of 400 rows of the adjacency matrix times a 10000 × 16 array, into a zero accumulator, at an entry. -/
theorem mm2_a (W : FVec Ideal S400x10000 .bf16) (X : FVec Ideal S10000x16 .bf16) (p : Fin 400) (c : Fin 16) :
    matmul dot_S400x10000_S10000x16_S400x16_1_0_0_1_n_n none W X (constant (F := Ideal) S400x16 .f32 0x00000000#32) (ix2 p c)
      = ∑ k : Fin 10000, W (ix2 p k) * X (ix2 k c) :=
  Cert.LibPlainMatmul.matmul_zero_apply 400 10000 16 none W X p c

/-- A 400 × 16 block times the 16 × 64 weights, into a zero accumulator, at an entry. -/
theorem mm2_b (W : FVec Ideal S400x16 .bf16) (X : FVec Ideal S16x64 .bf16) (p : Fin 400) (c : Fin 64) :
    matmul dot_S400x16_S16x64_S400x64_1_0_0_1_n_n none W X (constant (F := Ideal) S400x64 .f32 0x00000000#32) (ix2 p c)
      = ∑ k : Fin 16, W (ix2 p k) * X (ix2 k c) :=
  Cert.LibPlainMatmul.matmul_zero_apply 400 16 64 none W X p c

/-- The float word of zero is the extended real zero. -/
theorem zero_word2 : (FloatOps.ofBits (F := Ideal) .f32 0x00000000#32 : EReal) = 0 := Ideal.ofBits_zero_f32

/-- The body's stored value at an entry of the block: the layer's value (the product with the adjacency rows, cut at zero, scaled and shifted by column) on the block's row, times the weights; the changes of float format are the identity here. -/
theorem k2_pay1_apply (x0 : Vec Ideal S400x10000 .bf16) (x1 : Vec Ideal S10000x16 .bf16) (x2 : Vec Ideal S1x16 .f32) (x3 : Vec Ideal S1x16 .f32) (x4 : Vec Ideal S16x64 .bf16) (p : Fin 400) (q : Fin 64) :
    k2_pay1 x0 x1 x2 x3 x4 (ix2 p q)
      = ∑ j : Fin 16, (max (∑ k : Fin 10000, x0 (ix2 p k) * x1 (ix2 k j)) 0 * x2 (ix2 (0 : Fin 1) j) + x3 (ix2 (0 : Fin 1) j)) * x4 (ix2 j q) := by
  unfold k2_pay1
  simp only [truncf_apply, addf_apply, mulf_apply, maximumf_apply, broadcast_apply, shapeCast_self,
    broadcastTo_1b_ab_apply, mm2_a, mm2_b, zero_word2]

/-! ## Blocks as rows of the arrays -/

theorem hzero2 : (![0, 0] : Fin 2 → Nat) = fun _ => 0 := funext fun a => by fin_cases a <;> rfl

/-- The windows' block indices over the grid: a window of row blocks is at block `(t, 0)` at point `t`, a window of a
    whole array at block `(0, 0)`. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s block of 400 rows, as a row of the whole array. -/
def rowOf2 (t : Fin cfg2.N) (p : Fin 400) : Fin 10000 :=
  ⟨t.val * 400 + p.val, by have h := t.isLt; have hN : cfg2.N = 25 := N_2; omega⟩

/-- Input window 0's block at point `t`, at an entry: the array's entry on the block's row. -/
theorem blk2_0 (c : Dev nD) (t : Fin cfg2.N) (p : Fin 400) (k : Fin 10000) :
    iblk2 V c 0 t (ix2 p k) = (V c main_v25_0 : S10000x10000.Idx → EReal) (ix2 (rowOf2 t p) k) := by
  obtain ⟨e0, e1, -, -, -, -, -, -, -, -, -, -⟩ := idx_facts2 t
  show V c main_v25_0 (((cfg2.win 0).blk t).view.emb (ix2 p k)) = _
  refine congrArg (V c main_v25_0 : S10000x10000.Idx → EReal) (funext fun a => Fin.ext ?_)
  match a with
  | ⟨0, _⟩ => show win2_0.index t (0 : Fin 2) * 400 + 1 * p.val = t.val * 400 + p.val; rw [e0]; omega
  | ⟨1, _⟩ => show win2_0.index t (1 : Fin 2) * 10000 + 1 * k.val = k.val; rw [e1]; omega

/-- Input window 1's block at point `t`, at an entry: the array's entry (the window is the whole array). -/
theorem blk2_1 (c : Dev nD) (t : Fin cfg2.N) (p : Fin 10000) (k : Fin 16) :
    iblk2 V c 1 t (ix2 p k) = (V c main_v25_1 : S10000x16.Idx → EReal) (ix2 p k) := by
  obtain ⟨-, -, e2, e3, -, -, -, -, -, -, -, -⟩ := idx_facts2 t
  show V c main_v25_1 (((cfg2.win 1).blk t).view.emb (ix2 p k)) = _
  refine congrArg (V c main_v25_1 : S10000x16.Idx → EReal) (funext fun a => Fin.ext ?_)
  match a with
  | ⟨0, _⟩ => show win2_1.index t (0 : Fin 2) * 10000 + 1 * p.val = p.val; rw [e2]; omega
  | ⟨1, _⟩ => show win2_1.index t (1 : Fin 2) * 16 + 1 * k.val = k.val; rw [e3]; omega

/-- Input window 2's block at point `t`, at an entry: the array's entry (the window is the whole array). -/
theorem blk2_2 (c : Dev nD) (t : Fin cfg2.N) (p : Fin 1) (k : Fin 16) :
    iblk2 V c 2 t (ix2 p k) = (V c main_v4 : S1x16.Idx → EReal) (ix2 p k) := by
  obtain ⟨-, -, -, -, e4, e5, -, -, -, -, -, -⟩ := idx_facts2 t
  show V c main_v4 (((cfg2.win 2).blk t).view.emb (ix2 p k)) = _
  refine congrArg (V c main_v4 : S1x16.Idx → EReal) (funext fun a => Fin.ext ?_)
  match a with
  | ⟨0, _⟩ => show win2_2.index t (0 : Fin 2) * 1 + 1 * p.val = p.val; rw [e4]; omega
  | ⟨1, _⟩ => show win2_2.index t (1 : Fin 2) * 16 + 1 * k.val = k.val; rw [e5]; omega

/-- Input window 3's block at point `t`, at an entry: the array's entry (the window is the whole array). -/
theorem blk2_3 (c : Dev nD) (t : Fin cfg2.N) (p : Fin 1) (k : Fin 16) :
    iblk2 V c 3 t (ix2 p k) = (V c main_v5 : S1x16.Idx → EReal) (ix2 p k) := by
  obtain ⟨-, -, -, -, -, -, e6, e7, -, -, -, -⟩ := idx_facts2 t
  show V c main_v5 (((cfg2.win 3).blk t).view.emb (ix2 p k)) = _
  refine congrArg (V c main_v5 : S1x16.Idx → EReal) (funext fun a => Fin.ext ?_)
  match a with
  | ⟨0, _⟩ => show win2_3.index t (0 : Fin 2) * 1 + 1 * p.val = p.val; rw [e6]; omega
  | ⟨1, _⟩ => show win2_3.index t (1 : Fin 2) * 16 + 1 * k.val = k.val; rw [e7]; omega

/-- Input window 4's block at point `t`, at an entry: the array's entry (the window is the whole array). -/
theorem blk2_4 (c : Dev nD) (t : Fin cfg2.N) (p : Fin 16) (k : Fin 64) :
    iblk2 V c 4 t (ix2 p k) = (V c main_v17 : S16x64.Idx → EReal) (ix2 p k) := by
  obtain ⟨-, -, -, -, -, -, -, -, e8, e9, -, -⟩ := idx_facts2 t
  show V c main_v17 (((cfg2.win 4).blk t).view.emb (ix2 p k)) = _
  refine congrArg (V c main_v17 : S16x64.Idx → EReal) (funext fun a => Fin.ext ?_)
  match a with
  | ⟨0, _⟩ => show win2_4.index t (0 : Fin 2) * 16 + 1 * p.val = p.val; rw [e8]; omega
  | ⟨1, _⟩ => show win2_4.index t (1 : Fin 2) * 64 + 1 * k.val = k.val; rw [e9]; omega

/-- Output window 5's block at point `t`, read off a whole array, at an entry: the array's entry on the block's row. -/
theorem read2_5 (G : S10000x64.Idx → EReal) (t : Fin cfg2.N) (p : Fin 400) (q : Fin 64) :
    ((cfg2.win 5).blk t).view.read (Elt Ideal) G (ix2 p q) = G (ix2 (rowOf2 t p) q) := by
  obtain ⟨-, -, -, -, -, -, -, -, -, -, e10, e11⟩ := idx_facts2 t
  show G (((cfg2.win 5).blk t).view.emb (ix2 p q)) = _
  refine congrArg G (funext fun a => Fin.ext ?_)
  match a with
  | ⟨0, _⟩ => show win2_5.index t (0 : Fin 2) * 400 + 1 * p.val = t.val * 400 + p.val; rw [e10]; omega
  | ⟨1, _⟩ => show win2_5.index t (1 : Fin 2) * 64 + 1 * q.val = q.val; rw [e11]; omega

/-! ## What each point writes back, the cover, and the whole arrays -/

/-- The array window 5 ends holding: the layer's value times the weights. -/
abbrev G2_5 (c : Dev nD) : S10000x64.Idx → EReal := fun i =>
  Cert.Spec.mmAt (n := 10000) (k := 16) (m := 64) (fun i' => Cert.Spec.layerAt (n := 10000) (k := 10000) (m := 16) (V c main_v25_0) (V c main_v25_1) (V c main_v4) (V c main_v5) (i' 0) (i' 1)) (V c main_v17) (i 0) (i 1)

/-- What point `t` writes back to window 5's array is the block of `G2_5` on the point's 400 rows. -/
theorem flushed2_5_eq (c : Dev nD) (t : Fin cfg2.N) :
    (dat2 (F := Ideal) V c).flushed 5 t = ((cfg2.win 5).blk t).view.read (Elt Ideal) (G2_5 V c) := by
  show (cfg2.win 5).cut (grid2.coords t) ((dat2 (F := Ideal) V c).after 5 t) = _
  rw [after2_5]
  unfold out2_5
  rw [View.canon_unit_zero hzero2]
  simp only [View.ld_unit_zero (S := S400x10000) hzero2, View.ld_unit_zero (S := S10000x16) hzero2, View.ld_unit_zero (S := S1x16) hzero2, View.ld_unit_zero (S := S16x64) hzero2]
  funext j
  obtain ⟨p, q, rfl⟩ : ∃ (p : Fin 400) (q : Fin 64), j = ix2 p q := ⟨j 0, j 1, eq_ix2 j⟩
  refine (k2_pay1_apply (iblk2 V c 0 t) (iblk2 V c 1 t) (iblk2 V c 2 t) (iblk2 V c 3 t) (iblk2 V c 4 t) p q).trans ?_
  refine Eq.trans ?_ (read2_5 (G2_5 V c) t p q).symm
  simp only [blk2_0, blk2_1, blk2_2, blk2_3, blk2_4]
  rfl

/-- An index of the array is in point `t`'s block iff each coordinate is in the block's range on its axis. -/
theorem mem_blk2_5 (t : Fin cfg2.N) (i : S10000x64.Idx) :
    i ∈ ((cfg2.win 5).blk t).view.set ↔ ∀ a : Fin 2, win2_5.index t a * S400x64.size a ≤ (i a).val ∧ (i a).val < win2_5.index t a * S400x64.size a + S400x64.size a := by
  show i ∈ ((View.whole main_v26).slice (win2_5.rect t)).set ↔ _
  rw [View.set_slice_whole, Rect.mem_set_unit]
  exact Iff.rfl

/-- Row `r` of the array is in the block of point `r / 400`. -/
theorem covered2_5 (i : S10000x64.Idx) :
    ∃ t : Fin cfg2.N, (cfg2.win 5).flush t = true ∧ i ∈ ((cfg2.win 5).blk t).view.set := by
  have hi0 : (i 0).val < 10000 := (i 0).isLt
  have hi1 : (i 1).val < 64 := (i 1).isLt
  have hN : cfg2.N = 25 := N_2
  have ht : (i 0).val / 400 < cfg2.N := by rw [hN]; omega
  obtain ⟨-, -, -, -, -, -, -, -, -, -, e10, e11⟩ := idx_facts2 ⟨(i 0).val / 400, ht⟩
  refine ⟨⟨(i 0).val / 400, ht⟩, flush2_5 _, ?_⟩
  rw [mem_blk2_5]
  intro a
  match a with
  | ⟨0, _⟩ =>
    show win2_5.index ⟨(i 0).val / 400, ht⟩ (0 : Fin 2) * 400 ≤ (i 0).val ∧ (i 0).val < win2_5.index ⟨(i 0).val / 400, ht⟩ (0 : Fin 2) * 400 + 400
    rw [e10]; show (i 0).val / 400 * 400 ≤ (i 0).val ∧ (i 0).val < (i 0).val / 400 * 400 + 400; omega
  | ⟨1, _⟩ =>
    show win2_5.index ⟨(i 0).val / 400, ht⟩ (1 : Fin 2) * 64 ≤ (i 1).val ∧ (i 1).val < win2_5.index ⟨(i 0).val / 400, ht⟩ (1 : Fin 2) * 64 + 64
    rw [e11]; omega

/-- The whole array of window 5 after the region, entry by entry: the 400-row blocks cover it. -/
theorem final2_5 (c : Dev nD) (p : Fin 10000) (q : Fin 64) :
    (dat2 (F := Ideal) V c).arrAt 5 cfg2.N (ix2 p q)
      = Cert.Spec.mmAt (n := 10000) (k := 16) (m := 64) (fun i => Cert.Spec.layerAt (n := 10000) (k := 10000) (m := 16) (V c main_v25_0) (V c main_v25_1) (V c main_v4) (V c main_v5) (i 0) (i 1)) (V c main_v17) p q :=
  congrFun ((dat2 (F := Ideal) V c).arrAt_eq_of_cover 5 (G2_5 V c) (fun t _ => flushed2_5_eq V c t) (covered2_5)) (ix2 p q)

end Cert.KernelIdeal.Hand

end
-- ==== Proof.Value3.lean ====
/- What region 3's output arrays hold after the region, entry by entry, on the extended reals: each grid point's
   block of 400 rows of the adjacency matrix gives the same 400 rows of the result, every row of the result is in
   exactly one such block, and the body's stored value at an entry is the layer's formula on that row. -/
import proofs.«118927_g481036337836_cont_8to1_c_48_4_alg».proof.Proof.Region3
import proofs.«118927_g481036337836_cont_8to1_c_48_4_alg».proof.Proof.Spec
import proofs.«118927_g481036337836_cont_8to1_c_48_4_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The body's stored values at an entry -/

/-- A block of 400 rows of the adjacency matrix times a 10000 × 64 array, into a zero accumulator, at an entry. -/
theorem mm3_a (W : FVec Ideal S400x10000 .bf16) (X : FVec Ideal S10000x64 .bf16) (p : Fin 400) (c : Fin 64) :
    matmul dot_S400x10000_S10000x64_S400x64_1_0_0_1_n_n none W X (constant (F := Ideal) S400x64 .f32 0x00000000#32) (ix2 p c)
      = ∑ k : Fin 10000, W (ix2 p k) * X (ix2 k c) :=
  Cert.LibPlainMatmul.matmul_zero_apply 400 10000 64 none W X p c

/-- A 400 × 64 block times the 64 × 128 weights, into a zero accumulator, at an entry. -/
theorem mm3_b (W : FVec Ideal S400x64 .bf16) (X : FVec Ideal S64x128 .bf16) (p : Fin 400) (c : Fin 128) :
    matmul dot_S400x64_S64x128_S400x128_1_0_0_1_n_n none W X (constant (F := Ideal) S400x128 .f32 0x00000000#32) (ix2 p c)
      = ∑ k : Fin 64, W (ix2 p k) * X (ix2 k c) :=
  Cert.LibPlainMatmul.matmul_zero_apply 400 64 128 none W X p c

/-- The float word of zero is the extended real zero. -/
theorem zero_word3 : (FloatOps.ofBits (F := Ideal) .f32 0x00000000#32 : EReal) = 0 := Ideal.ofBits_zero_f32

/-- The body's first stored value at an entry of the block: the product with the adjacency rows, cut at zero, scaled and shifted by column. -/
theorem k3_pay1_apply (x0 : Vec Ideal S400x10000 .bf16) (x1 : Vec Ideal S10000x64 .bf16) (x2 : Vec Ideal S1x64 .f32) (x3 : Vec Ideal S1x64 .f32) (p : Fin 400) (q : Fin 64) :
    k3_pay1 x0 x1 x2 x3 (ix2 p q)
      = max (∑ k : Fin 10000, x0 (ix2 p k) * x1 (ix2 k q)) 0 * x2 (ix2 (0 : Fin 1) q) + x3 (ix2 (0 : Fin 1) q) := by
  unfold k3_pay1
  simp only [truncf_apply, addf_apply, mulf_apply, maximumf_apply, broadcast_apply, shapeCast_self,
    broadcastTo_1b_ab_apply, mm3_a, mm3_b, zero_word3]

/-- The body's second stored value at an entry of the block: the first one on the block's row, times the weights; the change of float format is the identity here. -/
theorem k3_pay2_apply (x0 : Vec Ideal S400x10000 .bf16) (x1 : Vec Ideal S10000x64 .bf16) (x2 : Vec Ideal S1x64 .f32) (x3 : Vec Ideal S1x64 .f32) (x4 : Vec Ideal S64x128 .bf16) (p : Fin 400) (q : Fin 128) :
    k3_pay2 x0 x1 x2 x3 x4 (ix2 p q)
      = ∑ j : Fin 64, (max (∑ k : Fin 10000, x0 (ix2 p k) * x1 (ix2 k j)) 0 * x2 (ix2 (0 : Fin 1) j) + x3 (ix2 (0 : Fin 1) j)) * x4 (ix2 j q) := by
  unfold k3_pay2 k3_pay1
  simp only [truncf_apply, addf_apply, mulf_apply, maximumf_apply, broadcast_apply, shapeCast_self,
    broadcastTo_1b_ab_apply, mm3_a, mm3_b, zero_word3]

/-! ## Blocks as rows of the arrays -/

theorem hzero3 : (![0, 0] : Fin 2 → Nat) = fun _ => 0 := funext fun a => by fin_cases a <;> rfl

/-- The windows' block indices over the grid: a window of row blocks is at block `(t, 0)` at point `t`, a window of a
    whole array at block `(0, 0)`. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Row `p` of point `t`'s block of 400 rows, as a row of the whole array. -/
def rowOf3 (t : Fin cfg3.N) (p : Fin 400) : Fin 10000 :=
  ⟨t.val * 400 + p.val, by have h := t.isLt; have hN : cfg3.N = 25 := N_3; omega⟩

/-- Input window 0's block at point `t`, at an entry: the array's entry on the block's row. -/
theorem blk3_0 (c : Dev nD) (t : Fin cfg3.N) (p : Fin 400) (k : Fin 10000) :
    iblk3 V c 0 t (ix2 p k) = (V c main_v25_0 : S10000x10000.Idx → EReal) (ix2 (rowOf3 t p) k) := by
  obtain ⟨e0, e1, -, -, -, -, -, -, -, -, -, -, -, -⟩ := idx_facts3 t
  show V c main_v25_0 (((cfg3.win 0).blk t).view.emb (ix2 p k)) = _
  refine congrArg (V c main_v25_0 : S10000x10000.Idx → EReal) (funext fun a => Fin.ext ?_)
  match a with
  | ⟨0, _⟩ => show win3_0.index t (0 : Fin 2) * 400 + 1 * p.val = t.val * 400 + p.val; rw [e0]; omega
  | ⟨1, _⟩ => show win3_0.index t (1 : Fin 2) * 10000 + 1 * k.val = k.val; rw [e1]; omega

/-- Input window 1's block at point `t`, at an entry: the array's entry (the window is the whole array). -/
theorem blk3_1 (c : Dev nD) (t : Fin cfg3.N) (p : Fin 10000) (k : Fin 64) :
    iblk3 V c 1 t (ix2 p k) = (V c main_v26 : S10000x64.Idx → EReal) (ix2 p k) := by
  obtain ⟨-, -, e2, e3, -, -, -, -, -, -, -, -, -, -⟩ := idx_facts3 t
  show V c main_v26 (((cfg3.win 1).blk t).view.emb (ix2 p k)) = _
  refine congrArg (V c main_v26 : S10000x64.Idx → EReal) (funext fun a => Fin.ext ?_)
  match a with
  | ⟨0, _⟩ => show win3_1.index t (0 : Fin 2) * 10000 + 1 * p.val = p.val; rw [e2]; omega
  | ⟨1, _⟩ => show win3_1.index t (1 : Fin 2) * 64 + 1 * k.val = k.val; rw [e3]; omega

/-- Input window 2's block at point `t`, at an entry: the array's entry (the window is the whole array). -/
theorem blk3_2 (c : Dev nD) (t : Fin cfg3.N) (p : Fin 1) (k : Fin 64) :
    iblk3 V c 2 t (ix2 p k) = (V c main_v9 : S1x64.Idx → EReal) (ix2 p k) := by
  obtain ⟨-, -, -, -, e4, e5, -, -, -, -, -, -, -, -⟩ := idx_facts3 t
  show V c main_v9 (((cfg3.win 2).blk t).view.emb (ix2 p k)) = _
  refine congrArg (V c main_v9 : S1x64.Idx → EReal) (funext fun a => Fin.ext ?_)
  match a with
  | ⟨0, _⟩ => show win3_2.index t (0 : Fin 2) * 1 + 1 * p.val = p.val; rw [e4]; omega
  | ⟨1, _⟩ => show win3_2.index t (1 : Fin 2) * 64 + 1 * k.val = k.val; rw [e5]; omega

/-- Input window 3's block at point `t`, at an entry: the array's entry (the window is the whole array). -/
theorem blk3_3 (c : Dev nD) (t : Fin cfg3.N) (p : Fin 1) (k : Fin 64) :
    iblk3 V c 3 t (ix2 p k) = (V c main_v11 : S1x64.Idx → EReal) (ix2 p k) := by
  obtain ⟨-, -, -, -, -, -, e6, e7, -, -, -, -, -, -⟩ := idx_facts3 t
  show V c main_v11 (((cfg3.win 3).blk t).view.emb (ix2 p k)) = _
  refine congrArg (V c main_v11 : S1x64.Idx → EReal) (funext fun a => Fin.ext ?_)
  match a with
  | ⟨0, _⟩ => show win3_3.index t (0 : Fin 2) * 1 + 1 * p.val = p.val; rw [e6]; omega
  | ⟨1, _⟩ => show win3_3.index t (1 : Fin 2) * 64 + 1 * k.val = k.val; rw [e7]; omega

/-- Input window 4's block at point `t`, at an entry: the array's entry (the window is the whole array). -/
theorem blk3_4 (c : Dev nD) (t : Fin cfg3.N) (p : Fin 64) (k : Fin 128) :
    iblk3 V c 4 t (ix2 p k) = (V c main_v20 : S64x128.Idx → EReal) (ix2 p k) := by
  obtain ⟨-, -, -, -, -, -, -, -, e8, e9, -, -, -, -⟩ := idx_facts3 t
  show V c main_v20 (((cfg3.win 4).blk t).view.emb (ix2 p k)) = _
  refine congrArg (V c main_v20 : S64x128.Idx → EReal) (funext fun a => Fin.ext ?_)
  match a with
  | ⟨0, _⟩ => show win3_4.index t (0 : Fin 2) * 64 + 1 * p.val = p.val; rw [e8]; omega
  | ⟨1, _⟩ => show win3_4.index t (1 : Fin 2) * 128 + 1 * k.val = k.val; rw [e9]; omega

/-- Output window 5's block at point `t`, read off a whole array, at an entry: the array's entry on the block's row. -/
theorem read3_5 (G : S10000x64.Idx → EReal) (t : Fin cfg3.N) (p : Fin 400) (q : Fin 64) :
    ((cfg3.win 5).blk t).view.read (Elt Ideal) G (ix2 p q) = G (ix2 (rowOf3 t p) q) := by
  obtain ⟨-, -, -, -, -, -, -, -, -, -, e10, e11, -, -⟩ := idx_facts3 t
  show G (((cfg3.win 5).blk t).view.emb (ix2 p q)) = _
  refine congrArg G (funext fun a => Fin.ext ?_)
  match a with
  | ⟨0, _⟩ => show win3_5.index t (0 : Fin 2) * 400 + 1 * p.val = t.val * 400 + p.val; rw [e10]; omega
  | ⟨1, _⟩ => show win3_5.index t (1 : Fin 2) * 64 + 1 * q.val = q.val; rw [e11]; omega

/-- Output window 6's block at point `t`, read off a whole array, at an entry: the array's entry on the block's row. -/
theorem read3_6 (G : S10000x128.Idx → EReal) (t : Fin cfg3.N) (p : Fin 400) (q : Fin 128) :
    ((cfg3.win 6).blk t).view.read (Elt Ideal) G (ix2 p q) = G (ix2 (rowOf3 t p) q) := by
  obtain ⟨-, -, -, -, -, -, -, -, -, -, -, -, e12, e13⟩ := idx_facts3 t
  show G (((cfg3.win 6).blk t).view.emb (ix2 p q)) = _
  refine congrArg G (funext fun a => Fin.ext ?_)
  match a with
  | ⟨0, _⟩ => show win3_6.index t (0 : Fin 2) * 400 + 1 * p.val = t.val * 400 + p.val; rw [e12]; omega
  | ⟨1, _⟩ => show win3_6.index t (1 : Fin 2) * 128 + 1 * q.val = q.val; rw [e13]; omega

/-! ## What each point writes back, the cover, and the whole arrays -/

/-- The array window 5 ends holding: the layer's value. -/
abbrev G3_5 (c : Dev nD) : S10000x64.Idx → EReal := fun i =>
  Cert.Spec.layerAt (n := 10000) (k := 10000) (m := 64) (V c main_v25_0) (V c main_v26) (V c main_v9) (V c main_v11) (i 0) (i 1)

/-- What point `t` writes back to window 5's array is the block of `G3_5` on the point's 400 rows. -/
theorem flushed3_5_eq (c : Dev nD) (t : Fin cfg3.N) :
    (dat3 (F := Ideal) V c).flushed 5 t = ((cfg3.win 5).blk t).view.read (Elt Ideal) (G3_5 V c) := by
  show (cfg3.win 5).cut (grid3.coords t) ((dat3 (F := Ideal) V c).after 5 t) = _
  rw [after3_5]
  unfold out3_5
  rw [View.canon_unit_zero hzero3]
  simp only [View.ld_unit_zero (S := S400x10000) hzero3, View.ld_unit_zero (S := S10000x64) hzero3, View.ld_unit_zero (S := S1x64) hzero3]
  funext j
  obtain ⟨p, q, rfl⟩ : ∃ (p : Fin 400) (q : Fin 64), j = ix2 p q := ⟨j 0, j 1, eq_ix2 j⟩
  refine (k3_pay1_apply (iblk3 V c 0 t) (iblk3 V c 1 t) (iblk3 V c 2 t) (iblk3 V c 3 t) p q).trans ?_
  refine Eq.trans ?_ (read3_5 (G3_5 V c) t p q).symm
  simp only [blk3_0, blk3_1, blk3_2, blk3_3]
  rfl

/-- An index of the array is in point `t`'s block iff each coordinate is in the block's range on its axis. -/
theorem mem_blk3_5 (t : Fin cfg3.N) (i : S10000x64.Idx) :
    i ∈ ((cfg3.win 5).blk t).view.set ↔ ∀ a : Fin 2, win3_5.index t a * S400x64.size a ≤ (i a).val ∧ (i a).val < win3_5.index t a * S400x64.size a + S400x64.size a := by
  show i ∈ ((View.whole main_v27_0).slice (win3_5.rect t)).set ↔ _
  rw [View.set_slice_whole, Rect.mem_set_unit]
  exact Iff.rfl

/-- Row `r` of the array is in the block of point `r / 400`. -/
theorem covered3_5 (i : S10000x64.Idx) :
    ∃ t : Fin cfg3.N, (cfg3.win 5).flush t = true ∧ i ∈ ((cfg3.win 5).blk t).view.set := by
  have hi0 : (i 0).val < 10000 := (i 0).isLt
  have hi1 : (i 1).val < 64 := (i 1).isLt
  have hN : cfg3.N = 25 := N_3
  have ht : (i 0).val / 400 < cfg3.N := by rw [hN]; omega
  obtain ⟨-, -, -, -, -, -, -, -, -, -, e10, e11, -, -⟩ := idx_facts3 ⟨(i 0).val / 400, ht⟩
  refine ⟨⟨(i 0).val / 400, ht⟩, flush3_5 _, ?_⟩
  rw [mem_blk3_5]
  intro a
  match a with
  | ⟨0, _⟩ =>
    show win3_5.index ⟨(i 0).val / 400, ht⟩ (0 : Fin 2) * 400 ≤ (i 0).val ∧ (i 0).val < win3_5.index ⟨(i 0).val / 400, ht⟩ (0 : Fin 2) * 400 + 400
    rw [e10]; show (i 0).val / 400 * 400 ≤ (i 0).val ∧ (i 0).val < (i 0).val / 400 * 400 + 400; omega
  | ⟨1, _⟩ =>
    show win3_5.index ⟨(i 0).val / 400, ht⟩ (1 : Fin 2) * 64 ≤ (i 1).val ∧ (i 1).val < win3_5.index ⟨(i 0).val / 400, ht⟩ (1 : Fin 2) * 64 + 64
    rw [e11]; omega

/-- The whole array of window 5 after the region, entry by entry: the 400-row blocks cover it. -/
theorem final3_5 (c : Dev nD) (p : Fin 10000) (q : Fin 64) :
    (dat3 (F := Ideal) V c).arrAt 5 cfg3.N (ix2 p q)
      = Cert.Spec.layerAt (n := 10000) (k := 10000) (m := 64) (V c main_v25_0) (V c main_v26) (V c main_v9) (V c main_v11) p q :=
  congrFun ((dat3 (F := Ideal) V c).arrAt_eq_of_cover 5 (G3_5 V c) (fun t _ => flushed3_5_eq V c t) (covered3_5)) (ix2 p q)

/-- The array window 6 ends holding: the layer's value times the weights. -/
abbrev G3_6 (c : Dev nD) : S10000x128.Idx → EReal := fun i =>
  Cert.Spec.mmAt (n := 10000) (k := 64) (m := 128) (fun i' => Cert.Spec.layerAt (n := 10000) (k := 10000) (m := 64) (V c main_v25_0) (V c main_v26) (V c main_v9) (V c main_v11) (i' 0) (i' 1)) (V c main_v20) (i 0) (i 1)

/-- What point `t` writes back to window 6's array is the block of `G3_6` on the point's 400 rows. -/
theorem flushed3_6_eq (c : Dev nD) (t : Fin cfg3.N) :
    (dat3 (F := Ideal) V c).flushed 6 t = ((cfg3.win 6).blk t).view.read (Elt Ideal) (G3_6 V c) := by
  show (cfg3.win 6).cut (grid3.coords t) ((dat3 (F := Ideal) V c).after 6 t) = _
  rw [after3_6]
  unfold out3_6
  rw [View.canon_unit_zero hzero3]
  simp only [View.ld_unit_zero (S := S400x10000) hzero3, View.ld_unit_zero (S := S10000x64) hzero3, View.ld_unit_zero (S := S1x64) hzero3, View.ld_unit_zero (S := S64x128) hzero3]
  funext j
  obtain ⟨p, q, rfl⟩ : ∃ (p : Fin 400) (q : Fin 128), j = ix2 p q := ⟨j 0, j 1, eq_ix2 j⟩
  refine (k3_pay2_apply (iblk3 V c 0 t) (iblk3 V c 1 t) (iblk3 V c 2 t) (iblk3 V c 3 t) (iblk3 V c 4 t) p q).trans ?_
  refine Eq.trans ?_ (read3_6 (G3_6 V c) t p q).symm
  simp only [blk3_0, blk3_1, blk3_2, blk3_3, blk3_4]
  rfl

/-- An index of the array is in point `t`'s block iff each coordinate is in the block's range on its axis. -/
theorem mem_blk3_6 (t : Fin cfg3.N) (i : S10000x128.Idx) :
    i ∈ ((cfg3.win 6).blk t).view.set ↔ ∀ a : Fin 2, win3_6.index t a * S400x128.size a ≤ (i a).val ∧ (i a).val < win3_6.index t a * S400x128.size a + S400x128.size a := by
  show i ∈ ((View.whole main_v27_1).slice (win3_6.rect t)).set ↔ _
  rw [View.set_slice_whole, Rect.mem_set_unit]
  exact Iff.rfl

/-- Row `r` of the array is in the block of point `r / 400`. -/
theorem covered3_6 (i : S10000x128.Idx) :
    ∃ t : Fin cfg3.N, (cfg3.win 6).flush t = true ∧ i ∈ ((cfg3.win 6).blk t).view.set := by
  have hi0 : (i 0).val < 10000 := (i 0).isLt
  have hi1 : (i 1).val < 128 := (i 1).isLt
  have hN : cfg3.N = 25 := N_3
  have ht : (i 0).val / 400 < cfg3.N := by rw [hN]; omega
  obtain ⟨-, -, -, -, -, -, -, -, -, -, -, -, e12, e13⟩ := idx_facts3 ⟨(i 0).val / 400, ht⟩
  refine ⟨⟨(i 0).val / 400, ht⟩, flush3_6 _, ?_⟩
  rw [mem_blk3_6]
  intro a
  match a with
  | ⟨0, _⟩ =>
    show win3_6.index ⟨(i 0).val / 400, ht⟩ (0 : Fin 2) * 400 ≤ (i 0).val ∧ (i 0).val < win3_6.index ⟨(i 0).val / 400, ht⟩ (0 : Fin 2) * 400 + 400
    rw [e12]; show (i 0).val / 400 * 400 ≤ (i 0).val ∧ (i 0).val < (i 0).val / 400 * 400 + 400; omega
  | ⟨1, _⟩ =>
    show win3_6.index ⟨(i 0).val / 400, ht⟩ (1 : Fin 2) * 128 ≤ (i 1).val ∧ (i 1).val < win3_6.index ⟨(i 0).val / 400, ht⟩ (1 : Fin 2) * 128 + 128
    rw [e13]; omega

/-- The whole array of window 6 after the region, entry by entry: the 400-row blocks cover it. -/
theorem final3_6 (c : Dev nD) (p : Fin 10000) (q : Fin 128) :
    (dat3 (F := Ideal) V c).arrAt 6 cfg3.N (ix2 p q)
      = Cert.Spec.mmAt (n := 10000) (k := 64) (m := 128) (fun i => Cert.Spec.layerAt (n := 10000) (k := 10000) (m := 64) (V c main_v25_0) (V c main_v26) (V c main_v9) (V c main_v11) (i 0) (i 1)) (V c main_v20) p q :=
  congrFun ((dat3 (F := Ideal) V c).arrAt_eq_of_cover 6 (G3_6 V c) (fun t _ => flushed3_6_eq V c t) (covered3_6)) (ix2 p q)

end Cert.KernelIdeal.Hand

end
-- ==== Proof.Value4.lean ====
/- Region 4 of @main at the ideal values: what the region's output array holds when the region is left, entry by entry.

   Every block of 400 rows of the output is written once, by the point of the same number, and holds the layer
   max(adjacency rows · operand, 0) * scale + shift of the arrays the region found. -/
import proofs.«118927_g481036337836_cont_8to1_c_48_4_alg».proof.Proof.Region4
import proofs.«118927_g481036337836_cont_8to1_c_48_4_alg».proof.Proof.Spec
import proofs.«118927_g481036337836_cont_8to1_c_48_4_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The body's stored value at an entry -/

/-- The body's stored value at row p and column q of the block is the layer's entry (p, q) of the loaded blocks:
    the product into a zero accumulator is the sum over the inner index, the scalar zero is 0, and the scale and
    shift rows are repeated down the 400 rows. -/
theorem k4_pay1_apply (x0 : Vec Ideal S400x10000 .bf16) (x1 : Vec Ideal S10000x128 .bf16) (x2 : Vec Ideal S1x128 .f32)
    (x3 : Vec Ideal S1x128 .f32) (p : Fin 400) (q : Fin 128) :
    k4_pay1 (F := Ideal) x0 x1 x2 x3 (ix2 p q)
      = Cert.Spec.layerAt (n := 400) (k := 10000) (m := 128) x0 x1 x2 x3 p q := by
  unfold k4_pay1
  simp only [shapeCast_self]
  refine (addf_apply _ _ _).trans ?_
  refine congrArg₂ (· + ·) ((mulf_apply _ _ _).trans (congrArg₂ (· * ·) ((maximumf_apply _ _ _).trans (congrArg₂ max ?_ ?_)) ?_)) ?_
  · exact Cert.LibPlainMatmul.matmul_zero_apply 400 10000 128 none x0 x1 p q
  · exact Ideal.ofBits_zero_f32
  · exact broadcastTo_1b_ab_apply x2 _ p q
  · exact broadcastTo_1b_ab_apply x3 _ p q

/-! ## The windows' blocks as parts of their arrays -/

variable (V : (c : Dev nD) → (b : Ref sig .tc) → Buf (Elt Ideal) ((c : Thread nD τ).loc b))

theorem hz4 : (![0, 0] : Fin 2 → Nat) = fun _ => 0 := funext fun a => by fin_cases a <;> rfl

/-- The index maps over the grid: the adjacency window and the output window are at row block t, every
    other window is the whole array. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row p of the adjacency block of point t is row 400 t + p of the adjacency array. -/
theorem iblk4_0_apply (c : Dev nD) (t : Fin cfg4.N) (p : Fin 400) (j : Fin 10000) (P : Fin 10000)
    (hP : P.val = t.val * 400 + p.val) :
    (iblk4 V c 0 t : Vec Ideal S400x10000 .bf16) (ix2 p j) = (V c main_v25_0 : S10000x10000.Idx → EReal) (ix2 P j) := by
  obtain ⟨e0, e1, -⟩ := idx_facts4 t
  unfold iblk4
  rw [View.read_apply]
  show V c main_v25_0 _ = V c main_v25_0 _
  refine congrArg (V c main_v25_0) (funext fun a => Fin.ext ?_)
  match a with
  | ⟨0, _⟩ => show win4_0.index t (0 : Fin 2) * 400 + 1 * p.val = P.val; rw [e0, hP]; omega
  | ⟨1, _⟩ => show win4_0.index t (1 : Fin 2) * 10000 + 1 * j.val = j.val; rw [e1]; omega

/-- The operand's window is the whole array at every point. -/
theorem iblk4_1_apply (c : Dev nD) (t : Fin cfg4.N) (j : Fin 10000) (q : Fin 128) :
    (iblk4 V c 1 t : Vec Ideal S10000x128 .bf16) (ix2 j q) = (V c main_v27_1 : S10000x128.Idx → EReal) (ix2 j q) := by
  obtain ⟨-, -, e0, e1, -⟩ := idx_facts4 t
  unfold iblk4
  rw [View.read_apply]
  show V c main_v27_1 _ = V c main_v27_1 _
  refine congrArg (V c main_v27_1) (funext fun a => Fin.ext ?_)
  match a with
  | ⟨0, _⟩ => show win4_1.index t (0 : Fin 2) * 10000 + 1 * j.val = j.val; rw [e0]; omega
  | ⟨1, _⟩ => show win4_1.index t (1 : Fin 2) * 128 + 1 * q.val = q.val; rw [e1]; omega

/-- The scale row's window is the whole row at every point. -/
theorem iblk4_2_apply (c : Dev nD) (t : Fin cfg4.N) (q : Fin 128) :
    (iblk4 V c 2 t : Vec Ideal S1x128 .f32) (ix2 (0 : Fin 1) q) = (V c main_v14 : S1x128.Idx → EReal) (ix2 (0 : Fin 1) q) := by
  obtain ⟨-, -, -, -, e0, e1, -⟩ := idx_facts4 t
  unfold iblk4
  rw [View.read_apply]
  show V c main_v14 _ = V c main_v14 _
  refine congrArg (V c main_v14) (funext fun a => Fin.ext ?_)
  match a with
  | ⟨0, _⟩ => show win4_2.index t (0 : Fin 2) * 1 + 1 * 0 = 0; rw [e0]
  | ⟨1, _⟩ => show win4_2.index t (1 : Fin 2) * 128 + 1 * q.val = q.val; rw [e1]; omega

/-- The shift row's window is the whole row at every point. -/
theorem iblk4_3_apply (c : Dev nD) (t : Fin cfg4.N) (q : Fin 128) :
    (iblk4 V c 3 t : Vec Ideal S1x128 .f32) (ix2 (0 : Fin 1) q) = (V c main_v15 : S1x128.Idx → EReal) (ix2 (0 : Fin 1) q) := by
  obtain ⟨-, -, -, -, -, -, e0, e1, -⟩ := idx_facts4 t
  unfold iblk4
  rw [View.read_apply]
  show V c main_v15 _ = V c main_v15 _
  refine congrArg (V c main_v15) (funext fun a => Fin.ext ?_)
  match a with
  | ⟨0, _⟩ => show win4_3.index t (0 : Fin 2) * 1 + 1 * 0 = 0; rw [e0]
  | ⟨1, _⟩ => show win4_3.index t (1 : Fin 2) * 128 + 1 * q.val = q.val; rw [e1]; omega

/-! ## The output array as one function -/

/-- What the output array ends holding: the layer of the arrays the region found, entry by entry. -/
def G4 (c : Dev nD) : S10000x128.Idx → EReal := fun i =>
  Cert.Spec.layerAt (n := 10000) (k := 10000) (m := 128) (V c main_v25_0) (V c main_v27_1) (V c main_v14) (V c main_v15) (i 0) (i 1)

/-- It at an index given by its two coordinates' values. -/
theorem G4_at (c : Dev nD) (i : S10000x128.Idx) (P : Fin 10000) (Q : Fin 128) (hP : (i 0).val = P.val) (hQ : (i 1).val = Q.val) :
    G4 V c i = Cert.Spec.layerAt (n := 10000) (k := 10000) (m := 128) (V c main_v25_0) (V c main_v27_1) (V c main_v14) (V c main_v15) P Q := by
  have e : i = ix2 P Q := funext fun a => Fin.ext (by
    match a with
    | ⟨0, _⟩ => exact hP
    | ⟨1, _⟩ => exact hQ)
  rw [e]; rfl

/-- What point t writes back is block t of that function: rows 400 t … 400 t + 399. -/
theorem flushed4_4_eq (c : Dev nD) (t : Fin cfg4.N) :
    (dat4 (F := Ideal) V c).flushed 4 t = ((cfg4.win 4).blk t).view.read (Elt Ideal) (G4 V c) := by
  show (cfg4.win 4).cut (grid4.coords t) ((dat4 (F := Ideal) V c).after 4 t) = _
  rw [after4_4]
  unfold out4_4
  rw [View.canon_unit_zero hz4]
  simp only [View.ld_unit_zero (S := S400x10000) hz4, View.ld_unit_zero (S := S10000x128) hz4, View.ld_unit_zero (S := S1x128) hz4]
  obtain ⟨-, -, -, -, -, -, -, -, e0, e1⟩ := idx_facts4 t
  have hN : t.val < 25 := by have h := t.isLt; have e : cfg4.N = 25 := N_4; omega
  funext j
  obtain ⟨p, q, rfl⟩ : ∃ (p : Fin 400) (q : Fin 128), j = ix2 p q := ⟨j 0, j 1, eq_ix2 j⟩
  have hp : p.val < 400 := p.isLt
  have hrow : t.val * 400 + p.val < 10000 := by omega
  refine Eq.trans (k4_pay1_apply (iblk4 V c 0 t) (iblk4 V c 1 t) (iblk4 V c 2 t) (iblk4 V c 3 t) p q) ?_
  rw [View.read_apply]
  refine Eq.trans ?_ (G4_at V c _ ⟨t.val * 400 + p.val, hrow⟩ q ?_ ?_).symm
  · unfold Cert.Spec.layerAt Cert.Spec.reluAt Cert.Spec.mmAt
    refine congrArg₂ (· + ·) (congrArg₂ (· * ·) (congrArg (max · 0) (Finset.sum_congr rfl fun k _ =>
      congrArg₂ (· * ·) (iblk4_0_apply V c t p k ⟨t.val * 400 + p.val, hrow⟩ rfl) (iblk4_1_apply V c t k q)))
      (iblk4_2_apply V c t q)) (iblk4_3_apply V c t q)
  · show win4_4.index t (0 : Fin 2) * 400 + 1 * p.val = t.val * 400 + p.val; rw [e0]; omega
  · show win4_4.index t (1 : Fin 2) * 128 + 1 * q.val = q.val; rw [e1]; omega

/-- An index of the output array is in point t's block iff each coordinate is in the block's range on its axis. -/
theorem mem_blk4_4 (t : Fin cfg4.N) (i : S10000x128.Idx) :
    i ∈ ((cfg4.win 4).blk t).view.set ↔ ∀ a : Fin 2, win4_4.index t a * S400x128.size a ≤ (i a).val ∧ (i a).val < win4_4.index t a * S400x128.size a + S400x128.size a := by
  show i ∈ ((View.whole main_v28).slice (win4_4.rect t)).set ↔ _
  rw [View.set_slice_whole, Rect.mem_set_unit]
  exact Iff.rfl

/-- Every row of the output is in the block of the point numbered by the row's block of 400. -/
theorem cover4_4_arr (i : S10000x128.Idx) :
    ∃ t : Fin cfg4.N, (cfg4.win 4).flush t = true ∧ i ∈ ((cfg4.win 4).blk t).view.set := by
  have hi0 : (i 0).val < 10000 := (i 0).isLt
  have hi1 : (i 1).val < 128 := (i 1).isLt
  have hN : cfg4.N = 25 := N_4
  let t : Fin cfg4.N := ⟨(i 0).val / 400, by rw [hN]; omega⟩
  have ht : t.val = (i 0).val / 400 := rfl
  obtain ⟨-, -, -, -, -, -, -, -, e0, e1⟩ := idx_facts4 t
  refine ⟨t, flush4_4 t, ?_⟩
  rw [mem_blk4_4]
  intro a
  match a with
  | ⟨0, _⟩ => show win4_4.index t (0 : Fin 2) * 400 ≤ (i 0).val ∧ (i 0).val < win4_4.index t (0 : Fin 2) * 400 + 400; rw [e0, ht]; omega
  | ⟨1, _⟩ => show win4_4.index t (1 : Fin 2) * 128 ≤ (i 1).val ∧ (i 1).val < win4_4.index t (1 : Fin 2) * 128 + 128; rw [e1]; omega

/-- The output array after the region is that function. -/
theorem final4_4_fun (c : Dev nD) : (dat4 (F := Ideal) V c).arrAt 4 cfg4.N = G4 V c :=
  (dat4 (F := Ideal) V c).arrAt_eq_of_cover 4 (G4 V c) (fun t _ => flushed4_4_eq V c t) (cover4_4_arr)

/-- The output array after the region, entry by entry: the layer of the arrays the region found. -/
theorem final4_4 (c : Dev nD) (p : Fin 10000) (q : Fin 128) :
    (dat4 (F := Ideal) V c).arrAt 4 cfg4.N (ix2 p q)
      = Cert.Spec.layerAt (n := 10000) (k := 10000) (m := 128) (V c main_v25_0) (V c main_v27_1) (V c main_v14) (V c main_v15) p q := by
  rw [final4_4_fun]; rfl

end Cert.KernelIdeal.Hand

end
-- ==== Proof.Value5.lean ====
/- Region 5 of @main at the ideal values: the inner-product decoder's result, entry by entry.

   At the ideal values the matrix unit's product into a zero accumulator is the plain sum of products, so entry (p, q) of a
   point's [1024,1024] block reads row p of the first operand's buffer and row q of the second's and nothing else. Hence
   the rows past the array's end in an edge block's buffers do not reach the entries that are written back (Local5), and
   the result array ends holding, at (p, q), the sum over k of a(p,k) · a(q,k): the block that covers (p, q) is the one of
   the point (p / 1024, q / 1024). -/
import proofs.«118927_g481036337836_cont_8to1_c_48_4_alg».proof.Proof.Region5
import proofs.«118927_g481036337836_cont_8to1_c_48_4_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The product at an entry -/

/-- The product's dimension numbers: both operands contracted along their second axis. -/
abbrev D5 : DotDims S1024x32 S1024x32 S1024x1024 := dot_S1024x32_S1024x32_S1024x1024_1_1_0_0_n_n

theorem lhs5_0 (i : S1024x1024.Idx) (q : D5.contr.Idx) : (D5.lhsIdx i q 0).val = (i 0).val := by
  unfold DotDims.lhsIdx
  rw [dif_neg (show ¬(0 : Fin S1024x32.rank) ∈ D5.lhsBatch by decide), dif_pos (show (0 : Fin S1024x32.rank) ∈ D5.lhsNonContracting by decide)]
  rfl
theorem lhs5_1 (i : S1024x1024.Idx) (q : D5.contr.Idx) : (D5.lhsIdx i q 1).val = (q ⟨0, by decide⟩).val :=
  D5.lhsIdx_val_of_single rfl i q
theorem rhs5_0 (i : S1024x1024.Idx) (q : D5.contr.Idx) : (D5.rhsIdx i q 0).val = (i 1).val := by
  unfold DotDims.rhsIdx
  rw [dif_neg (show ¬(0 : Fin S1024x32.rank) ∈ D5.rhsBatch by decide), dif_pos (show (0 : Fin S1024x32.rank) ∈ D5.rhsNonContracting by decide)]
  rfl
theorem rhs5_1 (i : S1024x1024.Idx) (q : D5.contr.Idx) : (D5.rhsIdx i q 1).val = (q ⟨0, by decide⟩).val :=
  D5.rhsIdx_val_of_single rfl i q

/-- Entry (p, q) of what the body stores: the sum over k of a(p,k) · b(q,k) — the changes of float format are the
    identity and the accumulator is zero. -/
theorem pay5_apply (X0 X1 : FVec Ideal S1024x32 .f32) (p q : Fin 1024) :
    k5_pay1 (F := Ideal) X0 X1 (ix2 p q) = ∑ k : Fin 32, X0 (ix2 p k) * X1 (ix2 q k) := by
  unfold k5_pay1
  simp only [shapeCast_self]
  refine (Ideal.matmul_constant_zero_apply D5 none _ _ (ix2 p q)).trans ?_
  rw [← Equiv.sum_comp (ValueIdx.contrEquiv1 D5 32 rfl rfl).symm]
  refine Finset.sum_congr rfl fun k _ => ?_
  have hk := ValueIdx.contrEquiv1_symm_val D5 32 rfl rfl k
  have el : D5.lhsIdx (ix2 p q) ((ValueIdx.contrEquiv1 D5 32 rfl rfl).symm k) = ix2 p k := funext fun a => Fin.ext (by
    match a with
    | ⟨0, _⟩ => exact lhs5_0 _ _
    | ⟨1, _⟩ => exact (lhs5_1 _ _).trans hk)
  have er : D5.rhsIdx (ix2 p q) ((ValueIdx.contrEquiv1 D5 32 rfl rfl).symm k) = ix2 q k := funext fun a => Fin.ext (by
    match a with
    | ⟨0, _⟩ => exact rhs5_0 _ _
    | ⟨1, _⟩ => exact (rhs5_1 _ _).trans hk)
  rw [el, er]
  rfl

/-! ## The windows' index maps and cuts, at each of the 100 points -/

/-- The result's block (i, j) takes its rows' cut from rows block i and its columns' cut from rows block j; the
    operands' blocks span the 32 columns; block 9 of 10 has 784 of its 1024 rows inside the array. -/
theorem cut_facts5 : ∀ t : Fin cfg5.N,
    win5_2.xsize (grid5.coords t) (0 : Fin 2) = win5_0.xsize (grid5.coords t) (0 : Fin 2)
    ∧ win5_2.xsize (grid5.coords t) (1 : Fin 2) = win5_1.xsize (grid5.coords t) (0 : Fin 2)
    ∧ win5_0.xsize (grid5.coords t) (1 : Fin 2) = 32
    ∧ win5_1.xsize (grid5.coords t) (1 : Fin 2) = 32
    ∧ win5_2.index t (0 : Fin 2) ≤ 9 ∧ win5_2.index t (1 : Fin 2) ≤ 9
    ∧ (win5_2.index t (0 : Fin 2) < 9 → win5_2.xsize (grid5.coords t) (0 : Fin 2) = 1024)
    ∧ (win5_2.index t (0 : Fin 2) = 9 → win5_2.xsize (grid5.coords t) (0 : Fin 2) = 784)
    ∧ (win5_2.index t (1 : Fin 2) < 9 → win5_2.xsize (grid5.coords t) (1 : Fin 2) = 1024)
    ∧ (win5_2.index t (1 : Fin 2) = 9 → win5_2.xsize (grid5.coords t) (1 : Fin 2) = 784) :=
  (by decide +kernel : ∀ t : Fin grid5.N, _)

/-- The result's block indices are the operands': rows block i, rows block j, at column block 0. -/
theorem idx_facts5 : ∀ t : Fin cfg5.N,
    win5_0.index t (0 : Fin 2) = win5_2.index t (0 : Fin 2) ∧ win5_0.index t (1 : Fin 2) = 0
    ∧ win5_1.index t (0 : Fin 2) = win5_2.index t (1 : Fin 2) ∧ win5_1.index t (1 : Fin 2) = 0 :=
  (by decide +kernel : ∀ t : Fin grid5.N, _)

/-- Every block of the 10 × 10 is some point's. -/
theorem idx_onto5 : ∀ (q0 q1 : Fin 10), ∃ t : Fin cfg5.N, win5_2.index t = ![q0.val, q1.val] :=
  (by decide +kernel : ∀ (q0 q1 : Fin 10), ∃ t : Fin grid5.N, win5_2.index t = ![q0.val, q1.val])

/-! ## Past the array's end nothing reaches the entries written back -/

/-- Where the transfer moves an element, what filled the buffer before does not matter. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

variable (V : (c : Dev nD) → (b : Ref sig .tc) → Buf (Elt Ideal) ((c : Thread nD τ).loc b))

/-- Rows block i's buffer at a row the result's cut keeps: the same whatever fills the rows past the array's end. -/
theorem fill5_0_indep (c : Dev nD) (t : Fin cfg5.N) (d d' : S1024x32.Idx → Elt Ideal .f32) (p : Fin 1024) (k : Fin 32)
    (hp : p.val < win5_2.xsize (grid5.coords t) (0 : Fin 2)) :
    win5_0.fill (grid5.coords t) d (iblk5 V c 0 t) (ix2 p k) = win5_0.fill (grid5.coords t) d' (iblk5 V c 0 t) (ix2 p k) := by
  obtain ⟨e0, e1, e2, e3, -⟩ := cut_facts5 t
  refine fill_eq_of_moved win5_0 _ d d' _ (ix2 p k) ((win5_0.moved_iff _ _).mpr fun a => ?_)
  match a with
  | ⟨0, _⟩ => show p.val < win5_0.xsize (grid5.coords t) (0 : Fin 2); omega
  | ⟨1, _⟩ => show k.val < win5_0.xsize (grid5.coords t) (1 : Fin 2); have := k.isLt; omega
/-- Rows block j's buffer likewise. -/
theorem fill5_1_indep (c : Dev nD) (t : Fin cfg5.N) (d d' : S1024x32.Idx → Elt Ideal .f32) (q : Fin 1024) (k : Fin 32)
    (hq : q.val < win5_2.xsize (grid5.coords t) (1 : Fin 2)) :
    win5_1.fill (grid5.coords t) d (iblk5 V c 1 t) (ix2 q k) = win5_1.fill (grid5.coords t) d' (iblk5 V c 1 t) (ix2 q k) := by
  obtain ⟨e0, e1, e2, e3, -⟩ := cut_facts5 t
  refine fill_eq_of_moved win5_1 _ d d' _ (ix2 q k) ((win5_1.moved_iff _ _).mpr fun a => ?_)
  match a with
  | ⟨0, _⟩ => show q.val < win5_1.xsize (grid5.coords t) (0 : Fin 2); omega
  | ⟨1, _⟩ => show k.val < win5_1.xsize (grid5.coords t) (1 : Fin 2); have := k.isLt; omega

/-- An index of the result's cut block, as a row and a column of the whole block. -/
theorem xinj5_2 (t : Fin cfg5.N) (j : (win5_2.xblock (grid5.coords t)).Idx) :
    ∃ (p q : Fin 1024), win5_2.xinj (grid5.coords t) j = ix2 p q ∧ p.val = (j 0).val ∧ q.val = (j 1).val :=
  ⟨⟨(j 0).val, Nat.lt_of_lt_of_le (j 0).isLt (win5_2.xsize_le _ 0)⟩, ⟨(j 1).val, Nat.lt_of_lt_of_le (j 1).isLt (win5_2.xsize_le _ 1)⟩,
    funext fun a => by match a with | ⟨0, _⟩ => rfl | ⟨1, _⟩ => rfl, rfl, rfl⟩

/-- At the ideal values an entry of the product inside the result array does not depend on what fills the operands'
    buffers past the array's end. -/
theorem local5_ideal (c : Dev nD) : Local5 (F := Ideal) V c := fun t d0 d1 => by
  funext j
  obtain ⟨p, q, hj, hp, hq⟩ := xinj5_2 t j
  show k5_pay1 (F := Ideal) _ _ (win5_2.xinj (grid5.coords t) j) = out5_2 V c t (win5_2.xinj (grid5.coords t) j)
  unfold out5_2 in5_0 in5_1
  rw [hj]
  refine (pay5_apply _ _ p q).trans ((Finset.sum_congr rfl fun k _ => ?_).trans (pay5_apply _ _ p q).symm)
  rw [fill5_0_indep V c t d0 z5 p k (by rw [hp]; exact (j 0).isLt), fill5_1_indep V c t d1 z5 q k (by rw [hq]; exact (j 1).isLt)]

/-! ## From blocks to the array -/

/-- A row of rows block i's buffer inside the array is that row of the array. -/
theorem in5_0_apply (c : Dev nD) (t : Fin cfg5.N) (p : Fin 1024) (k : Fin 32) (hp : p.val < win5_2.xsize (grid5.coords t) (0 : Fin 2))
    (r : Fin 10000) (hr : r.val = win5_2.index t (0 : Fin 2) * 1024 + p.val) :
    in5_0 V c t (ix2 p k) = (V c main_v29 : S10000x32.Idx → EReal) (ix2 r k) := by
  obtain ⟨e0, e1, e2, e3, -⟩ := cut_facts5 t
  obtain ⟨i0, i1, i2, i3⟩ := idx_facts5 t
  have hm : win5_0.moved (grid5.coords t) (ix2 p k) = true := (win5_0.moved_iff _ _).mpr fun a => by
    match a with
    | ⟨0, _⟩ => show p.val < win5_0.xsize (grid5.coords t) (0 : Fin 2); omega
    | ⟨1, _⟩ => show k.val < win5_0.xsize (grid5.coords t) (1 : Fin 2); have := k.isLt; omega
  unfold in5_0 Window.fill
  rw [dif_pos hm]
  show (V c main_v29 : S10000x32.Idx → EReal) (((cfg5.win 0).blk t).view.emb _) = _
  refine congrArg _ (funext fun a => Fin.ext ?_)
  match a with
  | ⟨0, _⟩ => show win5_0.index t (0 : Fin 2) * 1024 + 1 * p.val = r.val; omega
  | ⟨1, _⟩ => show win5_0.index t (1 : Fin 2) * 32 + 1 * k.val = k.val; omega
/-- A row of rows block j's buffer likewise. -/
theorem in5_1_apply (c : Dev nD) (t : Fin cfg5.N) (q : Fin 1024) (k : Fin 32) (hq : q.val < win5_2.xsize (grid5.coords t) (1 : Fin 2))
    (r : Fin 10000) (hr : r.val = win5_2.index t (1 : Fin 2) * 1024 + q.val) :
    in5_1 V c t (ix2 q k) = (V c main_v29 : S10000x32.Idx → EReal) (ix2 r k) := by
  obtain ⟨e0, e1, e2, e3, -⟩ := cut_facts5 t
  obtain ⟨i0, i1, i2, i3⟩ := idx_facts5 t
  have hm : win5_1.moved (grid5.coords t) (ix2 q k) = true := (win5_1.moved_iff _ _).mpr fun a => by
    match a with
    | ⟨0, _⟩ => show q.val < win5_1.xsize (grid5.coords t) (0 : Fin 2); omega
    | ⟨1, _⟩ => show k.val < win5_1.xsize (grid5.coords t) (1 : Fin 2); have := k.isLt; omega
  unfold in5_1 Window.fill
  rw [dif_pos hm]
  show (V c main_v29 : S10000x32.Idx → EReal) (((cfg5.win 1).blk t).view.emb _) = _
  refine congrArg _ (funext fun a => Fin.ext ?_)
  match a with
  | ⟨0, _⟩ => show win5_1.index t (0 : Fin 2) * 1024 + 1 * q.val = r.val; omega
  | ⟨1, _⟩ => show win5_1.index t (1 : Fin 2) * 32 + 1 * k.val = k.val; omega

/-- What the result array is shown to hold: at (p, q) the sum over k of a(p,k) · a(q,k), a the operand array as the
    region finds it. -/
def G5 (c : Dev nD) : S10000x10000.Idx → EReal := fun i =>
  Cert.Spec.mmTAt (n := 10000) (k := 32) (m := 10000) (V c main_v29 : S10000x32.Idx → EReal) (V c main_v29 : S10000x32.Idx → EReal)
    ⟨(i 0).val, (i 0).isLt⟩ ⟨(i 1).val, (i 1).isLt⟩

/-- What point t writes back is its block of that array. -/
theorem flushed5_eq (c : Dev nD) (t : Fin cfg5.N) :
    (dat5 (F := Ideal) V c).flushed 2 t = ((cfg5.win 2).blk t).view.read (Elt Ideal) (G5 V c) := by
  show win5_2.cut (grid5.coords t) ((dat5 (F := Ideal) V c).after 2 t) = _
  rw [after5_2]
  funext j
  obtain ⟨p, q, hj, hp, hq⟩ := xinj5_2 t j
  show out5_2 V c t (win5_2.xinj (grid5.coords t) j) = G5 V c (((cfg5.win 2).blk t).view.emb j)
  unfold out5_2
  rw [hj]
  refine (pay5_apply _ _ p q).trans ?_
  unfold G5 Cert.Spec.mmTAt
  refine Finset.sum_congr rfl fun k _ => ?_
  rw [in5_0_apply V c t p k (by rw [hp]; exact (j 0).isLt) ⟨((((cfg5.win 2).blk t).view.emb j) 0).val, ((((cfg5.win 2).blk t).view.emb j) 0).isLt⟩
      (by show win5_2.index t (0 : Fin 2) * 1024 + 1 * (j 0).val = _; omega),
    in5_1_apply V c t q k (by rw [hq]; exact (j 1).isLt) ⟨((((cfg5.win 2).blk t).view.emb j) 1).val, ((((cfg5.win 2).blk t).view.emb j) 1).isLt⟩
      (by show win5_2.index t (1 : Fin 2) * 1024 + 1 * (j 1).val = _; omega)]

/-- An index of the result array is in point t's block iff each coordinate is among the block's coordinates inside
    the array. -/
theorem mem_blk5 (t : Fin cfg5.N) (i : S10000x10000.Idx) :
    i ∈ ((cfg5.win 2).blk t).view.set ↔ ∀ a : Fin 2, win5_2.index t a * S1024x1024.size a ≤ (i a).val
      ∧ (i a).val < win5_2.index t a * S1024x1024.size a + win5_2.xsize (grid5.coords t) a := by
  show i ∈ ((View.whole main_v30).slice (win5_2.rect t)).set ↔ _
  rw [View.set_slice_whole, Rect.mem_set_unit]
  exact Iff.rfl

/-- Entry (p, q) is in the block of the point (p / 1024, q / 1024): the blocks cover the array. -/
theorem cover5 (i : S10000x10000.Idx) : ∃ t : Fin cfg5.N, (cfg5.win 2).flush t = true ∧ i ∈ ((cfg5.win 2).blk t).view.set := by
  have hi0 : (i 0).val < 10000 := (i 0).isLt
  have hi1 : (i 1).val < 10000 := (i 1).isLt
  obtain ⟨t, ht⟩ := idx_onto5 ⟨(i 0).val / 1024, by omega⟩ ⟨(i 1).val / 1024, by omega⟩
  have q0 : win5_2.index t (0 : Fin 2) = (i 0).val / 1024 := congrFun ht 0
  have q1 : win5_2.index t (1 : Fin 2) = (i 1).val / 1024 := congrFun ht 1
  obtain ⟨-, -, -, -, b0, b1, c0, c0', c1, c1'⟩ := cut_facts5 t
  refine ⟨t, flush5_2 t, ?_⟩
  rw [mem_blk5]
  intro a
  match a with
  | ⟨0, _⟩ =>
    show win5_2.index t (0 : Fin 2) * 1024 ≤ (i 0).val ∧ (i 0).val < win5_2.index t (0 : Fin 2) * 1024 + win5_2.xsize (grid5.coords t) (0 : Fin 2)
    rcases Nat.lt_or_ge (win5_2.index t (0 : Fin 2)) 9 with h | h
    · rw [c0 h]; omega
    · rw [c0' (by omega)]; omega
  | ⟨1, _⟩ =>
    show win5_2.index t (1 : Fin 2) * 1024 ≤ (i 1).val ∧ (i 1).val < win5_2.index t (1 : Fin 2) * 1024 + win5_2.xsize (grid5.coords t) (1 : Fin 2)
    rcases Nat.lt_or_ge (win5_2.index t (1 : Fin 2)) 9 with h | h
    · rw [c1 h]; omega
    · rw [c1' (by omega)]; omega

/-- The result array after the region, as a whole. -/
theorem final5 (c : Dev nD) : (dat5 (F := Ideal) V c).arrAt 2 cfg5.N = G5 V c :=
  (dat5 (F := Ideal) V c).arrAt_eq_of_cover 2 (G5 V c) (fun t _ => flushed5_eq V c t) (cover5)

/-- The result array after the region at entry (p, q): the sum over k of a(p,k) · a(q,k). -/
theorem final5_2 (c : Dev nD) (p q : Fin 10000) :
    (dat5 (F := Ideal) V c).arrAt 2 cfg5.N (ix2 p q)
      = Cert.Spec.mmTAt (n := 10000) (k := 32) (m := 10000) (V c main_v29 : S10000x32.Idx → EReal) (V c main_v29 : S10000x32.Idx → EReal) p q := by
  rw [final5]
  rfl

end Cert.KernelIdeal.Hand

end
-- ==== Proof.LibConcatVec.lean ====
/-
  A two-piece concatenation of flat arrays read at an index, generic in the sizes.

  `jnp.concatenate([a, b])` of `a : [A]` and `b : [B]` along axis 0 is the array `[A + B]` whose element `j` is `a[j]`
  for `j < A` and `b[j − A]` from there on. The result's extent is a third size `C` with `A + B = C`, so that the
  statement applies where a program writes the extent as one literal.
-/
import Idealize.ShloMosaic.Lib.ValueIdx
import Idealize.ShloMosaic.Lib.Pipeline.Value

noncomputable section

namespace Cert.LibConcatVec

open Idealize.ShloMosaic Idealize.ShloMosaic.ValueIdx

variable {α : Type}

/-- THE TWO-PIECE FLAT CONCATENATION READ AT `j`: the first piece at `j` while `j` is below the first extent `A`,
    from there on the second piece at `j − A`. (`hC` says the result's extent `C` is the two extents' sum; `h` is the
    concatenation's shape condition.) -/
theorem concat_vec_apply {A B C : Nat} (hC : A + B = C)
    (h : Shape.Concatenates [⟨1, ![A]⟩, ⟨1, ![B]⟩] ⟨1, ![C]⟩ 0)
    (a : (⟨1, ![A]⟩ : Shape).Idx → α) (b : (⟨1, ![B]⟩ : Shape).Idx → α) (j : Fin C) :
    concatenate ⟨1, ![C]⟩ 0 [⟨⟨1, ![A]⟩, a⟩, ⟨⟨1, ![B]⟩, b⟩] h (ix1 j)
      = if hj : j.val < A then a (ix1 ⟨j.val, hj⟩) else b (ix1 ⟨j.val - A, by omega⟩) := by
  split
  · rename_i hj
    refine concatenate_pair_apply_left 0 a b h (ix1 j) rfl (ix1 ⟨j.val, hj⟩) fun c => ?_
    obtain rfl : c = 0 := Subsingleton.elim _ _
    rfl
  · rename_i hj
    refine concatenate_pair_apply_right 0 a b h (ix1 j) rfl rfl (ix1 ⟨j.val - A, by omega⟩)
      (fun c hc => absurd (Subsingleton.elim _ _) hc) ?_
    show j.val - A + A = j.val
    omega

end Cert.LibConcatVec

end
-- ==== Proof.LibConcatColumns.lean ====
/-
  Two rank-2 arrays with the same number of rows, joined along the columns, read at an entry.
-/
import Idealize.ShloMosaic.Lib.Pipeline.Value
import Idealize.ShloMosaic.Lib.ValueIdx

noncomputable section

namespace Cert.Lib

open Idealize.ShloMosaic Idealize.ShloMosaic.ValueIdx

/-- An `[a, b₁]` array and an `[a, b₂]` array concatenated along axis 1 into an `[a, n]` array (`n = b₁ + b₂`), read
    at row `p` and column `j`: the first array at `(p, j)` when `j < b₁`, otherwise the second at `(p, j - b₁)`. -/
theorem concat_columns_apply {α : Type} {a b₁ b₂ n : ℕ} (x₁ : (⟨2, ![a, b₁]⟩ : Shape).Idx → α)
    (x₂ : (⟨2, ![a, b₂]⟩ : Shape).Idx → α)
    (h : Shape.Concatenates [(⟨2, ![a, b₁]⟩ : Shape), (⟨2, ![a, b₂]⟩ : Shape)] (⟨2, ![a, n]⟩ : Shape) 1) (hn : n = b₁ + b₂)
    (p : Fin a) (j : Fin n) :
    concatenate (⟨2, ![a, n]⟩ : Shape) 1 [⟨(⟨2, ![a, b₁]⟩ : Shape), x₁⟩, ⟨(⟨2, ![a, b₂]⟩ : Shape), x₂⟩] h (ix2 p j)
      = if hj : j.val < b₁ then x₁ (ix2 p (⟨j.val, hj⟩ : Fin b₁))
        else x₂ (ix2 p (⟨j.val - b₁, by have := j.isLt; omega⟩ : Fin b₂)) := by
  split
  · next hj =>
    exact concatenate_pair_apply_left 1 x₁ x₂ h (ix2 p j) rfl (ix2 p (⟨j.val, hj⟩ : Fin b₁))
      (fun b => by match b with | ⟨0, _⟩ => rfl | ⟨1, _⟩ => rfl)
  · next hj =>
    exact concatenate_pair_apply_right 1 x₁ x₂ h (ix2 p j) rfl rfl
      (ix2 p (⟨j.val - b₁, by have := j.isLt; omega⟩ : Fin b₂))
      (fun b hb => by
        match b with
        | ⟨0, _⟩ => rfl
        | ⟨1, _⟩ => exact absurd rfl hb)
      (by show j.val - b₁ + b₁ = j.val; omega)

end Cert.Lib

end
-- ==== Proof.LibConcatRows.lean ====
/-
  Two rank-2 arrays with the same number of columns, stacked along the rows, read at an entry.
-/
import Idealize.ShloMosaic.Lib.Pipeline.Value
import Idealize.ShloMosaic.Lib.ValueIdx

noncomputable section

namespace Cert.LibConcatRows

open Idealize.ShloMosaic Idealize.ShloMosaic.ValueIdx

/-- An `[a₁, b]` array and an `[a₂, b]` array concatenated along axis 0 into an `[n, b]` array (`n = a₁ + a₂`), read
    at row `p` and column `j`: the first array at `(p, j)` when `p < a₁`, otherwise the second at `(p - a₁, j)`. -/
theorem concat_rows_apply {α : Type} {a₁ a₂ n b : ℕ} (x₁ : (⟨2, ![a₁, b]⟩ : Shape).Idx → α)
    (x₂ : (⟨2, ![a₂, b]⟩ : Shape).Idx → α)
    (h : Shape.Concatenates [(⟨2, ![a₁, b]⟩ : Shape), (⟨2, ![a₂, b]⟩ : Shape)] (⟨2, ![n, b]⟩ : Shape) 0) (hn : n = a₁ + a₂)
    (p : Fin n) (j : Fin b) :
    concatenate (⟨2, ![n, b]⟩ : Shape) 0 [⟨(⟨2, ![a₁, b]⟩ : Shape), x₁⟩, ⟨(⟨2, ![a₂, b]⟩ : Shape), x₂⟩] h (ix2 p j)
      = if hp : p.val < a₁ then x₁ (ix2 (⟨p.val, hp⟩ : Fin a₁) j)
        else x₂ (ix2 (⟨p.val - a₁, by have := p.isLt; omega⟩ : Fin a₂) j) := by
  split
  · next hp =>
    exact concatenate_pair_apply_left 0 x₁ x₂ h (ix2 p j) rfl (ix2 (⟨p.val, hp⟩ : Fin a₁) j)
      (fun c => by match c with | ⟨0, _⟩ => rfl | ⟨1, _⟩ => rfl)
  · next hp =>
    exact concatenate_pair_apply_right 0 x₁ x₂ h (ix2 p j) rfl rfl
      (ix2 (⟨p.val - a₁, by have := p.isLt; omega⟩ : Fin a₂) j)
      (fun c hc => by
        match c with
        | ⟨0, _⟩ => exact absurd rfl hc
        | ⟨1, _⟩ => rfl)
      (by show p.val - a₁ + a₁ = p.val; omega)

end Cert.LibConcatRows

end
-- ==== Proof.LibBroadcasts.lean ====
/-
  The small broadcasts and the one reshape the graph convolution's host arithmetic uses, read at an index, for any
  sizes: a vector as a one-column matrix, a one-column matrix spread over C columns, a scalar spread over any shape, a
  vector as a one-row matrix (as a broadcast and as a reshape), a one-row matrix spread over N rows.
-/
import Idealize.ShloMosaic.Lib.Pipeline.Value
import Idealize.ShloMosaic.Lib.ValueIdx

noncomputable section

namespace Cert.LibBroadcasts

open Idealize.ShloMosaic Idealize.ShloMosaic.ValueIdx

variable {α : Type}

/-- A [K] vector broadcast to a [K, 1] column, read at (e, 0), is the vector at e. -/
theorem column_apply {K : Nat} (h : (⟨1, ![K]⟩ : Shape).BroadcastsInDim ⟨2, ![K, 1]⟩ ![0])
    (y : (⟨1, ![K]⟩ : Shape).Idx → α) (e : Fin K) (z : Fin 1) :
    broadcastInDim ⟨2, ![K, 1]⟩ ![0] h y (ix2 e z) = y (ix1 e) :=
  broadcastInDim_apply _ h y _ _ (fun a => match a with
    | ⟨0, _⟩ => by
      have := e.isLt
      show e.val = if K = 1 then 0 else e.val
      split <;> omega)

/-- A [K, 1] column broadcast over C columns, read at (e, k), is the column at (e, 0). -/
theorem spread_apply {K C : Nat} (h : (⟨2, ![K, 1]⟩ : Shape).BroadcastsInDim ⟨2, ![K, C]⟩ ![0, 1])
    (y : (⟨2, ![K, 1]⟩ : Shape).Idx → α) (e : Fin K) (k : Fin C) :
    broadcastInDim ⟨2, ![K, C]⟩ ![0, 1] h y (ix2 e k) = y (ix2 e 0) :=
  broadcastInDim_apply _ h y _ _ (fun a => match a with
    | ⟨0, _⟩ => by
      have := e.isLt
      show e.val = if K = 1 then 0 else e.val
      split <;> omega
    | ⟨1, _⟩ => by show 0 = if (1 : Nat) = 1 then 0 else k.val; rw [if_pos rfl])

/-- A scalar broadcast to any shape is the scalar everywhere. -/
theorem scalar_apply {t : Shape} (h : (⟨0, ![]⟩ : Shape).BroadcastsInDim t ![])
    (y : (⟨0, ![]⟩ : Shape).Idx → α) (j : t.Idx) :
    broadcastInDim t ![] h y j = y (fun a => a.elim0) :=
  broadcastInDim_apply _ h y _ _ (fun a => a.elim0)

/-- A [C] vector broadcast to a [1, C] row, read at (0, k), is the vector at k. -/
theorem row_apply {C : Nat} (h : (⟨1, ![C]⟩ : Shape).BroadcastsInDim ⟨2, ![1, C]⟩ ![1])
    (y : (⟨1, ![C]⟩ : Shape).Idx → α) (z : Fin 1) (k : Fin C) :
    broadcastInDim ⟨2, ![1, C]⟩ ![1] h y (ix2 z k) = y (ix1 k) :=
  broadcastInDim_apply _ h y _ _ (fun a => match a with
    | ⟨0, _⟩ => by
      have := k.isLt
      show k.val = if C = 1 then 0 else k.val
      split <;> omega)

/-- A [1, C] row broadcast over N rows, read at (i, k), is the row at (0, k). -/
theorem rows_apply {N C : Nat} (h : (⟨2, ![1, C]⟩ : Shape).BroadcastsInDim ⟨2, ![N, C]⟩ ![0, 1])
    (y : (⟨2, ![1, C]⟩ : Shape).Idx → α) (i : Fin N) (k : Fin C) :
    broadcastInDim ⟨2, ![N, C]⟩ ![0, 1] h y (ix2 i k) = y (ix2 0 k) :=
  broadcastInDim_apply _ h y _ _ (fun a => match a with
    | ⟨0, _⟩ => by show 0 = if (1 : Nat) = 1 then 0 else i.val; rw [if_pos rfl]
    | ⟨1, _⟩ => by
      have := k.isLt
      show k.val = if C = 1 then 0 else k.val
      split <;> omega)

/-- A [C] vector reshaped to a [1, C] row, read at (0, k), is the vector at k. -/
theorem row_cast_apply {C : Nat} (h : (⟨1, ![C]⟩ : Shape).ShapeCasts ⟨2, ![1, C]⟩)
    (y : (⟨1, ![C]⟩ : Shape).Idx → α) (z : Fin 1) (k : Fin C) :
    shapeCast ⟨2, ![1, C]⟩ y h (ix2 z k) = y (ix1 k) :=
  shapeCast_apply y h (ix2 z k) (ix1 k) (by
    rewrite [Shape.rowMajor_val_two, Shape.rowMajor_val_one]
    have := z.isLt
    show k.val = z.val * C + k.val
    have hz : z.val = 0 := by omega
    rw [hz]; omega)

end Cert.LibBroadcasts

end
-- ==== Proof.Consts.lean ====
/-
  The float constants the programs spell, as the extended reals their patterns denote, and the one algebraic
  identity between the two spellings of the evaluation-mode normalisation.
-/
import proofs.«118927_g481036337836_cont_8to1_c_48_4_alg».proof.Proof.Spec
import Idealize.ShloMosaic.PureOps.Ideal
import Idealize.ShloMosaic.PureOps.Ideal.Laws

noncomputable section

namespace Cert.Consts

open Idealize.ShloMosaic

/-- The word of `1.0` denotes `1`. -/
theorem one_word : Ideal.ofBits .f32 0x3F800000#32 = (1 : EReal) := by
  simp [Ideal.ofBits, Ideal.ieee, -EReal.coe_mul]; norm_num

/-- The word of `+0.0` denotes `0`. -/
theorem zero_word : Ideal.ofBits .f32 0x00000000#32 = (0 : EReal) := by
  simp [Ideal.ofBits, Ideal.ieee]

/-- The word `0x3F800054` denotes the positive dyadic `(2^23 + 84) / 2^23`. -/
theorem eps_word : Ideal.ofBits .f32 0x3F800054#32 = (((8388692 : ℝ) / 8388608 : ℝ) : EReal) := by
  simp [Ideal.ofBits, Ideal.ieee, -EReal.coe_mul]; norm_num

/-- The running deviation is a positive real. -/
theorem sigma_real : ∃ s : ℝ, 0 < s ∧ Cert.Spec.sigma = (s : EReal) := by
  refine ⟨Real.sqrt ((8388692 : ℝ) / 8388608), Real.sqrt_pos.mpr (by norm_num), ?_⟩
  rw [Cert.Spec.sigma, eps_word, Ideal.sqrt_coe, if_neg (by norm_num)]

/-- Scaling by `g / σ` and shifting is the normalisation as the reference spells it. -/
theorem bn_eq (x g b : EReal) :
    x * (g * Ideal.div (Ideal.ofBits .f32 0x3F800000#32) Cert.Spec.sigma) + b
      = Cert.Spec.bnRef Cert.Spec.sigma x g b := by
  obtain ⟨s, hs, e⟩ := sigma_real
  rw [Cert.Spec.bnRef, e, one_word, Ideal.div_coe hs.ne', Ideal.div_coe hs.ne', sub_zero, one_mul,
    mul_comm g, ← mul_assoc]

end Cert.Consts

end
-- ==== Proof.HostVals.lean ====
/-
  The host operations of the program, read at an index, at the extended reals: the reciprocal deviation spread over
  the scale vectors, the vectors turned into one-row arrays, the weight matrices joined along their columns or stacked
  over a block of zeros, the format changes (the identity on extended reals), and the column slice before the last
  region.
-/
import proofs.«118927_g481036337836_cont_8to1_c_48_4_alg».proof.Proof.Gen.KernelIdeal.Launch
import proofs.«118927_g481036337836_cont_8to1_c_48_4_alg».proof.Proof.Spec
import proofs.«118927_g481036337836_cont_8to1_c_48_4_alg».proof.Proof.LibConcatVec
import proofs.«118927_g481036337836_cont_8to1_c_48_4_alg».proof.Proof.LibConcatColumns
import proofs.«118927_g481036337836_cont_8to1_c_48_4_alg».proof.Proof.LibConcatRows
import proofs.«118927_g481036337836_cont_8to1_c_48_4_alg».proof.Proof.LibBroadcasts
import proofs.«118927_g481036337836_cont_8to1_c_48_4_alg».proof.Proof.Consts
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostVals

open Cert.KernelIdeal Cert.KernelIdeal.Gen Idealize.ShloMosaic Idealize.ShloMosaic.TcCoe Idealize.ShloMosaic.ValueIdx

variable (W : Valuation τ sig (Elt Ideal))

local notation:70 a:70 " *ₑ " b:71 => @HMul.hMul EReal EReal EReal instHMul a b

/-! ## Two-piece concatenations read in each half -/

section Halves
variable {α : Type}

/-- A two-piece concatenation of vectors read in its first piece. -/
theorem concat_vec_lo {A B C : Nat} (hC : A + B = C)
    (h : Shape.Concatenates [⟨1, ![A]⟩, ⟨1, ![B]⟩] ⟨1, ![C]⟩ 0)
    (a : (⟨1, ![A]⟩ : Shape).Idx → α) (b : (⟨1, ![B]⟩ : Shape).Idx → α) (q : Fin A) (hq : q.val < C) :
    concatenate ⟨1, ![C]⟩ 0 [⟨⟨1, ![A]⟩, a⟩, ⟨⟨1, ![B]⟩, b⟩] h (ix1 ⟨q.val, hq⟩) = a (ix1 q) := by
  rw [Cert.LibConcatVec.concat_vec_apply hC, dif_pos q.isLt]

/-- A two-piece concatenation of vectors read in its second piece. -/
theorem concat_vec_hi {A B C : Nat} (hC : A + B = C)
    (h : Shape.Concatenates [⟨1, ![A]⟩, ⟨1, ![B]⟩] ⟨1, ![C]⟩ 0)
    (a : (⟨1, ![A]⟩ : Shape).Idx → α) (b : (⟨1, ![B]⟩ : Shape).Idx → α) (q : Fin B) (hq : q.val + A < C) :
    concatenate ⟨1, ![C]⟩ 0 [⟨⟨1, ![A]⟩, a⟩, ⟨⟨1, ![B]⟩, b⟩] h (ix1 ⟨q.val + A, hq⟩) = b (ix1 q) := by
  rw [Cert.LibConcatVec.concat_vec_apply hC, dif_neg (by simp)]
  exact congrArg (fun k => b (ix1 k)) (Fin.ext (by show q.val + A - A = q.val; omega))

/-- Two arrays joined along the columns, read in the first one's columns. -/
theorem concat_cols_lo {a b₁ b₂ n : ℕ} (x₁ : (⟨2, ![a, b₁]⟩ : Shape).Idx → α) (x₂ : (⟨2, ![a, b₂]⟩ : Shape).Idx → α)
    (h : Shape.Concatenates [(⟨2, ![a, b₁]⟩ : Shape), (⟨2, ![a, b₂]⟩ : Shape)] (⟨2, ![a, n]⟩ : Shape) 1) (hn : n = b₁ + b₂)
    (p : Fin a) (q : Fin b₁) (hq : q.val < n) :
    concatenate (⟨2, ![a, n]⟩ : Shape) 1 [⟨(⟨2, ![a, b₁]⟩ : Shape), x₁⟩, ⟨(⟨2, ![a, b₂]⟩ : Shape), x₂⟩] h (ix2 p ⟨q.val, hq⟩)
      = x₁ (ix2 p q) := by
  rw [Cert.Lib.concat_columns_apply x₁ x₂ h hn, dif_pos q.isLt]

/-- Two arrays joined along the columns, read in the second one's columns. -/
theorem concat_cols_hi {a b₁ b₂ n : ℕ} (x₁ : (⟨2, ![a, b₁]⟩ : Shape).Idx → α) (x₂ : (⟨2, ![a, b₂]⟩ : Shape).Idx → α)
    (h : Shape.Concatenates [(⟨2, ![a, b₁]⟩ : Shape), (⟨2, ![a, b₂]⟩ : Shape)] (⟨2, ![a, n]⟩ : Shape) 1) (hn : n = b₁ + b₂)
    (p : Fin a) (q : Fin b₂) (hq : q.val + b₁ < n) :
    concatenate (⟨2, ![a, n]⟩ : Shape) 1 [⟨(⟨2, ![a, b₁]⟩ : Shape), x₁⟩, ⟨(⟨2, ![a, b₂]⟩ : Shape), x₂⟩] h (ix2 p ⟨q.val + b₁, hq⟩)
      = x₂ (ix2 p q) := by
  rw [Cert.Lib.concat_columns_apply x₁ x₂ h hn, dif_neg (by simp)]
  exact congrArg (fun k => x₂ (ix2 p k)) (Fin.ext (by show q.val + b₁ - b₁ = q.val; omega))

/-- Two arrays stacked along the rows, read in the first one's rows. -/
theorem concat_rows_lo {a₁ a₂ n b : ℕ} (x₁ : (⟨2, ![a₁, b]⟩ : Shape).Idx → α) (x₂ : (⟨2, ![a₂, b]⟩ : Shape).Idx → α)
    (h : Shape.Concatenates [(⟨2, ![a₁, b]⟩ : Shape), (⟨2, ![a₂, b]⟩ : Shape)] (⟨2, ![n, b]⟩ : Shape) 0) (hn : n = a₁ + a₂)
    (p : Fin a₁) (q : Fin b) (hp : p.val < n) :
    concatenate (⟨2, ![n, b]⟩ : Shape) 0 [⟨(⟨2, ![a₁, b]⟩ : Shape), x₁⟩, ⟨(⟨2, ![a₂, b]⟩ : Shape), x₂⟩] h (ix2 ⟨p.val, hp⟩ q)
      = x₁ (ix2 p q) := by
  rw [Cert.LibConcatRows.concat_rows_apply x₁ x₂ h hn, dif_pos p.isLt]

/-- Two arrays stacked along the rows, read in the second one's rows. -/
theorem concat_rows_hi {a₁ a₂ n b : ℕ} (x₁ : (⟨2, ![a₁, b]⟩ : Shape).Idx → α) (x₂ : (⟨2, ![a₂, b]⟩ : Shape).Idx → α)
    (h : Shape.Concatenates [(⟨2, ![a₁, b]⟩ : Shape), (⟨2, ![a₂, b]⟩ : Shape)] (⟨2, ![n, b]⟩ : Shape) 0) (hn : n = a₁ + a₂)
    (p : Fin a₂) (q : Fin b) (hp : p.val + a₁ < n) :
    concatenate (⟨2, ![n, b]⟩ : Shape) 0 [⟨(⟨2, ![a₁, b]⟩ : Shape), x₁⟩, ⟨(⟨2, ![a₂, b]⟩ : Shape), x₂⟩] h (ix2 ⟨p.val + a₁, hp⟩ q)
      = x₂ (ix2 p q) := by
  rw [Cert.LibConcatRows.concat_rows_apply x₁ x₂ h hn, dif_neg (by simp)]
  exact congrArg (fun k => x₂ (ix2 k q)) (Fin.ext (by show p.val + a₁ - a₁ = p.val; omega))

end Halves

/-! ## The operations before the first region -/

theorem host0_v21 :
    (StableHlo.after (hostOps0 (F := Ideal)) W main_v21 : S10000x128.Idx → EReal) = (W main_arg0 : S10000x128.Idx → EReal) := by
  dsimp only [hostOps0]; after_results; rfl

theorem host0_v22 :
    (StableHlo.after (hostOps0 (F := Ideal)) W main_v22 : S128x32.Idx → EReal) = (W main_arg2 : S128x32.Idx → EReal) := by
  dsimp only [hostOps0]; after_results; rfl

/-- The reciprocal deviation as the host computes it, at any index of any shape it is spread over. -/
theorem inv_apply {t : Shape} (h : S_.BroadcastsInDim t ![]) (j : t.Idx) :
    broadcastInDim t ![] h (Host.divf (constant (F := Ideal) S_ .f32 0x3F800000#32)
        (Host.sqrt (constant (F := Ideal) S_ .f32 0x3F800054#32))) j
      = Ideal.div (Ideal.ofBits .f32 0x3F800000#32) Cert.Spec.sigma :=
  (Cert.LibBroadcasts.scalar_apply h _ j).trans rfl

theorem host0_v4 (q : Fin 16) :
    (StableHlo.after (hostOps0 (F := Ideal)) W main_v4 : S1x16.Idx → EReal) (ix2 0 q)
      = W main_arg7 (ix1 q) *ₑ Ideal.div (Ideal.ofBits .f32 0x3F800000#32) Cert.Spec.sigma := by
  dsimp only [hostOps0]; after_results
  refine (Cert.LibBroadcasts.row_cast_apply _ _ 0 q).trans ?_
  rw [mulf_apply, inv_apply]

theorem host0_v5 (q : Fin 16) :
    (StableHlo.after (hostOps0 (F := Ideal)) W main_v5 : S1x16.Idx → EReal) (ix2 0 q) = W main_arg8 (ix1 q) := by
  dsimp only [hostOps0]; after_results
  exact Cert.LibBroadcasts.row_cast_apply _ _ 0 q

theorem host0_v9_lo (q : Fin 32) :
    (StableHlo.after (hostOps0 (F := Ideal)) W main_v9 : S1x64.Idx → EReal) (ix2 0 (⟨q.val, by omega⟩ : Fin 64))
      = W main_arg9 (ix1 q) *ₑ Ideal.div (Ideal.ofBits .f32 0x3F800000#32) Cert.Spec.sigma := by
  dsimp only [hostOps0]; after_results
  refine (Cert.LibBroadcasts.row_cast_apply _ _ 0 _).trans ?_
  rw [mulf_apply, inv_apply, concat_vec_lo (A := 32) (B := 32) (C := 64) rfl]

theorem host0_v9_hi (q : Fin 32) :
    (StableHlo.after (hostOps0 (F := Ideal)) W main_v9 : S1x64.Idx → EReal) (ix2 0 (⟨q.val + 32, by omega⟩ : Fin 64))
      = W main_arg13 (ix1 q) *ₑ Ideal.div (Ideal.ofBits .f32 0x3F800000#32) Cert.Spec.sigma := by
  dsimp only [hostOps0]; after_results
  refine (Cert.LibBroadcasts.row_cast_apply _ _ 0 _).trans ?_
  rw [mulf_apply, inv_apply, concat_vec_hi (A := 32) (B := 32) (C := 64) rfl]

theorem host0_v11_lo (q : Fin 32) :
    (StableHlo.after (hostOps0 (F := Ideal)) W main_v11 : S1x64.Idx → EReal) (ix2 0 (⟨q.val, by omega⟩ : Fin 64))
      = W main_arg10 (ix1 q) := by
  dsimp only [hostOps0]; after_results
  refine (Cert.LibBroadcasts.row_cast_apply _ _ 0 _).trans ?_
  rw [concat_vec_lo (A := 32) (B := 32) (C := 64) rfl]

theorem host0_v11_hi (q : Fin 32) :
    (StableHlo.after (hostOps0 (F := Ideal)) W main_v11 : S1x64.Idx → EReal) (ix2 0 (⟨q.val + 32, by omega⟩ : Fin 64))
      = W main_arg14 (ix1 q) := by
  dsimp only [hostOps0]; after_results
  refine (Cert.LibBroadcasts.row_cast_apply _ _ 0 _).trans ?_
  rw [concat_vec_hi (A := 32) (B := 32) (C := 64) rfl]

theorem host0_v14 (q : Fin 128) :
    (StableHlo.after (hostOps0 (F := Ideal)) W main_v14 : S1x128.Idx → EReal) (ix2 0 q)
      = W main_arg11 (ix1 q) *ₑ Ideal.div (Ideal.ofBits .f32 0x3F800000#32) Cert.Spec.sigma := by
  dsimp only [hostOps0]; after_results
  refine (Cert.LibBroadcasts.row_cast_apply _ _ 0 q).trans ?_
  rw [mulf_apply, inv_apply]

theorem host0_v15 (q : Fin 128) :
    (StableHlo.after (hostOps0 (F := Ideal)) W main_v15 : S1x128.Idx → EReal) (ix2 0 q) = W main_arg12 (ix1 q) := by
  dsimp only [hostOps0]; after_results
  exact Cert.LibBroadcasts.row_cast_apply _ _ 0 q

theorem host0_v17_lo (j : Fin 16) (q : Fin 32) :
    (StableHlo.after (hostOps0 (F := Ideal)) W main_v17 : S16x64.Idx → EReal) (ix2 j (⟨q.val, by omega⟩ : Fin 64))
      = W main_arg4 (ix2 j q) := by
  dsimp only [hostOps0]; after_results
  refine (truncf_apply (φ := .f32) (ψ := .bf16) _ _ _).trans ?_
  exact concat_cols_lo _ _ _ rfl j q _

theorem host0_v17_hi (j : Fin 16) (q : Fin 32) :
    (StableHlo.after (hostOps0 (F := Ideal)) W main_v17 : S16x64.Idx → EReal) (ix2 j (⟨q.val + 32, by omega⟩ : Fin 64))
      = W main_arg6 (ix2 j q) := by
  dsimp only [hostOps0]; after_results
  refine (truncf_apply (φ := .f32) (ψ := .bf16) _ _ _).trans ?_
  exact concat_cols_hi _ _ _ rfl j q _

theorem host0_v20_lo (j : Fin 32) (q : Fin 128) :
    (StableHlo.after (hostOps0 (F := Ideal)) W main_v20 : S64x128.Idx → EReal) (ix2 (⟨j.val, by omega⟩ : Fin 64) q)
      = W main_arg5 (ix2 j q) := by
  dsimp only [hostOps0]; after_results
  refine (truncf_apply (φ := .f32) (ψ := .bf16) _ _ _).trans ?_
  exact concat_rows_lo _ _ _ rfl j q _

theorem host0_v20_hi (j : Fin 32) (q : Fin 128) :
    (StableHlo.after (hostOps0 (F := Ideal)) W main_v20 : S64x128.Idx → EReal) (ix2 (⟨j.val + 32, by omega⟩ : Fin 64) q)
      = (0 : EReal) := by
  dsimp only [hostOps0]; after_results
  refine (truncf_apply (φ := .f32) (ψ := .bf16) _ _ _).trans ?_
  refine (concat_rows_hi _ _ _ rfl j q _).trans ?_
  refine (Cert.LibBroadcasts.scalar_apply _ _ _).trans ?_
  exact Cert.Consts.zero_word

/-! ## The operation before the second region, and the one before the last -/

theorem host1_v24 :
    (StableHlo.after (hostOps1 (F := Ideal)) W main_v24 : S32x16.Idx → EReal) = (W main_arg3 : S32x16.Idx → EReal) := by
  dsimp only [hostOps1]; after_results; rfl

theorem host5_v29 (p : Fin 10000) (q : Fin 32) :
    (StableHlo.after (hostOps5 (F := Ideal)) W main_v29 : S10000x32.Idx → EReal) (ix2 p q)
      = W main_v27_0 (ix2 p (⟨q.val + 32, by omega⟩ : Fin 64)) := by
  dsimp only [hostOps5]; after_results
  refine extractStridedSlice_apply _ _ _ _ _ (fun a => ?_)
  match a with
  | ⟨0, _⟩ => show p.val = 0 + p.val; omega
  | ⟨1, _⟩ => show q.val + 32 = 32 + q.val; omega

end Cert.KernelIdeal.HostVals
end
-- ==== Proof.Algebra.lean ====
/-
  The algebra that joins the two programs, on the extended reals, entry by entry.

  * A column scale `g / σ` and shift `b` applied to `max (adj · r) 0` IS the normalisation as the reference
    spells it (subtract 0, divide by σ, scale, shift).
  * An entry of a matrix product reads one row of the left operand and one column of the right one; so two
    products agree at an entry as soon as the operands agree on that row and that column.  This is how a product
    against two weight matrices set side by side splits into the two products, column range by column range.
  * A product against a weight matrix extended by rows of zeros is the product against the matrix itself: every
    extra term is a product with 0.
-/
import proofs.«118927_g481036337836_cont_8to1_c_48_4_alg».proof.Proof.Spec
import proofs.«118927_g481036337836_cont_8to1_c_48_4_alg».proof.Proof.Consts

noncomputable section

namespace Cert.Algebra

open Idealize.ShloMosaic Idealize.ShloMosaic.ValueIdx Cert.Spec
open scoped BigOperators

/-- The reciprocal of the running deviation as the kernel's program computes it: the word of `1.0` divided by σ. -/
def invSigma : EReal := Ideal.div (Ideal.ofBits .f32 0x3F800000#32) Cert.Spec.sigma

/-- A product agrees with another at an entry when the operands agree on the entry's row and column. -/
theorem mmAt_congr {n k m : Nat} {A A' : Arr n k} {B B' : Arr k m} {p : Fin n} {c : Fin m}
    (hA : ∀ j, A (ix2 p j) = A' (ix2 p j)) (hB : ∀ j, B (ix2 j c) = B' (ix2 j c)) : mmAt A B p c = mmAt A' B' p c :=
  Finset.sum_congr rfl fun j _ => by rw [hA j, hB j]

/-- The same for a product against a matrix with more columns: column `c'` of the wide one is column `c` of the other. -/
theorem mmAt_col {n k m m' : Nat} {A A' : Arr n k} {B : Arr k m} {B' : Arr k m'} {p : Fin n} {c : Fin m} {c' : Fin m'}
    (hA : ∀ j, A (ix2 p j) = A' (ix2 p j)) (hB : ∀ j, B (ix2 j c) = B' (ix2 j c')) : mmAt A B p c = mmAt A' B' p c' :=
  Finset.sum_congr rfl fun j _ => by rw [hA j, hB j]

theorem reluAt_col {n k m m' : Nat} {A A' : Arr n k} {B : Arr k m} {B' : Arr k m'} {p : Fin n} {c : Fin m} {c' : Fin m'}
    (hA : ∀ j, A (ix2 p j) = A' (ix2 p j)) (hB : ∀ j, B (ix2 j c) = B' (ix2 j c')) : reluAt A B p c = reluAt A' B' p c' := by
  unfold reluAt; rw [mmAt_col hA hB]

theorem mmTAt_congr {n k m : Nat} {A A' : Arr n k} {B B' : Arr m k} {p : Fin n} {c : Fin m}
    (hA : ∀ j, A (ix2 p j) = A' (ix2 p j)) (hB : ∀ j, B (ix2 c j) = B' (ix2 c j)) : mmTAt A B p c = mmTAt A' B' p c :=
  Finset.sum_congr rfl fun j _ => by rw [hA j, hB j]

/-- A scaled and shifted layer entry is the normalised one, when the scale at its column is `g / σ` and the shift `b`. -/
theorem layerAt_eq_bn {n k m : Nat} (adj : Arr n k) (r : Arr k m) (sc bi : Arr 1 m) (g b : EReal) (p : Fin n) (c : Fin m)
    (hsc : sc (ix2 0 c) = g * invSigma) (hbi : bi (ix2 0 c) = b) :
    layerAt adj r sc bi p c = bnRef sigma (reluAt adj r p c) g b := by
  unfold layerAt
  rw [hsc, hbi]
  exact Cert.Consts.bn_eq _ _ _

/-- A sum over 64 indices is the sum over the first 32 plus the sum over the last 32. -/
theorem sum_64 (f : Fin 64 → EReal) :
    ∑ j : Fin 64, f j = ∑ j : Fin 32, f ⟨j.val, by omega⟩ + ∑ j : Fin 32, f ⟨j.val + 32, by omega⟩ := by
  have h := Fin.sum_univ_add (a := 32) (b := 32) f
  rw [h]
  congr 1

/-- A product against a weight matrix extended below by 32 rows of zeros. -/
theorem mmAt_zero_rows {n m : Nat} (A : Arr n 64) (A' : Arr n 32) (B : Arr 64 m) (B' : Arr 32 m) (p : Fin n) (c : Fin m)
    (hA : ∀ j : Fin 32, A (ix2 p ⟨j.val, by omega⟩) = A' (ix2 p j))
    (hB : ∀ j : Fin 32, B (ix2 ⟨j.val, by omega⟩ c) = B' (ix2 j c))
    (hZ : ∀ j : Fin 32, B (ix2 ⟨j.val + 32, by omega⟩ c) = 0) : mmAt A B p c = mmAt A' B' p c := by
  unfold mmAt
  rw [sum_64]
  have h2 : ∑ j : Fin 32, A (ix2 p ⟨j.val + 32, by omega⟩) * B (ix2 ⟨j.val + 32, by omega⟩ c) = 0 :=
    Finset.sum_eq_zero fun j _ => by rw [hZ j, mul_zero]
  rw [h2, add_zero]
  exact Finset.sum_congr rfl fun j _ => by rw [hA j, hB j]

end Cert.Algebra

end
-- ==== Proof.Bridge.lean ====
/-
  What the kernel's program leaves in its two result arrays, as the network functions of the arguments.

  The arrays are followed through the nine segments: each region's output is, entry by entry, the layer formula of
  the arrays the region read; a host operation's result is read at an index; a buffer nobody wrote in between is
  carried unchanged.  The feature decoder's first layer and the structure decoder's layer are computed by the
  kernel as ONE 64-column layer over weights set side by side: its first 32 columns are the one, its last 32 the
  other, because an entry of a matrix product reads one column of the right operand.  The feature decoder's second
  product runs over 64 inner indices against weights extended by zero rows: the extra terms vanish.
-/
import proofs.«118927_g481036337836_cont_8to1_c_48_4_alg».proof.Proof.Run
import proofs.«118927_g481036337836_cont_8to1_c_48_4_alg».proof.Proof.Value0
import proofs.«118927_g481036337836_cont_8to1_c_48_4_alg».proof.Proof.Value1
import proofs.«118927_g481036337836_cont_8to1_c_48_4_alg».proof.Proof.Value2
import proofs.«118927_g481036337836_cont_8to1_c_48_4_alg».proof.Proof.Value3
import proofs.«118927_g481036337836_cont_8to1_c_48_4_alg».proof.Proof.Value4
import proofs.«118927_g481036337836_cont_8to1_c_48_4_alg».proof.Proof.Value5
import proofs.«118927_g481036337836_cont_8to1_c_48_4_alg».proof.Proof.HostVals
import proofs.«118927_g481036337836_cont_8to1_c_48_4_alg».proof.Proof.Algebra

set_option maxRecDepth 16384

noncomputable section

namespace Cert.KernelIdeal.Hand

open Cert.KernelIdeal Cert.KernelIdeal.Gen Cert.KernelIdeal.HostVals
open Idealize.ShloMosaic Idealize.ShloMosaic.TcCoe Idealize.ShloMosaic.ValueIdx
open Idealize.SL.Sem
open Cert.Spec Cert.Algebra

variable (m : (ℓ : Loc nD τ sig) → Buf (Elt Ideal) ℓ) (ρ : Dev nD → PrngReg) (c : Dev nD)

/-! ## The arguments, as arrays -/

abbrev aX : Arr 10000 128 := m ((c : Thread nD τ).loc main_arg0)
abbrev aAdj : Arr 10000 10000 := m ((c : Thread nD τ).loc main_arg1)
abbrev aW1 : Arr 128 32 := m ((c : Thread nD τ).loc main_arg2)
abbrev aW2 : Arr 32 16 := m ((c : Thread nD τ).loc main_arg3)
abbrev aWf1 : Arr 16 32 := m ((c : Thread nD τ).loc main_arg4)
abbrev aWf2 : Arr 32 128 := m ((c : Thread nD τ).loc main_arg5)
abbrev aWs1 : Arr 16 32 := m ((c : Thread nD τ).loc main_arg6)
abbrev aG2 : Vec1 16 := m ((c : Thread nD τ).loc main_arg7)
abbrev aB2 : Vec1 16 := m ((c : Thread nD τ).loc main_arg8)
abbrev aGf1 : Vec1 32 := m ((c : Thread nD τ).loc main_arg9)
abbrev aBf1 : Vec1 32 := m ((c : Thread nD τ).loc main_arg10)
abbrev aGf2 : Vec1 128 := m ((c : Thread nD τ).loc main_arg11)
abbrev aBf2 : Vec1 128 := m ((c : Thread nD τ).loc main_arg12)
abbrev aGs1 : Vec1 32 := m ((c : Thread nD τ).loc main_arg13)
abbrev aBs1 : Vec1 32 := m ((c : Thread nD τ).loc main_arg14)

/-! ## Region 0: the projection -/

theorem v21_eq : (Uv1 m ρ c main_v21 : Arr 10000 128) = aX m c := host0_v21 (Wv0 m ρ c)
theorem v22_eq : (Uv1 m ρ c main_v22 : Arr 128 32) = aW1 m c := host0_v22 (Wv0 m ρ c)

theorem v23_at (p : Fin 10000) (q : Fin 32) : (Uv2 m ρ c main_v23 : Arr 10000 32) (ix2 p q) = mmAt (aX m c) (aW1 m c) p q := by
  have h1 : (Uv2 m ρ c main_v23 : Arr 10000 32) = (dat0 (Uv1 m ρ) c).arrAt 2 cfg0.N := Wv2_arr m ρ c 2
  rw [h1, final0_2 (Uv1 m ρ) c p q, v21_eq, v22_eq]

theorem v23_eq : (Uv2 m ρ c main_v23 : Arr 10000 32) = mm (aX m c) (aW1 m c) := by
  funext i
  obtain ⟨p, q, rfl⟩ : ∃ (p : Fin 10000) (q : Fin 32), i = ix2 p q := ⟨i 0, i 1, eq_ix2 i⟩
  exact v23_at m ρ c p q

/-! ## Region 1: the first pass -/

theorem v23_eq3 : (Uv3 m ρ c main_v23 : Arr 10000 32) = mm (aX m c) (aW1 m c) :=
  (Wv3_keep m ρ c main_v23 (by decide)).trans (v23_eq m ρ c)
theorem arg1_eq3 : (Uv3 m ρ c main_arg1 : Arr 10000 10000) = aAdj m c :=
  (Wv3_keep m ρ c main_arg1 (by decide)).trans <| (Wv2_keep m ρ c main_arg1 (by decide)).trans <| (Wv1_keep m ρ c main_arg1 (by decide)).trans rfl
theorem v24_eq3 : (Uv3 m ρ c main_v24 : Arr 32 16) = aW2 m c :=
  (host1_v24 (Wv2 m ρ c)).trans <| (Wv2_keep m ρ c main_arg3 (by decide)).trans <| (Wv1_keep m ρ c main_arg3 (by decide)).trans rfl

theorem v25_0_eq : (Uv4 m ρ c main_v25_0 : Arr 10000 10000) = aAdj m c := by
  funext i
  obtain ⟨p, q, rfl⟩ : ∃ (p q : Fin 10000), i = ix2 p q := ⟨i 0, i 1, eq_ix2 i⟩
  have h1 : (Uv4 m ρ c main_v25_0 : Arr 10000 10000) = (dat1 (Uv3 m ρ) c).arrAt 3 cfg1.N := Wv4_arr m ρ c 3
  rw [h1, final1_3 (Uv3 m ρ) c p q, arg1_eq3]

theorem v25_1_eq : (Uv4 m ρ c main_v25_1 : Arr 10000 16) = mm (gcn (aAdj m c) (mm (aX m c) (aW1 m c))) (aW2 m c) := by
  funext i
  obtain ⟨p, q, rfl⟩ : ∃ (p : Fin 10000) (q : Fin 16), i = ix2 p q := ⟨i 0, i 1, eq_ix2 i⟩
  have h1 : (Uv4 m ρ c main_v25_1 : Arr 10000 16) = (dat1 (Uv3 m ρ) c).arrAt 4 cfg1.N := Wv4_arr m ρ c 4
  rw [h1, final1_4 (Uv3 m ρ) c p q, arg1_eq3, v23_eq3, v24_eq3]
  rfl

/-! ## The scale and shift rows, the side-by-side weights and the zero-extended weights, read at an entry -/

theorem keep14 (r : Ref sig .tc) (h1 : r ∉ ([main_v23] : List (Ref sig .tc))) (h2 : r ∉ hostOps1_W)
    (h3 : r ∉ ([main_v25_0, main_v25_1] : List (Ref sig .tc))) :
    Wv4 m ρ c (Proc.devRef .tc r) = Wv1 m ρ c (Proc.devRef .tc r) :=
  (Wv4_keep m ρ c r h3).trans <| (Wv3_keep m ρ c r h2).trans (Wv2_keep m ρ c r h1)
theorem keep15 (r : Ref sig .tc) (h1 : r ∉ ([main_v23] : List (Ref sig .tc))) (h2 : r ∉ hostOps1_W)
    (h3 : r ∉ ([main_v25_0, main_v25_1] : List (Ref sig .tc))) (h4 : r ∉ ([main_v26] : List (Ref sig .tc))) :
    Wv5 m ρ c (Proc.devRef .tc r) = Wv1 m ρ c (Proc.devRef .tc r) :=
  (Wv5_keep m ρ c r h4).trans (keep14 m ρ c r h1 h2 h3)
theorem keep16 (r : Ref sig .tc) (h1 : r ∉ ([main_v23] : List (Ref sig .tc))) (h2 : r ∉ hostOps1_W)
    (h3 : r ∉ ([main_v25_0, main_v25_1] : List (Ref sig .tc))) (h4 : r ∉ ([main_v26] : List (Ref sig .tc)))
    (h5 : r ∉ ([main_v27_0, main_v27_1] : List (Ref sig .tc))) :
    Wv6 m ρ c (Proc.devRef .tc r) = Wv1 m ρ c (Proc.devRef .tc r) :=
  (Wv6_keep m ρ c r h5).trans (keep15 m ρ c r h1 h2 h3 h4)

/-- An argument array read through the first host stretch is the launch array. -/
theorem arg_at1 (r : Ref sig .tc) (h : r ∉ hostOps0_W) : Wv1 m ρ c (Proc.devRef .tc r) = m ((c : Thread nD τ).loc r) :=
  (Wv1_keep m ρ c r h).trans rfl

theorem sc2_at (q : Fin 16) : (Uv4 m ρ c main_v4 : Arr 1 16) (ix2 0 q) = aG2 m c (ix1 q) * invSigma := by
  have h : (Uv4 m ρ c main_v4 : Arr 1 16) = (Uv1 m ρ c main_v4 : Arr 1 16) := keep14 m ρ c main_v4 (by decide) (by decide) (by decide)
  rw [h]; exact host0_v4 (Wv0 m ρ c) q
theorem bi2_at (q : Fin 16) : (Uv4 m ρ c main_v5 : Arr 1 16) (ix2 0 q) = aB2 m c (ix1 q) := by
  have h : (Uv4 m ρ c main_v5 : Arr 1 16) = (Uv1 m ρ c main_v5 : Arr 1 16) := keep14 m ρ c main_v5 (by decide) (by decide) (by decide)
  rw [h]; exact host0_v5 (Wv0 m ρ c) q
theorem w3_lo (j : Fin 16) (q : Fin 32) : (Uv4 m ρ c main_v17 : Arr 16 64) (ix2 j ⟨q.val, by omega⟩) = aWf1 m c (ix2 j q) := by
  have h : (Uv4 m ρ c main_v17 : Arr 16 64) = (Uv1 m ρ c main_v17 : Arr 16 64) := keep14 m ρ c main_v17 (by decide) (by decide) (by decide)
  rw [h]; exact host0_v17_lo (Wv0 m ρ c) j q
theorem w3_hi (j : Fin 16) (q : Fin 32) : (Uv4 m ρ c main_v17 : Arr 16 64) (ix2 j ⟨q.val + 32, by omega⟩) = aWs1 m c (ix2 j q) := by
  have h : (Uv4 m ρ c main_v17 : Arr 16 64) = (Uv1 m ρ c main_v17 : Arr 16 64) := keep14 m ρ c main_v17 (by decide) (by decide) (by decide)
  rw [h]; exact host0_v17_hi (Wv0 m ρ c) j q

theorem sc3_lo (q : Fin 32) : (Uv5 m ρ c main_v9 : Arr 1 64) (ix2 0 ⟨q.val, by omega⟩) = aGf1 m c (ix1 q) * invSigma := by
  have h : (Uv5 m ρ c main_v9 : Arr 1 64) = (Uv1 m ρ c main_v9 : Arr 1 64) := keep15 m ρ c main_v9 (by decide) (by decide) (by decide) (by decide)
  rw [h]; exact host0_v9_lo (Wv0 m ρ c) q
theorem sc3_hi (q : Fin 32) : (Uv5 m ρ c main_v9 : Arr 1 64) (ix2 0 ⟨q.val + 32, by omega⟩) = aGs1 m c (ix1 q) * invSigma := by
  have h : (Uv5 m ρ c main_v9 : Arr 1 64) = (Uv1 m ρ c main_v9 : Arr 1 64) := keep15 m ρ c main_v9 (by decide) (by decide) (by decide) (by decide)
  rw [h]; exact host0_v9_hi (Wv0 m ρ c) q
theorem bi3_lo (q : Fin 32) : (Uv5 m ρ c main_v11 : Arr 1 64) (ix2 0 ⟨q.val, by omega⟩) = aBf1 m c (ix1 q) := by
  have h : (Uv5 m ρ c main_v11 : Arr 1 64) = (Uv1 m ρ c main_v11 : Arr 1 64) := keep15 m ρ c main_v11 (by decide) (by decide) (by decide) (by decide)
  rw [h]; exact host0_v11_lo (Wv0 m ρ c) q
theorem bi3_hi (q : Fin 32) : (Uv5 m ρ c main_v11 : Arr 1 64) (ix2 0 ⟨q.val + 32, by omega⟩) = aBs1 m c (ix1 q) := by
  have h : (Uv5 m ρ c main_v11 : Arr 1 64) = (Uv1 m ρ c main_v11 : Arr 1 64) := keep15 m ρ c main_v11 (by decide) (by decide) (by decide) (by decide)
  rw [h]; exact host0_v11_hi (Wv0 m ρ c) q
theorem w4_lo (j : Fin 32) (q : Fin 128) : (Uv5 m ρ c main_v20 : Arr 64 128) (ix2 ⟨j.val, by omega⟩ q) = aWf2 m c (ix2 j q) := by
  have h : (Uv5 m ρ c main_v20 : Arr 64 128) = (Uv1 m ρ c main_v20 : Arr 64 128) := keep15 m ρ c main_v20 (by decide) (by decide) (by decide) (by decide)
  rw [h]; exact host0_v20_lo (Wv0 m ρ c) j q
theorem w4_hi (j : Fin 32) (q : Fin 128) : (Uv5 m ρ c main_v20 : Arr 64 128) (ix2 ⟨j.val + 32, by omega⟩ q) = (0 : EReal) := by
  have h : (Uv5 m ρ c main_v20 : Arr 64 128) = (Uv1 m ρ c main_v20 : Arr 64 128) := keep15 m ρ c main_v20 (by decide) (by decide) (by decide) (by decide)
  rw [h]; exact host0_v20_hi (Wv0 m ρ c) j q
theorem sc4_at (q : Fin 128) : (Uv6 m ρ c main_v14 : Arr 1 128) (ix2 0 q) = aGf2 m c (ix1 q) * invSigma := by
  have h : (Uv6 m ρ c main_v14 : Arr 1 128) = (Uv1 m ρ c main_v14 : Arr 1 128) := keep16 m ρ c main_v14 (by decide) (by decide) (by decide) (by decide) (by decide)
  rw [h]; exact host0_v14 (Wv0 m ρ c) q
theorem bi4_at (q : Fin 128) : (Uv6 m ρ c main_v15 : Arr 1 128) (ix2 0 q) = aBf2 m c (ix1 q) := by
  have h : (Uv6 m ρ c main_v15 : Arr 1 128) = (Uv1 m ρ c main_v15 : Arr 1 128) := keep16 m ρ c main_v15 (by decide) (by decide) (by decide) (by decide) (by decide)
  rw [h]; exact host0_v15 (Wv0 m ρ c) q

/-! ## Region 2: the second pass, and the two products set side by side -/

/-- The encoder's normalised second layer, entry by entry, as the kernel's second pass computes it. -/
theorem h2_at (p : Fin 10000) (j : Fin 16) :
    layerAt (Uv4 m ρ c main_v25_0 : Arr 10000 10000) (Uv4 m ρ c main_v25_1 : Arr 10000 16) (Uv4 m ρ c main_v4 : Arr 1 16) (Uv4 m ρ c main_v5 : Arr 1 16) p j
      = encH2 (aX m c) (aAdj m c) (aW1 m c) (aW2 m c) (aG2 m c) (aB2 m c) (ix2 p j) := by
  rw [layerAt_eq_bn _ _ _ _ _ _ p j (sc2_at m ρ c j) (bi2_at m ρ c j), v25_0_eq, v25_1_eq]
  rfl

theorem v26_h : (Uv5 m ρ c main_v26 : Arr 10000 64) = (dat2 (Uv4 m ρ) c).arrAt 5 cfg2.N := Wv5_arr m ρ c 5

theorem v26_lo (p : Fin 10000) (q : Fin 32) : (Uv5 m ρ c main_v26 : Arr 10000 64) (ix2 p ⟨q.val, by omega⟩)
    = mm (encH2 (aX m c) (aAdj m c) (aW1 m c) (aW2 m c) (aG2 m c) (aB2 m c)) (aWf1 m c) (ix2 p q) := by
  rw [v26_h, final2_5 (Uv4 m ρ) c p ⟨q.val, by omega⟩]
  exact mmAt_col (fun j => h2_at m ρ c p j) (fun j => w3_lo m ρ c j q)
theorem v26_hi (p : Fin 10000) (q : Fin 32) : (Uv5 m ρ c main_v26 : Arr 10000 64) (ix2 p ⟨q.val + 32, by omega⟩)
    = mm (encH2 (aX m c) (aAdj m c) (aW1 m c) (aW2 m c) (aG2 m c) (aB2 m c)) (aWs1 m c) (ix2 p q) := by
  rw [v26_h, final2_5 (Uv4 m ρ) c p ⟨q.val + 32, by omega⟩]
  exact mmAt_col (fun j => h2_at m ρ c p j) (fun j => w3_hi m ρ c j q)

/-! ## Region 3: the 64-column pass is the two decoders' layers side by side -/

theorem v25_0_eq5 : (Uv5 m ρ c main_v25_0 : Arr 10000 10000) = aAdj m c :=
  (Wv5_keep m ρ c main_v25_0 (by decide)).trans (v25_0_eq m ρ c)

theorem l3_lo (p : Fin 10000) (q : Fin 32) :
    layerAt (Uv5 m ρ c main_v25_0 : Arr 10000 10000) (Uv5 m ρ c main_v26 : Arr 10000 64) (Uv5 m ρ c main_v9 : Arr 1 64) (Uv5 m ρ c main_v11 : Arr 1 64) p ⟨q.val, by omega⟩
      = decF1 (aX m c) (aAdj m c) (aW1 m c) (aW2 m c) (aWf1 m c) (aG2 m c) (aB2 m c) (aGf1 m c) (aBf1 m c) (ix2 p q) := by
  rw [layerAt_eq_bn _ _ _ _ _ _ p ⟨q.val, by omega⟩ (sc3_lo m ρ c q) (bi3_lo m ρ c q),
    reluAt_col (A' := aAdj m c) (B' := mm (encH2 (aX m c) (aAdj m c) (aW1 m c) (aW2 m c) (aG2 m c) (aB2 m c)) (aWf1 m c)) (c' := q)
      (fun j => by rw [v25_0_eq5]) (fun j => v26_lo m ρ c j q)]
  rfl
theorem l3_hi (p : Fin 10000) (q : Fin 32) :
    layerAt (Uv5 m ρ c main_v25_0 : Arr 10000 10000) (Uv5 m ρ c main_v26 : Arr 10000 64) (Uv5 m ρ c main_v9 : Arr 1 64) (Uv5 m ρ c main_v11 : Arr 1 64) p ⟨q.val + 32, by omega⟩
      = decS1 (aX m c) (aAdj m c) (aW1 m c) (aW2 m c) (aWs1 m c) (aG2 m c) (aB2 m c) (aGs1 m c) (aBs1 m c) (ix2 p q) := by
  rw [layerAt_eq_bn _ _ _ _ _ _ p ⟨q.val + 32, by omega⟩ (sc3_hi m ρ c q) (bi3_hi m ρ c q),
    reluAt_col (A' := aAdj m c) (B' := mm (encH2 (aX m c) (aAdj m c) (aW1 m c) (aW2 m c) (aG2 m c) (aB2 m c)) (aWs1 m c)) (c' := q)
      (fun j => by rw [v25_0_eq5]) (fun j => v26_hi m ρ c j q)]
  rfl

theorem v27_0_h : (Uv6 m ρ c main_v27_0 : Arr 10000 64) = (dat3 (Uv5 m ρ) c).arrAt 5 cfg3.N := Wv6_arr m ρ c 5
theorem v27_1_h : (Uv6 m ρ c main_v27_1 : Arr 10000 128) = (dat3 (Uv5 m ρ) c).arrAt 6 cfg3.N := Wv6_arr m ρ c 6

theorem fs_hi (p : Fin 10000) (q : Fin 32) : (Uv6 m ρ c main_v27_0 : Arr 10000 64) (ix2 p ⟨q.val + 32, by omega⟩)
    = decS1 (aX m c) (aAdj m c) (aW1 m c) (aW2 m c) (aWs1 m c) (aG2 m c) (aB2 m c) (aGs1 m c) (aBs1 m c) (ix2 p q) := by
  rw [v27_0_h, final3_5 (Uv5 m ρ) c p ⟨q.val + 32, by omega⟩]
  exact l3_hi m ρ c p q

/-- The product against the zero-extended weights is the feature decoder's second product. -/
theorem v27_1_eq : (Uv6 m ρ c main_v27_1 : Arr 10000 128)
    = mm (decF1 (aX m c) (aAdj m c) (aW1 m c) (aW2 m c) (aWf1 m c) (aG2 m c) (aB2 m c) (aGf1 m c) (aBf1 m c)) (aWf2 m c) := by
  funext i
  obtain ⟨p, q, rfl⟩ : ∃ (p : Fin 10000) (q : Fin 128), i = ix2 p q := ⟨i 0, i 1, eq_ix2 i⟩
  rw [v27_1_h, final3_6 (Uv5 m ρ) c p q]
  exact mmAt_zero_rows _ _ _ _ p q (fun j => l3_lo m ρ c p j) (fun j => w4_lo m ρ c j q) (fun j => w4_hi m ρ c j q)

/-! ## Region 4: the first result -/

theorem v25_0_eq6 : (Uv6 m ρ c main_v25_0 : Arr 10000 10000) = aAdj m c :=
  (Wv6_keep m ρ c main_v25_0 (by decide)).trans (v25_0_eq5 m ρ c)

/-- The kernel's first result is the feature decoder's output. -/
theorem out28_eq : (Wv9 m ρ c (Proc.devRef .tc main_v28) : Arr 10000 128)
    = decF2 (aX m c) (aAdj m c) (aW1 m c) (aW2 m c) (aWf1 m c) (aWf2 m c) (aG2 m c) (aB2 m c) (aGf1 m c) (aBf1 m c) (aGf2 m c) (aBf2 m c) := by
  have h0 : (Wv9 m ρ c (Proc.devRef .tc main_v28) : Arr 10000 128) = (dat4 (Uv6 m ρ) c).arrAt 4 cfg4.N :=
    (Wv9_keep m ρ c main_v28 (by decide)).trans <| (Wv8_keep m ρ c main_v28 (by decide)).trans (Wv7_arr m ρ c 4)
  funext i
  obtain ⟨p, q, rfl⟩ : ∃ (p : Fin 10000) (q : Fin 128), i = ix2 p q := ⟨i 0, i 1, eq_ix2 i⟩
  rw [h0, final4_4 (Uv6 m ρ) c p q, layerAt_eq_bn _ _ _ _ _ _ p q (sc4_at m ρ c q) (bi4_at m ρ c q), v25_0_eq6, v27_1_eq]
  rfl

/-! ## Region 5: the second result -/

theorem v29_eq : (Uv8 m ρ c main_v29 : Arr 10000 32)
    = decS1 (aX m c) (aAdj m c) (aW1 m c) (aW2 m c) (aWs1 m c) (aG2 m c) (aB2 m c) (aGs1 m c) (aBs1 m c) := by
  funext i
  obtain ⟨p, q, rfl⟩ : ∃ (p : Fin 10000) (q : Fin 32), i = ix2 p q := ⟨i 0, i 1, eq_ix2 i⟩
  have h : (Wv7 m ρ c (Proc.devRef .tc main_v27_0) : Arr 10000 64) = (Uv6 m ρ c main_v27_0 : Arr 10000 64) := Wv7_keep m ρ c main_v27_0 (by decide)
  exact (host5_v29 (Wv7 m ρ c) p q).trans (by rw [h]; exact fs_hi m ρ c p q)

/-- The kernel's second result is the reconstructed adjacency. -/
theorem out30_eq : (Wv9 m ρ c (Proc.devRef .tc main_v30) : Arr 10000 10000)
    = adjRec (aX m c) (aAdj m c) (aW1 m c) (aW2 m c) (aWs1 m c) (aG2 m c) (aB2 m c) (aGs1 m c) (aBs1 m c) := by
  funext i
  obtain ⟨p, q, rfl⟩ : ∃ (p q : Fin 10000), i = ix2 p q := ⟨i 0, i 1, eq_ix2 i⟩
  rw [Wv9_out, final5_2 (Uv8 m ρ) c p q, v29_eq]
  rfl

end Cert.KernelIdeal.Hand

end
-- ==== Proof.RefValue.lean ====
/-
  The reference program's two results are the network's functions of its arguments.

  The reference computes a chain of five layers.  Each layer is a matrix product with a weight, a product with the
  adjacency, a maximum with zero, and (from the second layer on) the evaluation-mode normalisation: subtract zero,
  divide by the square root of the float word of 1 + 1e-5, scale by a column vector, shift by a column vector.  Layer by
  layer, each stage read at an index is the corresponding entry of the specification's array; the last stage contracts
  the structure decoder's layer with its own transpose.
-/
import proofs.«118927_g481036337836_cont_8to1_c_48_4_alg».proof.Proof.Gen.ReferenceIdeal.Read
import proofs.«118927_g481036337836_cont_8to1_c_48_4_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The first product `x · W1`. -/
theorem ref_v0 (x0 : (⟨S10000x128, .f32⟩ : BufTy).Contents (Elt Ideal)) (x2 : (⟨S128x32, .f32⟩ : BufTy).Contents (Elt Ideal)) :
    Read.val_main_v0 (F := Ideal) x0 x2 = Cert.Spec.mm x0 x2 := by
  funext i
  have el : ∀ k, Read.lidx_main_v0 i k = ix2 (i 0) k := fun k => funext fun a => by match a with | ⟨0, _⟩ => rfl | ⟨1, _⟩ => rfl
  have er : ∀ k, Read.ridx_main_v0 i k = ix2 k (i 1) := fun k => funext fun a => by match a with | ⟨0, _⟩ => rfl | ⟨1, _⟩ => rfl
  rw [Read.val_main_v0_apply]
  simp only [el, er]
  rfl

/-- The encoder's first layer `max (adj · (x · W1)) 0`. -/
theorem ref_v2 (x0 : (⟨S10000x128, .f32⟩ : BufTy).Contents (Elt Ideal)) (x1 : (⟨S10000x10000, .f32⟩ : BufTy).Contents (Elt Ideal)) (x2 : (⟨S128x32, .f32⟩ : BufTy).Contents (Elt Ideal)) :
    Read.val_main_v2 (F := Ideal) x0 x1 x2 = Cert.Spec.gcn x1 (Cert.Spec.mm x0 x2) := by
  funext i
  have el : ∀ k, Read.lidx_main_v1 i k = ix2 (i 0) k := fun k => funext fun a => by match a with | ⟨0, _⟩ => rfl | ⟨1, _⟩ => rfl
  have er : ∀ k, Read.ridx_main_v1 i k = ix2 k (i 1) := fun k => funext fun a => by match a with | ⟨0, _⟩ => rfl | ⟨1, _⟩ => rfl
  rw [Read.val_main_v2_apply, Read.val_main_v1_apply, Read.val_main_call0_v0_apply, Read.val_main_call0_cst_apply]
  simp only [el, er, Ideal.maximumf_def, Ideal.ofBits_def, Ideal.ofBits_zero_f32]
  rw [ref_v0]
  rfl

/-- The first layer times `W2`. -/
theorem ref_v3 (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32x16, .f32⟩ : BufTy).Contents (Elt Ideal)) :
    Read.val_main_v3 (F := Ideal) x0 x1 x2 x3 = Cert.Spec.mm (Cert.Spec.gcn x1 (Cert.Spec.mm x0 x2)) x3 := by
  funext i
  have el : ∀ k, Read.lidx_main_v3 i k = ix2 (i 0) k := fun k => funext fun a => by match a with | ⟨0, _⟩ => rfl | ⟨1, _⟩ => rfl
  have er : ∀ k, Read.ridx_main_v3 i k = ix2 k (i 1) := fun k => funext fun a => by match a with | ⟨0, _⟩ => rfl | ⟨1, _⟩ => rfl
  rw [Read.val_main_v3_apply]
  simp only [el, er]
  rw [ref_v2]
  rfl

/-- The encoder's second layer, normalised. -/
theorem ref_v17 (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32x16, .f32⟩ : BufTy).Contents (Elt Ideal)) (x7 : (⟨S16, .f32⟩ : BufTy).Contents (Elt Ideal)) (x8 : (⟨S16, .f32⟩ : BufTy).Contents (Elt Ideal)) :
    Read.val_main_v17 (F := Ideal) x0 x1 x2 x3 x7 x8 = Cert.Spec.encH2 x0 x1 x2 x3 x7 x8 := by
  funext i
  have el : ∀ k, Read.lidx_main_v4 i k = ix2 (i 0) k := fun k => funext fun a => by match a with | ⟨0, _⟩ => rfl | ⟨1, _⟩ => rfl
  have er : ∀ k, Read.ridx_main_v4 i k = ix2 k (i 1) := fun k => funext fun a => by match a with | ⟨0, _⟩ => rfl | ⟨1, _⟩ => rfl
  have eg : Read.idx_main_v12 (Read.idx_main_v13 i) = ix1 (i 1) := funext fun a => by match a with | ⟨0, _⟩ => rfl
  have eb : Read.idx_main_v15 (Read.idx_main_v16 i) = ix1 (i 1) := funext fun a => by match a with | ⟨0, _⟩ => rfl
  rw [Read.val_main_v17_apply, Read.val_main_v14_apply, Read.val_main_v11_apply, Read.val_main_v7_apply,
    Read.val_main_v5_apply, Read.val_main_v4_apply, Read.val_main_call1_v0_apply, Read.val_main_call1_cst_apply,
    Read.val_main_v6_apply, Read.val_main_cst_apply, Read.val_main_v10_apply, Read.val_main_v9_apply,
    Read.val_main_v8_apply, Read.val_main_cst_0_apply, Read.val_main_v13_apply, Read.val_main_v12_apply,
    Read.val_main_v16_apply, Read.val_main_v15_apply]
  simp only [el, er, eg, eb, Ideal.addf_def, Ideal.subf_def, Ideal.mulf_def, Ideal.maximumf_def, Ideal.hostDivf_def, Ideal.hostUnary_sqrt_def, Ideal.ofBits_def, Ideal.ofBits_zero_f32]
  rw [ref_v3]
  simp only [Cert.Spec.encH2, Cert.Spec.gcnBn, Cert.Spec.bnRef, Cert.Spec.reluAt, Cert.Spec.mmAt, Cert.Spec.sigma]
  rfl

/-- `h2 · Wf1`. -/
theorem ref_v18 (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32x16, .f32⟩ : BufTy).Contents (Elt Ideal)) (x4 : (⟨S16x32, .f32⟩ : BufTy).Contents (Elt Ideal)) (x7 : (⟨S16, .f32⟩ : BufTy).Contents (Elt Ideal)) (x8 : (⟨S16, .f32⟩ : BufTy).Contents (Elt Ideal)) :
    Read.val_main_v18 (F := Ideal) x0 x1 x2 x3 x4 x7 x8 = Cert.Spec.mm (Cert.Spec.encH2 x0 x1 x2 x3 x7 x8) x4 := by
  funext i
  have el : ∀ k, Read.lidx_main_v18 i k = ix2 (i 0) k := fun k => funext fun a => by match a with | ⟨0, _⟩ => rfl | ⟨1, _⟩ => rfl
  have er : ∀ k, Read.ridx_main_v18 i k = ix2 k (i 1) := fun k => funext fun a => by match a with | ⟨0, _⟩ => rfl | ⟨1, _⟩ => rfl
  rw [Read.val_main_v18_apply]
  simp only [el, er]
  rw [ref_v17]
  rfl

/-- The feature decoder's first layer. -/
theorem ref_v32 (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32x16, .f32⟩ : BufTy).Contents (Elt Ideal)) (x4 : (⟨S16x32, .f32⟩ : BufTy).Contents (Elt Ideal)) (x7 : (⟨S16, .f32⟩ : BufTy).Contents (Elt Ideal)) (x8 : (⟨S16, .f32⟩ : BufTy).Contents (Elt Ideal)) (x9 : (⟨S32, .f32⟩ : BufTy).Contents (Elt Ideal)) (x10 : (⟨S32, .f32⟩ : BufTy).Contents (Elt Ideal)) :
    Read.val_main_v32 (F := Ideal) x0 x1 x2 x3 x4 x7 x8 x9 x10 = Cert.Spec.decF1 x0 x1 x2 x3 x4 x7 x8 x9 x10 := by
  funext i
  have el : ∀ k, Read.lidx_main_v19 i k = ix2 (i 0) k := fun k => funext fun a => by match a with | ⟨0, _⟩ => rfl | ⟨1, _⟩ => rfl
  have er : ∀ k, Read.ridx_main_v19 i k = ix2 k (i 1) := fun k => funext fun a => by match a with | ⟨0, _⟩ => rfl | ⟨1, _⟩ => rfl
  have eg : Read.idx_main_v27 (Read.idx_main_v28 i) = ix1 (i 1) := funext fun a => by match a with | ⟨0, _⟩ => rfl
  have eb : Read.idx_main_v30 (Read.idx_main_v31 i) = ix1 (i 1) := funext fun a => by match a with | ⟨0, _⟩ => rfl
  rw [Read.val_main_v32_apply, Read.val_main_v29_apply, Read.val_main_v26_apply, Read.val_main_v22_apply,
    Read.val_main_v20_apply, Read.val_main_v19_apply, Read.val_main_call2_v0_apply, Read.val_main_call2_cst_apply,
    Read.val_main_v21_apply, Read.val_main_cst_1_apply, Read.val_main_v25_apply, Read.val_main_v24_apply,
    Read.val_main_v23_apply, Read.val_main_cst_2_apply, Read.val_main_v28_apply, Read.val_main_v27_apply,
    Read.val_main_v31_apply, Read.val_main_v30_apply]
  simp only [el, er, eg, eb, Ideal.addf_def, Ideal.subf_def, Ideal.mulf_def, Ideal.maximumf_def, Ideal.hostDivf_def, Ideal.hostUnary_sqrt_def, Ideal.ofBits_def, Ideal.ofBits_zero_f32]
  rw [ref_v18]
  simp only [Cert.Spec.decF1, Cert.Spec.gcnBn, Cert.Spec.bnRef, Cert.Spec.reluAt, Cert.Spec.mmAt, Cert.Spec.sigma]
  rfl

/-- `f1 · Wf2`. -/
theorem ref_v33 (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32x16, .f32⟩ : BufTy).Contents (Elt Ideal)) (x4 : (⟨S16x32, .f32⟩ : BufTy).Contents (Elt Ideal)) (x5 : (⟨S32x128, .f32⟩ : BufTy).Contents (Elt Ideal)) (x7 : (⟨S16, .f32⟩ : BufTy).Contents (Elt Ideal)) (x8 : (⟨S16, .f32⟩ : BufTy).Contents (Elt Ideal)) (x9 : (⟨S32, .f32⟩ : BufTy).Contents (Elt Ideal)) (x10 : (⟨S32, .f32⟩ : BufTy).Contents (Elt Ideal)) :
    Read.val_main_v33 (F := Ideal) x0 x1 x2 x3 x4 x5 x7 x8 x9 x10 = Cert.Spec.mm (Cert.Spec.decF1 x0 x1 x2 x3 x4 x7 x8 x9 x10) x5 := by
  funext i
  have el : ∀ k, Read.lidx_main_v33 i k = ix2 (i 0) k := fun k => funext fun a => by match a with | ⟨0, _⟩ => rfl | ⟨1, _⟩ => rfl
  have er : ∀ k, Read.ridx_main_v33 i k = ix2 k (i 1) := fun k => funext fun a => by match a with | ⟨0, _⟩ => rfl | ⟨1, _⟩ => rfl
  rw [Read.val_main_v33_apply]
  simp only [el, er]
  rw [ref_v32]
  rfl

/-- The reference's first result is the feature decoder's output. -/
theorem ref_f2 (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32x16, .f32⟩ : BufTy).Contents (Elt Ideal)) (x4 : (⟨S16x32, .f32⟩ : BufTy).Contents (Elt Ideal)) (x5 : (⟨S32x128, .f32⟩ : BufTy).Contents (Elt Ideal)) (x7 : (⟨S16, .f32⟩ : BufTy).Contents (Elt Ideal)) (x8 : (⟨S16, .f32⟩ : BufTy).Contents (Elt Ideal)) (x9 : (⟨S32, .f32⟩ : BufTy).Contents (Elt Ideal)) (x10 : (⟨S32, .f32⟩ : BufTy).Contents (Elt Ideal)) (x11 : (⟨S128, .f32⟩ : BufTy).Contents (Elt Ideal)) (x12 : (⟨S128, .f32⟩ : BufTy).Contents (Elt Ideal)) :
    Read.val_main_v47 (F := Ideal) x0 x1 x2 x3 x4 x5 x7 x8 x9 x10 x11 x12 = Cert.Spec.decF2 x0 x1 x2 x3 x4 x5 x7 x8 x9 x10 x11 x12 := by
  funext i
  have el : ∀ k, Read.lidx_main_v34 i k = ix2 (i 0) k := fun k => funext fun a => by match a with | ⟨0, _⟩ => rfl | ⟨1, _⟩ => rfl
  have er : ∀ k, Read.ridx_main_v34 i k = ix2 k (i 1) := fun k => funext fun a => by match a with | ⟨0, _⟩ => rfl | ⟨1, _⟩ => rfl
  have eg : Read.idx_main_v42 (Read.idx_main_v43 i) = ix1 (i 1) := funext fun a => by match a with | ⟨0, _⟩ => rfl
  have eb : Read.idx_main_v45 (Read.idx_main_v46 i) = ix1 (i 1) := funext fun a => by match a with | ⟨0, _⟩ => rfl
  rw [Read.val_main_v47_apply, Read.val_main_v44_apply, Read.val_main_v41_apply, Read.val_main_v37_apply,
    Read.val_main_v35_apply, Read.val_main_v34_apply, Read.val_main_call3_v0_apply, Read.val_main_call3_cst_apply,
    Read.val_main_v36_apply, Read.val_main_cst_3_apply, Read.val_main_v40_apply, Read.val_main_v39_apply,
    Read.val_main_v38_apply, Read.val_main_cst_4_apply, Read.val_main_v43_apply, Read.val_main_v42_apply,
    Read.val_main_v46_apply, Read.val_main_v45_apply]
  simp only [el, er, eg, eb, Ideal.addf_def, Ideal.subf_def, Ideal.mulf_def, Ideal.maximumf_def, Ideal.hostDivf_def, Ideal.hostUnary_sqrt_def, Ideal.ofBits_def, Ideal.ofBits_zero_f32]
  rw [ref_v33]
  simp only [Cert.Spec.decF2, Cert.Spec.gcnBn, Cert.Spec.bnRef, Cert.Spec.reluAt, Cert.Spec.mmAt, Cert.Spec.sigma]
  rfl

/-- `h2 · Ws1`. -/
theorem ref_v48 (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32x16, .f32⟩ : BufTy).Contents (Elt Ideal)) (x6 : (⟨S16x32, .f32⟩ : BufTy).Contents (Elt Ideal)) (x7 : (⟨S16, .f32⟩ : BufTy).Contents (Elt Ideal)) (x8 : (⟨S16, .f32⟩ : BufTy).Contents (Elt Ideal)) :
    Read.val_main_v48 (F := Ideal) x0 x1 x2 x3 x6 x7 x8 = Cert.Spec.mm (Cert.Spec.encH2 x0 x1 x2 x3 x7 x8) x6 := by
  funext i
  have el : ∀ k, Read.lidx_main_v48 i k = ix2 (i 0) k := fun k => funext fun a => by match a with | ⟨0, _⟩ => rfl | ⟨1, _⟩ => rfl
  have er : ∀ k, Read.ridx_main_v48 i k = ix2 k (i 1) := fun k => funext fun a => by match a with | ⟨0, _⟩ => rfl | ⟨1, _⟩ => rfl
  rw [Read.val_main_v48_apply]
  simp only [el, er]
  rw [ref_v17]
  rfl

/-- The structure decoder's layer. -/
theorem ref_v62 (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32x16, .f32⟩ : BufTy).Contents (Elt Ideal)) (x6 : (⟨S16x32, .f32⟩ : BufTy).Contents (Elt Ideal)) (x7 : (⟨S16, .f32⟩ : BufTy).Contents (Elt Ideal)) (x8 : (⟨S16, .f32⟩ : BufTy).Contents (Elt Ideal)) (x13 : (⟨S32, .f32⟩ : BufTy).Contents (Elt Ideal)) (x14 : (⟨S32, .f32⟩ : BufTy).Contents (Elt Ideal)) :
    Read.val_main_v62 (F := Ideal) x0 x1 x2 x3 x6 x7 x8 x13 x14 = Cert.Spec.decS1 x0 x1 x2 x3 x6 x7 x8 x13 x14 := by
  funext i
  have el : ∀ k, Read.lidx_main_v49 i k = ix2 (i 0) k := fun k => funext fun a => by match a with | ⟨0, _⟩ => rfl | ⟨1, _⟩ => rfl
  have er : ∀ k, Read.ridx_main_v49 i k = ix2 k (i 1) := fun k => funext fun a => by match a with | ⟨0, _⟩ => rfl | ⟨1, _⟩ => rfl
  have eg : Read.idx_main_v57 (Read.idx_main_v58 i) = ix1 (i 1) := funext fun a => by match a with | ⟨0, _⟩ => rfl
  have eb : Read.idx_main_v60 (Read.idx_main_v61 i) = ix1 (i 1) := funext fun a => by match a with | ⟨0, _⟩ => rfl
  rw [Read.val_main_v62_apply, Read.val_main_v59_apply, Read.val_main_v56_apply, Read.val_main_v52_apply,
    Read.val_main_v50_apply, Read.val_main_v49_apply, Read.val_main_call4_v0_apply, Read.val_main_call4_cst_apply,
    Read.val_main_v51_apply, Read.val_main_cst_5_apply, Read.val_main_v55_apply, Read.val_main_v54_apply,
    Read.val_main_v53_apply, Read.val_main_cst_6_apply, Read.val_main_v58_apply, Read.val_main_v57_apply,
    Read.val_main_v61_apply, Read.val_main_v60_apply]
  simp only [el, er, eg, eb, Ideal.addf_def, Ideal.subf_def, Ideal.mulf_def, Ideal.maximumf_def, Ideal.hostDivf_def, Ideal.hostUnary_sqrt_def, Ideal.ofBits_def, Ideal.ofBits_zero_f32]
  rw [ref_v48]
  simp only [Cert.Spec.decS1, Cert.Spec.gcnBn, Cert.Spec.bnRef, Cert.Spec.reluAt, Cert.Spec.mmAt, Cert.Spec.sigma]
  rfl

/-- The reference's second result is the reconstructed adjacency: the product with the transpose contracts both copies of
    `s1` along their second axis. -/
theorem ref_rec (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32x16, .f32⟩ : BufTy).Contents (Elt Ideal)) (x6 : (⟨S16x32, .f32⟩ : BufTy).Contents (Elt Ideal)) (x7 : (⟨S16, .f32⟩ : BufTy).Contents (Elt Ideal)) (x8 : (⟨S16, .f32⟩ : BufTy).Contents (Elt Ideal)) (x13 : (⟨S32, .f32⟩ : BufTy).Contents (Elt Ideal)) (x14 : (⟨S32, .f32⟩ : BufTy).Contents (Elt Ideal)) :
    Read.val_main_v64 (F := Ideal) x0 x1 x2 x3 x6 x7 x8 x13 x14 = Cert.Spec.adjRec x0 x1 x2 x3 x6 x7 x8 x13 x14 := by
  funext i
  have el : ∀ k, Read.lidx_main_v64 i k = ix2 (i 0) k := fun k => funext fun a => by match a with | ⟨0, _⟩ => rfl | ⟨1, _⟩ => rfl
  have er : ∀ k, Read.idx_main_v63 (Read.ridx_main_v64 i k) = ix2 (i 1) k := fun k => funext fun a => by match a with | ⟨0, _⟩ => rfl | ⟨1, _⟩ => rfl
  rw [Read.val_main_v64_apply]
  simp only [Read.val_main_v63_apply, el, er]
  rw [ref_v62]
  rfl
/-- The reference's run, its two results stated as the network's functions of the arguments. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v47) = Cert.Spec.decF2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v64) = Cert.Spec.adjRec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run (defs (F := Ideal)) _ _).mono (fun r h c => ?_) (Cert.ReferenceIdeal.Value.run (F := Ideal) m ρ)
  obtain ⟨h47, h64, hargs⟩ := h c
  refine ⟨?_, ?_, hargs⟩
  · exact (h47.trans (Read.val_main_v47_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))).trans
      (ref_f2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
  · exact (h64.trans (Read.val_main_v64_eq (F := Ideal) m c)).trans
      (ref_rec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)))

end Cert.ReferenceIdeal.RefValue

end
-- ==== Proof.lean ====
/-
  The certificate of a graph auto-encoder's forward pass — five graph-convolution passes `max (adj · (H · W)) 0`
  with evaluation-mode normalisations, and an inner-product decoder `s1 · s1ᵀ` — computed by six kernels (a
  projection, four row-block passes over the adjacency, the decoder) against the plain reference.

  FRAMES.  Each program runs to the end, faults nowhere and leaves its arguments as launched.  For the two kernel
  programs this is the run of @main's nine segments with every buffer's contents named between segments; the
  decoder's output blocks overhang the array, so at the word level its output is carried at unnamed contents
  (nothing later reads it).  The reference's frame is its run with the results dropped.

  VALUES, on the extended reals.  The kernel's program differs from the reference in four ways, none of which
  changes a value: (1) changes of float format, which are the identity; (2) the normalisation `(x - 0) / σ · g + b`
  spelt as `x · (g · (1 / σ)) + b` — the same number because σ, the square root of the positive word of `1 + 1e-5`,
  is a nonzero real, so both divisions are products with `1 / σ`, and products commute and associate; (3) the two
  decoders' first layers computed as ONE layer over weights set side by side, whose entry in a column reads only
  that column of the weights; (4) the feature decoder's second product taken over 64 inner indices against
  weights extended by rows of zeros, whose extra terms are products with 0.  No step needs the inputs finite.
-/
import proofs.«118927_g481036337836_cont_8to1_c_48_4_alg».proof.Defs
import proofs.«118927_g481036337836_cont_8to1_c_48_4_alg».proof.Proof.Gen.Kernel
import proofs.«118927_g481036337836_cont_8to1_c_48_4_alg».proof.Proof.Gen.KernelIdeal
import proofs.«118927_g481036337836_cont_8to1_c_48_4_alg».proof.Proof.Gen.ReferenceIdeal
import proofs.«118927_g481036337836_cont_8to1_c_48_4_alg».proof.Proof.Gen.Pre_finite_inputs
import proofs.«118927_g481036337836_cont_8to1_c_48_4_alg».proof.Proof.RunR
import proofs.«118927_g481036337836_cont_8to1_c_48_4_alg».proof.Proof.KRunR
import proofs.«118927_g481036337836_cont_8to1_c_48_4_alg».proof.Proof.Bridge
import proofs.«118927_g481036337836_cont_8to1_c_48_4_alg».proof.Proof.RefValue
import Idealize.ShloMosaic.Adequacy
import Idealize.ShloMosaic.Init

noncomputable section

namespace Cert.Proof

open Idealize.ShloMosaic Idealize.SL.Sem

/-- The word-level kernel program's frame. -/
theorem frame_p : Cert.frame_Kernel := fun m ρ _ => Cert.Kernel.Hand.frame_any m ρ
/-- The idealized kernel program's frame. -/
theorem frame_pi : Cert.frame_KernelIdeal := fun m ρ _ => Cert.KernelIdeal.Hand.frame_any m ρ
/-- The reference's frame: its run, the results dropped. -/
theorem frame_ri : Cert.frame_ReferenceIdeal := fun m ρ _ =>
  (θ_run Cert.ReferenceIdeal.defs _ _).mono (fun _ h c => (h c).2.2) (Cert.ReferenceIdeal.RefValue.ref_run m ρ)

/-- The idealization rewrote nothing. -/
theorem preserves : Cert.preserves_Kernel_KernelIdeal := trivial

open Cert.KernelIdeal.Hand in
/-- Both programs end with the network's two results: the feature decoder's output and the reconstructed adjacency,
    as functions of the arguments. -/
theorem algebraic : Cert.algebraic_KernelIdeal_ReferenceIdeal := by
  intro m ρ m' ρ' _ hagree
  refine ⟨fun c => Cert.Spec.decF2 (aX m c) (aAdj m c) (aW1 m c) (aW2 m c) (aWf1 m c) (aWf2 m c) (aG2 m c) (aB2 m c) (aGf1 m c) (aBf1 m c) (aGf2 m c) (aBf2 m c),
    fun c => Cert.Spec.adjRec (aX m c) (aAdj m c) (aW1 m c) (aW2 m c) (aWs1 m c) (aG2 m c) (aB2 m c) (aGs1 m c) (aBs1 m c), ?_, ?_⟩
  · exact (θ_run Cert.KernelIdeal.defs _ _).mono
      (fun r h c => ⟨(h c).1.trans (out28_eq m ρ c), (h c).2.1.trans (out30_eq m ρ c), (h c).2.2⟩)
      (run_results m ρ fun c => local5_ideal (Uv8 m ρ) c)
  · refine (θ_run Cert.ReferenceIdeal.defs _ _).mono (fun r h c => ?_) (Cert.ReferenceIdeal.RefValue.ref_run m' ρ')
    obtain ⟨e0, e1, e2, e3, e4, e5, e6, e7, e8, e9, e10, e11, e12, e13, e14⟩ := hagree c
    refine ⟨(h c).1.trans ?_, (h c).2.1.trans ?_, (h c).2.2⟩
    · rw [e0, e1, e2, e3, e4, e5, e7, e8, e9, e10, e11, e12]
    · rw [e0, e1, e2, e3, e6, e7, e8, e13, e14]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
